-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S16384x16 : Shape := ⟨2, ![16384, 16]⟩
abbrev S100000x128 : Shape := ⟨2, ![100000, 128]⟩
abbrev S16x1 : Shape := ⟨2, ![16, 1]⟩
abbrev S16 : Shape := ⟨1, ![16]⟩
abbrev S128x16 : Shape := ⟨2, ![128, 16]⟩
abbrev S128 : Shape := ⟨1, ![128]⟩
abbrev S128x512 : Shape := ⟨2, ![128, 512]⟩
abbrev S1x128 : Shape := ⟨2, ![1, 128]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S100000x128 : S_.BroadcastsInDim S100000x128 (![] : Fin 0 → Fin S100000x128.rank)
  reducesTo_S100000x128_S_d0_1 : S100000x128.ReducesTo [0, 1] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg1 : IVec S16384 32) (main_v65 : IVec S_ 1) (main_v67 : IVec S16384 1) : IVec S_ 1 :=
  let main_c_26 : IVec S_ 32 := constantI S_ 32 99999#32
  let main_v68 : IVec S16384 32 := broadcastInDim S16384 ![] bcast_S_S16384 main_c_26
  let main_v69 : IVec S16384 1 := cmpi .sle main_arg1 main_v68
  let main_v70 : IVec S16384 1 := andi main_v67 main_v69
  let main_c_27 : IVec S_ 1 := constantI S_ 1 1#1
  let main_v71 : IVec S_ 1 := (fun x v => Host.reduce IntOp.andi x v reducesTo_S16384_S_d0 h_S_) main_v70 main_c_27
  let main_v72 : IVec S_ 1 := andi main_v65 main_v71
  main_v72

def fn_part3 {F : FTy → Type} [FloatOps F] (main_arg0 : IVec S16384 32) (main_arg1 : IVec S16384 32) (main_arg13 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S16384 32 := broadcastInDim S16384 ![] bcast_S_S16384 main_c_22
  let main_v60 : IVec S16384 1 := cmpi .sge main_arg0 main_v59
  let main_c_23 : IVec S_ 32 := constantI S_ 32 99999#32
  let main_v61 : IVec S16384 32 := broadcastInDim S16384 ![] bcast_S_S16384 main_c_23
  let main_v62 : IVec S16384 1 := cmpi .sle main_arg0 main_v61
  let main_v63 : IVec S16384 1 := andi main_v60 main_v62
  let main_c_24 : IVec S_ 1 := constantI S_ 1 1#1
  let main_v64 : IVec S_ 1 := (fun x v => Host.reduce IntOp.andi x v reducesTo_S16384_S_d0 h_S_) main_v63 main_c_24
  let main_v65 : IVec S_ 1 := andi main_v58 main_v64
  let main_c_25 : IVec S_ 32 := constantI S_ 32 0#32
  let main_v66 : IVec S16384 32 := broadcastInDim S16384 ![] bcast_S_S16384 main_c_25
  let main_v67 : IVec S16384 1 := cmpi .sge main_arg1 main_v66
  fn_part4 (F := F) main_arg1 main_v65 main_v67

def fn_part2 {F : FTy → Type} [FloatOps F] (main_arg0 : IVec S16384 32) (main_arg1 : IVec S16384 32) (main_arg9 : FVec F S128 .f32) (main_arg10 : FVec F S128x512 .f32) (main_arg11 : FVec F S128 .f32) (main_arg12 : FVec F S1x128 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x512 .f32 := Host.absf main_arg10
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg0 main_arg1 main_arg13 main_v48 main_v49 main_v50

def fn_part1 {F : FTy → Type} [FloatOps F] (main_arg0 : IVec S16384 32) (main_arg1 : IVec S16384 32) (main_arg6 : FVec F S16x1 .f32) (main_arg7 : FVec F S16 .f32) (main_arg8 : FVec F S128x16 .f32) (main_arg9 : FVec F S128 .f32) (main_arg10 : FVec F S128x512 .f32) (main_arg11 : FVec F S128 .f32) (main_arg12 : FVec F S1x128 .f32) (main_arg13 : FVec F S1 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S16x1 .f32 := Host.absf main_arg6
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x16 .f32 := Host.absf main_arg8
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg0 main_arg1 main_arg9 main_arg10 main_arg11 main_arg12 main_arg13 main_v33

def fn {F : FTy → Type} [FloatOps F] (main_arg0 : IVec S16384 32) (main_arg1 : IVec S16384 32) (main_arg2 : FVec F S16384 .f32) (main_arg3 : FVec F S16384x16 .f32) (main_arg4 : FVec F S100000x128 .f32) (main_arg5 : FVec F S100000x128 .f32) (main_arg6 : FVec F S16x1 .f32) (main_arg7 : FVec F S16 .f32) (main_arg8 : FVec F S128x16 .f32) (main_arg9 : FVec F S128 .f32) (main_arg10 : FVec F S128x512 .f32) (main_arg11 : FVec F S128 .f32) (main_arg12 : FVec F S1x128 .f32) (main_arg13 : FVec F S1 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x16 .f32 := Host.absf main_arg3
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg5
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg0 main_arg1 main_arg6 main_arg7 main_arg8 main_arg9 main_arg10 main_arg11 main_arg12 main_arg13 main_v13 main_v16
-- ==== Kernel.lean ====
abbrev S16384 : Shape := ⟨1, ![16384]⟩
abbrev S16384x16 : Shape := ⟨2, ![16384, 16]⟩
abbrev S100000x128 : Shape := ⟨2, ![100000, 128]⟩
abbrev S16x1 : Shape := ⟨2, ![16, 1]⟩
abbrev S16 : Shape := ⟨1, ![16]⟩
abbrev S128x16 : Shape := ⟨2, ![128, 16]⟩
abbrev S128 : Shape := ⟨1, ![128]⟩
abbrev S128x512 : Shape := ⟨2, ![128, 512]⟩
abbrev S1x128 : Shape := ⟨2, ![1, 128]⟩
abbrev S1 : Shape := ⟨1, ![1]⟩
abbrev S128x4x128 : Shape := ⟨3, ![128, 4, 128]⟩
abbrev S4x128x128 : Shape := ⟨3, ![4, 128, 128]⟩
abbrev S4x16384x128 : Shape := ⟨3, ![4, 16384, 128]⟩
abbrev S512 : Shape := ⟨1, ![512]⟩
abbrev S256x128 : Shape := ⟨2, ![256, 128]⟩
abbrev S_ : Shape := ⟨0, ![]⟩
abbrev S256 : Shape := ⟨1, ![256]⟩
abbrev S1x256x128 : Shape := ⟨3, ![1, 256, 128]⟩
abbrev S4x2048x128 : Shape := ⟨3, ![4, 2048, 128]⟩
abbrev S2048 : Shape := ⟨1, ![2048]⟩
abbrev S1x2048x128 : Shape := ⟨3, ![1, 2048, 128]⟩
abbrev S2048x128 : Shape := ⟨2, ![2048, 128]⟩
abbrev S1x128x128 : Shape := ⟨3, ![1, 128, 128]⟩
abbrev S128x128 : Shape := ⟨2, ![128, 128]⟩

abbrev nBuf : Table → Nat
  | .hbm => 19
  | .local .tc .vmem => 8
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S16384x16, .f32⟩
  | .hbm, ⟨4, _⟩ => ⟨S100000x128, .f32⟩
  | .hbm, ⟨5, _⟩ => ⟨S100000x128, .f32⟩
  | .hbm, ⟨6, _⟩ => ⟨S16x1, .f32⟩
  | .hbm, ⟨7, _⟩ => ⟨S16, .f32⟩
  | .hbm, ⟨8, _⟩ => ⟨S128x16, .f32⟩
  | .hbm, ⟨9, _⟩ => ⟨S128, .f32⟩
  | .hbm, ⟨10, _⟩ => ⟨S128x512, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S128x4x128, .f32⟩
  | .hbm, ⟨15, _⟩ => ⟨S4x128x128, .f32⟩
  | .hbm, ⟨16, _⟩ => ⟨S4x16384x128, .f32⟩
  | .hbm, ⟨17, _⟩ => ⟨S1x128, .f32⟩
  | .hbm, ⟨18, _⟩ => ⟨S16384, .f32⟩
  | .local .tc .vmem, ⟨0, _⟩ => ⟨S4x2048x128, .f32⟩
  | .local .tc .vmem, ⟨1, _⟩ => ⟨S4x2048x128, .f32⟩
  | .local .tc .vmem, ⟨2, _⟩ => ⟨S4x128x128, .f32⟩
  | .local .tc .vmem, ⟨3, _⟩ => ⟨S1x128, .f32⟩
  | .local .tc .vmem, ⟨4, _⟩ => ⟨S1x128, .f32⟩
  | .local .tc .vmem, ⟨5, _⟩ => ⟨S1, .f32⟩
  | .local .tc .vmem, ⟨6, _⟩ => ⟨S2048, .f32⟩
  | .local .tc .vmem, ⟨7, _⟩ => ⟨S2048, .f32⟩
  | .local .scVector .vmem, ⟨0, _⟩ => ⟨S512, .i32⟩
  | .local .scVector .vmem, ⟨1, _⟩ => ⟨S512, .i32⟩
  | .local .scVector .vmem, ⟨2, _⟩ => ⟨S256x128, .f32⟩
  | .local .scVector .vmem, ⟨3, _⟩ => ⟨S256x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_arg4_scv : Ref sig .scVector := ⟨.hbm, 4, rfl⟩
abbrev main_arg5_scv : Ref sig .scVector := ⟨.hbm, 5, rfl⟩
abbrev main_arg0_scv : Ref sig .scVector := ⟨.hbm, 0, rfl⟩
abbrev main_arg1_scv : Ref sig .scVector := ⟨.hbm, 1, rfl⟩
abbrev main_v2_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_7 : BitVec 32) : Fin 3 → Nat :=
  let c0_i32_8 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c0_i32_7
  let c0_i32_9 : BitVec 32 := 0#32
  ![0, v9.toNat, 0]
def k0_off3 (i : grid0.Coords) (c0_i32_33 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v35 : BitVec 32 := Scalar.addi v2 c0_i32_33
  let c0_i32_34 : BitVec 32 := 0#32
  ![1, v35.toNat, 0]
def k0_off4 (i : grid0.Coords) (c0_i32_58 : BitVec 32) : Fin 3 → Nat :=
  let c2_i32_59 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v61 : BitVec 32 := Scalar.addi v2 c0_i32_58
  let c0_i32_60 : BitVec 32 := 0#32
  ![2, v61.toNat, 0]
def k0_off5 (i : grid0.Coords) (c0_i32_84 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v87 : BitVec 32 := Scalar.addi v2 c0_i32_84
  let c0_i32_85 : BitVec 32 := 0#32
  ![3, v87.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128x512_S128x4x128 : S128x512.ShapeCasts S128x4x128
  transposes_S128x4x128_S4x128x128_1_2_0 : S128x4x128.Transposes [1, 2, 0] S4x128x128
  inb_S512_S256_0 : ∀ a, (![0] : Fin 1 → Nat) a + S256.size a ≤ S512.size a
  inb_S100000x128_S100000x128_0_0 : ∀ a, (![0, 0] : Fin 2 → Nat) a + S100000x128.size a ≤ S100000x128.size a
  gathers_S100000x128_S256x128 : S100000x128.Gathers 0 S256x128
  inb_S512_S256_256 : ∀ a, (![256] : Fin 1 → Nat) a + S256.size a ≤ S512.size a
  squeezes_S1x256x128_S256x128 : S1x256x128.Squeezes S256x128
  shapeCasts_S128_S1x128 : S128.ShapeCasts S1x128
  inb_S4x2048x128_S1x2048x128_0_0_0 : ∀ a, (![0, 0, 0] : Fin 3 → Nat) a + S1x2048x128.size a ≤ S4x2048x128.size a
  h_S1x2048x128 : 0 < S1x2048x128.numel
  shapeCasts_S1x2048x128_S2048x128 : S1x2048x128.ShapeCasts S2048x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x2048x128_S1x2048x128_1_0_0 : ∀ a, (![1, 0, 0] : Fin 3 → Nat) a + S1x2048x128.size a ≤ S4x2048x128.size a
  inb_S4x128x128_S1x128x128_1_0_0 : ∀ a, (![1, 0, 0] : Fin 3 → Nat) a + S1x128x128.size a ≤ S4x128x128.size a
  inb_S4x2048x128_S1x2048x128_2_0_0 : ∀ a, (![2, 0, 0] : Fin 3 → Nat) a + S1x2048x128.size a ≤ S4x2048x128.size a
  inb_S4x128x128_S1x128x128_2_0_0 : ∀ a, (![2, 0, 0] : Fin 3 → Nat) a + S1x128x128.size a ≤ S4x128x128.size a
  inb_S4x2048x128_S1x2048x128_3_0_0 : ∀ a, (![3, 0, 0] : Fin 3 → Nat) a + S1x2048x128.size a ≤ S4x2048x128.size a
  inb_S4x128x128_S1x128x128_3_0_0 : ∀ a, (![3, 0, 0] : Fin 3 → Nat) a + S1x128x128.size a ≤ S4x128x128.size a
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S2048x128 : S1x128.Broadcasts S2048x128
  reduces_S2048x128_S2048 : S2048x128.Reduces [1] S2048
  inb_S1_S1_0 : ∀ a, (![0] : Fin 1 → Nat) a + S1.size a ≤ S1.size a
  h_S1 : 0 < S1.numel
  inpos_S1_p0 : ∀ a, (![0] : Fin 1 → Nat) a < S1.size a
  inb_S2048_S2048_0 : ∀ a, (![0] : Fin 1 → Nat) a + S2048.size a ≤ S2048.size a
  h_S2048 : 0 < S2048.numel
  dot_S2048x128_S128x128_S2048x128_1_0_0_1_n_n_wf : DotDims.WF S2048x128 S128x128 S2048x128 [1] [0] [0] [1] [] []
  hcc0_scratch4 : 0 + S_.numel ≤ 14
  hcc0_scratch5 : 1 + S_.numel ≤ 14
  hcc0_scratch6 : 2 + S_.numel ≤ 14
  hcc0_scratch7 : 3 + S_.numel ≤ 14
  hcc0_scoped0 : 4 + S_.numel ≤ 14
  hcc0_scoped1 : 5 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 2), ∀ a, (k0_off2 i (BitVec.ofNat 32 (256 * r.val))) a + S1x256x128.size a ≤ S4x16384x128.size a
  k0_off3_inb : ∀ i : grid0.Coords, ∀ (r : Fin 2), ∀ a, (k0_off3 i (BitVec.ofNat 32 (256 * r.val))) a + S1x256x128.size a ≤ S4x16384x128.size a
  k0_off4_inb : ∀ i : grid0.Coords, ∀ (r : Fin 2), ∀ a, (k0_off4 i (BitVec.ofNat 32 (256 * r.val))) a + S1x256x128.size a ≤ S4x16384x128.size a
  k0_off5_inb : ∀ i : grid0.Coords, ∀ (r : Fin 2), ∀ a, (k0_off5 i (BitVec.ofNat 32 (256 * r.val))) a + S1x256x128.size a ≤ S4x16384x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2048x128.size a ≤ S4x16384x128.size a
  hwx1_0 : ∀ i : grid1.Coords, EltTy.bits .f32 = 32 ∨ (Rect.block (s := S4x16384x128) S4x2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x128.size a ≤ S4x128x128.size a
  hwx1_1 : ∀ i : grid1.Coords, EltTy.bits .f32 = 32 ∨ (Rect.block (s := S4x128x128) S4x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048.size a ≤ S16384.size a
  hwx1_5 : ∀ i : grid1.Coords, EltTy.bits .f32 = 32 ∨ (Rect.block (s := S16384) S2048.size (cc1_transform_5 i) (hinb1_5 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win1_0 : Pipeline.Window sig grid1 :=
  Pipeline.Window.ofSpec (Memref.whole main_v2) S4x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384 : Shape := ⟨1, ![16384]⟩
abbrev S16384x16 : Shape := ⟨2, ![16384, 16]⟩
abbrev S100000x128 : Shape := ⟨2, ![100000, 128]⟩
abbrev S16x1 : Shape := ⟨2, ![16, 1]⟩
abbrev S16 : Shape := ⟨1, ![16]⟩
abbrev S128x16 : Shape := ⟨2, ![128, 16]⟩
abbrev S128 : Shape := ⟨1, ![128]⟩
abbrev S128x512 : Shape := ⟨2, ![128, 512]⟩
abbrev S1x128 : Shape := ⟨2, ![1, 128]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S1x16 : Shape := ⟨2, ![1, 16]⟩
abbrev S16x128 : Shape := ⟨2, ![16, 128]⟩
abbrev S16384x512 : Shape := ⟨2, ![16384, 512]⟩
abbrev S512x128 : Shape := ⟨2, ![512, 128]⟩
abbrev S128x1 : Shape := ⟨2, ![128, 1]⟩

abbrev nBuf : Space → Nat
  | .hbm => 133
  | .vmem => 0
  | .smem => 0
  | _ => 0

abbrev hbmTy0_0 (i : Nat) : BufTy := match i % 128 with
  | 0 => ⟨S16384, .i32⟩
  | 1 => ⟨S16384, .i32⟩
  | 2 => ⟨S16384, .f32⟩
  | 3 => ⟨S16384x16, .f32⟩
  | 4 => ⟨S100000x128, .f32⟩
  | 5 => ⟨S100000x128, .f32⟩
  | 6 => ⟨S16x1, .f32⟩
  | 7 => ⟨S16, .f32⟩
  | 8 => ⟨S128x16, .f32⟩
  | 9 => ⟨S128, .f32⟩
  | 10 => ⟨S128x512, .f32⟩
  | 11 => ⟨S128, .f32⟩
  | 12 => ⟨S1x128, .f32⟩
  | 13 => ⟨S1, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x128, .f32⟩
  | 33 => ⟨S16384x128, .i1⟩
  | 34 => ⟨S_, .f32⟩
  | 35 => ⟨S16384x128, .f32⟩
  | 36 => ⟨S16384x128, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S1, .i32⟩
  | 46 => ⟨S_, .i32⟩
  | 47 => ⟨S16384x1, .i32⟩
  | 48 => ⟨S16384x1, .i1⟩
  | 49 => ⟨S1x1, .i32⟩
  | 50 => ⟨S16384x1, .i32⟩
  | 51 => ⟨S16384x1, .i1⟩
  | 52 => ⟨S16384x1, .i1⟩
  | 53 => ⟨S_, .i1⟩
  | 54 => ⟨S16384, .i1⟩
  | 55 => ⟨S16384x128, .f32⟩
  | 56 => ⟨S16384x128, .i1⟩
  | 57 => ⟨S_, .f32⟩
  | 58 => ⟨S16384x128, .f32⟩
  | 59 => ⟨S16384x128, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x128, .f32⟩
  | 79 => ⟨S16384x128, .i1⟩
  | 80 => ⟨S_, .f32⟩
  | 81 => ⟨S16384x128, .f32⟩
  | 82 => ⟨S16384x128, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x128, .f32⟩
  | 102 => ⟨S16384x128, .i1⟩
  | 103 => ⟨S_, .f32⟩
  | 104 => ⟨S16384x128, .f32⟩
  | 105 => ⟨S16384x128, .f32⟩
  | 106 => ⟨S16384x1, .f32⟩
  | 107 => ⟨S1x16, .f32⟩
  | 108 => ⟨S16384x16, .f32⟩
  | 109 => ⟨S1x16, .f32⟩
  | 110 => ⟨S16384x16, .f32⟩
  | 111 => ⟨S16384x16, .f32⟩
  | 112 => ⟨S16384x16, .f32⟩
  | 113 => ⟨S16x128, .f32⟩
  | 114 => ⟨S16384x128, .f32⟩
  | 115 => ⟨S1x128, .f32⟩
  | 116 => ⟨S16384x128, .f32⟩
  | 117 => ⟨S16384x128, .f32⟩
  | 118 => ⟨S16384x512, .f32⟩
  | 119 => ⟨S512x128, .f32⟩
  | 120 => ⟨S16384x128, .f32⟩
  | 121 => ⟨S1x128, .f32⟩
  | 122 => ⟨S16384x128, .f32⟩
  | 123 => ⟨S16384x128, .f32⟩
  | 124 => ⟨S_, .f32⟩
  | 125 => ⟨S16384x128, .f32⟩
  | 126 => ⟨S16384x128, .f32⟩
  | 127 => ⟨S128x1, .f32⟩
  | _ => ⟨S16384, .i32⟩

abbrev hbmTy0_1 (i : Nat) : BufTy := match i % 128 with
  | 0 => ⟨S16384x1, .f32⟩
  | 1 => ⟨S1x1, .f32⟩
  | 2 => ⟨S16384x1, .f32⟩
  | 3 => ⟨S16384x1, .f32⟩
  | 4 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v2 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v3 : Ref sig .tc := ⟨.hbm, 105, rfl⟩
abbrev main_v4 : Ref sig .tc := ⟨.hbm, 106, rfl⟩
abbrev main_v5 : Ref sig .tc := ⟨.hbm, 107, rfl⟩
abbrev main_v6 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_call4_cst : Ref sig .tc := ⟨.hbm, 124, rfl⟩
abbrev main_call4_v0 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  transposes_S16x1_S1x16_1_0 : S16x1.Transposes [1, 0] S1x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  transposes_S128x16_S16x128_1_0 : S128x16.Transposes [1, 0] S16x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  concatenates_S16384x128_S16384x128_S16384x128_S16384x128_S16384x512_d1 : Shape.Concatenates [S16384x128, S16384x128, S16384x128, S16384x128] S16384x512 1
  transposes_S128x512_S512x128_1_0 : S128x512.Transposes [1, 0] S512x128
  transposes_S1x128_S128x1_1_0 : S1x128.Transposes [1, 0] S128x1
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  dot_S16384x1_S1x16_S16384x16_1_0_0_1_n_n_wf : DotDims.WF S16384x1 S1x16 S16384x16 [1] [0] [0] [1] [] []
  dot_S16384x16_S16x128_S16384x128_1_0_0_1_n_n_wf : DotDims.WF S16384x16 S16x128 S16384x128 [1] [0] [0] [1] [] []
  dot_S16384x512_S512x128_S16384x128_1_0_0_1_n_n_wf : DotDims.WF S16384x512 S512x128 S16384x128 [1] [0] [0] [1] [] []
  dot_S16384x128_S128x1_S16384x1_1_0_0_1_n_n_wf : DotDims.WF S16384x128 S128x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x1_S1x16_S16384x16_1_0_0_1_n_n : DotDims S16384x1 S1x16 S16384x16 where
  lhsContracting := [1]
  rhsContracting := [0]
  lhsNonContracting := [0]
  rhsNonContracting := [1]
  lhsBatch := []
  rhsBatch := []
  wf := dot_S16384x1_S1x16_S16384x16_1_0_0_1_n_n_wf
def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.Spec.lean ====
/-
  The function both programs compute, stated once over the extended reals and over plain index types.

  An edge `b` has two endpoint words `src b`, `dst b`. Its feature row is four pieces of 128 entries laid side by
  side: row `src b` of the embedding table, row `dst b` of the embedding table, row `src b` of the memory table,
  row `dst b` of the memory table. A hidden layer of 128 units applies the weights `W1` (unit `o` reads entry
  `p * 128 + d` of the feature row through `W1 o (col p d)`), adds `b1` and clamps below at zero; the result is the
  units' combination with `W2`, plus `b2`.

  Only sums and products of extended reals occur: both are commutative and associative on all of `EReal`, so the two
  programs' different groupings of the sum over the 512 entries agree without any finiteness.
-/
import Idealize.ShloMosaic.PureOps.Ideal
import Idealize.ShloMosaic.Lib.ValueIdx

noncomputable section

namespace Cert.Spec

/-- The table row an index word names. A word past the table names row 0: the precondition excludes such words, and
    the choice only makes the function total. -/
def rowAt (w : BitVec 32) : Fin 100000 := if h : w.toNat < 100000 then ⟨w.toNat, h⟩ else ⟨0, by decide⟩

theorem rowAt_of_lt {w : BitVec 32} (h : w.toNat < 100000) : rowAt w = ⟨w.toNat, h⟩ := dif_pos h

theorem rowAt_val_of_lt {w : BitVec 32} (h : w.toNat < 100000) : (rowAt w).val = w.toNat := by rw [rowAt_of_lt h]

/-- Entry `d` of piece `p` sits at column `p * 128 + d` of the feature row. -/
def col (p : Fin 4) (d : Fin 128) : Fin 512 := ⟨p.val * 128 + d.val, by have := p.isLt; have := d.isLt; omega⟩

/-- Entry `d` of piece `p` of edge `b`'s feature row: pieces 0 and 1 read the embedding table, pieces 2 and 3 the
    memory table; even pieces at the source word, odd pieces at the destination word. -/
def feat (src dst : Fin 16384 → BitVec 32) (emb mem : Fin 100000 → Fin 128 → EReal) (b : Fin 16384) (p : Fin 4) (d : Fin 128) : EReal :=
  (if p.val < 2 then emb else mem) (rowAt ((if p.val % 2 = 0 then src else dst) b)) d

/-- Hidden unit `o` of edge `b` before the clamp. -/
def hid (src dst : Fin 16384 → BitVec 32) (emb mem : Fin 100000 → Fin 128 → EReal) (W1 : Fin 128 → Fin 512 → EReal) (b1 : Fin 128 → EReal)
    (b : Fin 16384) (o : Fin 128) : EReal :=
  (∑ p : Fin 4, ∑ d : Fin 128, feat src dst emb mem b p d * W1 o (col p d)) + b1 o

/-- The result at edge `b`. -/
def out (src dst : Fin 16384 → BitVec 32) (emb mem : Fin 100000 → Fin 128 → EReal) (W1 : Fin 128 → Fin 512 → EReal) (b1 : Fin 128 → EReal)
    (W2 : Fin 128 → EReal) (b2 : EReal) (b : Fin 16384) : EReal :=
  (∑ o : Fin 128, max (hid src dst emb mem W1 b1 b o) 0 * W2 o) + b2

/-! ## The argument arrays as the plain functions above

The programs hold their arguments as arrays over index tuples; these read them as functions of coordinates, so that
both programs' results are stated with one term. -/

open Idealize.ShloMosaic Idealize.ShloMosaic.ValueIdx

/-- The index words of an `i32[16384]` array. -/
def wordsOf (a : IVec ⟨1, ![16384]⟩ 32) : Fin 16384 → BitVec 32 := fun b => a (ix1 b)

/-- A `[100000, 128]` table by row and column. -/
def tableOf (a : FVec Ideal ⟨2, ![100000, 128]⟩ .f32) : Fin 100000 → Fin 128 → EReal :=
  fun r c => a (ix2 r c)

/-- The first layer's weights `[128, 512]` by unit and column. -/
def weightsOf (a : FVec Ideal ⟨2, ![128, 512]⟩ .f32) : Fin 128 → Fin 512 → EReal :=
  fun o j => a (ix2 o j)

/-- A `[128]` vector by unit. -/
def biasOf (a : FVec Ideal ⟨1, ![128]⟩ .f32) : Fin 128 → EReal := fun o => a (ix1 o)

/-- The second layer's weights `[1, 128]` by unit. -/
def rowOf (a : FVec Ideal ⟨2, ![1, 128]⟩ .f32) : Fin 128 → EReal :=
  fun o => a (ix2 (0 : Fin 1) o)

/-- The one entry of a `[1]` array. -/
def scalarOf (a : FVec Ideal ⟨1, ![1]⟩ .f32) : EReal := a (ix1 (0 : Fin 1))

/-- The result array `f32[16384]` both programs end with, as a function of the eight argument arrays that reach it. -/
def result (src dst : IVec ⟨1, ![16384]⟩ 32) (emb mem : FVec Ideal ⟨2, ![100000, 128]⟩ .f32) (W1 : FVec Ideal ⟨2, ![128, 512]⟩ .f32)
    (b1 : FVec Ideal ⟨1, ![128]⟩ .f32) (W2 : FVec Ideal ⟨2, ![1, 128]⟩ .f32) (b2 : FVec Ideal ⟨1, ![1]⟩ .f32) : FVec Ideal ⟨1, ![16384]⟩ .f32 :=
  fun i => out (wordsOf src) (wordsOf dst) (tableOf emb) (tableOf mem) (weightsOf W1) (biasOf b1) (rowOf W2) (scalarOf b2) (i 0)

/-- What the precondition says of an index array: every word, read signed, lies in `[0, 99999]`; so its unsigned
    value is below the tables' 100000 rows. -/
def InRange (a : IVec ⟨1, ![16384]⟩ 32) : Prop := ∀ b : Fin 16384, 0 ≤ (a (ix1 b)).toInt ∧ (a (ix1 b)).toNat < 100000

end Cert.Spec

end
-- ==== Proof.KI.Common.lean ====
/-
  What the idealized kernel's proof modules share: the program as the launch theorem of a SparseCore program sees
  it, the ghost state, and the two pure terms the run is stated with.

  The program has two kernels. The first runs on the 32 vector subcores (tiles): tile (c, s) owns the 512 edges
  starting at 1024 * s + 512 * c; it copies its 512 source words and its 512 destination words into its own memory,
  and then, eight times, gathers 256 table rows at 256 of those words into one of two row buffers and copies the buffer
  out to plane p, rows base + 256 * h of the gathered array g4 : [4, 16384, 128] (chunk k = 2 * p + h; planes 0 and 1
  read the embedding table, planes 2 and 3 the memory table; even planes at the source words, odd planes at the
  destination words). So, where every word names a table row, g4[p, b, :] is a table row: the term G4 below.
  The second kernel runs on the TensorCore over 8 blocks of 2048 edges: block t of the result is the kernel body's
  arithmetic (the generated payloads k1_pay2, k1_pay1) of block t of g4, the re-laid weights and the biases: Mlp.

  Ghost state: the launch handshakes' rounds, the rounds of the TensorCore pipeline's staging cells, and the counters
  of the tiles' own copies (each waited for before the next on its semaphore is issued, so no schedule is needed).
-/
import proofs.«216967_g84078279786708_cont_9to1_m_1153_28_alg».proof.Proof.Gen.KernelIdeal
import proofs.«216967_g84078279786708_cont_9to1_m_1153_28_alg».proof.Proof.Gen.KernelIdeal.Skeleton
import proofs.«216967_g84078279786708_cont_9to1_m_1153_28_alg».proof.Proof.Gen.KernelIdeal.Launch
import proofs.«216967_g84078279786708_cont_9to1_m_1153_28_alg».proof.Proof.Gen.KernelIdeal.Points
import proofs.«216967_g84078279786708_cont_9to1_m_1153_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the middle factor. The counters are found by instance in the right one. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev srcLoc (d : Dev nD) : Loc nD τ sig := (SparseCore.T d).loc main_arg0
abbrev dstLoc (d : Dev nD) : Loc nD τ sig := (SparseCore.T d).loc main_arg1
abbrev embLoc (d : Dev nD) : Loc nD τ sig := (SparseCore.T d).loc main_arg4
abbrev memLoc (d : Dev nD) : Loc nD τ sig := (SparseCore.T d).loc main_arg5
/-- The gathered array g4 : [4, 16384, 128]. -/
abbrev gLoc (d : Dev nD) : Loc nD τ sig := (SparseCore.T d).loc main_v2

/-- The gathered array as a function of the tables and the index words: entry (p, b, j) is entry j of the row the
    word names — of the embedding table for p < 2, else of the memory table; the source word for even p, else the
    destination word. -/
def G4 (emb mem : Vec F S100000x128 .f32) (src dst : Vec F S16384 .i32) : Vec F S4x16384x128 .f32 := fun i =>
  (if (i 0).val < 2 then emb else mem)
    (ix2 (Cert.Spec.rowAt ((if (i 0).val % 2 = 0 then src else dst) (ix1 (i 1 : Fin 16384)))) (i 2 : Fin 128))

/-- The gathered array of the launch memory of device d. -/
abbrev G4m (d : Dev nD) : Buf (Elt F) (gLoc d) := G4 (m (embLoc d)) (m (memLoc d)) (m (srcLoc d)) (m (dstLoc d))

/-- What the proofs ask of the launch memory: every index word names a table row (the certificate's precondition says
    so: signed, between 0 and 99999). -/
def PreOK : Prop := ∀ d : Dev nD, Cert.Spec.InRange (m (srcLoc d)) ∧ Cert.Spec.InRange (m (dstLoc d))

variable [FloatOps F]

/-- Plane p of block t of the gathered array, as the second kernel's body loads it: rows 2048 * t + r. -/
def gPlane (g : Vec F S4x16384x128 .f32) (t : Fin 8) (p : Fin 4) : Vec F S1x2048x128 .f32 := fun y =>
  g (ix3 p (⟨t.val * 2048 + (y 1).val, by have h : (y 1).val < 2048 := (y 1).isLt; have := t.isLt; omega⟩ : Fin 16384) (y 2 : Fin 128))

/-- Plane p of the re-laid weights, as the body loads it. -/
def wPlane (w : Vec F S4x128x128 .f32) (p : Fin 4) : Vec F S1x128x128 .f32 := fun y => w (ix3 p (y 1 : Fin 128) (y 2 : Fin 128))

/-- The second kernel's result: entry b is entry b % 2048 of the body's arithmetic on block b / 2048. -/
def Mlp (g : Vec F S4x16384x128 .f32) (w : Vec F S4x128x128 .f32) (b1r w2 : Vec F S1x128 .f32) (b2 : Vec F S1 .f32) : Vec F S16384 .f32 := fun i =>
  let t : Fin 8 := ⟨(i 0).val / 2048, by have h : (i 0).val < 16384 := (i 0).isLt; omega⟩
  k1_pay1 (k1_pay2 (gPlane g t 0) (wPlane w 0) (gPlane g t 1) (wPlane w 1) (gPlane g t 2) (wPlane w 2) (gPlane g t 3) (wPlane w 3)) b1r w2 b2
    (ix1 (⟨(i 0).val % 2048, Nat.mod_lt _ (by decide)⟩ : Fin 2048))

/-! ## A tile's part of the gathered array -/

/-- The coordinates of tile (c, s) as the kernel's function takes them. -/
def coordsV (c : Fin (grid0.bound 0)) (s : Fin (grid0.bound 1)) : grid0.Coords :=
  fun | 0 => c | 1 => s | ⟨_ + 2, h⟩ => absurd h (Nat.not_lt.2 (Nat.le_add_left _ _))

/-- Tile (c, s) of the launch. -/
abbrev tileL (c : Fin 2) (s : Fin 16) : grid0.Coords := coordsV ⟨c.val, c.isLt⟩ ⟨s.val, s.isLt⟩

abbrev gV : Memref sig .scVector .hbm S4x16384x128 .f32 := Memref.whole main_v2_scv

/-- Chunk k = 2 * p + h of tile L's part of the gathered array — plane p, rows base + 256 * h … + 256 —, each spelt as the
    task's k-th copy-out addresses it. -/
abbrev chunk0 (L : grid0.Coords) : Memref sig .scVector .hbm S256x128 .f32 :=
  (gV.slice (Rect.unit (s := S4x16384x128) (k0_off2 L 0#32) S1x256x128.size (k0_off2_inb L 0)) (fun _ => rfl)).squeeze S256x128 squeezes_S1x256x128_S256x128
abbrev chunk1 (L : grid0.Coords) : Memref sig .scVector .hbm S256x128 .f32 :=
  (gV.slice (Rect.unit (s := S4x16384x128) (k0_off2 L 256#32) S1x256x128.size (k0_off2_inb L 1)) (fun _ => rfl)).squeeze S256x128 squeezes_S1x256x128_S256x128
abbrev chunk2 (L : grid0.Coords) : Memref sig .scVector .hbm S256x128 .f32 :=
  (gV.slice (Rect.unit (s := S4x16384x128) (k0_off3 L 0#32) S1x256x128.size (k0_off3_inb L 0)) (fun _ => rfl)).squeeze S256x128 squeezes_S1x256x128_S256x128
abbrev chunk3 (L : grid0.Coords) : Memref sig .scVector .hbm S256x128 .f32 :=
  (gV.slice (Rect.unit (s := S4x16384x128) (k0_off3 L 256#32) S1x256x128.size (k0_off3_inb L 1)) (fun _ => rfl)).squeeze S256x128 squeezes_S1x256x128_S256x128
abbrev chunk4 (L : grid0.Coords) : Memref sig .scVector .hbm S256x128 .f32 :=
  (gV.slice (Rect.unit (s := S4x16384x128) (k0_off4 L 0#32) S1x256x128.size (k0_off4_inb L 0)) (fun _ => rfl)).squeeze S256x128 squeezes_S1x256x128_S256x128
abbrev chunk5 (L : grid0.Coords) : Memref sig .scVector .hbm S256x128 .f32 :=
  (gV.slice (Rect.unit (s := S4x16384x128) (k0_off4 L 256#32) S1x256x128.size (k0_off4_inb L 1)) (fun _ => rfl)).squeeze S256x128 squeezes_S1x256x128_S256x128
abbrev chunk6 (L : grid0.Coords) : Memref sig .scVector .hbm S256x128 .f32 :=
  (gV.slice (Rect.unit (s := S4x16384x128) (k0_off5 L 0#32) S1x256x128.size (k0_off5_inb L 0)) (fun _ => rfl)).squeeze S256x128 squeezes_S1x256x128_S256x128
abbrev chunk7 (L : grid0.Coords) : Memref sig .scVector .hbm S256x128 .f32 :=
  (gV.slice (Rect.unit (s := S4x16384x128) (k0_off5 L 256#32) S1x256x128.size (k0_off5_inb L 1)) (fun _ => rfl)).squeeze S256x128 squeezes_S1x256x128_S256x128

/-- The entries of the gathered array chunk k of tile L covers. -/
def chunkSet (L : grid0.Coords) : Fin 8 → Finset S4x16384x128.Idx
  | 0 => (chunk0 L).view.set | 1 => (chunk1 L).view.set | 2 => (chunk2 L).view.set | 3 => (chunk3 L).view.set
  | 4 => (chunk4 L).view.set | 5 => (chunk5 L).view.set | 6 => (chunk6 L).view.set | 7 => (chunk7 L).view.set

/-! ## What the handshakes carry -/

/-- The read share of SparseCore c, and of its tile s. -/
abbrev tok2 (c : Fin 2) : PosShare TreeShare := Transfers.shareTok fullShare 2 c
abbrev tok (c : Fin 2) (s : Fin 16) : PosShare TreeShare := Transfers.shareTok (tok2 c) 16 s

/-- The two tables and the two index arrays, whole, read-only at share q, at their launch contents. -/
abbrev roPts (d : Dev nD) (q : PosShare TreeShare) : sProp 𝕄 :=
  iprop((embLoc d ↦{q} m (embLoc d)) ∗ (memLoc d ↦{q} m (memLoc d)) ∗ (srcLoc d ↦{q} m (srcLoc d)) ∗ (dstLoc d ↦{q} m (dstLoc d)))

/-- Tile L's eight chunks of the gathered array, owned outright, at the contents f. -/
abbrev chunksPts (d : Dev nD) (L : grid0.Coords) (f : Buf (Elt F) (gLoc d)) : sProp 𝕄 :=
  bigSep Finset.univ fun k : Fin 8 => gLoc d ↦[chunkSet L k]{fullShare} f

/-- The one SparseCore call hands SparseCore c a read share of the tables and of the index arrays and its sixteen tiles'
    chunks of the gathered array, each tile its read share and its chunks; they come back with the chunks at the
    gathered array G4 of the launch memory. -/
def P : (K (F := F)).Pay (nD := nD) (Val := Elt F) (Name := ℕ) (U := UU) where
  st := fun q d c => match q with
    | 0 => iprop(roPts m d (tok2 (Fin.cast nCore_zero c)) ∗ bigSep Finset.univ fun s : Fin 16 => chunksPts d (tileL (Fin.cast nCore_zero c) s) (m (gLoc d)))
  dn := fun q d c => match q with
    | 0 => iprop(roPts m d (tok2 (Fin.cast nCore_zero c)) ∗ bigSep Finset.univ fun s : Fin 16 => chunksPts d (tileL (Fin.cast nCore_zero c) s) (G4m m d))
  go := fun q d c i => match q with
    | 0 => iprop(roPts m d (tok (Fin.cast nCore_zero c) (Fin.cast nSub_zero i)) ∗ chunksPts d (tileL (Fin.cast nCore_zero c) (Fin.cast nSub_zero i)) (m (gLoc d)))
  td := fun q d c i => match q with
    | 0 => iprop(roPts m d (tok (Fin.cast nCore_zero c) (Fin.cast nSub_zero i)) ∗ chunksPts d (tileL (Fin.cast nCore_zero c) (Fin.cast nSub_zero i)) (G4m m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KI.RegionIface.lean ====
/-
  The vocabulary of the TensorCore region's rule: the region's six arrays as the region finds them and leaves them.
  The region reads the gathered array, the re-laid weights, the bias row, the second layer's row and its bias, and
  writes the result array: block t of the result is the body's arithmetic on block t of the gathered array (Mlp).
-/
import proofs.«216967_g84078279786708_cont_9to1_m_1153_28_alg».proof.Proof.KI.Common
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

/-- The admissible tables of a pipeline that prefetches none. -/
abbrev adm : (p : Fin 1) → (pcfgs (F := F) p).Adm := fun p => (cfgs p).toPCfg_adm

variable (Vr : (c : Dev nD) → (b : Ref sig .tc) → Buf (Elt F) ((c.tc : Thread nD τ).loc b))

/-- The result array the region leaves, from the arrays it finds. -/
def outR (c : Dev nD) : Buf (Elt F) ((c.tc : Thread nD τ).loc main_v4) :=
  Mlp (Vr c main_v2) (Vr c main_v1) (Vr c main_v3) (Vr c main_arg12) (Vr c main_arg13)

/-- The region's six arrays, whole and owned outright, the result array at f4. -/
def regionArrs (c : Dev nD) (f4 : Buf (Elt F) ((c.tc : Thread nD τ).loc main_v4)) : sProp 𝕄 :=
  iprop(((c.tc : Thread nD τ).loc main_v2 ↦{fullShare} Vr c main_v2) ∗ ((c.tc : Thread nD τ).loc main_v1 ↦{fullShare} Vr c main_v1)
    ∗ ((c.tc : Thread nD τ).loc main_v3 ↦{fullShare} Vr c main_v3) ∗ ((c.tc : Thread nD τ).loc main_arg12 ↦{fullShare} Vr c main_arg12)
    ∗ ((c.tc : Thread nD τ).loc main_arg13 ↦{fullShare} Vr c main_arg13) ∗ ((c.tc : Thread nD τ).loc main_v4 ↦{fullShare} f4))

/-- The region's rule, as a proposition: entered from the boundary, its six arrays, the TensorCore owing nothing, the
    launch's level facts and the pipeline's ghost state, the call runs to the boundary with the result array at outR. -/
def RegionRule : Prop :=
  ∀ (d : Dev nD) (W : Waits sig (HIx 1)) {α : Type} (k : PUnit → Prog (TpuEff nD τ sig (Elt F) (ΛP (F := F)) .tc) α) (Q : α → sProp 𝕄),
    iprop((iprop(boundary (d.tc : Thread nD τ) ∗ regionArrs Vr d (outR Vr d) ∗ ∃ W', ⌜∀ p ∈ W', p ∈ W ∨ p.2 = none⌝ ∗ owes (d.tc : Thread nD τ) 0 W')
            -∗ wp frame (wpE (D (F := F)) 𝒱 (d.tc : Thread nD τ) none) Set.univ (k ⟨⟩) Q)
        ∗ boundary (d.tc : Thread nD τ) ∗ regionArrs Vr d (Vr d main_v4) ∗ owes (d.tc : Thread nD τ) 0 W ∗ levAts (K (F := F)).L (K (F := F)).lev
        ∗ Pipeline.cellsGhost (Pipeline.pin (pcfgs (F := F)) (adm (F := F))) EP 0 d ∗ Pipeline.toksInit (Pipeline.pin (pcfgs (F := F)) (adm (F := F))) EP 0 d)
      ⊢ wp frame (wpE (D (F := F)) 𝒱 (d.tc : Thread nD τ) none) Set.univ (.op (.customCall (Pipeline.entry 0) ()) k) Q

end Cert.Proof.KI

end
-- ==== Proof.KI.Entry.lean ====
/-
  @main's host operations and what the TensorCore's buffers hold between them.

  The first layer's weights W1 : [128, 512] are re-laid as [4, 128, 128] (a reshape to [128, 4, 128], then the axes
  permuted (1, 2, 0)), the gather leaves the gathered array at G4 of the launch memory, the bias b1 : [128] is made a
  row [1, 128]. `entryV` is the valuation the second kernel's region finds, `resultK` the result array it leaves.
-/
import proofs.«216967_g84078279786708_cont_9to1_m_1153_28_alg».proof.Proof.KI.RegionIface
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

/-! ## The host operations and the valuations between them -/

abbrev op1 : HloOp τ sig (Elt F) := StableHlo.reshape main_arg10 main_v0 rfl shapeCasts_S128x512_S128x4x128
abbrev op2 : HloOp τ sig (Elt F) :=
  StableHlo.unary main_v0 main_v1 ((transpose S4x128x128 [1, 2, 0] · transposes_S128x4x128_S4x128x128_1_2_0) : (⟨S128x4x128, .f32⟩ : BufTy).Contents (Elt F) → (⟨S4x128x128, .f32⟩ : BufTy).Contents (Elt F))
abbrev op3 : HloOp τ sig (Elt F) := StableHlo.reshape main_arg11 main_v3 rfl shapeCasts_S128_S1x128

abbrev r (b : Ref sig .tc) : DevRef τ sig := Proc.devRef .tc b

/-- The launch valuation of device d. -/
def V0 (d : Dev nD) : Valuation τ sig (Elt F) := fun b => m (d, b)
/-- After the weights are re-laid. -/
def V2 (d : Dev nD) : Valuation τ sig (Elt F) := (op2 (F := F)).result ((op1 (F := F)).result (V0 m d))
/-- After the gather: the gathered array at G4 of the launch memory. -/
def V3 (d : Dev nD) : Valuation τ sig (Elt F) := Function.update (V2 m d) (r main_v2) (G4m m d)
/-- After the bias is made a row: what the region finds. -/
def V4 (d : Dev nD) : Valuation τ sig (Elt F) := (op3 (F := F)).result (V3 m d)

/-- The TensorCore's arrays as the region finds them. -/
def entryV (c : Dev nD) (b : Ref sig .tc) : Buf (Elt F) ((c.tc : Thread nD τ).loc b) := V4 m c (r b)

/-- The result array the program ends with. -/
def resultK (c : Dev nD) : Buf (Elt F) ((c.tc : Thread nD τ).loc main_v4) := outR (entryV m) c

/-! ## What the valuations hold -/

/-- A buffer the re-laying does not write keeps its launch contents. -/
theorem V2_ne (d : Dev nD) {b : Ref sig .tc} (h0 : b ≠ main_v0) (h1 : b ≠ main_v1) : V2 m d (r b) = m ((d.tc : Thread nD τ).loc b) := by
  unfold V2; rw [StableHlo.unary_result_ne (h := h1), StableHlo.reshape_result_ne (h := h0)]; rfl

theorem V1_ne (d : Dev nD) {b : Ref sig .tc} (h0 : b ≠ main_v0) : (op1 (F := F)).result (V0 m d) (r b) = m ((d.tc : Thread nD τ).loc b) := by
  rw [StableHlo.reshape_result_ne (h := h0)]; rfl

theorem V4_ne (d : Dev nD) {b : Ref sig .tc} (h0 : b ≠ main_v0) (h1 : b ≠ main_v1) (h2 : b ≠ main_v2) (h3 : b ≠ main_v3) :
    entryV m d b = m ((d.tc : Thread nD τ).loc b) := by
  unfold entryV V4 V3
  rw [StableHlo.reshape_result_ne (h := h3), Function.update_of_ne (fun e => h2 (Proc.devRef_injective _ e)), V2_ne m d h0 h1]

theorem V4_v2 (d : Dev nD) : entryV m d main_v2 = G4m m d := by
  unfold entryV V4 V3
  rw [StableHlo.reshape_result_ne (h := (by decide : main_v2 ≠ main_v3)), Function.update_self]

theorem V4_v1 (d : Dev nD) : entryV m d main_v1 = V2 m d (r main_v1) := by
  unfold entryV V4 V3
  rw [StableHlo.reshape_result_ne (h := (by decide : main_v1 ≠ main_v3)), Function.update_of_ne (by decide)]

theorem V3_a11 (d : Dev nD) : V3 m d (r main_arg11) = m ((d.tc : Thread nD τ).loc main_arg11) := by
  unfold V3; rw [Function.update_of_ne (by decide), V2_ne m d (by decide) (by decide)]

theorem V3_v3 (d : Dev nD) : V3 m d (r main_v3) = m ((d.tc : Thread nD τ).loc main_v3) := by
  unfold V3; rw [Function.update_of_ne (by decide), V2_ne m d (by decide) (by decide)]

end Cert.Proof.KI

end
-- ==== Proof.KI.Main.lean ====
/-
  The launch element and @main on the TensorCore.

  @main: re-lay the first layer's weights (a reshape [128,512] → [128,4,128] and a transpose to [4,128,128]), run the
  gather on the two SparseCores, reshape the bias to a row, run the second kernel's region, return. The TensorCore hands
  the SparseCore call read shares of the two tables and of the two index arrays (keeping a remainder of each) and the
  gathered array split into the tiles' chunks, and gets them back with the gathered array at G4 of the launch memory;
  the region then finds its arrays at the valuation `entryV` below and leaves the result at `outR` of it.
  At the end every argument array is held at its launch contents and the result array at `resultK`.
-/
import proofs.«216967_g84078279786708_cont_9to1_m_1153_28_alg».proof.Proof.KI.Entry
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

open Idealize.ShloMosaic.StableHlo (held held_split held_sdiff_result wp_hlo_within)
open Idealize.ShloMosaic.Tactic

variable (m : (ℓ : Loc nD τ sig) → Buf (Elt F) ℓ) (ρ : Dev nD → PrngReg)
variable [FloatOps F]

/-! ## The unscoped buffers, one by one -/

omit [FloatOps F] in
theorem unscopedBufs_eq (d : Dev nD) (W : (b : Ref sig .tc) → Buf (Elt F) ((d.tc : Thread nD τ).loc b)) :
    (unscopedBufs d W : sProp 𝕄) = iprop((((d.tc : Thread nD τ).loc main_arg0) ↦{fullShare} W main_arg0)
      ∗ (((d.tc : Thread nD τ).loc main_arg1) ↦{fullShare} W main_arg1)
      ∗ (((d.tc : Thread nD τ).loc main_arg2) ↦{fullShare} W main_arg2)
      ∗ (((d.tc : Thread nD τ).loc main_arg3) ↦{fullShare} W main_arg3)
      ∗ (((d.tc : Thread nD τ).loc main_arg4) ↦{fullShare} W main_arg4)
      ∗ (((d.tc : Thread nD τ).loc main_arg5) ↦{fullShare} W main_arg5)
      ∗ (((d.tc : Thread nD τ).loc main_arg6) ↦{fullShare} W main_arg6)
      ∗ (((d.tc : Thread nD τ).loc main_arg7) ↦{fullShare} W main_arg7)
      ∗ (((d.tc : Thread nD τ).loc main_arg8) ↦{fullShare} W main_arg8)
      ∗ (((d.tc : Thread nD τ).loc main_arg9) ↦{fullShare} W main_arg9)
      ∗ (((d.tc : Thread nD τ).loc main_arg10) ↦{fullShare} W main_arg10)
      ∗ (((d.tc : Thread nD τ).loc main_arg11) ↦{fullShare} W main_arg11)
      ∗ (((d.tc : Thread nD τ).loc main_arg12) ↦{fullShare} W main_arg12)
      ∗ (((d.tc : Thread nD τ).loc main_arg13) ↦{fullShare} W main_arg13)
      ∗ (((d.tc : Thread nD τ).loc main_v0) ↦{fullShare} W main_v0)
      ∗ (((d.tc : Thread nD τ).loc main_v1) ↦{fullShare} W main_v1)
      ∗ (((d.tc : Thread nD τ).loc main_v2) ↦{fullShare} W main_v2)
      ∗ (((d.tc : Thread nD τ).loc main_v3) ↦{fullShare} W main_v3)
      ∗ (((d.tc : Thread nD τ).loc main_v4) ↦{fullShare} W main_v4)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem held_pair (d : Dev nD) (x y : Ref sig .tc) (hxy : r x ≠ r y) (V : Valuation τ sig (Elt F)) :
    (held (T d) {r x, r y} V : sProp 𝕄) = iprop((((d.tc : Thread nD τ).loc x) ↦{fullShare} V (r x)) ∗ (((d.tc : Thread nD τ).loc y) ↦{fullShare} V (r y))) := by
  unfold held
  rw [SparseCore.bigSep_insert' (by simpa using hxy), bigSep_singleton]

omit [FloatOps F] in
theorem pts_cast {ℓ : Loc nD τ sig} {f g : Buf (Elt F) ℓ} (h : f = g) : (ℓ ↦{fullShare} f : sProp 𝕄) ⊢ ℓ ↦{fullShare} g := by subst h; exact .rfl

/-! ## Around the SparseCore call: read shares out and back, the gathered array in chunks -/

abbrev rem2 : PosShare TreeShare := Transfers.shareDrop fullShare 2

omit [FloatOps F] in
theorem ro_halves (ℓ : Loc nD τ sig) (f : Buf (Elt F) ℓ) :
    (ℓ ↦{fullShare} f : sProp 𝕄) ⊣⊢ iprop((ℓ ↦{rem2} f) ∗ (ℓ ↦{tok2 0} f) ∗ (ℓ ↦{tok2 1} f)) := by
  have h := Transfers.pointsTo_toks (nD := nD) (τ := τ) (sig := sig) (Ix := HIx 1) (Val := Elt F) (Name := ℕ) (U := UU) (Lvl := ℕ) (ℓ := ℓ) (S := Finset.univ) (f := f) fullShare 2
  rw [show (Finset.univ : Finset (Fin 2)) = {0, 1} by decide, SparseCore.bigSep_insert' (by decide), bigSep_singleton] at h
  exact h

theorem st0_eq (d : Dev nD) :
    (bigSep Finset.univ fun c : Fin ((K (F := F)).nCore 0) => (P m).st 0 d c)
      = iprop((roPts m d (tok2 0) ∗ bigSep Finset.univ fun s : Fin 16 => chunksPts d (tileL 0 s) (m (gLoc d)))
          ∗ (roPts m d (tok2 1) ∗ bigSep Finset.univ fun s : Fin 16 => chunksPts d (tileL 1 s) (m (gLoc d)))) := by
  show (bigSep (Finset.univ : Finset (Fin 2)) fun c => (P m).st 0 d c) = _
  rw [show (Finset.univ : Finset (Fin 2)) = {0, 1} by decide, SparseCore.bigSep_insert' (by decide), bigSep_singleton]
  rfl

theorem dn0_eq (d : Dev nD) :
    (bigSep Finset.univ fun c : Fin ((K (F := F)).nCore 0) => (P m).dn 0 d c)
      = iprop((roPts m d (tok2 0) ∗ bigSep Finset.univ fun s : Fin 16 => chunksPts d (tileL 0 s) (G4m m d))
          ∗ (roPts m d (tok2 1) ∗ bigSep Finset.univ fun s : Fin 16 => chunksPts d (tileL 1 s) (G4m m d))) := by
  show (bigSep (Finset.univ : Finset (Fin 2)) fun c => (P m).dn 0 d c) = _
  rw [show (Finset.univ : Finset (Fin 2)) = {0, 1} by decide, SparseCore.bigSep_insert' (by decide), bigSep_singleton]
  rfl

/-- The cover of the gathered array by the tiles' chunks, as the tile modules prove it. -/
def Cover : Prop := ∀ (d : Dev nD) (f : Buf (Elt F) (gLoc d)),
  (gLoc d ↦{fullShare} f : sProp 𝕄) = bigSep Finset.univ fun c : Fin 2 => bigSep Finset.univ fun s : Fin 16 => chunksPts d (tileL c s) f

omit [FloatOps F] in
theorem cover_two (hc : Cover (F := F)) (d : Dev nD) (f : Buf (Elt F) (gLoc d)) :
    (gLoc d ↦{fullShare} f : sProp 𝕄)
      = iprop((bigSep Finset.univ fun s : Fin 16 => chunksPts d (tileL 0 s) f) ∗ (bigSep Finset.univ fun s : Fin 16 => chunksPts d (tileL 1 s) f)) := by
  rw [hc d f, show (Finset.univ : Finset (Fin 2)) = {0, 1} by decide, SparseCore.bigSep_insert' (by decide), bigSep_singleton]

/-! ## The launch element -/

/-- What the launch leaves device d for its region: the staging cells' ghost state and the duty tokens. -/
abbrev GH (d : Dev nD) : sProp 𝕄 :=
  iprop(Pipeline.cellsGhost (Pipeline.pin (pcfgs (F := F)) (adm (F := F))) EP 0 d ∗ Pipeline.toksInit (Pipeline.pin (pcfgs (F := F)) (adm (F := F))) EP 0 d)

theorem hinj : Function.Injective (Pipeline.cellOf (nD := nD) (τ := τ) (Pipeline.pin (pcfgs (F := F)) (adm (F := F)))) := Gen.cellOf_inj

def u₀ : UU :=
  (initOf (K (F := F)).hsCells (K (F := F)).hsToks,
    (initOf (Pipeline.cells (Pipeline.pin (pcfgs (F := F)) (adm (F := F))) hinj) (Pipeline.launchToks (Pipeline.pin (pcfgs (F := F)) (adm (F := F))) hinj), 1))

omit [FloatOps F] in
theorem bigSep_emp' {I : Type} (s : Finset I) : (bigSep s fun _ => iprop(emp)) = (iprop(emp) : sProp 𝕄) := bigSep_emp_const s

omit [FloatOps F] in
/-- The launch element splits into the handshakes' part and the staging cells' part (the counters' part is the unit). -/
theorem ownU_split (a : UH) (b : UP) :
    (ownU ((a, (b, (1 : Counters))) : UU) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) (adm (F := F))) EP hinj) $$ HP with ⟨Hcg, Htk⟩
  imodintro
  isplitl [HH]; · iexact HH
  isplitl [Hcg Htk]
  · simp only [bigSep_univ_of_subsingleton (0 : Fin 1)]
    unfold GH
    isplitl [Hcg]; · iexact Hcg
    iexact Htk
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## The region, lifted into the SparseCore program's table -/

/-- The region's call in the pipeline library's table, -/
abbrev regionCall : Prog (TpuEff nD τ sig (Elt F) (ΛP (F := F)) .tc) PUnit := .op (.customCall (Pipeline.entry 0) ()) .ret

omit [FloatOps F] in
/-- and @main's line for it is that call lifted into the SparseCore program's table. -/
theorem call_eq_lift :
    (Prog.lift (.customCall (SparseCore.inner (Pipeline.entry 0)) ()) : Prog (TpuEff nD τ sig (Elt F) (SparseCore.Sig (ΛP (F := F)) 1) .tc) PUnit)
      = SparseCore.liftProg (regionCall (F := F)) := rfl

theorem region_step (hregion : RegionRule (entryV m)) (d : Dev nD) (W : Waits sig (HIx 1)) (Φ : PUnit → sProp 𝕄) :
    iprop((iprop(boundary (d.tc : Thread nD τ) ∗ regionArrs (entryV m) d (resultK m d) ∗ ∃ W', ⌜∀ p ∈ W', p ∈ W ∨ p.2 = none⌝ ∗ owes (d.tc : Thread nD τ) 0 W') -∗ Φ ⟨⟩)
        ∗ boundary (d.tc : Thread nD τ) ∗ regionArrs (entryV m) d (entryV m d main_v4) ∗ owes (d.tc : Thread nD τ) 0 W ∗ levAts (K (F := F)).L (K (F := F)).lev
        ∗ GH (F := F) d)
      ⊢ wp frame (wpE ((K (F := F)).defs (D (F := F))) 𝒱 (SparseCore.T d) none) Set.univ
          (Prog.lift (.customCall (SparseCore.inner (Pipeline.entry 0)) ())) Φ := by
  rw [call_eq_lift]
  refine BI.Entails.trans ?_ ((K (F := F)).wp_liftProg (D (F := F)) 𝒱 (SparseCore.T d) Set.univ none (regionCall (F := F)) Φ)
  refine BI.Entails.trans ?_ (hregion d W .ret Φ)
  show (_ : sProp 𝕄) ⊢ (_ : sProp 𝕄)
  iintro ⟨Hk, Hb, Harr, HO, Hlv, Hcg, Htk⟩
  isplitl [Hk]
  · iintro Hpost
    rw [wp_ret]; imodintro
    iapply Hk; iexact Hpost
  isplitl [Hb]; · iexact Hb
  isplitl [Harr]; · iexact Harr
  isplitl [HO]; · iexact HO
  isplitl [Hlv]; · iexact Hlv
  isplitl [Hcg]; · iexact Hcg
  iexact Htk

/-! ## What @main leaves the claim -/

/-- Every argument array at its launch contents, the result array at resultK. -/
abbrev FIN (d : Dev nD) : sProp 𝕄 :=
  iprop((((d.tc : Thread nD τ).loc main_v4) ↦{fullShare} resultK m d) ∗ (((d.tc : Thread nD τ).loc main_arg0) ↦{fullShare} m ((d.tc : Thread nD τ).loc main_arg0)) ∗ (((d.tc : Thread nD τ).loc main_arg1) ↦{fullShare} m ((d.tc : Thread nD τ).loc main_arg1)) ∗ (((d.tc : Thread nD τ).loc main_arg2) ↦{fullShare} m ((d.tc : Thread nD τ).loc main_arg2)) ∗ (((d.tc : Thread nD τ).loc main_arg3) ↦{fullShare} m ((d.tc : Thread nD τ).loc main_arg3)) ∗ (((d.tc : Thread nD τ).loc main_arg4) ↦{fullShare} m ((d.tc : Thread nD τ).loc main_arg4)) ∗ (((d.tc : Thread nD τ).loc main_arg5) ↦{fullShare} m ((d.tc : Thread nD τ).loc main_arg5)) ∗ (((d.tc : Thread nD τ).loc main_arg6) ↦{fullShare} m ((d.tc : Thread nD τ).loc main_arg6)) ∗ (((d.tc : Thread nD τ).loc main_arg7) ↦{fullShare} m ((d.tc : Thread nD τ).loc main_arg7)) ∗ (((d.tc : Thread nD τ).loc main_arg8) ↦{fullShare} m ((d.tc : Thread nD τ).loc main_arg8)) ∗ (((d.tc : Thread nD τ).loc main_arg9) ↦{fullShare} m ((d.tc : Thread nD τ).loc main_arg9)) ∗ (((d.tc : Thread nD τ).loc main_arg10) ↦{fullShare} m ((d.tc : Thread nD τ).loc main_arg10)) ∗ (((d.tc : Thread nD τ).loc main_arg11) ↦{fullShare} m ((d.tc : Thread nD τ).loc main_arg11)) ∗ (((d.tc : Thread nD τ).loc main_arg12) ↦{fullShare} m ((d.tc : Thread nD τ).loc main_arg12)) ∗ (((d.tc : Thread nD τ).loc main_arg13) ↦{fullShare} m ((d.tc : Thread nD τ).loc main_arg13)))

def fq (d : Dev nD) (s' : Phys nD τ sig (Elt F)) : Prop :=
  s'.mem.mem ((d.tc : Thread nD τ).loc main_v4) = resultK m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)
    ∧ s'.mem.mem ((d.tc : Thread nD τ).loc main_arg7) = m ((d.tc : Thread nD τ).loc main_arg7)
    ∧ s'.mem.mem ((d.tc : Thread nD τ).loc main_arg8) = m ((d.tc : Thread nD τ).loc main_arg8)
    ∧ s'.mem.mem ((d.tc : Thread nD τ).loc main_arg9) = m ((d.tc : Thread nD τ).loc main_arg9)
    ∧ s'.mem.mem ((d.tc : Thread nD τ).loc main_arg10) = m ((d.tc : Thread nD τ).loc main_arg10)
    ∧ s'.mem.mem ((d.tc : Thread nD τ).loc main_arg11) = m ((d.tc : Thread nD τ).loc main_arg11)
    ∧ s'.mem.mem ((d.tc : Thread nD τ).loc main_arg12) = m ((d.tc : Thread nD τ).loc main_arg12)
    ∧ s'.mem.mem ((d.tc : Thread nD τ).loc main_arg13) = m ((d.tc : Thread nD τ).loc main_arg13)

theorem hfin (d : Dev nD) (s' : Phys nD τ sig (Elt F)) : iprop(FIN m d ∗ SI s') ⊢ (⌜fq m d s'⌝ : sProp 𝕄) := by
  iintro ⟨⟨Hv4, Ha0, Ha1, Ha2, Ha3, Ha4, Ha5, Ha6, Ha7, Ha8, Ha9, Ha10, Ha11, Ha12, Ha13⟩, HSI⟩
  ihave H := (persistent_entails_right (SI_pointsTo_agree (st := s') (ℓ := ((d.tc : Thread nD τ).loc main_v4)) (I := Finset.univ) (q := fullShare) (f := resultK m d))) $$ [HSI Hv4]
  · isplitl [HSI] <;> iassumption
  icases H with ⟨%h0, HSI, -⟩
  ihave H := (persistent_entails_right (SI_pointsTo_agree (st := s') (ℓ := ((d.tc : Thread nD τ).loc main_arg0)) (I := Finset.univ) (q := fullShare) (f := m ((d.tc : Thread nD τ).loc main_arg0)))) $$ [HSI Ha0]
  · isplitl [HSI] <;> iassumption
  icases H with ⟨%h1, HSI, -⟩
  ihave H := (persistent_entails_right (SI_pointsTo_agree (st := s') (ℓ := ((d.tc : Thread nD τ).loc main_arg1)) (I := Finset.univ) (q := fullShare) (f := m ((d.tc : Thread nD τ).loc main_arg1)))) $$ [HSI Ha1]
  · isplitl [HSI] <;> iassumption
  icases H with ⟨%h2, HSI, -⟩
  ihave H := (persistent_entails_right (SI_pointsTo_agree (st := s') (ℓ := ((d.tc : Thread nD τ).loc main_arg2)) (I := Finset.univ) (q := fullShare) (f := m ((d.tc : Thread nD τ).loc main_arg2)))) $$ [HSI Ha2]
  · isplitl [HSI] <;> iassumption
  icases H with ⟨%h3, HSI, -⟩
  ihave H := (persistent_entails_right (SI_pointsTo_agree (st := s') (ℓ := ((d.tc : Thread nD τ).loc main_arg3)) (I := Finset.univ) (q := fullShare) (f := m ((d.tc : Thread nD τ).loc main_arg3)))) $$ [HSI Ha3]
  · isplitl [HSI] <;> iassumption
  icases H with ⟨%h4, HSI, -⟩
  ihave H := (persistent_entails_right (SI_pointsTo_agree (st := s') (ℓ := ((d.tc : Thread nD τ).loc main_arg4)) (I := Finset.univ) (q := fullShare) (f := m ((d.tc : Thread nD τ).loc main_arg4)))) $$ [HSI Ha4]
  · isplitl [HSI] <;> iassumption
  icases H with ⟨%h5, HSI, -⟩
  ihave H := (persistent_entails_right (SI_pointsTo_agree (st := s') (ℓ := ((d.tc : Thread nD τ).loc main_arg5)) (I := Finset.univ) (q := fullShare) (f := m ((d.tc : Thread nD τ).loc main_arg5)))) $$ [HSI Ha5]
  · isplitl [HSI] <;> iassumption
  icases H with ⟨%h6, HSI, -⟩
  ihave H := (persistent_entails_right (SI_pointsTo_agree (st := s') (ℓ := ((d.tc : Thread nD τ).loc main_arg6)) (I := Finset.univ) (q := fullShare) (f := m ((d.tc : Thread nD τ).loc main_arg6)))) $$ [HSI Ha6]
  · isplitl [HSI] <;> iassumption
  icases H with ⟨%h7, HSI, -⟩
  ihave H := (persistent_entails_right (SI_pointsTo_agree (st := s') (ℓ := ((d.tc : Thread nD τ).loc main_arg7)) (I := Finset.univ) (q := fullShare) (f := m ((d.tc : Thread nD τ).loc main_arg7)))) $$ [HSI Ha7]
  · isplitl [HSI] <;> iassumption
  icases H with ⟨%h8, HSI, -⟩
  ihave H := (persistent_entails_right (SI_pointsTo_agree (st := s') (ℓ := ((d.tc : Thread nD τ).loc main_arg8)) (I := Finset.univ) (q := fullShare) (f := m ((d.tc : Thread nD τ).loc main_arg8)))) $$ [HSI Ha8]
  · isplitl [HSI] <;> iassumption
  icases H with ⟨%h9, HSI, -⟩
  ihave H := (persistent_entails_right (SI_pointsTo_agree (st := s') (ℓ := ((d.tc : Thread nD τ).loc main_arg9)) (I := Finset.univ) (q := fullShare) (f := m ((d.tc : Thread nD τ).loc main_arg9)))) $$ [HSI Ha9]
  · isplitl [HSI] <;> iassumption
  icases H with ⟨%h10, HSI, -⟩
  ihave H := (persistent_entails_right (SI_pointsTo_agree (st := s') (ℓ := ((d.tc : Thread nD τ).loc main_arg10)) (I := Finset.univ) (q := fullShare) (f := m ((d.tc : Thread nD τ).loc main_arg10)))) $$ [HSI Ha10]
  · isplitl [HSI] <;> iassumption
  icases H with ⟨%h11, HSI, -⟩
  ihave H := (persistent_entails_right (SI_pointsTo_agree (st := s') (ℓ := ((d.tc : Thread nD τ).loc main_arg11)) (I := Finset.univ) (q := fullShare) (f := m ((d.tc : Thread nD τ).loc main_arg11)))) $$ [HSI Ha11]
  · isplitl [HSI] <;> iassumption
  icases H with ⟨%h12, HSI, -⟩
  ihave H := (persistent_entails_right (SI_pointsTo_agree (st := s') (ℓ := ((d.tc : Thread nD τ).loc main_arg12)) (I := Finset.univ) (q := fullShare) (f := m ((d.tc : Thread nD τ).loc main_arg12)))) $$ [HSI Ha12]
  · isplitl [HSI] <;> iassumption
  icases H with ⟨%h13, HSI, -⟩
  ihave H := (SI_pointsTo_agree (st := s') (ℓ := ((d.tc : Thread nD τ).loc main_arg13)) (I := Finset.univ) (q := fullShare) (f := m ((d.tc : Thread nD τ).loc main_arg13))) $$ [HSI Ha13]
  · isplitl [HSI] <;> iassumption
  icases H with %h14
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i), funext fun i => h13 i (Finset.mem_univ i), funext fun i => h14 i (Finset.mem_univ i)⟩

def QC : PUnit × MemSt nD τ sig (Elt F) → Prop := fun r => ∀ c : Dev nD,
  r.2.mem ((c.tc : Thread nD τ).loc main_v4) = resultK m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)

/-! ## @main on the TensorCore -/

/-- @main on device d's TensorCore. -/
theorem hmain (hcover : Cover (F := F)) (hregion : RegionRule (entryV m)) (κ : GSem nD τ sig → ℕ) (d : Dev nD) :
    iprop((K (F := F)).ctx EH (P m) κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ha7, Ha8, Ha9, Ha10, Ha11, Ha12, Ha13, Hv0, Hv1, Hv2, Hv3, Hv4⟩, -, -⟩, HG⟩
  -- the weights re-laid: [128,512] as [128,4,128],
  iapply (wp_hlo_within 𝒱 (SparseCore.T d) none Set.univ (op := op1) (S := {r main_arg10, r main_v0}) (Finset.Subset.refl _) (V := V0 m d)) $$ [Hb Ha10 Hv0]
  · isplitl [Hb]; · iexact Hb
    rw [held_pair d main_arg10 main_v0 (by decide)]
    isplitl [Ha10]; · iexact Ha10
    iexact Hv0
  iintro ⟨Hb, Hh⟩
  ihave Hh' := (Entails.of_eq (held_pair d main_arg10 main_v0 (by decide) _)) $$ Hh
  icases Hh' with ⟨Ha10, Hv0⟩
  ihave Ha10 := (pts_cast (ℓ := (d.tc : Thread nD τ).loc main_arg10) (V1_ne m d (b := main_arg10) (by decide))) $$ Ha10
  rw [wp_ret]; imodintro
  -- then transposed to [4,128,128]
  iapply (wp_hlo_within 𝒱 (SparseCore.T d) none Set.univ (op := op2) (S := {r main_v0, r main_v1}) (Finset.Subset.refl _) (V := (op1 (F := F)).result (V0 m d))) $$ [Hb Hv0 Hv1]
  · isplitl [Hb]; · iexact Hb
    rw [held_pair d main_v0 main_v1 (by decide)]
    isplitl [Hv0]; · iexact Hv0
    iapply (pts_cast (ℓ := (d.tc : Thread nD τ).loc main_v1) (V1_ne m d (b := main_v1) (by decide)).symm); iexact Hv1
  iintro ⟨Hb, Hh⟩
  ihave Hh' := (Entails.of_eq (held_pair d main_v0 main_v1 (by decide) _)) $$ Hh
  icases Hh' with ⟨-, Hv1⟩
  rw [wp_ret]; imodintro
  -- the gather on the SparseCores: read shares of the tables and of the index arrays, the gathered array in chunks
  ihave Hx := (ro_halves ((d.tc : Thread nD τ).loc main_arg4) _).1 $$ Ha4
  icases Hx with ⟨Her, He0, He1⟩
  ihave Hx := (ro_halves ((d.tc : Thread nD τ).loc main_arg5) _).1 $$ Ha5
  icases Hx with ⟨Hmr, Hm0, Hm1⟩
  ihave Hx := (ro_halves ((d.tc : Thread nD τ).loc main_arg0) _).1 $$ Ha0
  icases Hx with ⟨Hsr, Hs0, Hs1⟩
  ihave Hx := (ro_halves ((d.tc : Thread nD τ).loc main_arg1) _).1 $$ Ha1
  icases Hx with ⟨Hdr, Hd0, Hd1⟩
  ihave Hg := (Entails.of_eq (cover_two hcover d _)) $$ Hv2
  icases Hg with ⟨Hg0, Hg1⟩
  iapply ((K (F := F)).wp_run (D (F := F)) 𝒱 (EH := EH) (P := P m) κ d 0) $$ [Hst Hb Ha2 Ha3 Ha6 Ha7 Ha8 Ha9 Ha10 Ha11 Ha12 Ha13 Hv1 Hv3 Hv4 HG Her He0 He1 Hmr Hm0 Hm1 Hsr Hs0 Hs1 Hdr Hd0 Hd1 Hg0 Hg1]
  isplitr; · iexact Hctx
  isplitl [Hst]; · iexact Hst
  isplitl [He0 He1 Hm0 Hm1 Hs0 Hs1 Hd0 Hd1 Hg0 Hg1]
  · rw [st0_eq]
    isplitl [He0 Hm0 Hs0 Hd0 Hg0]
    · isplitl [He0 Hm0 Hs0 Hd0]
      · isplitl [He0]; · iexact He0
        isplitl [Hm0]; · iexact Hm0
        isplitl [Hs0]; · iexact Hs0
        iexact Hd0
      · iexact Hg0
    · isplitl [He1 Hm1 Hs1 Hd1]
      · isplitl [He1]; · iexact He1
        isplitl [Hm1]; · iexact Hm1
        isplitl [Hs1]; · iexact Hs1
        iexact Hd1
      · iexact Hg1
  iintro ⟨Hst, Hdn⟩
  ihave Hdn' := (Entails.of_eq (dn0_eq m d)) $$ Hdn
  icases Hdn' with ⟨⟨⟨He0, Hm0, Hs0, Hd0⟩, Hg0⟩, ⟨⟨He1, Hm1, Hs1, Hd1⟩, Hg1⟩⟩
  ihave Ha4 := (ro_halves ((d.tc : Thread nD τ).loc main_arg4) (m ((d.tc : Thread nD τ).loc main_arg4))).2 $$ [Her He0 He1]
  · isplitl [Her]; · iexact Her
    isplitl [He0]; · iexact He0
    iexact He1
  ihave Ha5 := (ro_halves ((d.tc : Thread nD τ).loc main_arg5) (m ((d.tc : Thread nD τ).loc main_arg5))).2 $$ [Hmr Hm0 Hm1]
  · isplitl [Hmr]; · iexact Hmr
    isplitl [Hm0]; · iexact Hm0
    iexact Hm1
  ihave Ha0 := (ro_halves ((d.tc : Thread nD τ).loc main_arg0) (m ((d.tc : Thread nD τ).loc main_arg0))).2 $$ [Hsr Hs0 Hs1]
  · isplitl [Hsr]; · iexact Hsr
    isplitl [Hs0]; · iexact Hs0
    iexact Hs1
  ihave Ha1 := (ro_halves ((d.tc : Thread nD τ).loc main_arg1) (m ((d.tc : Thread nD τ).loc main_arg1))).2 $$ [Hdr Hd0 Hd1]
  · isplitl [Hdr]; · iexact Hdr
    isplitl [Hd0]; · iexact Hd0
    iexact Hd1
  ihave Hv2 := (Entails.of_eq (cover_two hcover d (G4m m d)).symm) $$ [Hg0 Hg1]
  · isplitl [Hg0]; · iexact Hg0
    iexact Hg1
  -- the bias as a row [1,128]
  iapply (wp_hlo_within 𝒱 (SparseCore.T d) none Set.univ (op := op3) (S := {r main_arg11, r main_v3}) (Finset.Subset.refl _) (V := V3 m d)) $$ [Hb Ha11 Hv3]
  · isplitl [Hb]; · iexact Hb
    rw [held_pair d main_arg11 main_v3 (by decide)]
    isplitl [Ha11]; · iapply (pts_cast (ℓ := (d.tc : Thread nD τ).loc main_arg11) (V3_a11 m d).symm); iexact Ha11
    iapply (pts_cast (ℓ := (d.tc : Thread nD τ).loc main_v3) (V3_v3 m d).symm); iexact Hv3
  iintro ⟨Hb, Hh⟩
  ihave Hh' := (Entails.of_eq (held_pair d main_arg11 main_v3 (by decide) _)) $$ Hh
  icases Hh' with ⟨Ha11, Hv3⟩
  ihave Ha11 := (pts_cast (ℓ := (d.tc : Thread nD τ).loc main_arg11) (show (op3 (F := F)).result (V3 m d) (r main_arg11) = m ((d.tc : Thread nD τ).loc main_arg11) from V4_ne m d (b := main_arg11) (by decide) (by decide) (by decide) (by decide))) $$ Ha11
  rw [wp_ret]; imodintro
  -- the second kernel's region: the TensorCore owes nothing any more
  unfold SparseCore.Cfg.tcSt
  icases Hst with ⟨⟨%W, %hW, HO⟩, Hat, #Hrd, #Hrs, Htoks⟩
  rw [(K (F := F)).Otc_end d (le_refl 1)]
  ihave Hlv := (SparseCore.Cfg.ctx_levAts (K := K (F := F)) (EH := EH) (P := P m) κ) $$ Hctx
  iapply (region_step m hregion d W _) $$ [Hb HO HG Hlv Hv2 Hv1 Hv3 Ha12 Ha13 Hv4 Hat Htoks Ha0 Ha1 Ha2 Ha3 Ha4 Ha5 Ha6 Ha7 Ha8 Ha9 Ha10 Ha11]
  isplitl [Hat Htoks Ha0 Ha1 Ha2 Ha3 Ha4 Ha5 Ha6 Ha7 Ha8 Ha9 Ha10 Ha11]
  · iintro ⟨Hb, Harr, %W', %hW', HO⟩
    unfold regionArrs
    icases Harr with ⟨Hv2, Hv1, Hv3, Ha12, Ha13, Hv4⟩
    ihave Ha12 := (pts_cast (ℓ := (d.tc : Thread nD τ).loc main_arg12) (V4_ne m d (b := main_arg12) (by decide) (by decide) (by decide) (by decide))) $$ Ha12
    ihave Ha13 := (pts_cast (ℓ := (d.tc : Thread nD τ).loc main_arg13) (V4_ne m d (b := main_arg13) (by decide) (by decide) (by decide) (by decide))) $$ Ha13
    imodintro
    isplitl [HO Hat Htoks]
    · isplitl [HO]
      · iexists W'; isplitr
        · ipureintro
          exact fun p hp => (hW' p hp).elim (fun h => hW p h) (fun h => by rw [h]; exact Nat.zero_le _)
        · iexact HO
      isplitl [Hat]; · iexact Hat
      isplitr; · iexact Hrd
      isplitr; · iexact Hrs
      iexact Htoks
    · isplitl [Hv4]; · iexact Hv4
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [Ha10]; · iexact Ha10
      isplitl [Ha11]; · iexact Ha11
      isplitl [Ha12]; · iexact Ha12
      iexact Ha13
  isplitl [Hb]; · iexact Hb
  isplitl [Hv2 Hv1 Hv3 Ha12 Ha13 Hv4]
  · unfold regionArrs
    isplitl [Hv2]; · iapply (pts_cast (ℓ := (d.tc : Thread nD τ).loc main_v2) (V4_v2 m d).symm); iexact Hv2
    isplitl [Hv1]; · iapply (pts_cast (ℓ := (d.tc : Thread nD τ).loc main_v1) (show (op2 (F := F)).result ((op1 (F := F)).result (V0 m d)) (r main_v1) = entryV m d main_v1 from (V4_v1 m d).symm)); iexact Hv1
    isplitl [Hv3]; · iapply (pts_cast (ℓ := (d.tc : Thread nD τ).loc main_v3) (show (op3 (F := F)).result (V3 m d) (r main_v3) = entryV m d main_v3 from rfl)); iexact Hv3
    isplitl [Ha12]; · iapply (pts_cast (ℓ := (d.tc : Thread nD τ).loc main_arg12) (V4_ne m d (b := main_arg12) (by decide) (by decide) (by decide) (by decide)).symm); iexact Ha12
    isplitl [Ha13]; · iapply (pts_cast (ℓ := (d.tc : Thread nD τ).loc main_arg13) (V4_ne m d (b := main_arg13) (by decide) (by decide) (by decide) (by decide)).symm); iexact Ha13
    iapply (pts_cast (ℓ := (d.tc : Thread nD τ).loc main_v4) (V4_ne m d (b := main_v4) (by decide) (by decide) (by decide) (by decide)).symm); iexact Hv4
  isplitl [HO]; · iexact HO
  isplitl [Hlv]; · iexact Hlv
  iexact HG

/-! ## The program's run -/

/-- The run of the whole family of threads, from the tiles' obligation, the split, the cover and the region's rule:
    every argument array ends at its launch contents and the result array at resultK. -/
theorem run_main [∀ e, Nonempty (Elt F e)] (hcover : Cover (F := F)) (hregion : RegionRule (entryV m))
    (htile : (K (F := F)).TileObl (D (F := F)) 𝒱 (P m) v₀ 0) (hvec : (K (F := F)).VecSplit' (P m) 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (fun d => GH (F := F) d) (FIN m) (u₀ (F := F)) (sep_elim_left.trans (hu₀ m)) (hmain m ρ hcover hregion) (fq m) (hfin m) (QC m) (fun _ h => h)

end Cert.Proof.KI

end
-- ==== Proof.PreDecode.lean ====
/-
  The precondition, read back: what it says of the two index arrays.

  The printed precondition is a conjunction of fourteen bits. Twelve say that a float argument has only finite
  entries; the last two say, of the source words and of the destination words, that every word read as a signed
  integer lies between 0 and 99999. A signed word that is non-negative is its own unsigned value, so each such word
  is below the tables' 100000 rows.
-/
import proofs.«216967_g84078279786708_cont_9to1_m_1153_28_alg».proof.Proof.Gen.Pre_input_domain
import proofs.«216967_g84078279786708_cont_9to1_m_1153_28_alg».proof.Proof.Spec
import Idealize.ShloMosaic.Lib.ReduceAll

namespace Cert.Proof.PreDecode

open Idealize.ShloMosaic Cert.Pre_input_domain

/-- The shape of a single bit has one index. -/
instance subsingleton_idx : Subsingleton S_.Idx := ⟨fun _ _ => funext fun d => d.elim0⟩

/-- One word between 0 and 99999 as a signed integer: non-negative, and below 100000 as an unsigned one. -/
theorem word_in_range (v : BitVec 32)
    (h : IntOp.andi (IntOp.cmpi .sge v 0#32) (IntOp.cmpi .sle v 99999#32) = 1#1) : 0 ≤ v.toInt ∧ v.toNat < 100000 := by
  obtain ⟨h0, h1⟩ := IntOp.andi_eq_one.1 h
  rw [IntOp.cmpi_sge, show (0#32 : BitVec 32).toInt = 0 from by decide] at h0
  rw [IntOp.cmpi_sle, show (99999#32 : BitVec 32).toInt = 99999 from by decide] at h1
  refine ⟨h0, ?_⟩
  have hc := BitVec.toInt_eq_toNat_cond v
  have hl := v.isLt
  split at hc <;> omega

/-- An index array whose every word passed the two signed comparisons is in range. -/
theorem inRange_of_all (a : IVec S16384 32) (hb0 : S_.BroadcastsInDim S16384 (![] : Fin 0 → Fin S16384.rank))
    (hb1 : S_.BroadcastsInDim S16384 (![] : Fin 0 → Fin S16384.rank))
    (hall : ∀ i : S16384.Idx, andi (cmpi .sge a (broadcastInDim S16384 ![] hb0 (constantI S_ 32 0#32)))
      (cmpi .sle a (broadcastInDim S16384 ![] hb1 (constantI S_ 32 99999#32))) i = 1#1) : Cert.Spec.InRange a :=
  fun b => word_in_range _ (hall (ValueIdx.ix1 b))

theorem in_range {F : FTy → Type} [FloatOps F] (a0 a1 : IVec S16384 32) (a2 : FVec F S16384 .f32) (a3 : FVec F S16384x16 .f32)
    (a4 a5 : FVec F S100000x128 .f32) (a6 : FVec F S16x1 .f32) (a7 : FVec F S16 .f32) (a8 : FVec F S128x16 .f32)
    (a9 : FVec F S128 .f32) (a10 : FVec F S128x512 .f32) (a11 : FVec F S128 .f32) (a12 : FVec F S1x128 .f32) (a13 : FVec F S1 .f32)
    (h : Cert.Pre_input_domain.fn (F := F) a0 a1 a2 a3 a4 a5 a6 a7 a8 a9 a10 a11 a12 a13 = fun _ => 1#1) :
    Cert.Spec.InRange a0 ∧ Cert.Spec.InRange a1 := by
  have e := congrFun h ValueIdx.ix0
  dsimp only [fn, fn_part1, fn_part2, fn_part3, fn_part4, andi] at e
  obtain ⟨e, e1⟩ := IntOp.andi_eq_one.1 e
  obtain ⟨-, e0⟩ := IntOp.andi_eq_one.1 e
  exact ⟨inRange_of_all a0 _ _ (Host.reduce_andi_all _ _ _ _ _ e0), inRange_of_all a1 _ _ (Host.reduce_andi_all _ _ _ _ _ e1)⟩

end Cert.Proof.PreDecode
-- ==== Proof.KI.Pre.lean ====
/-
  The certificate's precondition gives what the proofs ask of the launch memory: the two index arrays' words, read
  signed, lie between 0 and 99999, so each names a row of the tables.
-/
import proofs.«216967_g84078279786708_cont_9to1_m_1153_28_alg».proof.Proof.KI.Common
import proofs.«216967_g84078279786708_cont_9to1_m_1153_28_alg».proof.Proof.PreDecode
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

theorem preOK_of_pre
    (h : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = (fun _ => 1#1)) :
    PreOK m :=
  fun d => Cert.Proof.PreDecode.in_range _ _ _ _ _ _ _ _ _ _ _ _ _ _ (h d)

end Cert.Proof.KI

end
-- ==== Proof.KI.TileCover.lean ====
/-
  The tiles' chunks of the gathered array: which entries each covers, that no two share an entry, and that together
  they are the whole array. The launch hands the array to the tiles chunk by chunk and takes it back the same way.
-/
import proofs.«216967_g84078279786708_cont_9to1_m_1153_28_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The chunks of the gathered array

Chunk k = 2 * p + h of tile (c, s) is plane p, rows 1024 * s + 512 * c + 256 * h … + 256, all 128 columns. A row number
below 16384 is 1024 * s + 512 * c + 256 * h + r for exactly one (s, c, h) and r < 256: the 2 × 16 × 8 chunks are pairwise
disjoint and cover the array. -/

/-- A squeezed unit-stride slice of the gathered array covers the slice's rectangle. -/
theorem mem_chunk (off : Fin 3 → Nat) (inb : ∀ a, off a + S1x256x128.size a ≤ S4x16384x128.size a) (i : S4x16384x128.Idx) :
    i ∈ (((gV.slice (Rect.unit (s := S4x16384x128) off S1x256x128.size inb) (fun _ => rfl)).squeeze S256x128
        squeezes_S1x256x128_S256x128).view.set : Finset S4x16384x128.Idx)
      ↔ ∀ a, off a ≤ i a ∧ (i a : Nat) < off a + S1x256x128.size a := by
  have e : (((gV.slice (Rect.unit (s := S4x16384x128) off S1x256x128.size inb) (fun _ => rfl)).squeeze S256x128
        squeezes_S1x256x128_S256x128).view.set : Finset S4x16384x128.Idx)
      = (Rect.unit (s := S4x16384x128) off S1x256x128.size inb).set :=
    (View.set_reshape _ _).trans (View.set_slice_whole _ _)
  rw [e]; exact Rect.mem_set_unit

/-- Chunk k of tile L in coordinates: plane k / 2, rows 1024 * L 1 + 512 * L 0 + 256 * (k % 2) … + 256. -/
theorem mem_chunkSet (L : grid0.Coords) (k : Fin 8) (i : S4x16384x128.Idx) :
    i ∈ chunkSet L k ↔ (i 0).val = k.val / 2 ∧ 1024 * (L 1).val + 512 * (L 0).val + 256 * (k.val % 2) ≤ (i 1).val
      ∧ (i 1).val < 1024 * (L 1).val + 512 * (L 0).val + 256 * (k.val % 2) + 256 := by
  have h2 : (i 2).val < 128 := (i 2).isLt
  have h0 : (i 0).val < 4 := (i 0).isLt
  fin_cases k
  · refine (mem_chunk _ _ i).trans ?_
    rw [show k0_off2 L 0#32 = _ from k0_off2_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off2 L 256#32 = _ from k0_off2_eq L ⟨1, by decide⟩]
    constructor
    · intro h; have a0 := h 0; have a1 := h 1; simp at a0 a1 ⊢; omega
    · intro h a; fin_cases a <;> simp at h ⊢ <;> omega
  · refine (mem_chunk _ _ i).trans ?_
    rw [show k0_off3 L 0#32 = _ from k0_off3_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off3 L 256#32 = _ from k0_off3_eq L ⟨1, by decide⟩]
    constructor
    · intro h; have a0 := h 0; have a1 := h 1; simp at a0 a1 ⊢; omega
    · intro h a; fin_cases a <;> simp at h ⊢ <;> omega
  · refine (mem_chunk _ _ i).trans ?_
    rw [show k0_off4 L 0#32 = _ from k0_off4_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off4 L 256#32 = _ from k0_off4_eq L ⟨1, by decide⟩]
    constructor
    · intro h; have a0 := h 0; have a1 := h 1; simp at a0 a1 ⊢; omega
    · intro h a; fin_cases a <;> simp at h ⊢ <;> omega
  · refine (mem_chunk _ _ i).trans ?_
    rw [show k0_off5 L 0#32 = _ from k0_off5_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off5 L 256#32 = _ from k0_off5_eq L ⟨1, by decide⟩]
    constructor
    · intro h; have a0 := h 0; have a1 := h 1; simp at a0 a1 ⊢; omega
    · intro h a; fin_cases a <;> simp at h ⊢ <;> omega

theorem tileL_zero (c : Fin 2) (s : Fin 16) : ((tileL c s) 0).val = c.val := rfl
theorem tileL_one (c : Fin 2) (s : Fin 16) : ((tileL c s) 1).val = s.val := rfl

/-- Two different (tile, chunk) pairs have no entry in common. -/
theorem chunk_disjoint {c c' : Fin 2} {s s' : Fin 16} {k k' : Fin 8} (h : ¬ (c = c' ∧ s = s' ∧ k = k')) :
    Disjoint (chunkSet (tileL c s) k) (chunkSet (tileL c' s') k') := by
  refine Finset.disjoint_left.mpr fun i hi hi' => h ?_
  rw [mem_chunkSet, tileL_zero, tileL_one] at hi hi'
  have hc := c.isLt; have hc' := c'.isLt; have hs := s.isLt; have hs' := s'.isLt; have hk := k.isLt; have hk' := k'.isLt
  refine ⟨Fin.ext ?_, Fin.ext ?_, Fin.ext ?_⟩ <;> omega

/-- What tile (c, s) writes, and what SparseCore c's tiles write. -/
def tileSet (c : Fin 2) (s : Fin 16) : Finset S4x16384x128.Idx := Finset.univ.biUnion fun k : Fin 8 => chunkSet (tileL c s) k
def coreSet (c : Fin 2) : Finset S4x16384x128.Idx := Finset.univ.biUnion fun s : Fin 16 => tileSet c s

theorem tile_disjoint {c c' : Fin 2} {s s' : Fin 16} (h : ¬ (c = c' ∧ s = s')) : Disjoint (tileSet c s) (tileSet c' s') :=
  (Finset.disjoint_biUnion_left _ _ _).mpr fun _ _ => (Finset.disjoint_biUnion_right _ _ _).mpr fun _ _ =>
    chunk_disjoint fun e => h ⟨e.1, e.2.1⟩

theorem core_disjoint {c c' : Fin 2} (h : c ≠ c') : Disjoint (coreSet c) (coreSet c') :=
  (Finset.disjoint_biUnion_left _ _ _).mpr fun _ _ => (Finset.disjoint_biUnion_right _ _ _).mpr fun _ _ =>
    tile_disjoint fun e => h e.1

/-- Every entry of the gathered array is in some chunk of some tile. -/
theorem cores_cover : (Finset.univ : Finset (Fin 2)).biUnion coreSet = (Finset.univ : Finset S4x16384x128.Idx) := by
  ext i
  have h0 : (i 0).val < 4 := (i 0).isLt
  have h1 : (i 1).val < 16384 := (i 1).isLt
  simp only [coreSet, tileSet, Finset.mem_biUnion, Finset.mem_univ, true_and, iff_true]
  refine ⟨⟨(i 1).val % 1024 / 512, by omega⟩, ⟨(i 1).val / 1024, by omega⟩, ⟨2 * (i 0).val + (i 1).val % 512 / 256, by omega⟩, ?_⟩
  rw [mem_chunkSet, tileL_zero, tileL_one]
  refine ⟨?_, ?_, ?_⟩ <;> simp only <;> omega

/-- (A) The gathered array whole is the tiles' chunks, SparseCore by SparseCore, tile by tile. -/
theorem g_cover (d : Dev nD) (f : Buf (Elt F) (gLoc d)) :
    (gLoc d ↦{fullShare} f : sProp 𝕄)
      = bigSep Finset.univ fun c : Fin 2 => bigSep Finset.univ fun s : Fin 16 => chunksPts d (tileL c s) f := by
  have e1 : (gLoc d ↦{fullShare} f : sProp 𝕄) = bigSep Finset.univ fun c : Fin 2 => gLoc d ↦[coreSet c]{fullShare} f := by
    rw [← pointsTo_biUnion Finset.univ (ℓ := gLoc d) coreSet fun c _ c' _ h => core_disjoint h, cores_cover]; try rfl
  have e2 (c : Fin 2) : (gLoc d ↦[coreSet c]{fullShare} f : sProp 𝕄) = bigSep Finset.univ fun s : Fin 16 => gLoc d ↦[tileSet c s]{fullShare} f :=
    pointsTo_biUnion Finset.univ (ℓ := gLoc d) (tileSet c) fun s _ s' _ h => tile_disjoint fun e => h e.2
  have e3 (c : Fin 2) (s : Fin 16) : (gLoc d ↦[tileSet c s]{fullShare} f : sProp 𝕄) = chunksPts d (tileL c s) f :=
    pointsTo_biUnion Finset.univ (ℓ := gLoc d) (chunkSet (tileL c s)) fun k _ k' _ h => chunk_disjoint fun e => h e.2.2
  rw [e1]
  refine bigSep_congr fun c _ => ?_
  rw [e2]
  exact bigSep_congr fun s _ => e3 c s

end Cert.Proof.KI

end
-- ==== Proof.KI.RegionData.lean ====
/-
  The TensorCore region's proof data: what each of the pipeline's six windows holds around the body at a grid point.
  The five input windows (the gathered array in blocks of 2048 rows, the re-laid weights, the bias row, the second
  layer's row and its bias, each of the last four one whole block) are left as the body found them; the result window's
  buffer holds, after the body at point t, the body's arithmetic on the input blocks at t: four matmuls of the planes
  of the gathered block with the planes of the weights, summed, the bias row added, the clamp at zero, the product with
  the second layer's row summed over the 128 lanes, the second bias added. The body's run is by symbolic execution of
  the printed function's skeleton over those payloads.
-/
import proofs.«216967_g84078279786708_cont_9to1_m_1153_28_alg».proof.Proof.KI.Common

import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-! ## The body's accesses -/

/-- Plane p of the staged block of the gathered array, p = 0 … 3. -/
abbrev rg0 : Rect S4x2048x128 := Rect.unit (s := S4x2048x128) ![0, 0, 0] S1x2048x128.size inb_S4x2048x128_S1x2048x128_0_0_0
abbrev rg1 : Rect S4x2048x128 := Rect.unit (s := S4x2048x128) ![1, 0, 0] S1x2048x128.size inb_S4x2048x128_S1x2048x128_1_0_0
abbrev rg2 : Rect S4x2048x128 := Rect.unit (s := S4x2048x128) ![2, 0, 0] S1x2048x128.size inb_S4x2048x128_S1x2048x128_2_0_0
abbrev rg3 : Rect S4x2048x128 := Rect.unit (s := S4x2048x128) ![3, 0, 0] S1x2048x128.size inb_S4x2048x128_S1x2048x128_3_0_0
/-- Plane p of the staged weights. -/
abbrev rw0 : Rect S4x128x128 := Rect.unit (s := S4x128x128) ![0, 0, 0] S1x128x128.size inb_S4x128x128_S1x128x128_0_0_0
abbrev rw1 : Rect S4x128x128 := Rect.unit (s := S4x128x128) ![1, 0, 0] S1x128x128.size inb_S4x128x128_S1x128x128_1_0_0
abbrev rw2 : Rect S4x128x128 := Rect.unit (s := S4x128x128) ![2, 0, 0] S1x128x128.size inb_S4x128x128_S1x128x128_2_0_0
abbrev rw3 : Rect S4x128x128 := Rect.unit (s := S4x128x128) ![3, 0, 0] S1x128x128.size inb_S4x128x128_S1x128x128_3_0_0
/-- The whole row, the whole scalar, the whole result block. -/
abbrev rrow : Rect S1x128 := Rect.unit (s := S1x128) ![0, 0] S1x128.size inb_S1x128_S1x128_0_0
abbrev rone : Rect S1 := Rect.unit (s := S1) ![0] S1.size inb_S1_S1_0
abbrev rout : Rect S2048 := Rect.unit (s := S2048) ![0] S2048.size inb_S2048_S2048_0

/-! ## What the body leaves in the result window's buffer -/

/-- The body's arithmetic on the staged blocks: the four matmuls of the planes of the gathered block with the planes of
    the weights, summed; the bias row added, the clamp at zero, the product with the second layer's row summed over
    the lanes, the second bias added. -/
def blockOut (x0 : Vec F S4x2048x128 .f32) (x1 : Vec F S4x128x128 .f32) (x2 : Vec F S1x128 .f32) (x3 : Vec F S1x128 .f32)
    (x4 : Vec F S1 .f32) : Vec F S2048 .f32 :=
  k1_pay1 (k1_pay2 (View.ld x0 rg0) (View.ld x1 rw0) (View.ld x0 rg1) (View.ld x1 rw1) (View.ld x0 rg2) (View.ld x1 rw2)
      (View.ld x0 rg3) (View.ld x1 rw3)) (View.ld x2 rrow) (View.ld x3 rrow) (View.ld x4 rone)

theorem hz1 : (![0] : Fin 1 → Nat) = fun _ => 0 := funext fun a => by fin_cases a <;> rfl

/-! ## The body's triple -/

set_option maxHeartbeats 1000000 in
/-- The kernel body on whole staging memrefs, the inputs' at read contents and the result's at anything, runs to the
    continuation holding the inputs' as they were and the result's at the body's arithmetic of the inputs'. -/
theorem sound_kernel (c : Dev nD) (E : Set ℕ) (i : grid1.Coords) (arg1 : Memref sig .tc .vmem S4x2048x128 .f32) (harg1 : arg1.IsWhole) (arg2 : Memref sig .tc .vmem S4x128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1 .f32) (harg5 : arg5.IsWhole) (arg6 : Memref sig .tc .vmem S2048 .f32) (harg6 : arg6.IsWhole)
    (x0 : Vec F S4x2048x128 .f32) (x1 : Vec F S4x128x128 .f32) (x2 : Vec F S1x128 .f32) (x3 : Vec F S1x128 .f32) (x4 : Vec F S1 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ owns (c.tc : Thread nD τ) arg4 fullShare x3 ∗ owns (c.tc : Thread nD τ) arg5 fullShare x4 ∗ (∃ d, owns (c.tc : Thread nD τ) arg6 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare x3 ∗ owns (c.tc : Thread nD τ) arg5 fullShare x4
            ∗ owns (c.tc : Thread nD τ) arg6 fullShare (blockOut x0 x1 x2 x3 x4)) -∗ Kc ⟨⟩))
      ⊢ wp frame (wpE (defs₀ (F := F)) Variants.none (c.tc : Thread nD τ) none) E (cc1__mlp_body i arg1 harg1 arg2 harg2 arg3 harg3 arg4 harg4 arg5 harg5 arg6 harg6) Kc := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (fun y => ⟨_, List.mem_singleton_self _, View.mem_set_unit_zero hz1 inb_S2048_S2048_0 y⟩)).trans
    (View.canon_unit_zero hz1 inb_S2048_S2048_0 _)

/-! ## The pipeline's proof data -/

/-- The proof data of the pipeline on core c: the arrays as the region finds them; after the body at point t each
    input's buffer at its block and the result's at the body's arithmetic of the input blocks; no invariant of the
    body's own; nothing owed, the recorded pairs those the region was entered with; full shares. -/
def dats (W : Waits sig (HIx 1)) (_ : Fin 1) (c : Dev nD) : Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => blockOut (iblk Vr c 0 t) (iblk Vr c 1 t) (iblk Vr c 2 t) (iblk Vr c 3 t) (iblk Vr c 4 t)
  Φ _ := iprop(emp)
  q _ := fullShare
  owed _ := 0
  recorded _ := {p | p ∈ W}

variable (W : Waits sig (HIx 1))

theorem A_eq (c : Dev nD) (w : Fin cfg1.W) : (dats Vr W 0 c).A w = Vr c (Pipeline.arrRef spec1 w) := by
  dsimp only [dats]

/-- What the body leaves, window by window. -/
theorem after1_0 (c : Dev nD) (t : Fin cfg1.N) : (dats Vr W 0 c).after 0 t = iblk Vr c 0 t := by dsimp only [dats]
theorem after1_1 (c : Dev nD) (t : Fin cfg1.N) : (dats Vr W 0 c).after 1 t = iblk Vr c 1 t := by dsimp only [dats]
theorem after1_2 (c : Dev nD) (t : Fin cfg1.N) : (dats Vr W 0 c).after 2 t = iblk Vr c 2 t := by dsimp only [dats]
theorem after1_3 (c : Dev nD) (t : Fin cfg1.N) : (dats Vr W 0 c).after 3 t = iblk Vr c 3 t := by dsimp only [dats]
theorem after1_4 (c : Dev nD) (t : Fin cfg1.N) : (dats Vr W 0 c).after 4 t = iblk Vr c 4 t := by dsimp only [dats]
theorem after1_5 (c : Dev nD) (t : Fin cfg1.N) : (dats Vr W 0 c).after 5 t
    = blockOut (iblk Vr c 0 t) (iblk Vr c 1 t) (iblk Vr c 2 t) (iblk Vr c 3 t) (iblk Vr c 4 t) := by dsimp only [dats]

/-- Each input's current staging buffer holds its block at every point, fetched there or not: unfetched, the block
    index has not moved and the body left the block in place. -/
theorem before1_0 (c : Dev nD) (t : Fin cfg1.N) (d) : (dats Vr W 0 c).before 0 t d = iblk Vr c 0 t :=
  ((dats Vr W 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats Vr W 0 c).before 1 t d = iblk Vr c 1 t :=
  ((dats Vr W 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats Vr W 0 c).before 2 t d = iblk Vr c 2 t :=
  ((dats Vr W 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats Vr W 0 c).before 3 t d = iblk Vr c 3 t :=
  ((dats Vr W 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats Vr W 0 c).before 4 t d = iblk Vr c 4 t :=
  ((dats Vr W 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)

end Cert.Proof.KI

end
-- ==== Proof.KI.RegionBody.lean ====
/-
  The TensorCore region's body obligation: at every grid point, from the six windows' current staging buffers at what
  they then hold (each input's at its block, fetched there or not; the result's at anything), the kernel's body runs to
  the same buffers with the result's at the body's arithmetic of the input blocks. The body keeps nothing between
  points and owes nothing: the invariant and the tallies pass through.
-/
import proofs.«216967_g84078279786708_cont_9to1_m_1153_28_alg».proof.Proof.KI.Common
import proofs.«216967_g84078279786708_cont_9to1_m_1153_28_alg».proof.Proof.KI.RegionData
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b)) (W : Waits sig (HIx 1))

/-! ## The body obligation, at a generic point -/

/-- What the body is called with at point t: the windows one by one, -/
def bodyPre (c : Dev nD) (t : Fin cfg1.N) : sProp 𝕄 :=
  iprop((dats Vr W 0 c).Φ t.castSucc ∗ (dats Vr W 0 c).owesAt (none : HIx 1) t.castSucc
    ∗ (∃ d, owns (c.tc : Thread nD τ) (st1_0 t) fullShare ((dats Vr W 0 c).before 0 t d))
    ∗ (∃ d, owns (c.tc : Thread nD τ) (st1_1 t) fullShare ((dats Vr W 0 c).before 1 t d))
    ∗ (∃ d, owns (c.tc : Thread nD τ) (st1_2 t) fullShare ((dats Vr W 0 c).before 2 t d))
    ∗ (∃ d, owns (c.tc : Thread nD τ) (st1_3 t) fullShare ((dats Vr W 0 c).before 3 t d))
    ∗ (∃ d, owns (c.tc : Thread nD τ) (st1_4 t) fullShare ((dats Vr W 0 c).before 4 t d))
    ∗ (∃ d, owns (c.tc : Thread nD τ) (st1_5 t) fullShare ((dats Vr W 0 c).before 5 t d)))

/-- and what it returns. -/
def bodyPost (c : Dev nD) (t : Fin cfg1.N) : sProp 𝕄 :=
  iprop((dats Vr W 0 c).Φ t.succ ∗ (dats Vr W 0 c).owesAt (none : HIx 1) t.succ
    ∗ owns (c.tc : Thread nD τ) (st1_0 t) fullShare ((dats Vr W 0 c).after 0 t)
    ∗ owns (c.tc : Thread nD τ) (st1_1 t) fullShare ((dats Vr W 0 c).after 1 t)
    ∗ owns (c.tc : Thread nD τ) (st1_2 t) fullShare ((dats Vr W 0 c).after 2 t)
    ∗ owns (c.tc : Thread nD τ) (st1_3 t) fullShare ((dats Vr W 0 c).after 3 t)
    ∗ owns (c.tc : Thread nD τ) (st1_4 t) fullShare ((dats Vr W 0 c).after 4 t)
    ∗ owns (c.tc : Thread nD τ) (st1_5 t) fullShare ((dats Vr W 0 c).after 5 t))

/-- The body at any point: the inputs' memrefs hold their blocks, so the body's triple applies; the invariant and the
    core's tallies pass through unread. -/
theorem sound_body (c : Dev nD) (t : Fin cfg1.N) :
    bodyPre Vr W c t ⊢ wp frame (wpE (defs₀ (F := F)) Variants.none (c.tc : Thread nD τ) none) Set.univ (bodyAt1 t) (fun _ => bodyPost Vr W c t) := by
  unfold bodyPre bodyPost bodyAt1
  simp only [before1_0, before1_1, before1_2, before1_3, before1_4]
  rw [show (dats Vr W 0 c).Φ t.succ = (dats Vr W 0 c).Φ t.castSucc from rfl,
    show (dats Vr W 0 c).owesAt (none : HIx 1) t.succ = (dats Vr W 0 c).owesAt (none : HIx 1) t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk Vr c 0 t) (iblk Vr c 1 t) (iblk Vr c 2 t) (iblk Vr c 3 t) (iblk Vr c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats Vr W 0 c) (defs₀ (F := F)) Variants.none (none : HIx 1) Set.univ := fun t => by
  rw [bigSep_W1, bigSep_W1]
  exact sound_body Vr W c t

end Cert.Proof.KI

end
-- ==== Proof.KI.RegionRun.lean ====
/-
  The TensorCore region as a segment of the program: the pipeline's decided layout, no semaphore of the kernel's own,
  the body obligation, and the four entailments around it. The region is entered from its six arrays held whole at
  what they then hold and the core owing nothing; the windows' arrays are those six; nothing else enters the
  pipeline's invariant (the kernel has no scoped buffer beside the staging buffers) and nothing bypasses it. It leaves
  the five inputs as they were (an input window is never written back) and the result array at what the eight
  write-backs made of it, the core still owing nothing, its recorded pairs those it entered with and the loop's own.
-/
import proofs.«216967_g84078279786708_cont_9to1_m_1153_28_alg».proof.Proof.KI.Common
import proofs.«216967_g84078279786708_cont_9to1_m_1153_28_alg».proof.Proof.KI.RegionIface
import proofs.«216967_g84078279786708_cont_9to1_m_1153_28_alg».proof.Proof.KI.RegionBody
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b)) (W : Waits sig (HIx 1))

/-! ## The region as a segment -/

/-- The region's arrays, the result at f4, with the pairs the core's waits may have recorded past those it entered with:
    the loop's own, at the pipeline's index. -/
def regionPost (c : Dev nD) (f4 : Buf (Elt F) ((c.tc : Thread nD τ).loc main_v4)) : sProp 𝕄 :=
  iprop(regionArrs Vr c f4 ∗ ∃ W', ⌜∀ p ∈ W', p ∈ W ∨ p.2 = none⌝ ∗ owes (c.tc : Thread nD τ) 0 W')

-- the launch lemmas stated over a family of configurations meet the pinned one only when unification may unfold plain
-- definitions in a metavariable's type
set_option backward.isDefEq.respectTransparency.types false in
/-- THE REGION: the decided layout, no semaphore of the kernel's own, the body obligation; entered from the six arrays
    whole and the core owing nothing, left with the result array at what the write-backs made of it. -/
def reg : Pipeline.RegionSeg (pcfgs (F := F)) (adm (F := F)) (dats Vr W) (none : HIx 1) defs₀ 𝒱₀ (K (F := F)).L (K (F := F)).lev 0 where
  win := winFacts1.to₀
  block_pos := block_pos1
  stage_whole := stage_whole1
  K := PEmpty
  osem := fun k => k.elim
  ho := Pipeline.OwnSemFacts.none _
  hbody c := (body_obligation Vr W c).loose
  hwaits := Pipeline.hwaits_of_owed_zero _ _ _ _ _ _ 0 fun _ _ => rfl
  pre c := iprop(regionArrs Vr c (Vr c main_v4) ∗ owes (c.tc : Thread nD τ) 0 W)
  post c := regionPost Vr W c ((dats Vr W 0 c).arrAt 5 cfg1.N)
  X _ := iprop(emp)
  Y _ := iprop(emp)
  Z _ := iprop(emp)
  hentry c := by
    rw [Pipeline.arrays_eq (Pipeline.pin (pcfgs (F := F)) (adm (F := F))) (dats Vr W) 0 c arr_whole1 ((dats Vr W 0 c).share_full fun _ => rfl), bigSep_W1]
    unfold regionArrs
    iintro ⟨⟨⟨H0, H1, H2, H3, H4, H5⟩, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl hp
      iexact HO
    isplitl [] <;> iempintro
  hin c := by
    rw [show (dats Vr W 0 c).Φ 0 = iprop(emp) from rfl]
    iintro -; iempintro
  hout c := by
    rw [Pipeline.ownSems0_none _ _ _ _ _ _ _ _ c,
      show Pipeline.scopedRest (Pipeline.pin (pcfgs (F := F)) (adm (F := F)) 0).spec c = (BI.emp : sProp 𝕄) from scopedRest1_eq c]
    iintro -
    isplitl []; · iempintro
    isplitl [] <;> iempintro
  hexit c := by
    rw [Pipeline.arrays_eq (Pipeline.pin (pcfgs (F := F)) (adm (F := F))) (dats Vr W) 0 c arr_whole1 ((dats Vr W 0 c).share_full fun _ => rfl), bigSep_W1]
    rw [(dats Vr W 0 c).arrAt_in 0 rfl, (dats Vr W 0 c).arrAt_in 1 rfl, (dats Vr W 0 c).arrAt_in 2 rfl, (dats Vr W 0 c).arrAt_in 3 rfl,
      (dats Vr W 0 c).arrAt_in 4 rfl]
    unfold regionPost regionArrs
    iintro ⟨⟨H0, H1, H2, H3, H4, H5⟩, HO, -, -⟩
    imodintro
    isplitr [HO]
    · isplitl [H0]; · iexact H0
      isplitl [H1]; · iexact H1
      isplitl [H2]; · iexact H2
      isplitl [H3]; · iexact H3
      isplitl [H4]; · iexact H4
      iexact H5
    · unfold Pipeline.Dat.owesAt Pipeline.owesWithin
      icases HO with ⟨%W', %hW, HO⟩
      iexists W'; isplitr
      · ipureintro
        intro p hp
        rcases hW hp with h | ⟨w, s, rfl⟩
        · exact Or.inl h
        · exact Or.inr rfl
      iexact HO

/-- The region's rule with the result array at what the pipeline's write-backs make of it: the library's step for a
    kernel region at this segment. -/
theorem region_wp_blocks (d : Dev nD) {α : Type} (k : PUnit → Prog (TpuEff nD τ sig (Elt F) (ΛP (F := F)) .tc) α) (Q : α → sProp 𝕄) :
    iprop((iprop(boundary (d.tc : Thread nD τ) ∗ regionPost Vr W d ((dats Vr W 0 d).arrAt 5 cfg1.N))
            -∗ wp frame (wpE (D (F := F)) 𝒱 (d.tc : Thread nD τ) none) Set.univ (k ⟨⟩) Q)
        ∗ boundary (d.tc : Thread nD τ) ∗ regionArrs Vr d (Vr d main_v4) ∗ owes (d.tc : Thread nD τ) 0 W ∗ levAts (K (F := F)).L (K (F := F)).lev
        ∗ Pipeline.cellsGhost (Pipeline.pin (pcfgs (F := F)) (adm (F := F))) EP 0 d ∗ Pipeline.toksInit (Pipeline.pin (pcfgs (F := F)) (adm (F := F))) EP 0 d)
      ⊢ wp frame (wpE (D (F := F)) 𝒱 (d.tc : Thread nD τ) none) Set.univ (.op (.customCall (Pipeline.entry 0) ()) k) Q := by
  refine .trans ?_ (Pipeline.RegionSeg.wp (pcfgs (F := F)) (adm (F := F)) (dats Vr W) (none : HIx 1) cellOf_inj EP defs₀ 𝒱₀ (K (F := F)).L (K (F := F)).lev
    (reg Vr W) d none (fun _ h => by cases h) k Q)
  iintro ⟨Hk, Hb, Ha, HO, Hl, Hg, Ht⟩
  isplitl [Hk]; · iexact Hk
  isplitl [Hb]; · iexact Hb
  isplitl [Ha HO]
  · iapply (show iprop(regionArrs Vr d (Vr d main_v4) ∗ owes (d.tc : Thread nD τ) 0 W) ⊢ (reg Vr W).pre d from .rfl)
    isplitl [Ha]; · iexact Ha
    iexact HO
  isplitl [Hl]; · iexact Hl
  isplitl [Hg]; · iexact Hg
  iexact Ht

end Cert.Proof.KI

end
-- ==== Proof.KI.RegionValue.lean ====
/-
  The result array after the TensorCore region is the specification's term of the arrays the region finds.
  What point t writes back is the body's arithmetic on the staged blocks at t. The staged block of the gathered array
  at t holds rows 2048 * t + r of the array (a block's coordinate is its index times its size plus the coordinate
  inside it; the index maps are decided over the eight points), so the body's four plane loads read the planes of block
  t; the four small arrays are staged whole. Hence point t writes entries 2048 * t … 2048 * t + 2047 of the
  specification's result; the eight blocks cover the 16384 entries (entry b lies in block b / 2048), and the array
  after the last write-back is the specification's result.
-/
import proofs.«216967_g84078279786708_cont_9to1_m_1153_28_alg».proof.Proof.KI.Common
import proofs.«216967_g84078279786708_cont_9to1_m_1153_28_alg».proof.Proof.KI.RegionIface
import proofs.«216967_g84078279786708_cont_9to1_m_1153_28_alg».proof.Proof.KI.RegionData
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b)) (W : Waits sig (HIx 1))

/-! ## The body's loads, read as planes -/

theorem hz2 : (![0, 0] : Fin 2 → Nat) = fun _ => 0 := funext fun a => by fin_cases a <;> rfl

/-- A load of plane p of a staged block whose row r is row 2048 * t + r of the array reads plane p of block t. -/
theorem ld_gPlane (g : Vec F S4x16384x128 .f32) (x0 : Vec F S4x2048x128 .f32) (tt : Fin 8)
    (hx : ∀ (a : Fin 4) (r : Fin 2048) (l : Fin 128), x0 (ix3 a r l)
      = g (ix3 a (⟨tt.val * 2048 + r.val, by have := tt.isLt; have := r.isLt; omega⟩ : Fin 16384) l))
    (p : Fin 4) (off : Fin 3 → Nat) (hoff : off = ![p.val, 0, 0]) (inb : ∀ a, off a + S1x2048x128.size a ≤ S4x2048x128.size a) :
    View.ld x0 (Rect.unit (s := S4x2048x128) off S1x2048x128.size inb) = gPlane g tt p := by
  subst hoff
  funext y
  have h0 : (y 0).val < 1 := (y 0).isLt
  have h1 : (y 1).val < 2048 := (y 1).isLt
  have h2 : (y 2).val < 128 := (y 2).isLt
  have e : (Rect.unit (s := S4x2048x128) ![p.val, 0, 0] S1x2048x128.size inb).idx y = ix3 p (⟨(y 1).val, h1⟩ : Fin 2048) (⟨(y 2).val, h2⟩ : Fin 128) := by
    funext a; apply Fin.ext
    match a with
    | ⟨0, _⟩ => show p.val + 1 * (y 0).val = p.val; omega
    | ⟨1, _⟩ => show 0 + 1 * (y 1).val = (y 1).val; omega
    | ⟨2, _⟩ => show 0 + 1 * (y 2).val = (y 2).val; omega
  show x0 ((Rect.unit (s := S4x2048x128) ![p.val, 0, 0] S1x2048x128.size inb).idx y) = gPlane g tt p y
  rw [e]
  exact (hx p ⟨(y 1).val, h1⟩ ⟨(y 2).val, h2⟩).trans rfl

/-- A load of plane p of the staged weights reads plane p of them. -/
theorem ld_wPlane (w : Vec F S4x128x128 .f32) (p : Fin 4) (off : Fin 3 → Nat) (hoff : off = ![p.val, 0, 0])
    (inb : ∀ a, off a + S1x128x128.size a ≤ S4x128x128.size a) :
    View.ld w (Rect.unit (s := S4x128x128) off S1x128x128.size inb) = wPlane w p := by
  subst hoff
  funext y
  have h0 : (y 0).val < 1 := (y 0).isLt
  have h1 : (y 1).val < 128 := (y 1).isLt
  have h2 : (y 2).val < 128 := (y 2).isLt
  have e : (Rect.unit (s := S4x128x128) ![p.val, 0, 0] S1x128x128.size inb).idx y = ix3 p (⟨(y 1).val, h1⟩ : Fin 128) (⟨(y 2).val, h2⟩ : Fin 128) := by
    funext a; apply Fin.ext
    match a with
    | ⟨0, _⟩ => show p.val + 1 * (y 0).val = p.val; omega
    | ⟨1, _⟩ => show 0 + 1 * (y 1).val = (y 1).val; omega
    | ⟨2, _⟩ => show 0 + 1 * (y 2).val = (y 2).val; omega
  show w ((Rect.unit (s := S4x128x128) ![p.val, 0, 0] S1x128x128.size inb).idx y) = wPlane w p y
  rw [e]
  rfl

/-- The body's arithmetic on staged blocks that are block t of the gathered array and the four small arrays whole is the
    specification's term at block t. -/
theorem blockOut_eq (g : Vec F S4x16384x128 .f32) (w : Vec F S4x128x128 .f32) (b1r w2 : Vec F S1x128 .f32) (b2 : Vec F S1 .f32)
    (x0 : Vec F S4x2048x128 .f32) (x1 : Vec F S4x128x128 .f32) (x2 x3 : Vec F S1x128 .f32) (x4 : Vec F S1 .f32) (tt : Fin 8)
    (h0 : ∀ (a : Fin 4) (r : Fin 2048) (l : Fin 128), x0 (ix3 a r l)
      = g (ix3 a (⟨tt.val * 2048 + r.val, by have := tt.isLt; have := r.isLt; omega⟩ : Fin 16384) l))
    (h1 : ∀ z : S4x128x128.Idx, x1 z = w z) (h2 : ∀ z : S1x128.Idx, x2 z = b1r z) (h3 : ∀ z : S1x128.Idx, x3 z = w2 z)
    (h4 : ∀ z : S1.Idx, x4 z = b2 z) :
    blockOut x0 x1 x2 x3 x4
      = k1_pay1 (k1_pay2 (gPlane g tt 0) (wPlane w 0) (gPlane g tt 1) (wPlane w 1) (gPlane g tt 2) (wPlane w 2) (gPlane g tt 3) (wPlane w 3)) b1r w2 b2 := by
  obtain rfl : x1 = w := funext h1
  obtain rfl : x2 = b1r := funext h2
  obtain rfl : x3 = w2 := funext h3
  obtain rfl : x4 = b2 := funext h4
  unfold blockOut
  rw [ld_gPlane g x0 tt h0 0 ![0, 0, 0] rfl inb_S4x2048x128_S1x2048x128_0_0_0, ld_gPlane g x0 tt h0 1 ![1, 0, 0] rfl inb_S4x2048x128_S1x2048x128_1_0_0,
    ld_gPlane g x0 tt h0 2 ![2, 0, 0] rfl inb_S4x2048x128_S1x2048x128_2_0_0, ld_gPlane g x0 tt h0 3 ![3, 0, 0] rfl inb_S4x2048x128_S1x2048x128_3_0_0,
    ld_wPlane x1 0 ![0, 0, 0] rfl inb_S4x128x128_S1x128x128_0_0_0, ld_wPlane x1 1 ![1, 0, 0] rfl inb_S4x128x128_S1x128x128_1_0_0,
    ld_wPlane x1 2 ![2, 0, 0] rfl inb_S4x128x128_S1x128x128_2_0_0, ld_wPlane x1 3 ![3, 0, 0] rfl inb_S4x128x128_S1x128x128_3_0_0,
    View.ld_unit_zero (S := S1x128) hz2 inb_S1x128_S1x128_0_0, View.ld_unit_zero (S := S1x128) hz2 inb_S1x128_S1x128_0_0,
    View.ld_unit_zero (S := S1) hz1 inb_S1_S1_0]

/-- The specification's result at entry 2048 * t + r is entry r of its term at block t. -/
theorem Mlp_at (g : Vec F S4x16384x128 .f32) (w : Vec F S4x128x128 .f32) (b1r w2 : Vec F S1x128 .f32) (b2 : Vec F S1 .f32)
    (tt : Fin 8) (j : S2048.Idx) (i : S16384.Idx) (hi : (i 0).val = tt.val * 2048 + (j 0).val) :
    Mlp g w b1r w2 b2 i
      = k1_pay1 (k1_pay2 (gPlane g tt 0) (wPlane w 0) (gPlane g tt 1) (wPlane w 1) (gPlane g tt 2) (wPlane w 2) (gPlane g tt 3) (wPlane w 3)) b1r w2 b2 j := by
  have hj : (j 0).val < 2048 := (j 0).isLt
  have ht : (⟨(i 0).val / 2048, by have h : (i 0).val < 16384 := (i 0).isLt; omega⟩ : Fin 8) = tt := Fin.ext (by show (i 0).val / 2048 = tt.val; omega)
  have hjj : ix1 (⟨(i 0).val % 2048, Nat.mod_lt _ (by decide)⟩ : Fin 2048) = j := by
    funext a; apply Fin.ext
    match a with
    | ⟨0, _⟩ => show (i 0).val % 2048 = (j 0).val; omega
  unfold Mlp
  dsimp only
  rw [ht, hjj]

/-! ## The windows' blocks, read off the arrays -/

/-- The printed index maps over the grid: the result's block index is the point; the gathered array's moves with it on
    the row axis; the four small arrays' blocks are the arrays. -/
theorem idx_facts : ∀ t : Fin cfg1.N,
    win1_5.index t (0 : Fin 1) = t.val
    ∧ win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- Row r of the staged block of the gathered array at point t is row 2048 * t + r of the array. -/
theorem iblk0_apply (c : Dev nD) (t : Fin cfg1.N) (ht : t.val < 8) (a : Fin 4) (r : Fin 2048) (l : Fin 128) :
    iblk Vr c 0 t (ix3 a r l) = Vr c main_v2 (ix3 a (⟨t.val * 2048 + r.val, by have := r.isLt; omega⟩ : Fin 16384) l) := by
  obtain ⟨-, e0, e1, e2, -⟩ := idx_facts t
  show Vr c main_v2 (((cfg1.win 0).blk t).view.emb (ix3 a r l)) = Vr c main_v2 _
  congr 1
  funext b; apply Fin.ext
  match b with
  | ⟨0, _⟩ => show win1_0.index t (0 : Fin 3) * 4 + 1 * a.val = a.val; rw [e0]; omega
  | ⟨1, _⟩ => show win1_0.index t (1 : Fin 3) * 2048 + 1 * r.val = t.val * 2048 + r.val; rw [e1]; omega
  | ⟨2, _⟩ => show win1_0.index t (2 : Fin 3) * 128 + 1 * l.val = l.val; rw [e2]; omega

/-- The four small arrays are staged whole. -/
theorem iblk1_apply (c : Dev nD) (t : Fin cfg1.N) (z : S4x128x128.Idx) : iblk Vr c 1 t z = Vr c main_v1 z := by
  obtain ⟨-, -, -, -, e0, e1, e2, -⟩ := idx_facts t
  show Vr c main_v1 (((cfg1.win 1).blk t).view.emb z) = Vr c main_v1 z
  congr 1
  funext b; apply Fin.ext
  match b with
  | ⟨0, _⟩ => show win1_1.index t (0 : Fin 3) * 4 + 1 * (z 0).val = (z 0).val; rw [e0]; omega
  | ⟨1, _⟩ => show win1_1.index t (1 : Fin 3) * 128 + 1 * (z 1).val = (z 1).val; rw [e1]; omega
  | ⟨2, _⟩ => show win1_1.index t (2 : Fin 3) * 128 + 1 * (z 2).val = (z 2).val; rw [e2]; omega
theorem iblk2_apply (c : Dev nD) (t : Fin cfg1.N) (z : S1x128.Idx) : iblk Vr c 2 t z = Vr c main_v3 z := by
  obtain ⟨-, -, -, -, -, -, -, e0, e1, -⟩ := idx_facts t
  show Vr c main_v3 (((cfg1.win 2).blk t).view.emb z) = Vr c main_v3 z
  congr 1
  funext b; apply Fin.ext
  match b with
  | ⟨0, _⟩ => show win1_2.index t (0 : Fin 2) * 1 + 1 * (z 0).val = (z 0).val; rw [e0]; omega
  | ⟨1, _⟩ => show win1_2.index t (1 : Fin 2) * 128 + 1 * (z 1).val = (z 1).val; rw [e1]; omega
theorem iblk3_apply (c : Dev nD) (t : Fin cfg1.N) (z : S1x128.Idx) : iblk Vr c 3 t z = Vr c main_arg12 z := by
  obtain ⟨-, -, -, -, -, -, -, -, -, e0, e1, -⟩ := idx_facts t
  show Vr c main_arg12 (((cfg1.win 3).blk t).view.emb z) = Vr c main_arg12 z
  congr 1
  funext b; apply Fin.ext
  match b with
  | ⟨0, _⟩ => show win1_3.index t (0 : Fin 2) * 1 + 1 * (z 0).val = (z 0).val; rw [e0]; omega
  | ⟨1, _⟩ => show win1_3.index t (1 : Fin 2) * 128 + 1 * (z 1).val = (z 1).val; rw [e1]; omega
theorem iblk4_apply (c : Dev nD) (t : Fin cfg1.N) (z : S1.Idx) : iblk Vr c 4 t z = Vr c main_arg13 z := by
  obtain ⟨-, -, -, -, -, -, -, -, -, -, -, e0⟩ := idx_facts t
  show Vr c main_arg13 (((cfg1.win 4).blk t).view.emb z) = Vr c main_arg13 z
  congr 1
  funext b; apply Fin.ext
  match b with
  | ⟨0, _⟩ => show win1_4.index t (0 : Fin 1) * 1 + 1 * (z 0).val = (z 0).val; rw [e0]; omega

/-! ## From blocks to the array -/

/-- What point t writes back is block t of the specification's result of the arrays as the region finds them. -/
theorem flushed5_eq (c : Dev nD) (t : Fin cfg1.N) :
    (dats Vr W 0 c).flushed 5 t = ((cfg1.win 5).blk t).view.read (Elt F) (outR Vr c) := by
  show (cfg1.win 5).cut (grid1.coords t) ((dats Vr W 0 c).after 5 t) = _
  rw [after1_5]
  have ht : t.val < 8 := lt_of_lt_of_eq t.isLt N_1
  obtain ⟨e0, -⟩ := idx_facts t
  funext j
  show blockOut (iblk Vr c 0 t) (iblk Vr c 1 t) (iblk Vr c 2 t) (iblk Vr c 3 t) (iblk Vr c 4 t) j = outR Vr c (((cfg1.win 5).blk t).view.emb j)
  rw [blockOut_eq (Vr c main_v2) (Vr c main_v1) (Vr c main_v3) (Vr c main_arg12) (Vr c main_arg13)
    (iblk Vr c 0 t) (iblk Vr c 1 t) (iblk Vr c 2 t) (iblk Vr c 3 t) (iblk Vr c 4 t) ⟨t.val, ht⟩
    (fun a r l => iblk0_apply Vr c t ht a r l) (iblk1_apply Vr c t) (iblk2_apply Vr c t) (iblk3_apply Vr c t) (iblk4_apply Vr c t)]
  unfold outR
  exact (Mlp_at (Vr c main_v2) (Vr c main_v1) (Vr c main_v3) (Vr c main_arg12) (Vr c main_arg13) ⟨t.val, ht⟩ j
    (((cfg1.win 5).blk t).view.emb j)
    (by show win1_5.index t (0 : Fin 1) * 2048 + 1 * (j 0).val = t.val * 2048 + (j 0).val; rw [e0]; omega)).symm

/-- An entry of the result array is in point t's block iff it is among the block's 2048 entries. -/
theorem mem_blk5 (t : Fin cfg1.N) (i : S16384.Idx) :
    i ∈ ((cfg1.win 5).blk t).view.set ↔ ∀ a : Fin 1, win1_5.index t a * S2048.size a ≤ (i a).val ∧ (i a).val < win1_5.index t a * S2048.size a + S2048.size a := by
  show i ∈ ((View.whole main_v4).slice (win1_5.rect t)).set ↔ _
  rw [View.set_slice_whole, Rect.mem_set_unit]
  exact Iff.rfl

/-- The eight blocks cover the result array: entry b is in block b / 2048. -/
theorem covered5 (i : S16384.Idx) : ∃ t : Fin cfg1.N, (cfg1.win 5).flush t = true ∧ i ∈ ((cfg1.win 5).blk t).view.set := by
  have hi : (i 0).val < 16384 := (i 0).isLt
  refine ⟨⟨(i 0).val / 2048, by rw [show cfg1.N = 8 from N_1]; omega⟩, flush1_5 _, ?_⟩
  rw [mem_blk5]
  obtain ⟨e0, -⟩ := idx_facts ⟨(i 0).val / 2048, by rw [show cfg1.N = 8 from N_1]; omega⟩
  intro a
  match a with
  | ⟨0, _⟩ =>
    show win1_5.index _ (0 : Fin 1) * 2048 ≤ (i 0).val ∧ (i 0).val < win1_5.index _ (0 : Fin 1) * 2048 + 2048
    rw [e0]; show (i 0).val / 2048 * 2048 ≤ (i 0).val ∧ (i 0).val < (i 0).val / 2048 * 2048 + 2048
    omega

/-- THE RESULT ARRAY after the region: the specification's result of the arrays as the region finds them. -/
theorem final5 (c : Dev nD) : (dats Vr W 0 c).arrAt 5 cfg1.N = outR Vr c :=
  (dats Vr W 0 c).arrAt_eq_of_cover 5 (outR Vr c) (fun t _ => flushed5_eq Vr W c t) covered5

end Cert.Proof.KI

end
-- ==== Proof.KI.Region.lean ====
/-
  The TensorCore region's rule: entered from the boundary with its six arrays whole, the core owing nothing, the
  launch's level facts and the pipeline's ghost state, the region's call runs to the boundary with the five inputs as
  they were and the result array at the specification's term of them: the library's step for a kernel region, with the
  array the eight write-backs leave identified block by block.
-/
import proofs.«216967_g84078279786708_cont_9to1_m_1153_28_alg».proof.Proof.KI.Common
import proofs.«216967_g84078279786708_cont_9to1_m_1153_28_alg».proof.Proof.KI.RegionRun
import proofs.«216967_g84078279786708_cont_9to1_m_1153_28_alg».proof.Proof.KI.RegionValue
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

/-- The region's rule. -/
theorem region_wp (Vr : (c : Dev nD) → (b : Ref sig .tc) → Buf (Elt F) ((c.tc : Thread nD τ).loc b)) : RegionRule Vr := by
  intro d W α k Q
  have h := region_wp_blocks Vr W d k Q
  rw [final5 Vr W d] at h
  unfold regionPost at h
  exact h

end Cert.Proof.KI

end
-- ==== Proof.KI.TileSetup.lean ====
/-
  A tile's thread and what it holds of its own: the six DMA semaphores and the four scratch buffers the task uses,
  taken out of the tile's scoped storage, and the tile's eight chunks of the gathered array taken one by one.
-/
import proofs.«216967_g84078279786708_cont_9to1_m_1153_28_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A tile's thread, its semaphores and its scratch

Tile L runs on vector subcore L 1 of SparseCore L 0. Of its scoped storage the task uses six DMA semaphores and four
buffers; the rest is carried along untouched. -/

abbrev cV (L : grid0.Coords) : Fin τ.nSC := (L 0).castLE hcore0
abbrev jV (L : grid0.Coords) : Fin τ.nSub := (L 1).castLE hsub0
/-- The thread of tile L on device d. -/
abbrev thr (d : Dev nD) (L : grid0.Coords) : Thread nD τ := V d (cV L) (jV L)
/-- The cell of one of the tile's own DMA semaphores. -/
abbrev cell (d : Dev nD) (L : grid0.Coords) (x : DmaSems sig S_) : GSem nD τ sig := (thr d L, .dma x.sem)

theorem cell_ne {t : Thread nD τ} {a b : DmaSem sig} (h : a ≠ b) : ((t, SemLoc.dma a) : GSem nD τ sig) ≠ (t, SemLoc.dma b) :=
  fun e => h (SemLoc.dma.inj (Prod.mk.inj e).2)

variable (d : Dev nD) (L : grid0.Coords)

/-- The six semaphores the task uses are among the tile's own, each at zero; the rest stays a family. -/
theorem ownSems0_V :
    (ownSems0 (thr d L) : sProp 𝕄)
      = iprop(semVal (cell d L cc0_scratch4) 0 ∗ semVal (cell d L cc0_scratch5) 0 ∗ semVal (cell d L cc0_scratch6) 0 ∗ semVal (cell d L cc0_scratch7) 0 ∗ semVal (cell d L cc0_scoped0) 0 ∗ semVal (cell d L cc0_scoped1) 0
          ∗ bigSep (((((((ownCells (thr d L)).erase (cell d L cc0_scratch4)).erase (cell d L cc0_scratch5)).erase (cell d L cc0_scratch6)).erase (cell d L cc0_scratch7)).erase (cell d L cc0_scoped0)).erase (cell d L cc0_scoped1)) fun g => semVal g 0) := by
  unfold SparseCore.Cfg.ownSems0
  rw [SparseCore.bigSep_erase' ((mem_ownCells (g := cell d L cc0_scratch4)).mpr ⟨rfl, by show (SemLoc.dma cc0_scratch4.sem : SemLoc sig).isScoped .scVector = true; decide⟩),
    SparseCore.bigSep_erase' (Finset.mem_erase.mpr ⟨cell_ne (by decide), (mem_ownCells (g := cell d L cc0_scratch5)).mpr ⟨rfl, by show (SemLoc.dma cc0_scratch5.sem : SemLoc sig).isScoped .scVector = true; decide⟩⟩),
    SparseCore.bigSep_erase' (Finset.mem_erase.mpr ⟨cell_ne (by decide), Finset.mem_erase.mpr ⟨cell_ne (by decide), (mem_ownCells (g := cell d L cc0_scratch6)).mpr ⟨rfl, by show (SemLoc.dma cc0_scratch6.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell d L cc0_scratch7)).mpr ⟨rfl, by show (SemLoc.dma cc0_scratch7.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc0_scoped0)).mpr ⟨rfl, by show (SemLoc.dma cc0_scoped0.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc0_scoped1)).mpr ⟨rfl, by show (SemLoc.dma cc0_scoped1.sem : SemLoc sig).isScoped .scVector = true; decide⟩⟩⟩⟩⟩⟩)]

/-- The four scratch buffers are among the tile's own, each at some contents; the rest stays a family. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

/-- A tile's eight chunks, one by one. -/
theorem chunksPts_eq (f : Buf (Elt F) (gLoc d)) :
    (chunksPts d L f : sProp 𝕄)
      = iprop((gLoc d ↦[chunkSet L 0]{fullShare} f) ∗ (gLoc d ↦[chunkSet L 1]{fullShare} f) ∗ (gLoc d ↦[chunkSet L 2]{fullShare} f) ∗ (gLoc d ↦[chunkSet L 3]{fullShare} f) ∗ (gLoc d ↦[chunkSet L 4]{fullShare} f) ∗ (gLoc d ↦[chunkSet L 5]{fullShare} f) ∗ (gLoc d ↦[chunkSet L 6]{fullShare} f) ∗ (gLoc d ↦[chunkSet L 7]{fullShare} f)) := by
  show (bigSep (Finset.univ : Finset (Fin 8)) fun k => gLoc d ↦[chunkSet L k]{fullShare} f) = _
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

end Cert.Proof.KI

end
-- ==== Proof.KI.TileVal.lean ====
/-
  The values a tile's task moves: what its word lists hold, what a gather lands in a row buffer, and that a chunk
  written from the buffer reads as the gathered array G4 of the launch memory does there.
-/
import proofs.«216967_g84078279786708_cont_9to1_m_1153_28_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## What a tile's copies and gathers deliver, as values

A tile's word list is 512 consecutive words of an index array from row base = 1024 * L 1 + 512 * L 0; half h of it names
the table rows of 256 edges; the gather lands, at row r of the row buffer, the table row the word base + 256 * h + r names;
the copy-out lands the buffer at rows base + 256 * h … of one plane of the gathered array. So the chunk reads as the
gathered array G4 does there. -/

section Pure

variable {sig' : RefSig} {κ : Kind} {sp : Space} {s : Shape} {e : EltTy} {Val : EltTy → Type}

/-- Reading a slice of a view just written whole reads the payload at the slice's place. -/
theorem read_slice_write_univ (v : View sig' κ sp s e) (r : Rect s) (f : v.ty.Contents Val) (w : s.Idx → Val e) (x : r.shape.Idx) :
    (v.slice r).read Val (v.write Val f w Finset.univ) x = w (r.emb x) := by
  show v.read Val (v.write Val f w Finset.univ) (r.emb x) = _
  rw [View.read_write_univ]

/-- A whole-view piece last written reads back as its payload, whatever was written before. -/
theorem read_writes_whole_cons (v : View sig' κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Contents that read through the view as a whole-view piece's payload agree with that piece written, on the view's
    elements. -/
theorem writes_whole_eq_on (v : View sig' κ sp s e) (f G : v.ty.Contents Val) (pay : s.Idx → Val e) (h : v.read Val G = pay) :
    ∀ i ∈ v.set, v.writes Val f [⟨Rect.whole s, pay⟩] i = G i := by
  intro i hi
  obtain ⟨y, -, rfl⟩ := Finset.mem_map.mp hi
  have h1 := congrFun (View.read_writes_whole v f pay) y
  have h2 := congrFun h y
  rw [View.read_apply] at h1 h2
  exact (cast_inj _).mp (h1.trans h2.symm)

end Pure

theorem inRange_all {a : Vec F S16384 .i32} (h : Cert.Spec.InRange a) (i : S16384.Idx) : (a i).toNat < 100000 := by
  rw [eq_ix1 i]; exact (h _).2

/-- The gathered array at an entry of plane p, where p's table is T and its words a. -/
theorem G4_at {emb mem : Vec F S100000x128 .f32} {src dst : Vec F S16384 .i32} (i : S4x16384x128.Idx)
    (T : Vec F S100000x128 .f32) (a : Vec F S16384 .i32)
    (hT : (if (i 0).val < 2 then emb else mem) = T) (ha : (if (i 0).val % 2 = 0 then src else dst) = a)
    (b : Fin 16384) (hb : (i 1).val = b.val) (j : Fin 128) (hj : (i 2).val = j.val) (hlt : (a (ix1 b)).toNat < 100000) :
    G4 emb mem src dst i = T (ix2 (⟨(a (ix1 b)).toNat, hlt⟩ : Fin 100000) j) := by
  unfold G4
  rw [hT, ha, show (i 1 : Fin 16384) = b from Fin.ext hb, show (i 2 : Fin 128) = j from Fin.ext hj, Cert.Spec.rowAt_of_lt hlt]

/-- The landed gather, entry by entry: row y 0 of the buffer is the table row the list's word y 0 names. -/
theorem gathered_row (hg : S100000x128.Gathers 0 S256x128) (T : S100000x128.Idx → Elt F .f32) (lst : S256.Idx → Elt F .i32)
    (hn : S256.numel = S256x128.size hg.axis') (hin : ∀ x, (lst x).toNat < S100000x128.size hg.axis) (y : S256x128.Idx) :
    SparseCore.gatherPayload hg T (SparseCore.rows lst hn hin) y
      = T (ix2 (⟨(lst (ix1 (y 0 : Fin 256))).toNat, hin _⟩ : Fin 100000) (y 1 : Fin 128)) := by
  unfold SparseCore.gatherPayload
  congr 1
  funext b
  apply Fin.ext
  match b with
  | ⟨0, hb⟩ =>
    have h := Shape.Gathers.idx_axis hg (SparseCore.rows lst hn hin) y
    show (hg.idx (SparseCore.rows lst hn hin) y hg.axis).val = _
    rw [h]
    show (lst (S256.rowMajor.symm _)).toNat = (lst (ix1 (y 0 : Fin 256))).toNat
    congr 2
    refine (Equiv.symm_apply_eq _).mpr (Fin.ext ?_)
    rw [Shape.rowMajor_val_one]; rfl
  | ⟨1, hb⟩ => exact Shape.Gathers.idx_of_ne hg _ y ⟨1, hb⟩ Nat.one_ne_zero

/-- Row base + 256 * h + r of an index array: the edge tile L's half h names at row r of the row buffer. -/
def edgeOf (L : grid0.Coords) (h : Fin 2) (r : Fin 256) : Fin 16384 :=
  ⟨1024 * (L 1).val + 512 * (L 0).val + 256 * h.val + r.val, by
    have h1 : (L 1).val < 16 := (L 1).isLt
    have h0 : (L 0).val < 2 := (L 0).isLt
    have := h.isLt; have := r.isLt; omega⟩

/-- Where entry y of a chunk sits in the gathered array: plane co 0, row co 1 + y 0, column co 2 + y 1. -/
theorem chunk_emb_val (co : Fin 3 → Nat) (inb : ∀ a, co a + S1x256x128.size a ≤ S4x16384x128.size a) (y : S256x128.Idx) :
    ((((gV.slice (Rect.unit (s := S4x16384x128) co S1x256x128.size inb) (fun _ => rfl)).squeeze S256x128
        squeezes_S1x256x128_S256x128).view.emb y : S4x16384x128.Idx) 0).val = co 0
    ∧ ((((gV.slice (Rect.unit (s := S4x16384x128) co S1x256x128.size inb) (fun _ => rfl)).squeeze S256x128
        squeezes_S1x256x128_S256x128).view.emb y : S4x16384x128.Idx) 1).val = co 1 + (y 0).val
    ∧ ((((gV.slice (Rect.unit (s := S4x16384x128) co S1x256x128.size inb) (fun _ => rfl)).squeeze S256x128
        squeezes_S1x256x128_S256x128).view.emb y : S4x16384x128.Idx) 2).val = co 2 + (y 1).val := by
  have e : (((gV.slice (Rect.unit (s := S4x16384x128) co S1x256x128.size inb) (fun _ => rfl)).squeeze S256x128
        squeezes_S1x256x128_S256x128).view.emb y : S4x16384x128.Idx)
      = (Rect.unit (s := S4x16384x128) co S1x256x128.size inb).emb (Fin.cons ⟨0, Nat.one_pos⟩ y) := by
    show (Rect.unit (s := S4x16384x128) co S1x256x128.size inb).emb (Shape.reshapeEquiv squeezes_S1x256x128_S256x128.numel_eq y) = _
    rw [Shape.reshapeEquiv_cons_one]
  rw [e]
  refine ⟨?_, ?_, ?_⟩
  · show co 0 + 1 * 0 = co 0
    omega
  · show co 1 + 1 * (y 0).val = co 1 + (y 0).val
    omega
  · show co 2 + 1 * (y 1).val = co 2 + (y 1).val
    omega

/-- A chunk of the gathered array G4 reads as a gather of 256 rows of the plane's table at the plane's words. -/
theorem chunk_read (L : grid0.Coords) (co : Fin 3 → Nat) (inb : ∀ a, co a + S1x256x128.size a ≤ S4x16384x128.size a)
    (p : Fin 4) (h : Fin 2) (hco : co = ![p.val, 1024 * (L 1).val + 512 * (L 0).val + 256 * h.val, 0])
    (emb mem : Vec F S100000x128 .f32) (src dst : Vec F S16384 .i32)
    (T : S100000x128.Idx → Elt F .f32) (a : Vec F S16384 .i32)
    (hT : (if p.val < 2 then emb else mem) = T) (ha : (if p.val % 2 = 0 then src else dst) = a)
    (lst : S256.Idx → Elt F .i32) (hlst : ∀ z : S256.Idx, lst z = a (ix1 (edgeOf L h (z 0))))
    (hg : S100000x128.Gathers 0 S256x128) (hn : S256.numel = S256x128.size hg.axis')
    (hin : ∀ x, (lst x).toNat < S100000x128.size hg.axis) :
    ((gV.slice (Rect.unit (s := S4x16384x128) co S1x256x128.size inb) (fun _ => rfl)).squeeze S256x128
        squeezes_S1x256x128_S256x128).view.read (Elt F) (G4 emb mem src dst)
      = SparseCore.gatherPayload hg T (SparseCore.rows lst hn hin) := by
  funext y
  obtain ⟨e0, e1, e2⟩ := chunk_emb_val co inb y
  have c0 : co 0 = p.val := by rw [hco]; rfl
  have c1 : co 1 = 1024 * (L 1).val + 512 * (L 0).val + 256 * h.val := by rw [hco]; rfl
  have c2 : co 2 = 0 := by rw [hco]; rfl
  have hl := hlst (ix1 (y 0 : Fin 256))
  have hlt : (a (ix1 (edgeOf L h (y 0)))).toNat < 100000 := by
    have := hin (ix1 (y 0 : Fin 256)); rw [hl] at this; exact this
  rw [gathered_row, View.read_apply, cast_eq,
    G4_at (F := F) _ T a (by rw [e0, c0]; exact hT) (by rw [e0, c0]; exact ha) (edgeOf L h (y 0)) (by rw [e1, c1]; rfl) (y 1)
      (by rw [e2, c2, Nat.zero_add]) hlt]
  exact congrArg T (congrArg (fun w : Fin 100000 => ix2 w (y 1 : Fin 128)) (Fin.ext (by show _ = (lst _).toNat; rw [hl])))

/-- A slice at no offsets and full extent reads as the view itself. -/
theorem full_slice_read {κ : Kind} {sp : Space} (tv : View sig κ sp S100000x128 .f32)
    (inb : ∀ a, (![0, 0] : Fin 2 → Nat) a + S100000x128.size a ≤ S100000x128.size a) (f : tv.ty.Contents (Elt F)) :
    (tv.slice (Rect.unit (s := S100000x128) ![0, 0] S100000x128.size inb)).read (Elt F) f = tv.read (Elt F) f := by
  funext x
  show tv.read (Elt F) f ((Rect.unit (s := S100000x128) ![0, 0] S100000x128.size inb).emb x) = tv.read (Elt F) f x
  congr 1
  funext a; apply Fin.ext
  match a with
  | ⟨0, _⟩ => show 0 + 1 * (x 0).val = (x 0).val; omega
  | ⟨1, _⟩ => show 0 + 1 * (x 1).val = (x 1).val; omega

/-- Word z of half h of a tile's word list — the list copied whole from rows base … + 512 of an index array — is the
    array's word at edge base + 256 * h + z. -/
theorem list_word {κ : Kind} (L : grid0.Coords) (wv : View sig κ .vmem S512 .i32) (g0 : wv.ty.Contents (Elt F))
    (av : View sig κ .hbm S16384 .i32) (A : av.ty.Contents (Elt F)) (a : Vec F S16384 .i32) (hA : av.read (Elt F) A = a)
    (w : S512.Idx → Elt F .i32)
    (hw : w = (av.slice (Rect.unit (s := S16384) (k0_off1 L) S512.size (k0_off1_inb L))).read (Elt F) A)
    (off : Fin 1 → Nat) (inb : ∀ a, off a + S256.size a ≤ S512.size a) (h : Fin 2) (hoff : off 0 = 256 * h.val) (z : S256.Idx) :
    (wv.slice (Rect.unit (s := S512) off S256.size inb)).read (Elt F) (wv.write (Elt F) g0 w Finset.univ) z
      = a (ix1 (edgeOf L h (z 0))) := by
  rw [read_slice_write_univ, hw]
  show av.read (Elt F) A ((Rect.unit (s := S16384) (k0_off1 L) S512.size (k0_off1_inb L)).emb
    ((Rect.unit (s := S512) off S256.size inb).emb z)) = _
  rw [hA]
  congr 1
  funext b; apply Fin.ext
  match b with
  | ⟨0, _⟩ =>
    show k0_off1 L 0 + 1 * (off 0 + 1 * (z 0).val) = 1024 * (L 1).val + 512 * (L 0).val + 256 * h.val + (z 0).val
    rw [k0_off1_eq, hoff]
    show 1024 * (L 1).val + 512 * (L 0).val + 1 * (256 * h.val + 1 * (z 0).val) = _
    omega

/-- Under the precondition on an index array, every word of either half of the tile's list names a table row. -/
theorem list_inRange {κ : Kind} (L : grid0.Coords) (wv : View sig κ .vmem S512 .i32) (g0 : wv.ty.Contents (Elt F))
    (av : View sig κ .hbm S16384 .i32) (A : av.ty.Contents (Elt F)) (a : Vec F S16384 .i32) (hA : av.read (Elt F) A = a)
    (ha : Cert.Spec.InRange a) (w : S512.Idx → Elt F .i32)
    (hw : w = (av.slice (Rect.unit (s := S16384) (k0_off1 L) S512.size (k0_off1_inb L))).read (Elt F) A)
    (off : Fin 1 → Nat) (inb : ∀ a, off a + S256.size a ≤ S512.size a) (h : Fin 2) (hoff : off 0 = 256 * h.val) :
    ∀ x, ((wv.slice (Rect.unit (s := S512) off S256.size inb)).read (Elt F) (wv.write (Elt F) g0 w Finset.univ) x).toNat < 100000 :=
  fun x => by rw [list_word L wv g0 av A a hA w hw off inb h hoff x]; exact inRange_all ha _

end Cert.Proof.KI

end
-- ==== Proof.KI.TileBody.lean ====
/-
  A tile's task, run once at a symbolic tile: the two word lists are copied in; then eight times a half list's 256 table
  rows are gathered into a row buffer and the buffer is copied out to the tile's chunk of the gathered array. On each
  semaphore at most one copy is outstanding, no buffer is touched while a copy on it is pending, and the word lists are
  never overwritten, so the task is a run of local copies, indexed gathers and their waits. Under the precondition every
  word names a table row, and each chunk ends at the gathered array G4 of the launch memory.
-/
import proofs.«216967_g84078279786708_cont_9to1_m_1153_28_alg».proof.Proof.KI.TileSetup
import proofs.«216967_g84078279786708_cont_9to1_m_1153_28_alg».proof.Proof.KI.TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

-- the kernel's memrefs, spelt as the body table passes them
local notation "embW" => (Memref.whole Cert.KernelIdeal.main_arg4_scv : Memref Cert.KernelIdeal.sig Kind.scVector Space.hbm Cert.KernelIdeal.S100000x128 EltTy.f32)
local notation "memW" => (Memref.whole Cert.KernelIdeal.main_arg5_scv : Memref Cert.KernelIdeal.sig Kind.scVector Space.hbm Cert.KernelIdeal.S100000x128 EltTy.f32)
local notation "srcW" => (Memref.whole Cert.KernelIdeal.main_arg0_scv : Memref Cert.KernelIdeal.sig Kind.scVector Space.hbm Cert.KernelIdeal.S16384 EltTy.i32)
local notation "dstW" => (Memref.whole Cert.KernelIdeal.main_arg1_scv : Memref Cert.KernelIdeal.sig Kind.scVector Space.hbm Cert.KernelIdeal.S16384 EltTy.i32)
local notation "gW" => (Memref.whole Cert.KernelIdeal.main_v2_scv : Memref Cert.KernelIdeal.sig Kind.scVector Space.hbm Cert.KernelIdeal.S4x16384x128 EltTy.f32)
local notation "w0W" => (Memref.whole Cert.KernelIdeal.cc0_scratch0 : Memref Cert.KernelIdeal.sig Kind.scVector Space.vmem Cert.KernelIdeal.S512 EltTy.i32)
local notation "w1W" => (Memref.whole Cert.KernelIdeal.cc0_scratch1 : Memref Cert.KernelIdeal.sig Kind.scVector Space.vmem Cert.KernelIdeal.S512 EltTy.i32)
local notation "r0W" => (Memref.whole Cert.KernelIdeal.cc0_scratch2 : Memref Cert.KernelIdeal.sig Kind.scVector Space.vmem Cert.KernelIdeal.S256x128 EltTy.f32)
local notation "r1W" => (Memref.whole Cert.KernelIdeal.cc0_scratch3 : Memref Cert.KernelIdeal.sig Kind.scVector Space.vmem Cert.KernelIdeal.S256x128 EltTy.f32)

variable (m : (ℓ : Loc nD τ sig) → Buf (Elt F) ℓ) (d : Dev nD) (L : grid0.Coords)

/-! ## The arrays as the tile's memrefs address them -/

theorem pts_emb (q : PosShare TreeShare) (f : Buf (Elt F) (embLoc d)) : ((embW).view.loc (thr d L) ↦{q} f : sProp 𝕄) = embLoc d ↦{q} f := rfl
theorem pts_mem (q : PosShare TreeShare) (f : Buf (Elt F) (memLoc d)) : ((memW).view.loc (thr d L) ↦{q} f : sProp 𝕄) = memLoc d ↦{q} f := rfl
theorem pts_src (q : PosShare TreeShare) (f : Buf (Elt F) (srcLoc d)) : ((srcW).view.loc (thr d L) ↦{q} f : sProp 𝕄) = srcLoc d ↦{q} f := rfl
theorem pts_dst (q : PosShare TreeShare) (f : Buf (Elt F) (dstLoc d)) : ((dstW).view.loc (thr d L) ↦{q} f : sProp 𝕄) = dstLoc d ↦{q} f := rfl
theorem pts_w0 (f : Buf (Elt F) ((thr d L).loc cc0_scratch0)) : ((w0W).view.loc (thr d L) ↦{fullShare} f : sProp 𝕄) = (thr d L).loc cc0_scratch0 ↦{fullShare} f := rfl
theorem pts_w1 (f : Buf (Elt F) ((thr d L).loc cc0_scratch1)) : ((w1W).view.loc (thr d L) ↦{fullShare} f : sProp 𝕄) = (thr d L).loc cc0_scratch1 ↦{fullShare} f := rfl
theorem pts_r0 (f : Buf (Elt F) ((thr d L).loc cc0_scratch2)) : ((r0W).view.loc (thr d L) ↦{fullShare} f : sProp 𝕄) = (thr d L).loc cc0_scratch2 ↦{fullShare} f := rfl
theorem pts_r1 (f : Buf (Elt F) ((thr d L).loc cc0_scratch3)) : ((r1W).view.loc (thr d L) ↦{fullShare} f : sProp 𝕄) = (thr d L).loc cc0_scratch3 ↦{fullShare} f := rfl
theorem pts_g0 (f : Buf (Elt F) (gLoc d)) : ((chunk0 L).view.loc (thr d L) ↦[(chunk0 L).view.set]{fullShare} f : sProp 𝕄) = gLoc d ↦[chunkSet L 0]{fullShare} f := rfl
theorem pts_g1 (f : Buf (Elt F) (gLoc d)) : ((chunk1 L).view.loc (thr d L) ↦[(chunk1 L).view.set]{fullShare} f : sProp 𝕄) = gLoc d ↦[chunkSet L 1]{fullShare} f := rfl
theorem pts_g2 (f : Buf (Elt F) (gLoc d)) : ((chunk2 L).view.loc (thr d L) ↦[(chunk2 L).view.set]{fullShare} f : sProp 𝕄) = gLoc d ↦[chunkSet L 2]{fullShare} f := rfl
theorem pts_g3 (f : Buf (Elt F) (gLoc d)) : ((chunk3 L).view.loc (thr d L) ↦[(chunk3 L).view.set]{fullShare} f : sProp 𝕄) = gLoc d ↦[chunkSet L 3]{fullShare} f := rfl
theorem pts_g4 (f : Buf (Elt F) (gLoc d)) : ((chunk4 L).view.loc (thr d L) ↦[(chunk4 L).view.set]{fullShare} f : sProp 𝕄) = gLoc d ↦[chunkSet L 4]{fullShare} f := rfl
theorem pts_g5 (f : Buf (Elt F) (gLoc d)) : ((chunk5 L).view.loc (thr d L) ↦[(chunk5 L).view.set]{fullShare} f : sProp 𝕄) = gLoc d ↦[chunkSet L 5]{fullShare} f := rfl
theorem pts_g6 (f : Buf (Elt F) (gLoc d)) : ((chunk6 L).view.loc (thr d L) ↦[(chunk6 L).view.set]{fullShare} f : sProp 𝕄) = gLoc d ↦[chunkSet L 6]{fullShare} f := rfl
theorem pts_g7 (f : Buf (Elt F) (gLoc d)) : ((chunk7 L).view.loc (thr d L) ↦[(chunk7 L).view.set]{fullShare} f : sProp 𝕄) = gLoc d ↦[chunkSet L 7]{fullShare} f := rfl

/-! ## The words in range, at what the word lists hold after the two copies -/

theorem hin_w0 (hpre : PreOK m) (g0 : Buf (Elt F) ((thr d L).loc cc0_scratch0)) (w : S512.Idx → Elt F .i32)
    (hw : w = ((srcW).view.slice (Rect.unit (s := S16384) (k0_off1 L) S512.size (k0_off1_inb L))).read (Elt F) (m (srcLoc d)))
    (off : Fin 1 → Nat) (inb : ∀ a, off a + S256.size a ≤ S512.size a) (h : Fin 2) (hoff : off 0 = 256 * h.val) :
    ∀ x, (((w0W).slice (Rect.unit (s := S512) off S256.size inb) (fun _ => rfl)).view.read (Elt F)
      (View.write (Elt F) (w0W).view g0 w Finset.univ) x).toNat < 100000 :=
  list_inRange L (w0W).view g0 (srcW).view (m (srcLoc d)) (m (srcLoc d)) rfl (hpre d).1 w hw off inb h hoff
theorem hin_w1 (hpre : PreOK m) (g0 : Buf (Elt F) ((thr d L).loc cc0_scratch1)) (w : S512.Idx → Elt F .i32)
    (hw : w = ((dstW).view.slice (Rect.unit (s := S16384) (k0_off1 L) S512.size (k0_off1_inb L))).read (Elt F) (m (dstLoc d)))
    (off : Fin 1 → Nat) (inb : ∀ a, off a + S256.size a ≤ S512.size a) (h : Fin 2) (hoff : off 0 = 256 * h.val) :
    ∀ x, (((w1W).slice (Rect.unit (s := S512) off S256.size inb) (fun _ => rfl)).view.read (Elt F)
      (View.write (Elt F) (w1W).view g0 w Finset.univ) x).toNat < 100000 :=
  list_inRange L (w1W).view g0 (dstW).view (m (dstLoc d)) (m (dstLoc d)) rfl (hpre d).2 w hw off inb h hoff

theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

variable [FloatOps F]

/-! ## The task -/

/-- The task of tile L on device d: from a read share of the tables and the index arrays and the tile's eight chunks, to
    the same with the chunks at the gathered array of the launch memory; the tile's scoped storage in and out. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ (roPts m d q ∗ chunksPts d L (m (gLoc d)))
        ∗ scopedBufs (thr d L) ∗ scopedSems0 (thr d L) ∗ owes (thr d L) O W)
      ⊢ wp frame (wpE (defs₀ (F := F)) 𝒱₀ (thr d L) none) Set.univ
          (cc0_gather_kernel L embW (Memref.isWhole_whole _) memW (Memref.isWhole_whole _) srcW (Memref.isWhole_whole _) dstW (Memref.isWhole_whole _)
            gW (Memref.isWhole_whole _) w0W (Memref.isWhole_whole _) w1W (Memref.isWhole_whole _) r0W (Memref.isWhole_whole _) r1W (Memref.isWhole_whole _)
            cc0_scratch4 cc0_scratch5 cc0_scratch6 cc0_scratch7 cc0_scoped0 cc0_scoped1)
          fun _ => iprop((roPts m d q ∗ chunksPts d L (G4m m d)) ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V,
    chunksPts_eq, chunksPts_eq]
  iintro ⟨#Hlv, -, ⟨⟨He, Hm, Hs, Hd⟩, ⟨Hg0, Hg1, Hg2, Hg3, Hg4, Hg5, Hg6, Hg7⟩⟩, ⟨⟨%f0, Hw0⟩, ⟨%f1, Hw1⟩, ⟨%f2, Hr0⟩, ⟨%f3, Hr1⟩, Hbufs⟩,
    ⟨Hs4, Hs5, Hs6, Hs7, Hc0, Hc1, Hsems⟩, HO⟩
  ihave Hmw := ((K (F := F)).mayWaits_none (thr := thr d L) hO) $$ Hlv
  ihave He := (Entails.of_eq (pts_emb (F := F) d L _ _).symm) $$ He
  ihave Hm := (Entails.of_eq (pts_mem (F := F) d L _ _).symm) $$ Hm
  ihave Hs := (Entails.of_eq (pts_src (F := F) d L _ _).symm) $$ Hs
  ihave Hd := (Entails.of_eq (pts_dst (F := F) d L _ _).symm) $$ Hd
  ihave Hw0 := (Entails.of_eq (pts_w0 (F := F) d L _).symm) $$ Hw0
  ihave Hw1 := (Entails.of_eq (pts_w1 (F := F) d L _).symm) $$ Hw1
  ihave Hr0 := (Entails.of_eq (pts_r0 (F := F) d L _).symm) $$ Hr0
  ihave Hr1 := (Entails.of_eq (pts_r1 (F := F) d L _).symm) $$ Hr1
  ihave Hg0 := (Entails.of_eq (pts_g0 (F := F) d L _).symm) $$ Hg0
  ihave Hg1 := (Entails.of_eq (pts_g1 (F := F) d L _).symm) $$ Hg1
  ihave Hg2 := (Entails.of_eq (pts_g2 (F := F) d L _).symm) $$ Hg2
  ihave Hg3 := (Entails.of_eq (pts_g3 (F := F) d L _).symm) $$ Hg3
  ihave Hg4 := (Entails.of_eq (pts_g4 (F := F) d L _).symm) $$ Hg4
  ihave Hg5 := (Entails.of_eq (pts_g5 (F := F) d L _).symm) $$ Hg5
  ihave Hg6 := (Entails.of_eq (pts_g6 (F := F) d L _).symm) $$ Hg6
  ihave Hg7 := (Entails.of_eq (pts_g7 (F := F) d L _).symm) $$ Hg7
  -- the two word lists copied in and waited for
  sl_exec
  -- every word of either half of either list names a table row
  have hin00 := hin_w0 m d L hpre f0 (tile_body.sl.dma0 m d L) rfl ![0] inb_S512_S256_0 0 rfl
  have hin01 := hin_w0 m d L hpre f0 (tile_body.sl.dma0 m d L) rfl ![256] inb_S512_S256_256 1 rfl
  have hin10 := hin_w1 m d L hpre f1 (tile_body.sl.dma0_1 m d L) rfl ![0] inb_S512_S256_0 0 rfl
  have hin11 := hin_w1 m d L hpre f1 (tile_body.sl.dma0_1 m d L) rfl ![256] inb_S512_S256_256 1 rfl
  -- the eight gathers and copies out
  sl_exec
  sl_step
  -- each chunk reads as the gathered array does there
  have hv0 : (chunk0 L).view.read (Elt F) (G4m m d) = tile_body.sl.dma0_2 m d L f0 f2 hin00 :=
    (chunk_read L _ _ 0 0 (k0_off2_eq L 0) _ _ _ _ _ _
      (if_pos (by decide) |>.trans (full_slice_read (embW).view inb_S100000x128_S100000x128_0_0 (m (embLoc d))).symm)
      (if_pos (by decide))
      _ (list_word L (w0W).view f0 (srcW).view (m (srcLoc d)) (m (srcLoc d)) rfl (tile_body.sl.dma0 m d L) rfl ![0] inb_S512_S256_0 0 rfl)
      gathers_S100000x128_S256x128 rfl hin00).trans (read_writes_whole_cons _ _ _ _).symm
  have hv1 : (chunk1 L).view.read (Elt F) (G4m m d) = tile_body.sl.dma0_3 m d L f0 f3 hin01 :=
    (chunk_read L _ _ 0 1 (k0_off2_eq L 1) _ _ _ _ _ _
      (if_pos (by decide) |>.trans (full_slice_read (embW).view inb_S100000x128_S100000x128_0_0 (m (embLoc d))).symm)
      (if_pos (by decide))
      _ (list_word L (w0W).view f0 (srcW).view (m (srcLoc d)) (m (srcLoc d)) rfl (tile_body.sl.dma0 m d L) rfl ![256] inb_S512_S256_256 1 rfl)
      gathers_S100000x128_S256x128 rfl hin01).trans (read_writes_whole_cons _ _ _ _).symm
  have hv2 : (chunk2 L).view.read (Elt F) (G4m m d) = tile_body.sl.dma0_4 m d L f0 f1 f2 hin00 hin10 :=
    (chunk_read L _ _ 1 0 (k0_off3_eq L 0) _ _ _ _ _ _
      (if_pos (by decide) |>.trans (full_slice_read (embW).view inb_S100000x128_S100000x128_0_0 (m (embLoc d))).symm)
      (if_neg (by decide))
      _ (list_word L (w1W).view f1 (dstW).view (m (dstLoc d)) (m (dstLoc d)) rfl (tile_body.sl.dma0_1 m d L) rfl ![0] inb_S512_S256_0 0 rfl)
      gathers_S100000x128_S256x128 rfl hin10).trans (read_writes_whole_cons _ _ _ _).symm
  have hv3 : (chunk3 L).view.read (Elt F) (G4m m d) = tile_body.sl.dma0_5 m d L f0 f1 f3 hin01 hin11 :=
    (chunk_read L _ _ 1 1 (k0_off3_eq L 1) _ _ _ _ _ _
      (if_pos (by decide) |>.trans (full_slice_read (embW).view inb_S100000x128_S100000x128_0_0 (m (embLoc d))).symm)
      (if_neg (by decide))
      _ (list_word L (w1W).view f1 (dstW).view (m (dstLoc d)) (m (dstLoc d)) rfl (tile_body.sl.dma0_1 m d L) rfl ![256] inb_S512_S256_256 1 rfl)
      gathers_S100000x128_S256x128 rfl hin11).trans (read_writes_whole_cons _ _ _ _).symm
  have hv4 : (chunk4 L).view.read (Elt F) (G4m m d) = tile_body.sl.dma0_6 m d L f0 f1 f2 hin00 hin10 :=
    (chunk_read L _ _ 2 0 (k0_off4_eq L 0) _ _ _ _ _ _
      (if_neg (by decide) |>.trans (full_slice_read (memW).view inb_S100000x128_S100000x128_0_0 (m (memLoc d))).symm)
      (if_pos (by decide))
      _ (list_word L (w0W).view f0 (srcW).view (m (srcLoc d)) (m (srcLoc d)) rfl (tile_body.sl.dma0 m d L) rfl ![0] inb_S512_S256_0 0 rfl)
      gathers_S100000x128_S256x128 rfl hin00).trans (read_writes_whole_cons _ _ _ _).symm
  have hv5 : (chunk5 L).view.read (Elt F) (G4m m d) = tile_body.sl.dma0_7 m d L f0 f1 f3 hin01 hin11 :=
    (chunk_read L _ _ 2 1 (k0_off4_eq L 1) _ _ _ _ _ _
      (if_neg (by decide) |>.trans (full_slice_read (memW).view inb_S100000x128_S100000x128_0_0 (m (memLoc d))).symm)
      (if_pos (by decide))
      _ (list_word L (w0W).view f0 (srcW).view (m (srcLoc d)) (m (srcLoc d)) rfl (tile_body.sl.dma0 m d L) rfl ![256] inb_S512_S256_256 1 rfl)
      gathers_S100000x128_S256x128 rfl hin01).trans (read_writes_whole_cons _ _ _ _).symm
  have hv6 : (chunk6 L).view.read (Elt F) (G4m m d) = tile_body.sl.dma0_8 m d L f0 f1 f2 hin00 hin10 :=
    (chunk_read L _ _ 3 0 (k0_off5_eq L 0) _ _ _ _ _ _
      (if_neg (by decide) |>.trans (full_slice_read (memW).view inb_S100000x128_S100000x128_0_0 (m (memLoc d))).symm)
      (if_neg (by decide))
      _ (list_word L (w1W).view f1 (dstW).view (m (dstLoc d)) (m (dstLoc d)) rfl (tile_body.sl.dma0_1 m d L) rfl ![0] inb_S512_S256_0 0 rfl)
      gathers_S100000x128_S256x128 rfl hin10).trans (read_writes_whole_cons _ _ _ _).symm
  have hv7 : (chunk7 L).view.read (Elt F) (G4m m d) = tile_body.sl.dma0_9 m d L f0 f1 f3 hin01 hin11 :=
    (chunk_read L _ _ 3 1 (k0_off5_eq L 1) _ _ _ _ _ _
      (if_neg (by decide) |>.trans (full_slice_read (memW).view inb_S100000x128_S100000x128_0_0 (m (memLoc d))).symm)
      (if_neg (by decide))
      _ (list_word L (w1W).view f1 (dstW).view (m (dstLoc d)) (m (dstLoc d)) rfl (tile_body.sl.dma0_1 m d L) rfl ![256] inb_S512_S256_256 1 rfl)
      gathers_S100000x128_S256x128 rfl hin11).trans (read_writes_whole_cons _ _ _ _).symm
  ihave Hg0 := (Entails.of_eq ((pointsTo_congr (writes_whole_eq_on (Val := Elt F) (chunk0 L).view (m (gLoc d)) (G4m m d) _ hv0)).trans (pts_g0 (F := F) d L _))) $$ Hg0
  ihave Hg1 := (Entails.of_eq ((pointsTo_congr (writes_whole_eq_on (Val := Elt F) (chunk1 L).view (m (gLoc d)) (G4m m d) _ hv1)).trans (pts_g1 (F := F) d L _))) $$ Hg1
  ihave Hg2 := (Entails.of_eq ((pointsTo_congr (writes_whole_eq_on (Val := Elt F) (chunk2 L).view (m (gLoc d)) (G4m m d) _ hv2)).trans (pts_g2 (F := F) d L _))) $$ Hg2
  ihave Hg3 := (Entails.of_eq ((pointsTo_congr (writes_whole_eq_on (Val := Elt F) (chunk3 L).view (m (gLoc d)) (G4m m d) _ hv3)).trans (pts_g3 (F := F) d L _))) $$ Hg3
  ihave Hg4 := (Entails.of_eq ((pointsTo_congr (writes_whole_eq_on (Val := Elt F) (chunk4 L).view (m (gLoc d)) (G4m m d) _ hv4)).trans (pts_g4 (F := F) d L _))) $$ Hg4
  ihave Hg5 := (Entails.of_eq ((pointsTo_congr (writes_whole_eq_on (Val := Elt F) (chunk5 L).view (m (gLoc d)) (G4m m d) _ hv5)).trans (pts_g5 (F := F) d L _))) $$ Hg5
  ihave Hg6 := (Entails.of_eq ((pointsTo_congr (writes_whole_eq_on (Val := Elt F) (chunk6 L).view (m (gLoc d)) (G4m m d) _ hv6)).trans (pts_g6 (F := F) d L _))) $$ Hg6
  ihave Hg7 := (Entails.of_eq ((pointsTo_congr (writes_whole_eq_on (Val := Elt F) (chunk7 L).view (m (gLoc d)) (G4m m d) _ hv7)).trans (pts_g7 (F := F) d L _))) $$ Hg7
  isplitl [He Hm Hs Hd Hg0 Hg1 Hg2 Hg3 Hg4 Hg5 Hg6 Hg7]
  · isplitl [He Hm Hs Hd]
    · isplitl [He]; · iapply (Entails.of_eq (pts_emb (F := F) d L _ _)); iexact He
      isplitl [Hm]; · iapply (Entails.of_eq (pts_mem (F := F) d L _ _)); iexact Hm
      isplitl [Hs]; · iapply (Entails.of_eq (pts_src (F := F) d L _ _)); iexact Hs
      iapply (Entails.of_eq (pts_dst (F := F) d L _ _)); iexact Hd
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hw0 Hw1 Hr0 Hr1 Hbufs]
  · isplitl [Hw0]; · iexists _; iapply (Entails.of_eq (pts_w0 (F := F) d L _)); iexact Hw0
    isplitl [Hw1]; · iexists _; iapply (Entails.of_eq (pts_w1 (F := F) d L _)); iexact Hw1
    isplitl [Hr0]; · iexists _; iapply (Entails.of_eq (pts_r0 (F := F) d L _)); iexact Hr0
    isplitl [Hr1]; · iexists _; iapply (Entails.of_eq (pts_r1 (F := F) d L _)); iexact Hr1
    iexact Hbufs
  isplitl [Hs4 Hs5 Hs6 Hs7 Hc0 Hc1 Hsems]
  · isplitl [Hs4]; · iexact Hs4
    isplitl [Hs5]; · iexact Hs5
    isplitl [Hs6]; · iexact Hs6
    isplitl [Hs7]; · iexact Hs7
    isplitl [Hc0]; · iexact Hc0
    isplitl [Hc1]; · iexact Hc1
    iexact Hsems
  iexists _; isplitr
  rotate_left
  · iexact HO
  · ipureintro
    repeat refine waits_insert _ ?_
    exact fun p hp => .inl hp

end Cert.Proof.KI

end
-- ==== Proof.KI.TileObl.lean ====
/-
  The launch theorem's obligation for the tiles of the one SparseCore call: the body table at a vector subcore is the
  task at that subcore's coordinates, and the task's run is the obligation.
-/
import proofs.«216967_g84078279786708_cont_9to1_m_1153_28_alg».proof.Proof.KI.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

-- the kernel's memrefs, spelt as the body table passes them
local notation "embW" => (Memref.whole Cert.KernelIdeal.main_arg4_scv : Memref Cert.KernelIdeal.sig Kind.scVector Space.hbm Cert.KernelIdeal.S100000x128 EltTy.f32)
local notation "memW" => (Memref.whole Cert.KernelIdeal.main_arg5_scv : Memref Cert.KernelIdeal.sig Kind.scVector Space.hbm Cert.KernelIdeal.S100000x128 EltTy.f32)
local notation "srcW" => (Memref.whole Cert.KernelIdeal.main_arg0_scv : Memref Cert.KernelIdeal.sig Kind.scVector Space.hbm Cert.KernelIdeal.S16384 EltTy.i32)
local notation "dstW" => (Memref.whole Cert.KernelIdeal.main_arg1_scv : Memref Cert.KernelIdeal.sig Kind.scVector Space.hbm Cert.KernelIdeal.S16384 EltTy.i32)
local notation "gW" => (Memref.whole Cert.KernelIdeal.main_v2_scv : Memref Cert.KernelIdeal.sig Kind.scVector Space.hbm Cert.KernelIdeal.S4x16384x128 EltTy.f32)
local notation "w0W" => (Memref.whole Cert.KernelIdeal.cc0_scratch0 : Memref Cert.KernelIdeal.sig Kind.scVector Space.vmem Cert.KernelIdeal.S512 EltTy.i32)
local notation "w1W" => (Memref.whole Cert.KernelIdeal.cc0_scratch1 : Memref Cert.KernelIdeal.sig Kind.scVector Space.vmem Cert.KernelIdeal.S512 EltTy.i32)
local notation "r0W" => (Memref.whole Cert.KernelIdeal.cc0_scratch2 : Memref Cert.KernelIdeal.sig Kind.scVector Space.vmem Cert.KernelIdeal.S256x128 EltTy.f32)
local notation "r1W" => (Memref.whole Cert.KernelIdeal.cc0_scratch3 : Memref Cert.KernelIdeal.sig Kind.scVector Space.vmem Cert.KernelIdeal.S256x128 EltTy.f32)

variable (m : (ℓ : Loc nD τ sig) → Buf (Elt F) ℓ) [FloatOps F]

/-! ## The launch theorem's obligation for a tile -/

/-- The kernels' body table at a vector subcore and the one SparseCore call: the task at the subcore's coordinates. -/
theorem defs₀_vector (c : Fin τ.nSC) (s : Fin τ.nSub) :
    defs₀ (F := F) (.scVector c s) 0 ()
      = SparseCore.onTile hcore0 hsub0 (fun c s => cc0_gather_kernel (coordsV c s)
          embW (Memref.isWhole_whole _) memW (Memref.isWhole_whole _) srcW (Memref.isWhole_whole _) dstW (Memref.isWhole_whole _)
          gW (Memref.isWhole_whole _) w0W (Memref.isWhole_whole _) w1W (Memref.isWhole_whole _) r0W (Memref.isWhole_whole _) r1W (Memref.isWhole_whole _)
          cc0_scratch4 cc0_scratch5 cc0_scratch6 cc0_scratch7 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- (C) Every tile's task meets the launch theorem's obligation: from its read share and its chunks to the chunks at the
    gathered array of the launch memory. -/
theorem tileObl (hF : (K (F := F)).Facts) (hpre : PreOK m) : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre _ O W hO).trans (wp_mono frame _ _ fun _ => obl_post)

end Cert.Proof.KI

end
-- ==== Proof.KI.VecSplit.lean ====
/-
  How one SparseCore's operands split among its sixteen tiles, and how its results gather from theirs.

  The call hands SparseCore c a read share of the two tables and of the two index arrays, and its sixteen tiles' chunks
  of the gathered array. Each of the four read-only arrays, held at the SparseCore's share, is the same array held at
  sixteen pairwise disjoint tokens of that share, one a tile, and at the remainder of the share; tile s takes its token
  of each array and its own chunks. The remainders stay with the SparseCore; when the tiles hand their tokens and their
  chunks back, each array's sixteen tokens and its remainder are the SparseCore's share again, and the chunks — now at
  the gathered contents — are the SparseCore's sixteen tiles' chunks.
-/
import proofs.«216967_g84078279786708_cont_9to1_m_1153_28_alg».proof.Proof.KI.Common
import proofs.«216967_g84078279786708_cont_9to1_m_1153_28_alg».proof.Proof.Gen.KernelIdeal
import proofs.«216967_g84078279786708_cont_9to1_m_1153_28_alg».proof.Proof.Gen.KernelIdeal.Skeleton
import proofs.«216967_g84078279786708_cont_9to1_m_1153_28_alg».proof.Proof.Gen.KernelIdeal.Launch
import proofs.«216967_g84078279786708_cont_9to1_m_1153_28_alg».proof.Proof.Gen.KernelIdeal.Points
import proofs.«216967_g84078279786708_cont_9to1_m_1153_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) [FloatOps F]

/-- A family over the sixteen tiles indexed by the launch's own count of them is the family over `Fin 16`. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The four read-only arrays at a SparseCore's share are the four at the share's remainder and, for each tile, the four
    at the tile's token. -/
theorem ro_split (d : Dev nD) (c : Fin 2) :
    roPts m d (tok2 c) ⊢ (iprop(roPts m d (Transfers.shareDrop (tok2 c) 16) ∗ bigSep Finset.univ fun s : Fin 16 => roPts m d (tok c s)) : sProp 𝕄) := by
  rw [bigSep_sep', bigSep_sep', bigSep_sep']
  iintro ⟨He, Hm, Hs, Hd⟩
  ihave He := (Transfers.pointsTo_toks_split (tok2 c) 16) $$ He
  ihave Hm := (Transfers.pointsTo_toks_split (tok2 c) 16) $$ Hm
  ihave Hs := (Transfers.pointsTo_toks_split (tok2 c) 16) $$ Hs
  ihave Hd := (Transfers.pointsTo_toks_split (tok2 c) 16) $$ Hd
  icases He with ⟨He0, Het⟩
  icases Hm with ⟨Hm0, Hmt⟩
  icases Hs with ⟨Hs0, Hst⟩
  icases Hd with ⟨Hd0, Hdt⟩
  isplitl [He0 Hm0 Hs0 Hd0]
  · isplitl [He0]; · iexact He0
    isplitl [Hm0]; · iexact Hm0
    isplitl [Hs0]; · iexact Hs0
    iexact Hd0
  isplitl [Het]; · iexact Het
  isplitl [Hmt]; · iexact Hmt
  isplitl [Hst]; · iexact Hst
  iexact Hdt

/-- The remainder and the sixteen tokens of each of the four arrays are the four at the SparseCore's share again. -/
theorem ro_join (d : Dev nD) (c : Fin 2) :
    (iprop(roPts m d (Transfers.shareDrop (tok2 c) 16) ∗ bigSep Finset.univ fun s : Fin 16 => roPts m d (tok c s)) : sProp 𝕄) ⊢ roPts m d (tok2 c) := by
  rw [bigSep_sep', bigSep_sep', bigSep_sep']
  iintro ⟨⟨He0, Hm0, Hs0, Hd0⟩, Het, Hmt, Hst, Hdt⟩
  isplitl [He0 Het]
  · iapply (Transfers.pointsTo_toks_join (tok2 c) 16); isplitl [He0]; · iexact He0
    iexact Het
  isplitl [Hm0 Hmt]
  · iapply (Transfers.pointsTo_toks_join (tok2 c) 16); isplitl [Hm0]; · iexact Hm0
    iexact Hmt
  isplitl [Hs0 Hst]
  · iapply (Transfers.pointsTo_toks_join (tok2 c) 16); isplitl [Hs0]; · iexact Hs0
    iexact Hst
  iapply (Transfers.pointsTo_toks_join (tok2 c) 16); isplitl [Hd0]; · iexact Hd0
  iexact Hdt

/-- THE SPLIT: SparseCore c's operands to its tiles' shares, its results from theirs. -/
theorem vecSplit : (K (F := F)).VecSplit' (P m) 0 := by
  intro d c
  show iprop(roPts m d (tok2 (Fin.cast nCore_zero c)) ∗ bigSep Finset.univ fun s : Fin 16 => chunksPts d (tileL (Fin.cast nCore_zero c) s) (m (gLoc d)))
    ⊢ |={Set.univ}=> iprop(
      (bigSep Finset.univ fun i : Fin ((K (F := F)).nSub 0) =>
        iprop(roPts m d (tok (Fin.cast nCore_zero c) (Fin.cast nSub_zero i)) ∗ chunksPts d (tileL (Fin.cast nCore_zero c) (Fin.cast nSub_zero i)) (m (gLoc d))))
      ∗ ((bigSep Finset.univ fun i : Fin ((K (F := F)).nSub 0) =>
          iprop(roPts m d (tok (Fin.cast nCore_zero c) (Fin.cast nSub_zero i)) ∗ chunksPts d (tileL (Fin.cast nCore_zero c) (Fin.cast nSub_zero i)) (G4m m d)))
          -∗ iprop(roPts m d (tok2 (Fin.cast nCore_zero c)) ∗ bigSep Finset.univ fun s : Fin 16 => chunksPts d (tileL (Fin.cast nCore_zero c) s) (G4m m d))))
  rw [bigSep_tiles (F := F) (fun s => iprop(roPts m d (tok (Fin.cast nCore_zero c) s) ∗ chunksPts d (tileL (Fin.cast nCore_zero c) s) (m (gLoc d)))),
    bigSep_tiles (F := F) (fun s => iprop(roPts m d (tok (Fin.cast nCore_zero c) s) ∗ chunksPts d (tileL (Fin.cast nCore_zero c) s) (G4m m d))),
    bigSep_sep' Finset.univ (fun s : Fin 16 => roPts m d (tok (Fin.cast nCore_zero c) s)) (fun s => chunksPts d (tileL (Fin.cast nCore_zero c) s) (m (gLoc d))),
    bigSep_sep' Finset.univ (fun s : Fin 16 => roPts m d (tok (Fin.cast nCore_zero c) s)) (fun s => chunksPts d (tileL (Fin.cast nCore_zero c) s) (G4m m d))]
  iintro ⟨Hro, Hch⟩
  ihave Hro := (ro_split m d (Fin.cast nCore_zero c)) $$ Hro
  icases Hro with ⟨Hrem, Htoks⟩
  imodintro
  isplitl [Htoks Hch]
  · isplitl [Htoks]; · iexact Htoks
    iexact Hch
  iintro ⟨Htoks, Hch⟩
  isplitl [Hrem Htoks]
  · iapply (ro_join m d (Fin.cast nCore_zero c)); isplitl [Hrem]; · iexact Hrem
    iexact Htoks
  iexact Hch

end Cert.Proof.KI

end
-- ==== Proof.KB.Common.lean ====
/-
  What the printed kernel's proof modules share: the program as the launch theorem of a SparseCore program sees
  it, the ghost state, and the two pure terms the run is stated with.

  The program has two kernels. The first runs on the 32 vector subcores (tiles): tile (c, s) owns the 512 edges
  starting at 1024 * s + 512 * c; it copies its 512 source words and its 512 destination words into its own memory,
  and then, eight times, gathers 256 table rows at 256 of those words into one of two row buffers and copies the buffer
  out to plane p, rows base + 256 * h of the gathered array g4 : [4, 16384, 128] (chunk k = 2 * p + h; planes 0 and 1
  read the embedding table, planes 2 and 3 the memory table; even planes at the source words, odd planes at the
  destination words). So, where every word names a table row, g4[p, b, :] is a table row: the term G4 below.
  The second kernel runs on the TensorCore over 8 blocks of 2048 edges: block t of the result is the kernel body's
  arithmetic (the generated payloads k1_pay2, k1_pay1) of block t of g4, the re-laid weights and the biases: Mlp.

  Ghost state: the launch handshakes' rounds, the rounds of the TensorCore pipeline's staging cells, and the counters
  of the tiles' own copies (each waited for before the next on its semaphore is issued, so no schedule is needed).
-/
import proofs.«216967_g84078279786708_cont_9to1_m_1153_28_alg».proof.Proof.Gen.Kernel
import proofs.«216967_g84078279786708_cont_9to1_m_1153_28_alg».proof.Proof.Gen.Kernel.Skeleton
import proofs.«216967_g84078279786708_cont_9to1_m_1153_28_alg».proof.Proof.Gen.Kernel.Launch
import proofs.«216967_g84078279786708_cont_9to1_m_1153_28_alg».proof.Proof.Gen.Kernel.Points
import proofs.«216967_g84078279786708_cont_9to1_m_1153_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the middle factor. The counters are found by instance in the right one. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev srcLoc (d : Dev nD) : Loc nD τ sig := (SparseCore.T d).loc main_arg0
abbrev dstLoc (d : Dev nD) : Loc nD τ sig := (SparseCore.T d).loc main_arg1
abbrev embLoc (d : Dev nD) : Loc nD τ sig := (SparseCore.T d).loc main_arg4
abbrev memLoc (d : Dev nD) : Loc nD τ sig := (SparseCore.T d).loc main_arg5
/-- The gathered array g4 : [4, 16384, 128]. -/
abbrev gLoc (d : Dev nD) : Loc nD τ sig := (SparseCore.T d).loc main_v2

/-- The gathered array as a function of the tables and the index words: entry (p, b, j) is entry j of the row the
    word names — of the embedding table for p < 2, else of the memory table; the source word for even p, else the
    destination word. -/
def G4 (emb mem : Vec F S100000x128 .f32) (src dst : Vec F S16384 .i32) : Vec F S4x16384x128 .f32 := fun i =>
  (if (i 0).val < 2 then emb else mem)
    (ix2 (Cert.Spec.rowAt ((if (i 0).val % 2 = 0 then src else dst) (ix1 (i 1 : Fin 16384)))) (i 2 : Fin 128))

/-- The gathered array of the launch memory of device d. -/
abbrev G4m (d : Dev nD) : Buf (Elt F) (gLoc d) := G4 (m (embLoc d)) (m (memLoc d)) (m (srcLoc d)) (m (dstLoc d))

/-- What the proofs ask of the launch memory: every index word names a table row (the certificate's precondition says
    so: signed, between 0 and 99999). -/
def PreOK : Prop := ∀ d : Dev nD, Cert.Spec.InRange (m (srcLoc d)) ∧ Cert.Spec.InRange (m (dstLoc d))

variable [FloatOps F]

/-- Plane p of block t of the gathered array, as the second kernel's body loads it: rows 2048 * t + r. -/
def gPlane (g : Vec F S4x16384x128 .f32) (t : Fin 8) (p : Fin 4) : Vec F S1x2048x128 .f32 := fun y =>
  g (ix3 p (⟨t.val * 2048 + (y 1).val, by have h : (y 1).val < 2048 := (y 1).isLt; have := t.isLt; omega⟩ : Fin 16384) (y 2 : Fin 128))

/-- Plane p of the re-laid weights, as the body loads it. -/
def wPlane (w : Vec F S4x128x128 .f32) (p : Fin 4) : Vec F S1x128x128 .f32 := fun y => w (ix3 p (y 1 : Fin 128) (y 2 : Fin 128))

/-- The second kernel's result: entry b is entry b % 2048 of the body's arithmetic on block b / 2048. -/
def Mlp (g : Vec F S4x16384x128 .f32) (w : Vec F S4x128x128 .f32) (b1r w2 : Vec F S1x128 .f32) (b2 : Vec F S1 .f32) : Vec F S16384 .f32 := fun i =>
  let t : Fin 8 := ⟨(i 0).val / 2048, by have h : (i 0).val < 16384 := (i 0).isLt; omega⟩
  k1_pay1 (k1_pay2 (gPlane g t 0) (wPlane w 0) (gPlane g t 1) (wPlane w 1) (gPlane g t 2) (wPlane w 2) (gPlane g t 3) (wPlane w 3)) b1r w2 b2
    (ix1 (⟨(i 0).val % 2048, Nat.mod_lt _ (by decide)⟩ : Fin 2048))

/-! ## A tile's part of the gathered array -/

/-- The coordinates of tile (c, s) as the kernel's function takes them. -/
def coordsV (c : Fin (grid0.bound 0)) (s : Fin (grid0.bound 1)) : grid0.Coords :=
  fun | 0 => c | 1 => s | ⟨_ + 2, h⟩ => absurd h (Nat.not_lt.2 (Nat.le_add_left _ _))

/-- Tile (c, s) of the launch. -/
abbrev tileL (c : Fin 2) (s : Fin 16) : grid0.Coords := coordsV ⟨c.val, c.isLt⟩ ⟨s.val, s.isLt⟩

abbrev gV : Memref sig .scVector .hbm S4x16384x128 .f32 := Memref.whole main_v2_scv

/-- Chunk k = 2 * p + h of tile L's part of the gathered array — plane p, rows base + 256 * h … + 256 —, each spelt as the
    task's k-th copy-out addresses it. -/
abbrev chunk0 (L : grid0.Coords) : Memref sig .scVector .hbm S256x128 .f32 :=
  (gV.slice (Rect.unit (s := S4x16384x128) (k0_off2 L 0#32) S1x256x128.size (k0_off2_inb L 0)) (fun _ => rfl)).squeeze S256x128 squeezes_S1x256x128_S256x128
abbrev chunk1 (L : grid0.Coords) : Memref sig .scVector .hbm S256x128 .f32 :=
  (gV.slice (Rect.unit (s := S4x16384x128) (k0_off2 L 256#32) S1x256x128.size (k0_off2_inb L 1)) (fun _ => rfl)).squeeze S256x128 squeezes_S1x256x128_S256x128
abbrev chunk2 (L : grid0.Coords) : Memref sig .scVector .hbm S256x128 .f32 :=
  (gV.slice (Rect.unit (s := S4x16384x128) (k0_off3 L 0#32) S1x256x128.size (k0_off3_inb L 0)) (fun _ => rfl)).squeeze S256x128 squeezes_S1x256x128_S256x128
abbrev chunk3 (L : grid0.Coords) : Memref sig .scVector .hbm S256x128 .f32 :=
  (gV.slice (Rect.unit (s := S4x16384x128) (k0_off3 L 256#32) S1x256x128.size (k0_off3_inb L 1)) (fun _ => rfl)).squeeze S256x128 squeezes_S1x256x128_S256x128
abbrev chunk4 (L : grid0.Coords) : Memref sig .scVector .hbm S256x128 .f32 :=
  (gV.slice (Rect.unit (s := S4x16384x128) (k0_off4 L 0#32) S1x256x128.size (k0_off4_inb L 0)) (fun _ => rfl)).squeeze S256x128 squeezes_S1x256x128_S256x128
abbrev chunk5 (L : grid0.Coords) : Memref sig .scVector .hbm S256x128 .f32 :=
  (gV.slice (Rect.unit (s := S4x16384x128) (k0_off4 L 256#32) S1x256x128.size (k0_off4_inb L 1)) (fun _ => rfl)).squeeze S256x128 squeezes_S1x256x128_S256x128
abbrev chunk6 (L : grid0.Coords) : Memref sig .scVector .hbm S256x128 .f32 :=
  (gV.slice (Rect.unit (s := S4x16384x128) (k0_off5 L 0#32) S1x256x128.size (k0_off5_inb L 0)) (fun _ => rfl)).squeeze S256x128 squeezes_S1x256x128_S256x128
abbrev chunk7 (L : grid0.Coords) : Memref sig .scVector .hbm S256x128 .f32 :=
  (gV.slice (Rect.unit (s := S4x16384x128) (k0_off5 L 256#32) S1x256x128.size (k0_off5_inb L 1)) (fun _ => rfl)).squeeze S256x128 squeezes_S1x256x128_S256x128

/-- The entries of the gathered array chunk k of tile L covers. -/
def chunkSet (L : grid0.Coords) : Fin 8 → Finset S4x16384x128.Idx
  | 0 => (chunk0 L).view.set | 1 => (chunk1 L).view.set | 2 => (chunk2 L).view.set | 3 => (chunk3 L).view.set
  | 4 => (chunk4 L).view.set | 5 => (chunk5 L).view.set | 6 => (chunk6 L).view.set | 7 => (chunk7 L).view.set

/-! ## What the handshakes carry -/

/-- The read share of SparseCore c, and of its tile s. -/
abbrev tok2 (c : Fin 2) : PosShare TreeShare := Transfers.shareTok fullShare 2 c
abbrev tok (c : Fin 2) (s : Fin 16) : PosShare TreeShare := Transfers.shareTok (tok2 c) 16 s

/-- The two tables and the two index arrays, whole, read-only at share q, at their launch contents. -/
abbrev roPts (d : Dev nD) (q : PosShare TreeShare) : sProp 𝕄 :=
  iprop((embLoc d ↦{q} m (embLoc d)) ∗ (memLoc d ↦{q} m (memLoc d)) ∗ (srcLoc d ↦{q} m (srcLoc d)) ∗ (dstLoc d ↦{q} m (dstLoc d)))

/-- Tile L's eight chunks of the gathered array, owned outright, at the contents f. -/
abbrev chunksPts (d : Dev nD) (L : grid0.Coords) (f : Buf (Elt F) (gLoc d)) : sProp 𝕄 :=
  bigSep Finset.univ fun k : Fin 8 => gLoc d ↦[chunkSet L k]{fullShare} f

/-- The one SparseCore call hands SparseCore c a read share of the tables and of the index arrays and its sixteen tiles'
    chunks of the gathered array, each tile its read share and its chunks; they come back with the chunks at the
    gathered array G4 of the launch memory. -/
def P : (K (F := F)).Pay (nD := nD) (Val := Elt F) (Name := ℕ) (U := UU) where
  st := fun q d c => match q with
    | 0 => iprop(roPts m d (tok2 (Fin.cast nCore_zero c)) ∗ bigSep Finset.univ fun s : Fin 16 => chunksPts d (tileL (Fin.cast nCore_zero c) s) (m (gLoc d)))
  dn := fun q d c => match q with
    | 0 => iprop(roPts m d (tok2 (Fin.cast nCore_zero c)) ∗ bigSep Finset.univ fun s : Fin 16 => chunksPts d (tileL (Fin.cast nCore_zero c) s) (G4m m d))
  go := fun q d c i => match q with
    | 0 => iprop(roPts m d (tok (Fin.cast nCore_zero c) (Fin.cast nSub_zero i)) ∗ chunksPts d (tileL (Fin.cast nCore_zero c) (Fin.cast nSub_zero i)) (m (gLoc d)))
  td := fun q d c i => match q with
    | 0 => iprop(roPts m d (tok (Fin.cast nCore_zero c) (Fin.cast nSub_zero i)) ∗ chunksPts d (tileL (Fin.cast nCore_zero c) (Fin.cast nSub_zero i)) (G4m m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.KB.RegionIface.lean ====
/-
  The vocabulary of the TensorCore region's rule: the region's six arrays as the region finds them and leaves them.
  The region reads the gathered array, the re-laid weights, the bias row, the second layer's row and its bias, and
  writes the result array: block t of the result is the body's arithmetic on block t of the gathered array (Mlp).
-/
import proofs.«216967_g84078279786708_cont_9to1_m_1153_28_alg».proof.Proof.KB.Common
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

/-- The admissible tables of a pipeline that prefetches none. -/
abbrev adm : (p : Fin 1) → (pcfgs (F := F) p).Adm := fun p => (cfgs p).toPCfg_adm

variable (Vr : (c : Dev nD) → (b : Ref sig .tc) → Buf (Elt F) ((c.tc : Thread nD τ).loc b))

/-- The result array the region leaves, from the arrays it finds. -/
def outR (c : Dev nD) : Buf (Elt F) ((c.tc : Thread nD τ).loc main_v4) :=
  Mlp (Vr c main_v2) (Vr c main_v1) (Vr c main_v3) (Vr c main_arg12) (Vr c main_arg13)

/-- The region's six arrays, whole and owned outright, the result array at f4. -/
def regionArrs (c : Dev nD) (f4 : Buf (Elt F) ((c.tc : Thread nD τ).loc main_v4)) : sProp 𝕄 :=
  iprop(((c.tc : Thread nD τ).loc main_v2 ↦{fullShare} Vr c main_v2) ∗ ((c.tc : Thread nD τ).loc main_v1 ↦{fullShare} Vr c main_v1)
    ∗ ((c.tc : Thread nD τ).loc main_v3 ↦{fullShare} Vr c main_v3) ∗ ((c.tc : Thread nD τ).loc main_arg12 ↦{fullShare} Vr c main_arg12)
    ∗ ((c.tc : Thread nD τ).loc main_arg13 ↦{fullShare} Vr c main_arg13) ∗ ((c.tc : Thread nD τ).loc main_v4 ↦{fullShare} f4))

/-- The region's rule, as a proposition: entered from the boundary, its six arrays, the TensorCore owing nothing, the
    launch's level facts and the pipeline's ghost state, the call runs to the boundary with the result array at outR. -/
def RegionRule : Prop :=
  ∀ (d : Dev nD) (W : Waits sig (HIx 1)) {α : Type} (k : PUnit → Prog (TpuEff nD τ sig (Elt F) (ΛP (F := F)) .tc) α) (Q : α → sProp 𝕄),
    iprop((iprop(boundary (d.tc : Thread nD τ) ∗ regionArrs Vr d (outR Vr d) ∗ ∃ W', ⌜∀ p ∈ W', p ∈ W ∨ p.2 = none⌝ ∗ owes (d.tc : Thread nD τ) 0 W')
            -∗ wp frame (wpE (D (F := F)) 𝒱 (d.tc : Thread nD τ) none) Set.univ (k ⟨⟩) Q)
        ∗ boundary (d.tc : Thread nD τ) ∗ regionArrs Vr d (Vr d main_v4) ∗ owes (d.tc : Thread nD τ) 0 W ∗ levAts (K (F := F)).L (K (F := F)).lev
        ∗ Pipeline.cellsGhost (Pipeline.pin (pcfgs (F := F)) (adm (F := F))) EP 0 d ∗ Pipeline.toksInit (Pipeline.pin (pcfgs (F := F)) (adm (F := F))) EP 0 d)
      ⊢ wp frame (wpE (D (F := F)) 𝒱 (d.tc : Thread nD τ) none) Set.univ (.op (.customCall (Pipeline.entry 0) ()) k) Q

end Cert.Proof.KB

end
-- ==== Proof.KB.Entry.lean ====
/-
  @main's host operations and what the TensorCore's buffers hold between them.

  The first layer's weights W1 : [128, 512] are re-laid as [4, 128, 128] (a reshape to [128, 4, 128], then the axes
  permuted (1, 2, 0)), the gather leaves the gathered array at G4 of the launch memory, the bias b1 : [128] is made a
  row [1, 128]. `entryV` is the valuation the second kernel's region finds, `resultK` the result array it leaves.
-/
import proofs.«216967_g84078279786708_cont_9to1_m_1153_28_alg».proof.Proof.KB.RegionIface
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

/-! ## The host operations and the valuations between them -/

abbrev op1 : HloOp τ sig (Elt F) := StableHlo.reshape main_arg10 main_v0 rfl shapeCasts_S128x512_S128x4x128
abbrev op2 : HloOp τ sig (Elt F) :=
  StableHlo.unary main_v0 main_v1 ((transpose S4x128x128 [1, 2, 0] · transposes_S128x4x128_S4x128x128_1_2_0) : (⟨S128x4x128, .f32⟩ : BufTy).Contents (Elt F) → (⟨S4x128x128, .f32⟩ : BufTy).Contents (Elt F))
abbrev op3 : HloOp τ sig (Elt F) := StableHlo.reshape main_arg11 main_v3 rfl shapeCasts_S128_S1x128

abbrev r (b : Ref sig .tc) : DevRef τ sig := Proc.devRef .tc b

/-- The launch valuation of device d. -/
def V0 (d : Dev nD) : Valuation τ sig (Elt F) := fun b => m (d, b)
/-- After the weights are re-laid. -/
def V2 (d : Dev nD) : Valuation τ sig (Elt F) := (op2 (F := F)).result ((op1 (F := F)).result (V0 m d))
/-- After the gather: the gathered array at G4 of the launch memory. -/
def V3 (d : Dev nD) : Valuation τ sig (Elt F) := Function.update (V2 m d) (r main_v2) (G4m m d)
/-- After the bias is made a row: what the region finds. -/
def V4 (d : Dev nD) : Valuation τ sig (Elt F) := (op3 (F := F)).result (V3 m d)

/-- The TensorCore's arrays as the region finds them. -/
def entryV (c : Dev nD) (b : Ref sig .tc) : Buf (Elt F) ((c.tc : Thread nD τ).loc b) := V4 m c (r b)

/-- The result array the program ends with. -/
def resultK (c : Dev nD) : Buf (Elt F) ((c.tc : Thread nD τ).loc main_v4) := outR (entryV m) c

/-! ## What the valuations hold -/

/-- A buffer the re-laying does not write keeps its launch contents. -/
theorem V2_ne (d : Dev nD) {b : Ref sig .tc} (h0 : b ≠ main_v0) (h1 : b ≠ main_v1) : V2 m d (r b) = m ((d.tc : Thread nD τ).loc b) := by
  unfold V2; rw [StableHlo.unary_result_ne (h := h1), StableHlo.reshape_result_ne (h := h0)]; rfl

theorem V1_ne (d : Dev nD) {b : Ref sig .tc} (h0 : b ≠ main_v0) : (op1 (F := F)).result (V0 m d) (r b) = m ((d.tc : Thread nD τ).loc b) := by
  rw [StableHlo.reshape_result_ne (h := h0)]; rfl

theorem V4_ne (d : Dev nD) {b : Ref sig .tc} (h0 : b ≠ main_v0) (h1 : b ≠ main_v1) (h2 : b ≠ main_v2) (h3 : b ≠ main_v3) :
    entryV m d b = m ((d.tc : Thread nD τ).loc b) := by
  unfold entryV V4 V3
  rw [StableHlo.reshape_result_ne (h := h3), Function.update_of_ne (fun e => h2 (Proc.devRef_injective _ e)), V2_ne m d h0 h1]

theorem V4_v2 (d : Dev nD) : entryV m d main_v2 = G4m m d := by
  unfold entryV V4 V3
  rw [StableHlo.reshape_result_ne (h := (by decide : main_v2 ≠ main_v3)), Function.update_self]

theorem V4_v1 (d : Dev nD) : entryV m d main_v1 = V2 m d (r main_v1) := by
  unfold entryV V4 V3
  rw [StableHlo.reshape_result_ne (h := (by decide : main_v1 ≠ main_v3)), Function.update_of_ne (by decide)]

theorem V3_a11 (d : Dev nD) : V3 m d (r main_arg11) = m ((d.tc : Thread nD τ).loc main_arg11) := by
  unfold V3; rw [Function.update_of_ne (by decide), V2_ne m d (by decide) (by decide)]

theorem V3_v3 (d : Dev nD) : V3 m d (r main_v3) = m ((d.tc : Thread nD τ).loc main_v3) := by
  unfold V3; rw [Function.update_of_ne (by decide), V2_ne m d (by decide) (by decide)]

end Cert.Proof.KB

end
-- ==== Proof.KB.Main.lean ====
/-
  The launch element and @main on the TensorCore.

  @main: re-lay the first layer's weights (a reshape [128,512] → [128,4,128] and a transpose to [4,128,128]), run the
  gather on the two SparseCores, reshape the bias to a row, run the second kernel's region, return. The TensorCore hands
  the SparseCore call read shares of the two tables and of the two index arrays (keeping a remainder of each) and the
  gathered array split into the tiles' chunks, and gets them back with the gathered array at G4 of the launch memory;
  the region then finds its arrays at the valuation `entryV` below and leaves the result at `outR` of it.
  At the end every argument array is held at its launch contents and the result array at `resultK`.
-/
import proofs.«216967_g84078279786708_cont_9to1_m_1153_28_alg».proof.Proof.KB.Entry
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

open Idealize.ShloMosaic.StableHlo (held held_split held_sdiff_result wp_hlo_within)
open Idealize.ShloMosaic.Tactic

variable (m : (ℓ : Loc nD τ sig) → Buf (Elt F) ℓ) (ρ : Dev nD → PrngReg)
variable [FloatOps F]

/-! ## The unscoped buffers, one by one -/

omit [FloatOps F] in
theorem unscopedBufs_eq (d : Dev nD) (W : (b : Ref sig .tc) → Buf (Elt F) ((d.tc : Thread nD τ).loc b)) :
    (unscopedBufs d W : sProp 𝕄) = iprop((((d.tc : Thread nD τ).loc main_arg0) ↦{fullShare} W main_arg0)
      ∗ (((d.tc : Thread nD τ).loc main_arg1) ↦{fullShare} W main_arg1)
      ∗ (((d.tc : Thread nD τ).loc main_arg2) ↦{fullShare} W main_arg2)
      ∗ (((d.tc : Thread nD τ).loc main_arg3) ↦{fullShare} W main_arg3)
      ∗ (((d.tc : Thread nD τ).loc main_arg4) ↦{fullShare} W main_arg4)
      ∗ (((d.tc : Thread nD τ).loc main_arg5) ↦{fullShare} W main_arg5)
      ∗ (((d.tc : Thread nD τ).loc main_arg6) ↦{fullShare} W main_arg6)
      ∗ (((d.tc : Thread nD τ).loc main_arg7) ↦{fullShare} W main_arg7)
      ∗ (((d.tc : Thread nD τ).loc main_arg8) ↦{fullShare} W main_arg8)
      ∗ (((d.tc : Thread nD τ).loc main_arg9) ↦{fullShare} W main_arg9)
      ∗ (((d.tc : Thread nD τ).loc main_arg10) ↦{fullShare} W main_arg10)
      ∗ (((d.tc : Thread nD τ).loc main_arg11) ↦{fullShare} W main_arg11)
      ∗ (((d.tc : Thread nD τ).loc main_arg12) ↦{fullShare} W main_arg12)
      ∗ (((d.tc : Thread nD τ).loc main_arg13) ↦{fullShare} W main_arg13)
      ∗ (((d.tc : Thread nD τ).loc main_v0) ↦{fullShare} W main_v0)
      ∗ (((d.tc : Thread nD τ).loc main_v1) ↦{fullShare} W main_v1)
      ∗ (((d.tc : Thread nD τ).loc main_v2) ↦{fullShare} W main_v2)
      ∗ (((d.tc : Thread nD τ).loc main_v3) ↦{fullShare} W main_v3)
      ∗ (((d.tc : Thread nD τ).loc main_v4) ↦{fullShare} W main_v4)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem held_pair (d : Dev nD) (x y : Ref sig .tc) (hxy : r x ≠ r y) (V : Valuation τ sig (Elt F)) :
    (held (T d) {r x, r y} V : sProp 𝕄) = iprop((((d.tc : Thread nD τ).loc x) ↦{fullShare} V (r x)) ∗ (((d.tc : Thread nD τ).loc y) ↦{fullShare} V (r y))) := by
  unfold held
  rw [SparseCore.bigSep_insert' (by simpa using hxy), bigSep_singleton]

omit [FloatOps F] in
theorem pts_cast {ℓ : Loc nD τ sig} {f g : Buf (Elt F) ℓ} (h : f = g) : (ℓ ↦{fullShare} f : sProp 𝕄) ⊢ ℓ ↦{fullShare} g := by subst h; exact .rfl

/-! ## Around the SparseCore call: read shares out and back, the gathered array in chunks -/

abbrev rem2 : PosShare TreeShare := Transfers.shareDrop fullShare 2

omit [FloatOps F] in
theorem ro_halves (ℓ : Loc nD τ sig) (f : Buf (Elt F) ℓ) :
    (ℓ ↦{fullShare} f : sProp 𝕄) ⊣⊢ iprop((ℓ ↦{rem2} f) ∗ (ℓ ↦{tok2 0} f) ∗ (ℓ ↦{tok2 1} f)) := by
  have h := Transfers.pointsTo_toks (nD := nD) (τ := τ) (sig := sig) (Ix := HIx 1) (Val := Elt F) (Name := ℕ) (U := UU) (Lvl := ℕ) (ℓ := ℓ) (S := Finset.univ) (f := f) fullShare 2
  rw [show (Finset.univ : Finset (Fin 2)) = {0, 1} by decide, SparseCore.bigSep_insert' (by decide), bigSep_singleton] at h
  exact h

theorem st0_eq (d : Dev nD) :
    (bigSep Finset.univ fun c : Fin ((K (F := F)).nCore 0) => (P m).st 0 d c)
      = iprop((roPts m d (tok2 0) ∗ bigSep Finset.univ fun s : Fin 16 => chunksPts d (tileL 0 s) (m (gLoc d)))
          ∗ (roPts m d (tok2 1) ∗ bigSep Finset.univ fun s : Fin 16 => chunksPts d (tileL 1 s) (m (gLoc d)))) := by
  show (bigSep (Finset.univ : Finset (Fin 2)) fun c => (P m).st 0 d c) = _
  rw [show (Finset.univ : Finset (Fin 2)) = {0, 1} by decide, SparseCore.bigSep_insert' (by decide), bigSep_singleton]
  rfl

theorem dn0_eq (d : Dev nD) :
    (bigSep Finset.univ fun c : Fin ((K (F := F)).nCore 0) => (P m).dn 0 d c)
      = iprop((roPts m d (tok2 0) ∗ bigSep Finset.univ fun s : Fin 16 => chunksPts d (tileL 0 s) (G4m m d))
          ∗ (roPts m d (tok2 1) ∗ bigSep Finset.univ fun s : Fin 16 => chunksPts d (tileL 1 s) (G4m m d))) := by
  show (bigSep (Finset.univ : Finset (Fin 2)) fun c => (P m).dn 0 d c) = _
  rw [show (Finset.univ : Finset (Fin 2)) = {0, 1} by decide, SparseCore.bigSep_insert' (by decide), bigSep_singleton]
  rfl

/-- The cover of the gathered array by the tiles' chunks, as the tile modules prove it. -/
def Cover : Prop := ∀ (d : Dev nD) (f : Buf (Elt F) (gLoc d)),
  (gLoc d ↦{fullShare} f : sProp 𝕄) = bigSep Finset.univ fun c : Fin 2 => bigSep Finset.univ fun s : Fin 16 => chunksPts d (tileL c s) f

omit [FloatOps F] in
theorem cover_two (hc : Cover (F := F)) (d : Dev nD) (f : Buf (Elt F) (gLoc d)) :
    (gLoc d ↦{fullShare} f : sProp 𝕄)
      = iprop((bigSep Finset.univ fun s : Fin 16 => chunksPts d (tileL 0 s) f) ∗ (bigSep Finset.univ fun s : Fin 16 => chunksPts d (tileL 1 s) f)) := by
  rw [hc d f, show (Finset.univ : Finset (Fin 2)) = {0, 1} by decide, SparseCore.bigSep_insert' (by decide), bigSep_singleton]

/-! ## The launch element -/

/-- What the launch leaves device d for its region: the staging cells' ghost state and the duty tokens. -/
abbrev GH (d : Dev nD) : sProp 𝕄 :=
  iprop(Pipeline.cellsGhost (Pipeline.pin (pcfgs (F := F)) (adm (F := F))) EP 0 d ∗ Pipeline.toksInit (Pipeline.pin (pcfgs (F := F)) (adm (F := F))) EP 0 d)

theorem hinj : Function.Injective (Pipeline.cellOf (nD := nD) (τ := τ) (Pipeline.pin (pcfgs (F := F)) (adm (F := F)))) := Gen.cellOf_inj

def u₀ : UU :=
  (initOf (K (F := F)).hsCells (K (F := F)).hsToks,
    (initOf (Pipeline.cells (Pipeline.pin (pcfgs (F := F)) (adm (F := F))) hinj) (Pipeline.launchToks (Pipeline.pin (pcfgs (F := F)) (adm (F := F))) hinj), 1))

omit [FloatOps F] in
theorem bigSep_emp' {I : Type} (s : Finset I) : (bigSep s fun _ => iprop(emp)) = (iprop(emp) : sProp 𝕄) := bigSep_emp_const s

omit [FloatOps F] in
/-- The launch element splits into the handshakes' part and the staging cells' part (the counters' part is the unit). -/
theorem ownU_split (a : UH) (b : UP) :
    (ownU ((a, (b, (1 : Counters))) : UU) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) (adm (F := F))) EP hinj) $$ HP with ⟨Hcg, Htk⟩
  imodintro
  isplitl [HH]; · iexact HH
  isplitl [Hcg Htk]
  · simp only [bigSep_univ_of_subsingleton (0 : Fin 1)]
    unfold GH
    isplitl [Hcg]; · iexact Hcg
    iexact Htk
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## The region, lifted into the SparseCore program's table -/

/-- The region's call in the pipeline library's table, -/
abbrev regionCall : Prog (TpuEff nD τ sig (Elt F) (ΛP (F := F)) .tc) PUnit := .op (.customCall (Pipeline.entry 0) ()) .ret

omit [FloatOps F] in
/-- and @main's line for it is that call lifted into the SparseCore program's table. -/
theorem call_eq_lift :
    (Prog.lift (.customCall (SparseCore.inner (Pipeline.entry 0)) ()) : Prog (TpuEff nD τ sig (Elt F) (SparseCore.Sig (ΛP (F := F)) 1) .tc) PUnit)
      = SparseCore.liftProg (regionCall (F := F)) := rfl

theorem region_step (hregion : RegionRule (entryV m)) (d : Dev nD) (W : Waits sig (HIx 1)) (Φ : PUnit → sProp 𝕄) :
    iprop((iprop(boundary (d.tc : Thread nD τ) ∗ regionArrs (entryV m) d (resultK m d) ∗ ∃ W', ⌜∀ p ∈ W', p ∈ W ∨ p.2 = none⌝ ∗ owes (d.tc : Thread nD τ) 0 W') -∗ Φ ⟨⟩)
        ∗ boundary (d.tc : Thread nD τ) ∗ regionArrs (entryV m) d (entryV m d main_v4) ∗ owes (d.tc : Thread nD τ) 0 W ∗ levAts (K (F := F)).L (K (F := F)).lev
        ∗ GH (F := F) d)
      ⊢ wp frame (wpE ((K (F := F)).defs (D (F := F))) 𝒱 (SparseCore.T d) none) Set.univ
          (Prog.lift (.customCall (SparseCore.inner (Pipeline.entry 0)) ())) Φ := by
  rw [call_eq_lift]
  refine BI.Entails.trans ?_ ((K (F := F)).wp_liftProg (D (F := F)) 𝒱 (SparseCore.T d) Set.univ none (regionCall (F := F)) Φ)
  refine BI.Entails.trans ?_ (hregion d W .ret Φ)
  show (_ : sProp 𝕄) ⊢ (_ : sProp 𝕄)
  iintro ⟨Hk, Hb, Harr, HO, Hlv, Hcg, Htk⟩
  isplitl [Hk]
  · iintro Hpost
    rw [wp_ret]; imodintro
    iapply Hk; iexact Hpost
  isplitl [Hb]; · iexact Hb
  isplitl [Harr]; · iexact Harr
  isplitl [HO]; · iexact HO
  isplitl [Hlv]; · iexact Hlv
  isplitl [Hcg]; · iexact Hcg
  iexact Htk

/-! ## What @main leaves the claim -/

/-- Every argument array at its launch contents, the result array at resultK. -/
abbrev FIN (d : Dev nD) : sProp 𝕄 :=
  iprop((((d.tc : Thread nD τ).loc main_v4) ↦{fullShare} resultK m d) ∗ (((d.tc : Thread nD τ).loc main_arg0) ↦{fullShare} m ((d.tc : Thread nD τ).loc main_arg0)) ∗ (((d.tc : Thread nD τ).loc main_arg1) ↦{fullShare} m ((d.tc : Thread nD τ).loc main_arg1)) ∗ (((d.tc : Thread nD τ).loc main_arg2) ↦{fullShare} m ((d.tc : Thread nD τ).loc main_arg2)) ∗ (((d.tc : Thread nD τ).loc main_arg3) ↦{fullShare} m ((d.tc : Thread nD τ).loc main_arg3)) ∗ (((d.tc : Thread nD τ).loc main_arg4) ↦{fullShare} m ((d.tc : Thread nD τ).loc main_arg4)) ∗ (((d.tc : Thread nD τ).loc main_arg5) ↦{fullShare} m ((d.tc : Thread nD τ).loc main_arg5)) ∗ (((d.tc : Thread nD τ).loc main_arg6) ↦{fullShare} m ((d.tc : Thread nD τ).loc main_arg6)) ∗ (((d.tc : Thread nD τ).loc main_arg7) ↦{fullShare} m ((d.tc : Thread nD τ).loc main_arg7)) ∗ (((d.tc : Thread nD τ).loc main_arg8) ↦{fullShare} m ((d.tc : Thread nD τ).loc main_arg8)) ∗ (((d.tc : Thread nD τ).loc main_arg9) ↦{fullShare} m ((d.tc : Thread nD τ).loc main_arg9)) ∗ (((d.tc : Thread nD τ).loc main_arg10) ↦{fullShare} m ((d.tc : Thread nD τ).loc main_arg10)) ∗ (((d.tc : Thread nD τ).loc main_arg11) ↦{fullShare} m ((d.tc : Thread nD τ).loc main_arg11)) ∗ (((d.tc : Thread nD τ).loc main_arg12) ↦{fullShare} m ((d.tc : Thread nD τ).loc main_arg12)) ∗ (((d.tc : Thread nD τ).loc main_arg13) ↦{fullShare} m ((d.tc : Thread nD τ).loc main_arg13)))

def fq (d : Dev nD) (s' : Phys nD τ sig (Elt F)) : Prop :=
  s'.mem.mem ((d.tc : Thread nD τ).loc main_v4) = resultK m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)
    ∧ s'.mem.mem ((d.tc : Thread nD τ).loc main_arg7) = m ((d.tc : Thread nD τ).loc main_arg7)
    ∧ s'.mem.mem ((d.tc : Thread nD τ).loc main_arg8) = m ((d.tc : Thread nD τ).loc main_arg8)
    ∧ s'.mem.mem ((d.tc : Thread nD τ).loc main_arg9) = m ((d.tc : Thread nD τ).loc main_arg9)
    ∧ s'.mem.mem ((d.tc : Thread nD τ).loc main_arg10) = m ((d.tc : Thread nD τ).loc main_arg10)
    ∧ s'.mem.mem ((d.tc : Thread nD τ).loc main_arg11) = m ((d.tc : Thread nD τ).loc main_arg11)
    ∧ s'.mem.mem ((d.tc : Thread nD τ).loc main_arg12) = m ((d.tc : Thread nD τ).loc main_arg12)
    ∧ s'.mem.mem ((d.tc : Thread nD τ).loc main_arg13) = m ((d.tc : Thread nD τ).loc main_arg13)

theorem hfin (d : Dev nD) (s' : Phys nD τ sig (Elt F)) : iprop(FIN m d ∗ SI s') ⊢ (⌜fq m d s'⌝ : sProp 𝕄) := by
  iintro ⟨⟨Hv4, Ha0, Ha1, Ha2, Ha3, Ha4, Ha5, Ha6, Ha7, Ha8, Ha9, Ha10, Ha11, Ha12, Ha13⟩, HSI⟩
  ihave H := (persistent_entails_right (SI_pointsTo_agree (st := s') (ℓ := ((d.tc : Thread nD τ).loc main_v4)) (I := Finset.univ) (q := fullShare) (f := resultK m d))) $$ [HSI Hv4]
  · isplitl [HSI] <;> iassumption
  icases H with ⟨%h0, HSI, -⟩
  ihave H := (persistent_entails_right (SI_pointsTo_agree (st := s') (ℓ := ((d.tc : Thread nD τ).loc main_arg0)) (I := Finset.univ) (q := fullShare) (f := m ((d.tc : Thread nD τ).loc main_arg0)))) $$ [HSI Ha0]
  · isplitl [HSI] <;> iassumption
  icases H with ⟨%h1, HSI, -⟩
  ihave H := (persistent_entails_right (SI_pointsTo_agree (st := s') (ℓ := ((d.tc : Thread nD τ).loc main_arg1)) (I := Finset.univ) (q := fullShare) (f := m ((d.tc : Thread nD τ).loc main_arg1)))) $$ [HSI Ha1]
  · isplitl [HSI] <;> iassumption
  icases H with ⟨%h2, HSI, -⟩
  ihave H := (persistent_entails_right (SI_pointsTo_agree (st := s') (ℓ := ((d.tc : Thread nD τ).loc main_arg2)) (I := Finset.univ) (q := fullShare) (f := m ((d.tc : Thread nD τ).loc main_arg2)))) $$ [HSI Ha2]
  · isplitl [HSI] <;> iassumption
  icases H with ⟨%h3, HSI, -⟩
  ihave H := (persistent_entails_right (SI_pointsTo_agree (st := s') (ℓ := ((d.tc : Thread nD τ).loc main_arg3)) (I := Finset.univ) (q := fullShare) (f := m ((d.tc : Thread nD τ).loc main_arg3)))) $$ [HSI Ha3]
  · isplitl [HSI] <;> iassumption
  icases H with ⟨%h4, HSI, -⟩
  ihave H := (persistent_entails_right (SI_pointsTo_agree (st := s') (ℓ := ((d.tc : Thread nD τ).loc main_arg4)) (I := Finset.univ) (q := fullShare) (f := m ((d.tc : Thread nD τ).loc main_arg4)))) $$ [HSI Ha4]
  · isplitl [HSI] <;> iassumption
  icases H with ⟨%h5, HSI, -⟩
  ihave H := (persistent_entails_right (SI_pointsTo_agree (st := s') (ℓ := ((d.tc : Thread nD τ).loc main_arg5)) (I := Finset.univ) (q := fullShare) (f := m ((d.tc : Thread nD τ).loc main_arg5)))) $$ [HSI Ha5]
  · isplitl [HSI] <;> iassumption
  icases H with ⟨%h6, HSI, -⟩
  ihave H := (persistent_entails_right (SI_pointsTo_agree (st := s') (ℓ := ((d.tc : Thread nD τ).loc main_arg6)) (I := Finset.univ) (q := fullShare) (f := m ((d.tc : Thread nD τ).loc main_arg6)))) $$ [HSI Ha6]
  · isplitl [HSI] <;> iassumption
  icases H with ⟨%h7, HSI, -⟩
  ihave H := (persistent_entails_right (SI_pointsTo_agree (st := s') (ℓ := ((d.tc : Thread nD τ).loc main_arg7)) (I := Finset.univ) (q := fullShare) (f := m ((d.tc : Thread nD τ).loc main_arg7)))) $$ [HSI Ha7]
  · isplitl [HSI] <;> iassumption
  icases H with ⟨%h8, HSI, -⟩
  ihave H := (persistent_entails_right (SI_pointsTo_agree (st := s') (ℓ := ((d.tc : Thread nD τ).loc main_arg8)) (I := Finset.univ) (q := fullShare) (f := m ((d.tc : Thread nD τ).loc main_arg8)))) $$ [HSI Ha8]
  · isplitl [HSI] <;> iassumption
  icases H with ⟨%h9, HSI, -⟩
  ihave H := (persistent_entails_right (SI_pointsTo_agree (st := s') (ℓ := ((d.tc : Thread nD τ).loc main_arg9)) (I := Finset.univ) (q := fullShare) (f := m ((d.tc : Thread nD τ).loc main_arg9)))) $$ [HSI Ha9]
  · isplitl [HSI] <;> iassumption
  icases H with ⟨%h10, HSI, -⟩
  ihave H := (persistent_entails_right (SI_pointsTo_agree (st := s') (ℓ := ((d.tc : Thread nD τ).loc main_arg10)) (I := Finset.univ) (q := fullShare) (f := m ((d.tc : Thread nD τ).loc main_arg10)))) $$ [HSI Ha10]
  · isplitl [HSI] <;> iassumption
  icases H with ⟨%h11, HSI, -⟩
  ihave H := (persistent_entails_right (SI_pointsTo_agree (st := s') (ℓ := ((d.tc : Thread nD τ).loc main_arg11)) (I := Finset.univ) (q := fullShare) (f := m ((d.tc : Thread nD τ).loc main_arg11)))) $$ [HSI Ha11]
  · isplitl [HSI] <;> iassumption
  icases H with ⟨%h12, HSI, -⟩
  ihave H := (persistent_entails_right (SI_pointsTo_agree (st := s') (ℓ := ((d.tc : Thread nD τ).loc main_arg12)) (I := Finset.univ) (q := fullShare) (f := m ((d.tc : Thread nD τ).loc main_arg12)))) $$ [HSI Ha12]
  · isplitl [HSI] <;> iassumption
  icases H with ⟨%h13, HSI, -⟩
  ihave H := (SI_pointsTo_agree (st := s') (ℓ := ((d.tc : Thread nD τ).loc main_arg13)) (I := Finset.univ) (q := fullShare) (f := m ((d.tc : Thread nD τ).loc main_arg13))) $$ [HSI Ha13]
  · isplitl [HSI] <;> iassumption
  icases H with %h14
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i), funext fun i => h13 i (Finset.mem_univ i), funext fun i => h14 i (Finset.mem_univ i)⟩

def QC : PUnit × MemSt nD τ sig (Elt F) → Prop := fun r => ∀ c : Dev nD,
  r.2.mem ((c.tc : Thread nD τ).loc main_v4) = resultK m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)

/-! ## @main on the TensorCore -/

/-- @main on device d's TensorCore. -/
theorem hmain (hcover : Cover (F := F)) (hregion : RegionRule (entryV m)) (κ : GSem nD τ sig → ℕ) (d : Dev nD) :
    iprop((K (F := F)).ctx EH (P m) κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ha7, Ha8, Ha9, Ha10, Ha11, Ha12, Ha13, Hv0, Hv1, Hv2, Hv3, Hv4⟩, -, -⟩, HG⟩
  -- the weights re-laid: [128,512] as [128,4,128],
  iapply (wp_hlo_within 𝒱 (SparseCore.T d) none Set.univ (op := op1) (S := {r main_arg10, r main_v0}) (Finset.Subset.refl _) (V := V0 m d)) $$ [Hb Ha10 Hv0]
  · isplitl [Hb]; · iexact Hb
    rw [held_pair d main_arg10 main_v0 (by decide)]
    isplitl [Ha10]; · iexact Ha10
    iexact Hv0
  iintro ⟨Hb, Hh⟩
  ihave Hh' := (Entails.of_eq (held_pair d main_arg10 main_v0 (by decide) _)) $$ Hh
  icases Hh' with ⟨Ha10, Hv0⟩
  ihave Ha10 := (pts_cast (ℓ := (d.tc : Thread nD τ).loc main_arg10) (V1_ne m d (b := main_arg10) (by decide))) $$ Ha10
  rw [wp_ret]; imodintro
  -- then transposed to [4,128,128]
  iapply (wp_hlo_within 𝒱 (SparseCore.T d) none Set.univ (op := op2) (S := {r main_v0, r main_v1}) (Finset.Subset.refl _) (V := (op1 (F := F)).result (V0 m d))) $$ [Hb Hv0 Hv1]
  · isplitl [Hb]; · iexact Hb
    rw [held_pair d main_v0 main_v1 (by decide)]
    isplitl [Hv0]; · iexact Hv0
    iapply (pts_cast (ℓ := (d.tc : Thread nD τ).loc main_v1) (V1_ne m d (b := main_v1) (by decide)).symm); iexact Hv1
  iintro ⟨Hb, Hh⟩
  ihave Hh' := (Entails.of_eq (held_pair d main_v0 main_v1 (by decide) _)) $$ Hh
  icases Hh' with ⟨-, Hv1⟩
  rw [wp_ret]; imodintro
  -- the gather on the SparseCores: read shares of the tables and of the index arrays, the gathered array in chunks
  ihave Hx := (ro_halves ((d.tc : Thread nD τ).loc main_arg4) _).1 $$ Ha4
  icases Hx with ⟨Her, He0, He1⟩
  ihave Hx := (ro_halves ((d.tc : Thread nD τ).loc main_arg5) _).1 $$ Ha5
  icases Hx with ⟨Hmr, Hm0, Hm1⟩
  ihave Hx := (ro_halves ((d.tc : Thread nD τ).loc main_arg0) _).1 $$ Ha0
  icases Hx with ⟨Hsr, Hs0, Hs1⟩
  ihave Hx := (ro_halves ((d.tc : Thread nD τ).loc main_arg1) _).1 $$ Ha1
  icases Hx with ⟨Hdr, Hd0, Hd1⟩
  ihave Hg := (Entails.of_eq (cover_two hcover d _)) $$ Hv2
  icases Hg with ⟨Hg0, Hg1⟩
  iapply ((K (F := F)).wp_run (D (F := F)) 𝒱 (EH := EH) (P := P m) κ d 0) $$ [Hst Hb Ha2 Ha3 Ha6 Ha7 Ha8 Ha9 Ha10 Ha11 Ha12 Ha13 Hv1 Hv3 Hv4 HG Her He0 He1 Hmr Hm0 Hm1 Hsr Hs0 Hs1 Hdr Hd0 Hd1 Hg0 Hg1]
  isplitr; · iexact Hctx
  isplitl [Hst]; · iexact Hst
  isplitl [He0 He1 Hm0 Hm1 Hs0 Hs1 Hd0 Hd1 Hg0 Hg1]
  · rw [st0_eq]
    isplitl [He0 Hm0 Hs0 Hd0 Hg0]
    · isplitl [He0 Hm0 Hs0 Hd0]
      · isplitl [He0]; · iexact He0
        isplitl [Hm0]; · iexact Hm0
        isplitl [Hs0]; · iexact Hs0
        iexact Hd0
      · iexact Hg0
    · isplitl [He1 Hm1 Hs1 Hd1]
      · isplitl [He1]; · iexact He1
        isplitl [Hm1]; · iexact Hm1
        isplitl [Hs1]; · iexact Hs1
        iexact Hd1
      · iexact Hg1
  iintro ⟨Hst, Hdn⟩
  ihave Hdn' := (Entails.of_eq (dn0_eq m d)) $$ Hdn
  icases Hdn' with ⟨⟨⟨He0, Hm0, Hs0, Hd0⟩, Hg0⟩, ⟨⟨He1, Hm1, Hs1, Hd1⟩, Hg1⟩⟩
  ihave Ha4 := (ro_halves ((d.tc : Thread nD τ).loc main_arg4) (m ((d.tc : Thread nD τ).loc main_arg4))).2 $$ [Her He0 He1]
  · isplitl [Her]; · iexact Her
    isplitl [He0]; · iexact He0
    iexact He1
  ihave Ha5 := (ro_halves ((d.tc : Thread nD τ).loc main_arg5) (m ((d.tc : Thread nD τ).loc main_arg5))).2 $$ [Hmr Hm0 Hm1]
  · isplitl [Hmr]; · iexact Hmr
    isplitl [Hm0]; · iexact Hm0
    iexact Hm1
  ihave Ha0 := (ro_halves ((d.tc : Thread nD τ).loc main_arg0) (m ((d.tc : Thread nD τ).loc main_arg0))).2 $$ [Hsr Hs0 Hs1]
  · isplitl [Hsr]; · iexact Hsr
    isplitl [Hs0]; · iexact Hs0
    iexact Hs1
  ihave Ha1 := (ro_halves ((d.tc : Thread nD τ).loc main_arg1) (m ((d.tc : Thread nD τ).loc main_arg1))).2 $$ [Hdr Hd0 Hd1]
  · isplitl [Hdr]; · iexact Hdr
    isplitl [Hd0]; · iexact Hd0
    iexact Hd1
  ihave Hv2 := (Entails.of_eq (cover_two hcover d (G4m m d)).symm) $$ [Hg0 Hg1]
  · isplitl [Hg0]; · iexact Hg0
    iexact Hg1
  -- the bias as a row [1,128]
  iapply (wp_hlo_within 𝒱 (SparseCore.T d) none Set.univ (op := op3) (S := {r main_arg11, r main_v3}) (Finset.Subset.refl _) (V := V3 m d)) $$ [Hb Ha11 Hv3]
  · isplitl [Hb]; · iexact Hb
    rw [held_pair d main_arg11 main_v3 (by decide)]
    isplitl [Ha11]; · iapply (pts_cast (ℓ := (d.tc : Thread nD τ).loc main_arg11) (V3_a11 m d).symm); iexact Ha11
    iapply (pts_cast (ℓ := (d.tc : Thread nD τ).loc main_v3) (V3_v3 m d).symm); iexact Hv3
  iintro ⟨Hb, Hh⟩
  ihave Hh' := (Entails.of_eq (held_pair d main_arg11 main_v3 (by decide) _)) $$ Hh
  icases Hh' with ⟨Ha11, Hv3⟩
  ihave Ha11 := (pts_cast (ℓ := (d.tc : Thread nD τ).loc main_arg11) (show (op3 (F := F)).result (V3 m d) (r main_arg11) = m ((d.tc : Thread nD τ).loc main_arg11) from V4_ne m d (b := main_arg11) (by decide) (by decide) (by decide) (by decide))) $$ Ha11
  rw [wp_ret]; imodintro
  -- the second kernel's region: the TensorCore owes nothing any more
  unfold SparseCore.Cfg.tcSt
  icases Hst with ⟨⟨%W, %hW, HO⟩, Hat, #Hrd, #Hrs, Htoks⟩
  rw [(K (F := F)).Otc_end d (le_refl 1)]
  ihave Hlv := (SparseCore.Cfg.ctx_levAts (K := K (F := F)) (EH := EH) (P := P m) κ) $$ Hctx
  iapply (region_step m hregion d W _) $$ [Hb HO HG Hlv Hv2 Hv1 Hv3 Ha12 Ha13 Hv4 Hat Htoks Ha0 Ha1 Ha2 Ha3 Ha4 Ha5 Ha6 Ha7 Ha8 Ha9 Ha10 Ha11]
  isplitl [Hat Htoks Ha0 Ha1 Ha2 Ha3 Ha4 Ha5 Ha6 Ha7 Ha8 Ha9 Ha10 Ha11]
  · iintro ⟨Hb, Harr, %W', %hW', HO⟩
    unfold regionArrs
    icases Harr with ⟨Hv2, Hv1, Hv3, Ha12, Ha13, Hv4⟩
    ihave Ha12 := (pts_cast (ℓ := (d.tc : Thread nD τ).loc main_arg12) (V4_ne m d (b := main_arg12) (by decide) (by decide) (by decide) (by decide))) $$ Ha12
    ihave Ha13 := (pts_cast (ℓ := (d.tc : Thread nD τ).loc main_arg13) (V4_ne m d (b := main_arg13) (by decide) (by decide) (by decide) (by decide))) $$ Ha13
    imodintro
    isplitl [HO Hat Htoks]
    · isplitl [HO]
      · iexists W'; isplitr
        · ipureintro
          exact fun p hp => (hW' p hp).elim (fun h => hW p h) (fun h => by rw [h]; exact Nat.zero_le _)
        · iexact HO
      isplitl [Hat]; · iexact Hat
      isplitr; · iexact Hrd
      isplitr; · iexact Hrs
      iexact Htoks
    · isplitl [Hv4]; · iexact Hv4
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [Ha10]; · iexact Ha10
      isplitl [Ha11]; · iexact Ha11
      isplitl [Ha12]; · iexact Ha12
      iexact Ha13
  isplitl [Hb]; · iexact Hb
  isplitl [Hv2 Hv1 Hv3 Ha12 Ha13 Hv4]
  · unfold regionArrs
    isplitl [Hv2]; · iapply (pts_cast (ℓ := (d.tc : Thread nD τ).loc main_v2) (V4_v2 m d).symm); iexact Hv2
    isplitl [Hv1]; · iapply (pts_cast (ℓ := (d.tc : Thread nD τ).loc main_v1) (show (op2 (F := F)).result ((op1 (F := F)).result (V0 m d)) (r main_v1) = entryV m d main_v1 from (V4_v1 m d).symm)); iexact Hv1
    isplitl [Hv3]; · iapply (pts_cast (ℓ := (d.tc : Thread nD τ).loc main_v3) (show (op3 (F := F)).result (V3 m d) (r main_v3) = entryV m d main_v3 from rfl)); iexact Hv3
    isplitl [Ha12]; · iapply (pts_cast (ℓ := (d.tc : Thread nD τ).loc main_arg12) (V4_ne m d (b := main_arg12) (by decide) (by decide) (by decide) (by decide)).symm); iexact Ha12
    isplitl [Ha13]; · iapply (pts_cast (ℓ := (d.tc : Thread nD τ).loc main_arg13) (V4_ne m d (b := main_arg13) (by decide) (by decide) (by decide) (by decide)).symm); iexact Ha13
    iapply (pts_cast (ℓ := (d.tc : Thread nD τ).loc main_v4) (V4_ne m d (b := main_v4) (by decide) (by decide) (by decide) (by decide)).symm); iexact Hv4
  isplitl [HO]; · iexact HO
  isplitl [Hlv]; · iexact Hlv
  iexact HG

/-! ## The program's run -/

/-- The run of the whole family of threads, from the tiles' obligation, the split, the cover and the region's rule:
    every argument array ends at its launch contents and the result array at resultK. -/
theorem run_main [∀ e, Nonempty (Elt F e)] (hcover : Cover (F := F)) (hregion : RegionRule (entryV m))
    (htile : (K (F := F)).TileObl (D (F := F)) 𝒱 (P m) v₀ 0) (hvec : (K (F := F)).VecSplit' (P m) 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (fun d => GH (F := F) d) (FIN m) (u₀ (F := F)) (sep_elim_left.trans (hu₀ m)) (hmain m ρ hcover hregion) (fq m) (hfin m) (QC m) (fun _ h => h)

end Cert.Proof.KB

end
-- ==== Proof.KB.Pre.lean ====
/-
  The certificate's precondition gives what the proofs ask of the launch memory: the two index arrays' words, read
  signed, lie between 0 and 99999, so each names a row of the tables.
-/
import proofs.«216967_g84078279786708_cont_9to1_m_1153_28_alg».proof.Proof.KB.Common
import proofs.«216967_g84078279786708_cont_9to1_m_1153_28_alg».proof.Proof.PreDecode
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

theorem preOK_of_pre
    (h : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = (fun _ => 1#1)) :
    PreOK m :=
  fun d => Cert.Proof.PreDecode.in_range _ _ _ _ _ _ _ _ _ _ _ _ _ _ (h d)

end Cert.Proof.KB

end
-- ==== Proof.KB.TileCover.lean ====
/-
  The tiles' chunks of the gathered array: which entries each covers, that no two share an entry, and that together
  they are the whole array. The launch hands the array to the tiles chunk by chunk and takes it back the same way.
-/
import proofs.«216967_g84078279786708_cont_9to1_m_1153_28_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The chunks of the gathered array

Chunk k = 2 * p + h of tile (c, s) is plane p, rows 1024 * s + 512 * c + 256 * h … + 256, all 128 columns. A row number
below 16384 is 1024 * s + 512 * c + 256 * h + r for exactly one (s, c, h) and r < 256: the 2 × 16 × 8 chunks are pairwise
disjoint and cover the array. -/

/-- A squeezed unit-stride slice of the gathered array covers the slice's rectangle. -/
theorem mem_chunk (off : Fin 3 → Nat) (inb : ∀ a, off a + S1x256x128.size a ≤ S4x16384x128.size a) (i : S4x16384x128.Idx) :
    i ∈ (((gV.slice (Rect.unit (s := S4x16384x128) off S1x256x128.size inb) (fun _ => rfl)).squeeze S256x128
        squeezes_S1x256x128_S256x128).view.set : Finset S4x16384x128.Idx)
      ↔ ∀ a, off a ≤ i a ∧ (i a : Nat) < off a + S1x256x128.size a := by
  have e : (((gV.slice (Rect.unit (s := S4x16384x128) off S1x256x128.size inb) (fun _ => rfl)).squeeze S256x128
        squeezes_S1x256x128_S256x128).view.set : Finset S4x16384x128.Idx)
      = (Rect.unit (s := S4x16384x128) off S1x256x128.size inb).set :=
    (View.set_reshape _ _).trans (View.set_slice_whole _ _)
  rw [e]; exact Rect.mem_set_unit

/-- Chunk k of tile L in coordinates: plane k / 2, rows 1024 * L 1 + 512 * L 0 + 256 * (k % 2) … + 256. -/
theorem mem_chunkSet (L : grid0.Coords) (k : Fin 8) (i : S4x16384x128.Idx) :
    i ∈ chunkSet L k ↔ (i 0).val = k.val / 2 ∧ 1024 * (L 1).val + 512 * (L 0).val + 256 * (k.val % 2) ≤ (i 1).val
      ∧ (i 1).val < 1024 * (L 1).val + 512 * (L 0).val + 256 * (k.val % 2) + 256 := by
  have h2 : (i 2).val < 128 := (i 2).isLt
  have h0 : (i 0).val < 4 := (i 0).isLt
  fin_cases k
  · refine (mem_chunk _ _ i).trans ?_
    rw [show k0_off2 L 0#32 = _ from k0_off2_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off2 L 256#32 = _ from k0_off2_eq L ⟨1, by decide⟩]
    constructor
    · intro h; have a0 := h 0; have a1 := h 1; simp at a0 a1 ⊢; omega
    · intro h a; fin_cases a <;> simp at h ⊢ <;> omega
  · refine (mem_chunk _ _ i).trans ?_
    rw [show k0_off3 L 0#32 = _ from k0_off3_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off3 L 256#32 = _ from k0_off3_eq L ⟨1, by decide⟩]
    constructor
    · intro h; have a0 := h 0; have a1 := h 1; simp at a0 a1 ⊢; omega
    · intro h a; fin_cases a <;> simp at h ⊢ <;> omega
  · refine (mem_chunk _ _ i).trans ?_
    rw [show k0_off4 L 0#32 = _ from k0_off4_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off4 L 256#32 = _ from k0_off4_eq L ⟨1, by decide⟩]
    constructor
    · intro h; have a0 := h 0; have a1 := h 1; simp at a0 a1 ⊢; omega
    · intro h a; fin_cases a <;> simp at h ⊢ <;> omega
  · refine (mem_chunk _ _ i).trans ?_
    rw [show k0_off5 L 0#32 = _ from k0_off5_eq L ⟨0, by decide⟩]
    constructor
    · intro h; have a0 := h 0; have a1 := h 1; simp at a0 a1 ⊢; omega
    · intro h a; fin_cases a <;> simp at h ⊢ <;> omega
  · refine (mem_chunk _ _ i).trans ?_
    rw [show k0_off5 L 256#32 = _ from k0_off5_eq L ⟨1, by decide⟩]
    constructor
    · intro h; have a0 := h 0; have a1 := h 1; simp at a0 a1 ⊢; omega
    · intro h a; fin_cases a <;> simp at h ⊢ <;> omega

theorem tileL_zero (c : Fin 2) (s : Fin 16) : ((tileL c s) 0).val = c.val := rfl
theorem tileL_one (c : Fin 2) (s : Fin 16) : ((tileL c s) 1).val = s.val := rfl

/-- Two different (tile, chunk) pairs have no entry in common. -/
theorem chunk_disjoint {c c' : Fin 2} {s s' : Fin 16} {k k' : Fin 8} (h : ¬ (c = c' ∧ s = s' ∧ k = k')) :
    Disjoint (chunkSet (tileL c s) k) (chunkSet (tileL c' s') k') := by
  refine Finset.disjoint_left.mpr fun i hi hi' => h ?_
  rw [mem_chunkSet, tileL_zero, tileL_one] at hi hi'
  have hc := c.isLt; have hc' := c'.isLt; have hs := s.isLt; have hs' := s'.isLt; have hk := k.isLt; have hk' := k'.isLt
  refine ⟨Fin.ext ?_, Fin.ext ?_, Fin.ext ?_⟩ <;> omega

/-- What tile (c, s) writes, and what SparseCore c's tiles write. -/
def tileSet (c : Fin 2) (s : Fin 16) : Finset S4x16384x128.Idx := Finset.univ.biUnion fun k : Fin 8 => chunkSet (tileL c s) k
def coreSet (c : Fin 2) : Finset S4x16384x128.Idx := Finset.univ.biUnion fun s : Fin 16 => tileSet c s

theorem tile_disjoint {c c' : Fin 2} {s s' : Fin 16} (h : ¬ (c = c' ∧ s = s')) : Disjoint (tileSet c s) (tileSet c' s') :=
  (Finset.disjoint_biUnion_left _ _ _).mpr fun _ _ => (Finset.disjoint_biUnion_right _ _ _).mpr fun _ _ =>
    chunk_disjoint fun e => h ⟨e.1, e.2.1⟩

theorem core_disjoint {c c' : Fin 2} (h : c ≠ c') : Disjoint (coreSet c) (coreSet c') :=
  (Finset.disjoint_biUnion_left _ _ _).mpr fun _ _ => (Finset.disjoint_biUnion_right _ _ _).mpr fun _ _ =>
    tile_disjoint fun e => h e.1

/-- Every entry of the gathered array is in some chunk of some tile. -/
theorem cores_cover : (Finset.univ : Finset (Fin 2)).biUnion coreSet = (Finset.univ : Finset S4x16384x128.Idx) := by
  ext i
  have h0 : (i 0).val < 4 := (i 0).isLt
  have h1 : (i 1).val < 16384 := (i 1).isLt
  simp only [coreSet, tileSet, Finset.mem_biUnion, Finset.mem_univ, true_and, iff_true]
  refine ⟨⟨(i 1).val % 1024 / 512, by omega⟩, ⟨(i 1).val / 1024, by omega⟩, ⟨2 * (i 0).val + (i 1).val % 512 / 256, by omega⟩, ?_⟩
  rw [mem_chunkSet, tileL_zero, tileL_one]
  refine ⟨?_, ?_, ?_⟩ <;> simp only <;> omega

/-- (A) The gathered array whole is the tiles' chunks, SparseCore by SparseCore, tile by tile. -/
theorem g_cover (d : Dev nD) (f : Buf (Elt F) (gLoc d)) :
    (gLoc d ↦{fullShare} f : sProp 𝕄)
      = bigSep Finset.univ fun c : Fin 2 => bigSep Finset.univ fun s : Fin 16 => chunksPts d (tileL c s) f := by
  have e1 : (gLoc d ↦{fullShare} f : sProp 𝕄) = bigSep Finset.univ fun c : Fin 2 => gLoc d ↦[coreSet c]{fullShare} f := by
    rw [← pointsTo_biUnion Finset.univ (ℓ := gLoc d) coreSet fun c _ c' _ h => core_disjoint h, cores_cover]; try rfl
  have e2 (c : Fin 2) : (gLoc d ↦[coreSet c]{fullShare} f : sProp 𝕄) = bigSep Finset.univ fun s : Fin 16 => gLoc d ↦[tileSet c s]{fullShare} f :=
    pointsTo_biUnion Finset.univ (ℓ := gLoc d) (tileSet c) fun s _ s' _ h => tile_disjoint fun e => h e.2
  have e3 (c : Fin 2) (s : Fin 16) : (gLoc d ↦[tileSet c s]{fullShare} f : sProp 𝕄) = chunksPts d (tileL c s) f :=
    pointsTo_biUnion Finset.univ (ℓ := gLoc d) (chunkSet (tileL c s)) fun k _ k' _ h => chunk_disjoint fun e => h e.2.2
  rw [e1]
  refine bigSep_congr fun c _ => ?_
  rw [e2]
  exact bigSep_congr fun s _ => e3 c s

end Cert.Proof.KB

end
-- ==== Proof.KB.RegionData.lean ====
/-
  The TensorCore region's proof data: what each of the pipeline's six windows holds around the body at a grid point.
  The five input windows (the gathered array in blocks of 2048 rows, the re-laid weights, the bias row, the second
  layer's row and its bias, each of the last four one whole block) are left as the body found them; the result window's
  buffer holds, after the body at point t, the body's arithmetic on the input blocks at t: four matmuls of the planes
  of the gathered block with the planes of the weights, summed, the bias row added, the clamp at zero, the product with
  the second layer's row summed over the 128 lanes, the second bias added. The body's run is by symbolic execution of
  the printed function's skeleton over those payloads.
-/
import proofs.«216967_g84078279786708_cont_9to1_m_1153_28_alg».proof.Proof.KB.Common

import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-! ## The body's accesses -/

/-- Plane p of the staged block of the gathered array, p = 0 … 3. -/
abbrev rg0 : Rect S4x2048x128 := Rect.unit (s := S4x2048x128) ![0, 0, 0] S1x2048x128.size inb_S4x2048x128_S1x2048x128_0_0_0
abbrev rg1 : Rect S4x2048x128 := Rect.unit (s := S4x2048x128) ![1, 0, 0] S1x2048x128.size inb_S4x2048x128_S1x2048x128_1_0_0
abbrev rg2 : Rect S4x2048x128 := Rect.unit (s := S4x2048x128) ![2, 0, 0] S1x2048x128.size inb_S4x2048x128_S1x2048x128_2_0_0
abbrev rg3 : Rect S4x2048x128 := Rect.unit (s := S4x2048x128) ![3, 0, 0] S1x2048x128.size inb_S4x2048x128_S1x2048x128_3_0_0
/-- Plane p of the staged weights. -/
abbrev rw0 : Rect S4x128x128 := Rect.unit (s := S4x128x128) ![0, 0, 0] S1x128x128.size inb_S4x128x128_S1x128x128_0_0_0
abbrev rw1 : Rect S4x128x128 := Rect.unit (s := S4x128x128) ![1, 0, 0] S1x128x128.size inb_S4x128x128_S1x128x128_1_0_0
abbrev rw2 : Rect S4x128x128 := Rect.unit (s := S4x128x128) ![2, 0, 0] S1x128x128.size inb_S4x128x128_S1x128x128_2_0_0
abbrev rw3 : Rect S4x128x128 := Rect.unit (s := S4x128x128) ![3, 0, 0] S1x128x128.size inb_S4x128x128_S1x128x128_3_0_0
/-- The whole row, the whole scalar, the whole result block. -/
abbrev rrow : Rect S1x128 := Rect.unit (s := S1x128) ![0, 0] S1x128.size inb_S1x128_S1x128_0_0
abbrev rone : Rect S1 := Rect.unit (s := S1) ![0] S1.size inb_S1_S1_0
abbrev rout : Rect S2048 := Rect.unit (s := S2048) ![0] S2048.size inb_S2048_S2048_0

/-! ## What the body leaves in the result window's buffer -/

/-- The body's arithmetic on the staged blocks: the four matmuls of the planes of the gathered block with the planes of
    the weights, summed; the bias row added, the clamp at zero, the product with the second layer's row summed over
    the lanes, the second bias added. -/
def blockOut (x0 : Vec F S4x2048x128 .f32) (x1 : Vec F S4x128x128 .f32) (x2 : Vec F S1x128 .f32) (x3 : Vec F S1x128 .f32)
    (x4 : Vec F S1 .f32) : Vec F S2048 .f32 :=
  k1_pay1 (k1_pay2 (View.ld x0 rg0) (View.ld x1 rw0) (View.ld x0 rg1) (View.ld x1 rw1) (View.ld x0 rg2) (View.ld x1 rw2)
      (View.ld x0 rg3) (View.ld x1 rw3)) (View.ld x2 rrow) (View.ld x3 rrow) (View.ld x4 rone)

theorem hz1 : (![0] : Fin 1 → Nat) = fun _ => 0 := funext fun a => by fin_cases a <;> rfl

/-! ## The body's triple -/

set_option maxHeartbeats 1000000 in
/-- The kernel body on whole staging memrefs, the inputs' at read contents and the result's at anything, runs to the
    continuation holding the inputs' as they were and the result's at the body's arithmetic of the inputs'. -/
theorem sound_kernel (c : Dev nD) (E : Set ℕ) (i : grid1.Coords) (arg1 : Memref sig .tc .vmem S4x2048x128 .f32) (harg1 : arg1.IsWhole) (arg2 : Memref sig .tc .vmem S4x128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1 .f32) (harg5 : arg5.IsWhole) (arg6 : Memref sig .tc .vmem S2048 .f32) (harg6 : arg6.IsWhole)
    (x0 : Vec F S4x2048x128 .f32) (x1 : Vec F S4x128x128 .f32) (x2 : Vec F S1x128 .f32) (x3 : Vec F S1x128 .f32) (x4 : Vec F S1 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ owns (c.tc : Thread nD τ) arg4 fullShare x3 ∗ owns (c.tc : Thread nD τ) arg5 fullShare x4 ∗ (∃ d, owns (c.tc : Thread nD τ) arg6 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare x3 ∗ owns (c.tc : Thread nD τ) arg5 fullShare x4
            ∗ owns (c.tc : Thread nD τ) arg6 fullShare (blockOut x0 x1 x2 x3 x4)) -∗ Kc ⟨⟩))
      ⊢ wp frame (wpE (defs₀ (F := F)) Variants.none (c.tc : Thread nD τ) none) E (cc1__mlp_body i arg1 harg1 arg2 harg2 arg3 harg3 arg4 harg4 arg5 harg5 arg6 harg6) Kc := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (fun y => ⟨_, List.mem_singleton_self _, View.mem_set_unit_zero hz1 inb_S2048_S2048_0 y⟩)).trans
    (View.canon_unit_zero hz1 inb_S2048_S2048_0 _)

/-! ## The pipeline's proof data -/

/-- The proof data of the pipeline on core c: the arrays as the region finds them; after the body at point t each
    input's buffer at its block and the result's at the body's arithmetic of the input blocks; no invariant of the
    body's own; nothing owed, the recorded pairs those the region was entered with; full shares. -/
def dats (W : Waits sig (HIx 1)) (_ : Fin 1) (c : Dev nD) : Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => blockOut (iblk Vr c 0 t) (iblk Vr c 1 t) (iblk Vr c 2 t) (iblk Vr c 3 t) (iblk Vr c 4 t)
  Φ _ := iprop(emp)
  q _ := fullShare
  owed _ := 0
  recorded _ := {p | p ∈ W}

variable (W : Waits sig (HIx 1))

theorem A_eq (c : Dev nD) (w : Fin cfg1.W) : (dats Vr W 0 c).A w = Vr c (Pipeline.arrRef spec1 w) := by
  dsimp only [dats]

/-- What the body leaves, window by window. -/
theorem after1_0 (c : Dev nD) (t : Fin cfg1.N) : (dats Vr W 0 c).after 0 t = iblk Vr c 0 t := by dsimp only [dats]
theorem after1_1 (c : Dev nD) (t : Fin cfg1.N) : (dats Vr W 0 c).after 1 t = iblk Vr c 1 t := by dsimp only [dats]
theorem after1_2 (c : Dev nD) (t : Fin cfg1.N) : (dats Vr W 0 c).after 2 t = iblk Vr c 2 t := by dsimp only [dats]
theorem after1_3 (c : Dev nD) (t : Fin cfg1.N) : (dats Vr W 0 c).after 3 t = iblk Vr c 3 t := by dsimp only [dats]
theorem after1_4 (c : Dev nD) (t : Fin cfg1.N) : (dats Vr W 0 c).after 4 t = iblk Vr c 4 t := by dsimp only [dats]
theorem after1_5 (c : Dev nD) (t : Fin cfg1.N) : (dats Vr W 0 c).after 5 t
    = blockOut (iblk Vr c 0 t) (iblk Vr c 1 t) (iblk Vr c 2 t) (iblk Vr c 3 t) (iblk Vr c 4 t) := by dsimp only [dats]

/-- Each input's current staging buffer holds its block at every point, fetched there or not: unfetched, the block
    index has not moved and the body left the block in place. -/
theorem before1_0 (c : Dev nD) (t : Fin cfg1.N) (d) : (dats Vr W 0 c).before 0 t d = iblk Vr c 0 t :=
  ((dats Vr W 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats Vr W 0 c).before 1 t d = iblk Vr c 1 t :=
  ((dats Vr W 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats Vr W 0 c).before 2 t d = iblk Vr c 2 t :=
  ((dats Vr W 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats Vr W 0 c).before 3 t d = iblk Vr c 3 t :=
  ((dats Vr W 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats Vr W 0 c).before 4 t d = iblk Vr c 4 t :=
  ((dats Vr W 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)

end Cert.Proof.KB

end
-- ==== Proof.KB.RegionBody.lean ====
/-
  The TensorCore region's body obligation: at every grid point, from the six windows' current staging buffers at what
  they then hold (each input's at its block, fetched there or not; the result's at anything), the kernel's body runs to
  the same buffers with the result's at the body's arithmetic of the input blocks. The body keeps nothing between
  points and owes nothing: the invariant and the tallies pass through.
-/
import proofs.«216967_g84078279786708_cont_9to1_m_1153_28_alg».proof.Proof.KB.Common
import proofs.«216967_g84078279786708_cont_9to1_m_1153_28_alg».proof.Proof.KB.RegionData
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b)) (W : Waits sig (HIx 1))

/-! ## The body obligation, at a generic point -/

/-- What the body is called with at point t: the windows one by one, -/
def bodyPre (c : Dev nD) (t : Fin cfg1.N) : sProp 𝕄 :=
  iprop((dats Vr W 0 c).Φ t.castSucc ∗ (dats Vr W 0 c).owesAt (none : HIx 1) t.castSucc
    ∗ (∃ d, owns (c.tc : Thread nD τ) (st1_0 t) fullShare ((dats Vr W 0 c).before 0 t d))
    ∗ (∃ d, owns (c.tc : Thread nD τ) (st1_1 t) fullShare ((dats Vr W 0 c).before 1 t d))
    ∗ (∃ d, owns (c.tc : Thread nD τ) (st1_2 t) fullShare ((dats Vr W 0 c).before 2 t d))
    ∗ (∃ d, owns (c.tc : Thread nD τ) (st1_3 t) fullShare ((dats Vr W 0 c).before 3 t d))
    ∗ (∃ d, owns (c.tc : Thread nD τ) (st1_4 t) fullShare ((dats Vr W 0 c).before 4 t d))
    ∗ (∃ d, owns (c.tc : Thread nD τ) (st1_5 t) fullShare ((dats Vr W 0 c).before 5 t d)))

/-- and what it returns. -/
def bodyPost (c : Dev nD) (t : Fin cfg1.N) : sProp 𝕄 :=
  iprop((dats Vr W 0 c).Φ t.succ ∗ (dats Vr W 0 c).owesAt (none : HIx 1) t.succ
    ∗ owns (c.tc : Thread nD τ) (st1_0 t) fullShare ((dats Vr W 0 c).after 0 t)
    ∗ owns (c.tc : Thread nD τ) (st1_1 t) fullShare ((dats Vr W 0 c).after 1 t)
    ∗ owns (c.tc : Thread nD τ) (st1_2 t) fullShare ((dats Vr W 0 c).after 2 t)
    ∗ owns (c.tc : Thread nD τ) (st1_3 t) fullShare ((dats Vr W 0 c).after 3 t)
    ∗ owns (c.tc : Thread nD τ) (st1_4 t) fullShare ((dats Vr W 0 c).after 4 t)
    ∗ owns (c.tc : Thread nD τ) (st1_5 t) fullShare ((dats Vr W 0 c).after 5 t))

/-- The body at any point: the inputs' memrefs hold their blocks, so the body's triple applies; the invariant and the
    core's tallies pass through unread. -/
theorem sound_body (c : Dev nD) (t : Fin cfg1.N) :
    bodyPre Vr W c t ⊢ wp frame (wpE (defs₀ (F := F)) Variants.none (c.tc : Thread nD τ) none) Set.univ (bodyAt1 t) (fun _ => bodyPost Vr W c t) := by
  unfold bodyPre bodyPost bodyAt1
  simp only [before1_0, before1_1, before1_2, before1_3, before1_4]
  rw [show (dats Vr W 0 c).Φ t.succ = (dats Vr W 0 c).Φ t.castSucc from rfl,
    show (dats Vr W 0 c).owesAt (none : HIx 1) t.succ = (dats Vr W 0 c).owesAt (none : HIx 1) t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk Vr c 0 t) (iblk Vr c 1 t) (iblk Vr c 2 t) (iblk Vr c 3 t) (iblk Vr c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats Vr W 0 c) (defs₀ (F := F)) Variants.none (none : HIx 1) Set.univ := fun t => by
  rw [bigSep_W1, bigSep_W1]
  exact sound_body Vr W c t

end Cert.Proof.KB

end
-- ==== Proof.KB.RegionRun.lean ====
/-
  The TensorCore region as a segment of the program: the pipeline's decided layout, no semaphore of the kernel's own,
  the body obligation, and the four entailments around it. The region is entered from its six arrays held whole at
  what they then hold and the core owing nothing; the windows' arrays are those six; nothing else enters the
  pipeline's invariant (the kernel has no scoped buffer beside the staging buffers) and nothing bypasses it. It leaves
  the five inputs as they were (an input window is never written back) and the result array at what the eight
  write-backs made of it, the core still owing nothing, its recorded pairs those it entered with and the loop's own.
-/
import proofs.«216967_g84078279786708_cont_9to1_m_1153_28_alg».proof.Proof.KB.Common
import proofs.«216967_g84078279786708_cont_9to1_m_1153_28_alg».proof.Proof.KB.RegionIface
import proofs.«216967_g84078279786708_cont_9to1_m_1153_28_alg».proof.Proof.KB.RegionBody
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b)) (W : Waits sig (HIx 1))

/-! ## The region as a segment -/

/-- The region's arrays, the result at f4, with the pairs the core's waits may have recorded past those it entered with:
    the loop's own, at the pipeline's index. -/
def regionPost (c : Dev nD) (f4 : Buf (Elt F) ((c.tc : Thread nD τ).loc main_v4)) : sProp 𝕄 :=
  iprop(regionArrs Vr c f4 ∗ ∃ W', ⌜∀ p ∈ W', p ∈ W ∨ p.2 = none⌝ ∗ owes (c.tc : Thread nD τ) 0 W')

-- the launch lemmas stated over a family of configurations meet the pinned one only when unification may unfold plain
-- definitions in a metavariable's type
set_option backward.isDefEq.respectTransparency.types false in
/-- THE REGION: the decided layout, no semaphore of the kernel's own, the body obligation; entered from the six arrays
    whole and the core owing nothing, left with the result array at what the write-backs made of it. -/
def reg : Pipeline.RegionSeg (pcfgs (F := F)) (adm (F := F)) (dats Vr W) (none : HIx 1) defs₀ 𝒱₀ (K (F := F)).L (K (F := F)).lev 0 where
  win := winFacts1.to₀
  block_pos := block_pos1
  stage_whole := stage_whole1
  K := PEmpty
  osem := fun k => k.elim
  ho := Pipeline.OwnSemFacts.none _
  hbody c := (body_obligation Vr W c).loose
  hwaits := Pipeline.hwaits_of_owed_zero _ _ _ _ _ _ 0 fun _ _ => rfl
  pre c := iprop(regionArrs Vr c (Vr c main_v4) ∗ owes (c.tc : Thread nD τ) 0 W)
  post c := regionPost Vr W c ((dats Vr W 0 c).arrAt 5 cfg1.N)
  X _ := iprop(emp)
  Y _ := iprop(emp)
  Z _ := iprop(emp)
  hentry c := by
    rw [Pipeline.arrays_eq (Pipeline.pin (pcfgs (F := F)) (adm (F := F))) (dats Vr W) 0 c arr_whole1 ((dats Vr W 0 c).share_full fun _ => rfl), bigSep_W1]
    unfold regionArrs
    iintro ⟨⟨⟨H0, H1, H2, H3, H4, H5⟩, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl hp
      iexact HO
    isplitl [] <;> iempintro
  hin c := by
    rw [show (dats Vr W 0 c).Φ 0 = iprop(emp) from rfl]
    iintro -; iempintro
  hout c := by
    rw [Pipeline.ownSems0_none _ _ _ _ _ _ _ _ c,
      show Pipeline.scopedRest (Pipeline.pin (pcfgs (F := F)) (adm (F := F)) 0).spec c = (BI.emp : sProp 𝕄) from scopedRest1_eq c]
    iintro -
    isplitl []; · iempintro
    isplitl [] <;> iempintro
  hexit c := by
    rw [Pipeline.arrays_eq (Pipeline.pin (pcfgs (F := F)) (adm (F := F))) (dats Vr W) 0 c arr_whole1 ((dats Vr W 0 c).share_full fun _ => rfl), bigSep_W1]
    rw [(dats Vr W 0 c).arrAt_in 0 rfl, (dats Vr W 0 c).arrAt_in 1 rfl, (dats Vr W 0 c).arrAt_in 2 rfl, (dats Vr W 0 c).arrAt_in 3 rfl,
      (dats Vr W 0 c).arrAt_in 4 rfl]
    unfold regionPost regionArrs
    iintro ⟨⟨H0, H1, H2, H3, H4, H5⟩, HO, -, -⟩
    imodintro
    isplitr [HO]
    · isplitl [H0]; · iexact H0
      isplitl [H1]; · iexact H1
      isplitl [H2]; · iexact H2
      isplitl [H3]; · iexact H3
      isplitl [H4]; · iexact H4
      iexact H5
    · unfold Pipeline.Dat.owesAt Pipeline.owesWithin
      icases HO with ⟨%W', %hW, HO⟩
      iexists W'; isplitr
      · ipureintro
        intro p hp
        rcases hW hp with h | ⟨w, s, rfl⟩
        · exact Or.inl h
        · exact Or.inr rfl
      iexact HO

/-- The region's rule with the result array at what the pipeline's write-backs make of it: the library's step for a
    kernel region at this segment. -/
theorem region_wp_blocks (d : Dev nD) {α : Type} (k : PUnit → Prog (TpuEff nD τ sig (Elt F) (ΛP (F := F)) .tc) α) (Q : α → sProp 𝕄) :
    iprop((iprop(boundary (d.tc : Thread nD τ) ∗ regionPost Vr W d ((dats Vr W 0 d).arrAt 5 cfg1.N))
            -∗ wp frame (wpE (D (F := F)) 𝒱 (d.tc : Thread nD τ) none) Set.univ (k ⟨⟩) Q)
        ∗ boundary (d.tc : Thread nD τ) ∗ regionArrs Vr d (Vr d main_v4) ∗ owes (d.tc : Thread nD τ) 0 W ∗ levAts (K (F := F)).L (K (F := F)).lev
        ∗ Pipeline.cellsGhost (Pipeline.pin (pcfgs (F := F)) (adm (F := F))) EP 0 d ∗ Pipeline.toksInit (Pipeline.pin (pcfgs (F := F)) (adm (F := F))) EP 0 d)
      ⊢ wp frame (wpE (D (F := F)) 𝒱 (d.tc : Thread nD τ) none) Set.univ (.op (.customCall (Pipeline.entry 0) ()) k) Q := by
  refine .trans ?_ (Pipeline.RegionSeg.wp (pcfgs (F := F)) (adm (F := F)) (dats Vr W) (none : HIx 1) cellOf_inj EP defs₀ 𝒱₀ (K (F := F)).L (K (F := F)).lev
    (reg Vr W) d none (fun _ h => by cases h) k Q)
  iintro ⟨Hk, Hb, Ha, HO, Hl, Hg, Ht⟩
  isplitl [Hk]; · iexact Hk
  isplitl [Hb]; · iexact Hb
  isplitl [Ha HO]
  · iapply (show iprop(regionArrs Vr d (Vr d main_v4) ∗ owes (d.tc : Thread nD τ) 0 W) ⊢ (reg Vr W).pre d from .rfl)
    isplitl [Ha]; · iexact Ha
    iexact HO
  isplitl [Hl]; · iexact Hl
  isplitl [Hg]; · iexact Hg
  iexact Ht

end Cert.Proof.KB

end
-- ==== Proof.KB.RegionValue.lean ====
/-
  The result array after the TensorCore region is the specification's term of the arrays the region finds.
  What point t writes back is the body's arithmetic on the staged blocks at t. The staged block of the gathered array
  at t holds rows 2048 * t + r of the array (a block's coordinate is its index times its size plus the coordinate
  inside it; the index maps are decided over the eight points), so the body's four plane loads read the planes of block
  t; the four small arrays are staged whole. Hence point t writes entries 2048 * t … 2048 * t + 2047 of the
  specification's result; the eight blocks cover the 16384 entries (entry b lies in block b / 2048), and the array
  after the last write-back is the specification's result.
-/
import proofs.«216967_g84078279786708_cont_9to1_m_1153_28_alg».proof.Proof.KB.Common
import proofs.«216967_g84078279786708_cont_9to1_m_1153_28_alg».proof.Proof.KB.RegionIface
import proofs.«216967_g84078279786708_cont_9to1_m_1153_28_alg».proof.Proof.KB.RegionData
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

variable (Vr : (c : Dev nD) → (b : Ref sig .tc) → Buf (Elt F) ((c.tc : Thread nD τ).loc b)) (W : Waits sig (HIx 1))

/-! ## The body's loads, read as planes -/

theorem hz2 : (![0, 0] : Fin 2 → Nat) = fun _ => 0 := funext fun a => by fin_cases a <;> rfl

/-- A load of plane p of a staged block whose row r is row 2048 * t + r of the array reads plane p of block t. -/
theorem ld_gPlane (g : Vec F S4x16384x128 .f32) (x0 : Vec F S4x2048x128 .f32) (tt : Fin 8)
    (hx : ∀ (a : Fin 4) (r : Fin 2048) (l : Fin 128), x0 (ix3 a r l)
      = g (ix3 a (⟨tt.val * 2048 + r.val, by have := tt.isLt; have := r.isLt; omega⟩ : Fin 16384) l))
    (p : Fin 4) (off : Fin 3 → Nat) (hoff : off = ![p.val, 0, 0]) (inb : ∀ a, off a + S1x2048x128.size a ≤ S4x2048x128.size a) :
    View.ld x0 (Rect.unit (s := S4x2048x128) off S1x2048x128.size inb) = gPlane g tt p := by
  subst hoff
  funext y
  have h0 : (y 0).val < 1 := (y 0).isLt
  have h1 : (y 1).val < 2048 := (y 1).isLt
  have h2 : (y 2).val < 128 := (y 2).isLt
  have e : (Rect.unit (s := S4x2048x128) ![p.val, 0, 0] S1x2048x128.size inb).idx y = ix3 p (⟨(y 1).val, h1⟩ : Fin 2048) (⟨(y 2).val, h2⟩ : Fin 128) := by
    funext a; apply Fin.ext
    match a with
    | ⟨0, _⟩ => show p.val + 1 * (y 0).val = p.val; omega
    | ⟨1, _⟩ => show 0 + 1 * (y 1).val = (y 1).val; omega
    | ⟨2, _⟩ => show 0 + 1 * (y 2).val = (y 2).val; omega
  show x0 ((Rect.unit (s := S4x2048x128) ![p.val, 0, 0] S1x2048x128.size inb).idx y) = gPlane g tt p y
  rw [e]
  exact (hx p ⟨(y 1).val, h1⟩ ⟨(y 2).val, h2⟩).trans rfl

/-- A load of plane p of the staged weights reads plane p of them. -/
theorem ld_wPlane (w : Vec F S4x128x128 .f32) (p : Fin 4) (off : Fin 3 → Nat) (hoff : off = ![p.val, 0, 0])
    (inb : ∀ a, off a + S1x128x128.size a ≤ S4x128x128.size a) :
    View.ld w (Rect.unit (s := S4x128x128) off S1x128x128.size inb) = wPlane w p := by
  subst hoff
  funext y
  have h0 : (y 0).val < 1 := (y 0).isLt
  have h1 : (y 1).val < 128 := (y 1).isLt
  have h2 : (y 2).val < 128 := (y 2).isLt
  have e : (Rect.unit (s := S4x128x128) ![p.val, 0, 0] S1x128x128.size inb).idx y = ix3 p (⟨(y 1).val, h1⟩ : Fin 128) (⟨(y 2).val, h2⟩ : Fin 128) := by
    funext a; apply Fin.ext
    match a with
    | ⟨0, _⟩ => show p.val + 1 * (y 0).val = p.val; omega
    | ⟨1, _⟩ => show 0 + 1 * (y 1).val = (y 1).val; omega
    | ⟨2, _⟩ => show 0 + 1 * (y 2).val = (y 2).val; omega
  show w ((Rect.unit (s := S4x128x128) ![p.val, 0, 0] S1x128x128.size inb).idx y) = wPlane w p y
  rw [e]
  rfl

/-- The body's arithmetic on staged blocks that are block t of the gathered array and the four small arrays whole is the
    specification's term at block t. -/
theorem blockOut_eq (g : Vec F S4x16384x128 .f32) (w : Vec F S4x128x128 .f32) (b1r w2 : Vec F S1x128 .f32) (b2 : Vec F S1 .f32)
    (x0 : Vec F S4x2048x128 .f32) (x1 : Vec F S4x128x128 .f32) (x2 x3 : Vec F S1x128 .f32) (x4 : Vec F S1 .f32) (tt : Fin 8)
    (h0 : ∀ (a : Fin 4) (r : Fin 2048) (l : Fin 128), x0 (ix3 a r l)
      = g (ix3 a (⟨tt.val * 2048 + r.val, by have := tt.isLt; have := r.isLt; omega⟩ : Fin 16384) l))
    (h1 : ∀ z : S4x128x128.Idx, x1 z = w z) (h2 : ∀ z : S1x128.Idx, x2 z = b1r z) (h3 : ∀ z : S1x128.Idx, x3 z = w2 z)
    (h4 : ∀ z : S1.Idx, x4 z = b2 z) :
    blockOut x0 x1 x2 x3 x4
      = k1_pay1 (k1_pay2 (gPlane g tt 0) (wPlane w 0) (gPlane g tt 1) (wPlane w 1) (gPlane g tt 2) (wPlane w 2) (gPlane g tt 3) (wPlane w 3)) b1r w2 b2 := by
  obtain rfl : x1 = w := funext h1
  obtain rfl : x2 = b1r := funext h2
  obtain rfl : x3 = w2 := funext h3
  obtain rfl : x4 = b2 := funext h4
  unfold blockOut
  rw [ld_gPlane g x0 tt h0 0 ![0, 0, 0] rfl inb_S4x2048x128_S1x2048x128_0_0_0, ld_gPlane g x0 tt h0 1 ![1, 0, 0] rfl inb_S4x2048x128_S1x2048x128_1_0_0,
    ld_gPlane g x0 tt h0 2 ![2, 0, 0] rfl inb_S4x2048x128_S1x2048x128_2_0_0, ld_gPlane g x0 tt h0 3 ![3, 0, 0] rfl inb_S4x2048x128_S1x2048x128_3_0_0,
    ld_wPlane x1 0 ![0, 0, 0] rfl inb_S4x128x128_S1x128x128_0_0_0, ld_wPlane x1 1 ![1, 0, 0] rfl inb_S4x128x128_S1x128x128_1_0_0,
    ld_wPlane x1 2 ![2, 0, 0] rfl inb_S4x128x128_S1x128x128_2_0_0, ld_wPlane x1 3 ![3, 0, 0] rfl inb_S4x128x128_S1x128x128_3_0_0,
    View.ld_unit_zero (S := S1x128) hz2 inb_S1x128_S1x128_0_0, View.ld_unit_zero (S := S1x128) hz2 inb_S1x128_S1x128_0_0,
    View.ld_unit_zero (S := S1) hz1 inb_S1_S1_0]

/-- The specification's result at entry 2048 * t + r is entry r of its term at block t. -/
theorem Mlp_at (g : Vec F S4x16384x128 .f32) (w : Vec F S4x128x128 .f32) (b1r w2 : Vec F S1x128 .f32) (b2 : Vec F S1 .f32)
    (tt : Fin 8) (j : S2048.Idx) (i : S16384.Idx) (hi : (i 0).val = tt.val * 2048 + (j 0).val) :
    Mlp g w b1r w2 b2 i
      = k1_pay1 (k1_pay2 (gPlane g tt 0) (wPlane w 0) (gPlane g tt 1) (wPlane w 1) (gPlane g tt 2) (wPlane w 2) (gPlane g tt 3) (wPlane w 3)) b1r w2 b2 j := by
  have hj : (j 0).val < 2048 := (j 0).isLt
  have ht : (⟨(i 0).val / 2048, by have h : (i 0).val < 16384 := (i 0).isLt; omega⟩ : Fin 8) = tt := Fin.ext (by show (i 0).val / 2048 = tt.val; omega)
  have hjj : ix1 (⟨(i 0).val % 2048, Nat.mod_lt _ (by decide)⟩ : Fin 2048) = j := by
    funext a; apply Fin.ext
    match a with
    | ⟨0, _⟩ => show (i 0).val % 2048 = (j 0).val; omega
  unfold Mlp
  dsimp only
  rw [ht, hjj]

/-! ## The windows' blocks, read off the arrays -/

/-- The printed index maps over the grid: the result's block index is the point; the gathered array's moves with it on
    the row axis; the four small arrays' blocks are the arrays. -/
theorem idx_facts : ∀ t : Fin cfg1.N,
    win1_5.index t (0 : Fin 1) = t.val
    ∧ win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- Row r of the staged block of the gathered array at point t is row 2048 * t + r of the array. -/
theorem iblk0_apply (c : Dev nD) (t : Fin cfg1.N) (ht : t.val < 8) (a : Fin 4) (r : Fin 2048) (l : Fin 128) :
    iblk Vr c 0 t (ix3 a r l) = Vr c main_v2 (ix3 a (⟨t.val * 2048 + r.val, by have := r.isLt; omega⟩ : Fin 16384) l) := by
  obtain ⟨-, e0, e1, e2, -⟩ := idx_facts t
  show Vr c main_v2 (((cfg1.win 0).blk t).view.emb (ix3 a r l)) = Vr c main_v2 _
  congr 1
  funext b; apply Fin.ext
  match b with
  | ⟨0, _⟩ => show win1_0.index t (0 : Fin 3) * 4 + 1 * a.val = a.val; rw [e0]; omega
  | ⟨1, _⟩ => show win1_0.index t (1 : Fin 3) * 2048 + 1 * r.val = t.val * 2048 + r.val; rw [e1]; omega
  | ⟨2, _⟩ => show win1_0.index t (2 : Fin 3) * 128 + 1 * l.val = l.val; rw [e2]; omega

/-- The four small arrays are staged whole. -/
theorem iblk1_apply (c : Dev nD) (t : Fin cfg1.N) (z : S4x128x128.Idx) : iblk Vr c 1 t z = Vr c main_v1 z := by
  obtain ⟨-, -, -, -, e0, e1, e2, -⟩ := idx_facts t
  show Vr c main_v1 (((cfg1.win 1).blk t).view.emb z) = Vr c main_v1 z
  congr 1
  funext b; apply Fin.ext
  match b with
  | ⟨0, _⟩ => show win1_1.index t (0 : Fin 3) * 4 + 1 * (z 0).val = (z 0).val; rw [e0]; omega
  | ⟨1, _⟩ => show win1_1.index t (1 : Fin 3) * 128 + 1 * (z 1).val = (z 1).val; rw [e1]; omega
  | ⟨2, _⟩ => show win1_1.index t (2 : Fin 3) * 128 + 1 * (z 2).val = (z 2).val; rw [e2]; omega
theorem iblk2_apply (c : Dev nD) (t : Fin cfg1.N) (z : S1x128.Idx) : iblk Vr c 2 t z = Vr c main_v3 z := by
  obtain ⟨-, -, -, -, -, -, -, e0, e1, -⟩ := idx_facts t
  show Vr c main_v3 (((cfg1.win 2).blk t).view.emb z) = Vr c main_v3 z
  congr 1
  funext b; apply Fin.ext
  match b with
  | ⟨0, _⟩ => show win1_2.index t (0 : Fin 2) * 1 + 1 * (z 0).val = (z 0).val; rw [e0]; omega
  | ⟨1, _⟩ => show win1_2.index t (1 : Fin 2) * 128 + 1 * (z 1).val = (z 1).val; rw [e1]; omega
theorem iblk3_apply (c : Dev nD) (t : Fin cfg1.N) (z : S1x128.Idx) : iblk Vr c 3 t z = Vr c main_arg12 z := by
  obtain ⟨-, -, -, -, -, -, -, -, -, e0, e1, -⟩ := idx_facts t
  show Vr c main_arg12 (((cfg1.win 3).blk t).view.emb z) = Vr c main_arg12 z
  congr 1
  funext b; apply Fin.ext
  match b with
  | ⟨0, _⟩ => show win1_3.index t (0 : Fin 2) * 1 + 1 * (z 0).val = (z 0).val; rw [e0]; omega
  | ⟨1, _⟩ => show win1_3.index t (1 : Fin 2) * 128 + 1 * (z 1).val = (z 1).val; rw [e1]; omega
theorem iblk4_apply (c : Dev nD) (t : Fin cfg1.N) (z : S1.Idx) : iblk Vr c 4 t z = Vr c main_arg13 z := by
  obtain ⟨-, -, -, -, -, -, -, -, -, -, -, e0⟩ := idx_facts t
  show Vr c main_arg13 (((cfg1.win 4).blk t).view.emb z) = Vr c main_arg13 z
  congr 1
  funext b; apply Fin.ext
  match b with
  | ⟨0, _⟩ => show win1_4.index t (0 : Fin 1) * 1 + 1 * (z 0).val = (z 0).val; rw [e0]; omega

/-! ## From blocks to the array -/

/-- What point t writes back is block t of the specification's result of the arrays as the region finds them. -/
theorem flushed5_eq (c : Dev nD) (t : Fin cfg1.N) :
    (dats Vr W 0 c).flushed 5 t = ((cfg1.win 5).blk t).view.read (Elt F) (outR Vr c) := by
  show (cfg1.win 5).cut (grid1.coords t) ((dats Vr W 0 c).after 5 t) = _
  rw [after1_5]
  have ht : t.val < 8 := lt_of_lt_of_eq t.isLt N_1
  obtain ⟨e0, -⟩ := idx_facts t
  funext j
  show blockOut (iblk Vr c 0 t) (iblk Vr c 1 t) (iblk Vr c 2 t) (iblk Vr c 3 t) (iblk Vr c 4 t) j = outR Vr c (((cfg1.win 5).blk t).view.emb j)
  rw [blockOut_eq (Vr c main_v2) (Vr c main_v1) (Vr c main_v3) (Vr c main_arg12) (Vr c main_arg13)
    (iblk Vr c 0 t) (iblk Vr c 1 t) (iblk Vr c 2 t) (iblk Vr c 3 t) (iblk Vr c 4 t) ⟨t.val, ht⟩
    (fun a r l => iblk0_apply Vr c t ht a r l) (iblk1_apply Vr c t) (iblk2_apply Vr c t) (iblk3_apply Vr c t) (iblk4_apply Vr c t)]
  unfold outR
  exact (Mlp_at (Vr c main_v2) (Vr c main_v1) (Vr c main_v3) (Vr c main_arg12) (Vr c main_arg13) ⟨t.val, ht⟩ j
    (((cfg1.win 5).blk t).view.emb j)
    (by show win1_5.index t (0 : Fin 1) * 2048 + 1 * (j 0).val = t.val * 2048 + (j 0).val; rw [e0]; omega)).symm

/-- An entry of the result array is in point t's block iff it is among the block's 2048 entries. -/
theorem mem_blk5 (t : Fin cfg1.N) (i : S16384.Idx) :
    i ∈ ((cfg1.win 5).blk t).view.set ↔ ∀ a : Fin 1, win1_5.index t a * S2048.size a ≤ (i a).val ∧ (i a).val < win1_5.index t a * S2048.size a + S2048.size a := by
  show i ∈ ((View.whole main_v4).slice (win1_5.rect t)).set ↔ _
  rw [View.set_slice_whole, Rect.mem_set_unit]
  exact Iff.rfl

/-- The eight blocks cover the result array: entry b is in block b / 2048. -/
theorem covered5 (i : S16384.Idx) : ∃ t : Fin cfg1.N, (cfg1.win 5).flush t = true ∧ i ∈ ((cfg1.win 5).blk t).view.set := by
  have hi : (i 0).val < 16384 := (i 0).isLt
  refine ⟨⟨(i 0).val / 2048, by rw [show cfg1.N = 8 from N_1]; omega⟩, flush1_5 _, ?_⟩
  rw [mem_blk5]
  obtain ⟨e0, -⟩ := idx_facts ⟨(i 0).val / 2048, by rw [show cfg1.N = 8 from N_1]; omega⟩
  intro a
  match a with
  | ⟨0, _⟩ =>
    show win1_5.index _ (0 : Fin 1) * 2048 ≤ (i 0).val ∧ (i 0).val < win1_5.index _ (0 : Fin 1) * 2048 + 2048
    rw [e0]; show (i 0).val / 2048 * 2048 ≤ (i 0).val ∧ (i 0).val < (i 0).val / 2048 * 2048 + 2048
    omega

/-- THE RESULT ARRAY after the region: the specification's result of the arrays as the region finds them. -/
theorem final5 (c : Dev nD) : (dats Vr W 0 c).arrAt 5 cfg1.N = outR Vr c :=
  (dats Vr W 0 c).arrAt_eq_of_cover 5 (outR Vr c) (fun t _ => flushed5_eq Vr W c t) covered5

end Cert.Proof.KB

end
-- ==== Proof.KB.Region.lean ====
/-
  The TensorCore region's rule: entered from the boundary with its six arrays whole, the core owing nothing, the
  launch's level facts and the pipeline's ghost state, the region's call runs to the boundary with the five inputs as
  they were and the result array at the specification's term of them: the library's step for a kernel region, with the
  array the eight write-backs leave identified block by block.
-/
import proofs.«216967_g84078279786708_cont_9to1_m_1153_28_alg».proof.Proof.KB.Common
import proofs.«216967_g84078279786708_cont_9to1_m_1153_28_alg».proof.Proof.KB.RegionRun
import proofs.«216967_g84078279786708_cont_9to1_m_1153_28_alg».proof.Proof.KB.RegionValue
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

variable [FloatOps F]

/-- The region's rule. -/
theorem region_wp (Vr : (c : Dev nD) → (b : Ref sig .tc) → Buf (Elt F) ((c.tc : Thread nD τ).loc b)) : RegionRule Vr := by
  intro d W α k Q
  have h := region_wp_blocks Vr W d k Q
  rw [final5 Vr W d] at h
  unfold regionPost at h
  exact h

end Cert.Proof.KB

end
-- ==== Proof.KB.TileSetup.lean ====
/-
  A tile's thread and what it holds of its own: the six DMA semaphores and the four scratch buffers the task uses,
  taken out of the tile's scoped storage, and the tile's eight chunks of the gathered array taken one by one.
-/
import proofs.«216967_g84078279786708_cont_9to1_m_1153_28_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A tile's thread, its semaphores and its scratch

Tile L runs on vector subcore L 1 of SparseCore L 0. Of its scoped storage the task uses six DMA semaphores and four
buffers; the rest is carried along untouched. -/

abbrev cV (L : grid0.Coords) : Fin τ.nSC := (L 0).castLE hcore0
abbrev jV (L : grid0.Coords) : Fin τ.nSub := (L 1).castLE hsub0
/-- The thread of tile L on device d. -/
abbrev thr (d : Dev nD) (L : grid0.Coords) : Thread nD τ := V d (cV L) (jV L)
/-- The cell of one of the tile's own DMA semaphores. -/
abbrev cell (d : Dev nD) (L : grid0.Coords) (x : DmaSems sig S_) : GSem nD τ sig := (thr d L, .dma x.sem)

theorem cell_ne {t : Thread nD τ} {a b : DmaSem sig} (h : a ≠ b) : ((t, SemLoc.dma a) : GSem nD τ sig) ≠ (t, SemLoc.dma b) :=
  fun e => h (SemLoc.dma.inj (Prod.mk.inj e).2)

variable (d : Dev nD) (L : grid0.Coords)

/-- The six semaphores the task uses are among the tile's own, each at zero; the rest stays a family. -/
theorem ownSems0_V :
    (ownSems0 (thr d L) : sProp 𝕄)
      = iprop(semVal (cell d L cc0_scratch4) 0 ∗ semVal (cell d L cc0_scratch5) 0 ∗ semVal (cell d L cc0_scratch6) 0 ∗ semVal (cell d L cc0_scratch7) 0 ∗ semVal (cell d L cc0_scoped0) 0 ∗ semVal (cell d L cc0_scoped1) 0
          ∗ bigSep (((((((ownCells (thr d L)).erase (cell d L cc0_scratch4)).erase (cell d L cc0_scratch5)).erase (cell d L cc0_scratch6)).erase (cell d L cc0_scratch7)).erase (cell d L cc0_scoped0)).erase (cell d L cc0_scoped1)) fun g => semVal g 0) := by
  unfold SparseCore.Cfg.ownSems0
  rw [SparseCore.bigSep_erase' ((mem_ownCells (g := cell d L cc0_scratch4)).mpr ⟨rfl, by show (SemLoc.dma cc0_scratch4.sem : SemLoc sig).isScoped .scVector = true; decide⟩),
    SparseCore.bigSep_erase' (Finset.mem_erase.mpr ⟨cell_ne (by decide), (mem_ownCells (g := cell d L cc0_scratch5)).mpr ⟨rfl, by show (SemLoc.dma cc0_scratch5.sem : SemLoc sig).isScoped .scVector = true; decide⟩⟩),
    SparseCore.bigSep_erase' (Finset.mem_erase.mpr ⟨cell_ne (by decide), Finset.mem_erase.mpr ⟨cell_ne (by decide), (mem_ownCells (g := cell d L cc0_scratch6)).mpr ⟨rfl, by show (SemLoc.dma cc0_scratch6.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell d L cc0_scratch7)).mpr ⟨rfl, by show (SemLoc.dma cc0_scratch7.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc0_scoped0)).mpr ⟨rfl, by show (SemLoc.dma cc0_scoped0.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc0_scoped1)).mpr ⟨rfl, by show (SemLoc.dma cc0_scoped1.sem : SemLoc sig).isScoped .scVector = true; decide⟩⟩⟩⟩⟩⟩)]

/-- The four scratch buffers are among the tile's own, each at some contents; the rest stays a family. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

/-- A tile's eight chunks, one by one. -/
theorem chunksPts_eq (f : Buf (Elt F) (gLoc d)) :
    (chunksPts d L f : sProp 𝕄)
      = iprop((gLoc d ↦[chunkSet L 0]{fullShare} f) ∗ (gLoc d ↦[chunkSet L 1]{fullShare} f) ∗ (gLoc d ↦[chunkSet L 2]{fullShare} f) ∗ (gLoc d ↦[chunkSet L 3]{fullShare} f) ∗ (gLoc d ↦[chunkSet L 4]{fullShare} f) ∗ (gLoc d ↦[chunkSet L 5]{fullShare} f) ∗ (gLoc d ↦[chunkSet L 6]{fullShare} f) ∗ (gLoc d ↦[chunkSet L 7]{fullShare} f)) := by
  show (bigSep (Finset.univ : Finset (Fin 8)) fun k => gLoc d ↦[chunkSet L k]{fullShare} f) = _
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

end Cert.Proof.KB

end
-- ==== Proof.KB.TileVal.lean ====
/-
  The values a tile's task moves: what its word lists hold, what a gather lands in a row buffer, and that a chunk
  written from the buffer reads as the gathered array G4 of the launch memory does there.
-/
import proofs.«216967_g84078279786708_cont_9to1_m_1153_28_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## What a tile's copies and gathers deliver, as values

A tile's word list is 512 consecutive words of an index array from row base = 1024 * L 1 + 512 * L 0; half h of it names
the table rows of 256 edges; the gather lands, at row r of the row buffer, the table row the word base + 256 * h + r names;
the copy-out lands the buffer at rows base + 256 * h … of one plane of the gathered array. So the chunk reads as the
gathered array G4 does there. -/

section Pure

variable {sig' : RefSig} {κ : Kind} {sp : Space} {s : Shape} {e : EltTy} {Val : EltTy → Type}

/-- Reading a slice of a view just written whole reads the payload at the slice's place. -/
theorem read_slice_write_univ (v : View sig' κ sp s e) (r : Rect s) (f : v.ty.Contents Val) (w : s.Idx → Val e) (x : r.shape.Idx) :
    (v.slice r).read Val (v.write Val f w Finset.univ) x = w (r.emb x) := by
  show v.read Val (v.write Val f w Finset.univ) (r.emb x) = _
  rw [View.read_write_univ]

/-- A whole-view piece last written reads back as its payload, whatever was written before. -/
theorem read_writes_whole_cons (v : View sig' κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Contents that read through the view as a whole-view piece's payload agree with that piece written, on the view's
    elements. -/
theorem writes_whole_eq_on (v : View sig' κ sp s e) (f G : v.ty.Contents Val) (pay : s.Idx → Val e) (h : v.read Val G = pay) :
    ∀ i ∈ v.set, v.writes Val f [⟨Rect.whole s, pay⟩] i = G i := by
  intro i hi
  obtain ⟨y, -, rfl⟩ := Finset.mem_map.mp hi
  have h1 := congrFun (View.read_writes_whole v f pay) y
  have h2 := congrFun h y
  rw [View.read_apply] at h1 h2
  exact (cast_inj _).mp (h1.trans h2.symm)

end Pure

theorem inRange_all {a : Vec F S16384 .i32} (h : Cert.Spec.InRange a) (i : S16384.Idx) : (a i).toNat < 100000 := by
  rw [eq_ix1 i]; exact (h _).2

/-- The gathered array at an entry of plane p, where p's table is T and its words a. -/
theorem G4_at {emb mem : Vec F S100000x128 .f32} {src dst : Vec F S16384 .i32} (i : S4x16384x128.Idx)
    (T : Vec F S100000x128 .f32) (a : Vec F S16384 .i32)
    (hT : (if (i 0).val < 2 then emb else mem) = T) (ha : (if (i 0).val % 2 = 0 then src else dst) = a)
    (b : Fin 16384) (hb : (i 1).val = b.val) (j : Fin 128) (hj : (i 2).val = j.val) (hlt : (a (ix1 b)).toNat < 100000) :
    G4 emb mem src dst i = T (ix2 (⟨(a (ix1 b)).toNat, hlt⟩ : Fin 100000) j) := by
  unfold G4
  rw [hT, ha, show (i 1 : Fin 16384) = b from Fin.ext hb, show (i 2 : Fin 128) = j from Fin.ext hj, Cert.Spec.rowAt_of_lt hlt]

/-- The landed gather, entry by entry: row y 0 of the buffer is the table row the list's word y 0 names. -/
theorem gathered_row (hg : S100000x128.Gathers 0 S256x128) (T : S100000x128.Idx → Elt F .f32) (lst : S256.Idx → Elt F .i32)
    (hn : S256.numel = S256x128.size hg.axis') (hin : ∀ x, (lst x).toNat < S100000x128.size hg.axis) (y : S256x128.Idx) :
    SparseCore.gatherPayload hg T (SparseCore.rows lst hn hin) y
      = T (ix2 (⟨(lst (ix1 (y 0 : Fin 256))).toNat, hin _⟩ : Fin 100000) (y 1 : Fin 128)) := by
  unfold SparseCore.gatherPayload
  congr 1
  funext b
  apply Fin.ext
  match b with
  | ⟨0, hb⟩ =>
    have h := Shape.Gathers.idx_axis hg (SparseCore.rows lst hn hin) y
    show (hg.idx (SparseCore.rows lst hn hin) y hg.axis).val = _
    rw [h]
    show (lst (S256.rowMajor.symm _)).toNat = (lst (ix1 (y 0 : Fin 256))).toNat
    congr 2
    refine (Equiv.symm_apply_eq _).mpr (Fin.ext ?_)
    rw [Shape.rowMajor_val_one]; rfl
  | ⟨1, hb⟩ => exact Shape.Gathers.idx_of_ne hg _ y ⟨1, hb⟩ Nat.one_ne_zero

/-- Row base + 256 * h + r of an index array: the edge tile L's half h names at row r of the row buffer. -/
def edgeOf (L : grid0.Coords) (h : Fin 2) (r : Fin 256) : Fin 16384 :=
  ⟨1024 * (L 1).val + 512 * (L 0).val + 256 * h.val + r.val, by
    have h1 : (L 1).val < 16 := (L 1).isLt
    have h0 : (L 0).val < 2 := (L 0).isLt
    have := h.isLt; have := r.isLt; omega⟩

/-- Where entry y of a chunk sits in the gathered array: plane co 0, row co 1 + y 0, column co 2 + y 1. -/
theorem chunk_emb_val (co : Fin 3 → Nat) (inb : ∀ a, co a + S1x256x128.size a ≤ S4x16384x128.size a) (y : S256x128.Idx) :
    ((((gV.slice (Rect.unit (s := S4x16384x128) co S1x256x128.size inb) (fun _ => rfl)).squeeze S256x128
        squeezes_S1x256x128_S256x128).view.emb y : S4x16384x128.Idx) 0).val = co 0
    ∧ ((((gV.slice (Rect.unit (s := S4x16384x128) co S1x256x128.size inb) (fun _ => rfl)).squeeze S256x128
        squeezes_S1x256x128_S256x128).view.emb y : S4x16384x128.Idx) 1).val = co 1 + (y 0).val
    ∧ ((((gV.slice (Rect.unit (s := S4x16384x128) co S1x256x128.size inb) (fun _ => rfl)).squeeze S256x128
        squeezes_S1x256x128_S256x128).view.emb y : S4x16384x128.Idx) 2).val = co 2 + (y 1).val := by
  have e : (((gV.slice (Rect.unit (s := S4x16384x128) co S1x256x128.size inb) (fun _ => rfl)).squeeze S256x128
        squeezes_S1x256x128_S256x128).view.emb y : S4x16384x128.Idx)
      = (Rect.unit (s := S4x16384x128) co S1x256x128.size inb).emb (Fin.cons ⟨0, Nat.one_pos⟩ y) := by
    show (Rect.unit (s := S4x16384x128) co S1x256x128.size inb).emb (Shape.reshapeEquiv squeezes_S1x256x128_S256x128.numel_eq y) = _
    rw [Shape.reshapeEquiv_cons_one]
  rw [e]
  refine ⟨?_, ?_, ?_⟩
  · show co 0 + 1 * 0 = co 0
    omega
  · show co 1 + 1 * (y 0).val = co 1 + (y 0).val
    omega
  · show co 2 + 1 * (y 1).val = co 2 + (y 1).val
    omega

/-- A chunk of the gathered array G4 reads as a gather of 256 rows of the plane's table at the plane's words. -/
theorem chunk_read (L : grid0.Coords) (co : Fin 3 → Nat) (inb : ∀ a, co a + S1x256x128.size a ≤ S4x16384x128.size a)
    (p : Fin 4) (h : Fin 2) (hco : co = ![p.val, 1024 * (L 1).val + 512 * (L 0).val + 256 * h.val, 0])
    (emb mem : Vec F S100000x128 .f32) (src dst : Vec F S16384 .i32)
    (T : S100000x128.Idx → Elt F .f32) (a : Vec F S16384 .i32)
    (hT : (if p.val < 2 then emb else mem) = T) (ha : (if p.val % 2 = 0 then src else dst) = a)
    (lst : S256.Idx → Elt F .i32) (hlst : ∀ z : S256.Idx, lst z = a (ix1 (edgeOf L h (z 0))))
    (hg : S100000x128.Gathers 0 S256x128) (hn : S256.numel = S256x128.size hg.axis')
    (hin : ∀ x, (lst x).toNat < S100000x128.size hg.axis) :
    ((gV.slice (Rect.unit (s := S4x16384x128) co S1x256x128.size inb) (fun _ => rfl)).squeeze S256x128
        squeezes_S1x256x128_S256x128).view.read (Elt F) (G4 emb mem src dst)
      = SparseCore.gatherPayload hg T (SparseCore.rows lst hn hin) := by
  funext y
  obtain ⟨e0, e1, e2⟩ := chunk_emb_val co inb y
  have c0 : co 0 = p.val := by rw [hco]; rfl
  have c1 : co 1 = 1024 * (L 1).val + 512 * (L 0).val + 256 * h.val := by rw [hco]; rfl
  have c2 : co 2 = 0 := by rw [hco]; rfl
  have hl := hlst (ix1 (y 0 : Fin 256))
  have hlt : (a (ix1 (edgeOf L h (y 0)))).toNat < 100000 := by
    have := hin (ix1 (y 0 : Fin 256)); rw [hl] at this; exact this
  rw [gathered_row, View.read_apply, cast_eq,
    G4_at (F := F) _ T a (by rw [e0, c0]; exact hT) (by rw [e0, c0]; exact ha) (edgeOf L h (y 0)) (by rw [e1, c1]; rfl) (y 1)
      (by rw [e2, c2, Nat.zero_add]) hlt]
  exact congrArg T (congrArg (fun w : Fin 100000 => ix2 w (y 1 : Fin 128)) (Fin.ext (by show _ = (lst _).toNat; rw [hl])))

/-- A slice at no offsets and full extent reads as the view itself. -/
theorem full_slice_read {κ : Kind} {sp : Space} (tv : View sig κ sp S100000x128 .f32)
    (inb : ∀ a, (![0, 0] : Fin 2 → Nat) a + S100000x128.size a ≤ S100000x128.size a) (f : tv.ty.Contents (Elt F)) :
    (tv.slice (Rect.unit (s := S100000x128) ![0, 0] S100000x128.size inb)).read (Elt F) f = tv.read (Elt F) f := by
  funext x
  show tv.read (Elt F) f ((Rect.unit (s := S100000x128) ![0, 0] S100000x128.size inb).emb x) = tv.read (Elt F) f x
  congr 1
  funext a; apply Fin.ext
  match a with
  | ⟨0, _⟩ => show 0 + 1 * (x 0).val = (x 0).val; omega
  | ⟨1, _⟩ => show 0 + 1 * (x 1).val = (x 1).val; omega

/-- Word z of half h of a tile's word list — the list copied whole from rows base … + 512 of an index array — is the
    array's word at edge base + 256 * h + z. -/
theorem list_word {κ : Kind} (L : grid0.Coords) (wv : View sig κ .vmem S512 .i32) (g0 : wv.ty.Contents (Elt F))
    (av : View sig κ .hbm S16384 .i32) (A : av.ty.Contents (Elt F)) (a : Vec F S16384 .i32) (hA : av.read (Elt F) A = a)
    (w : S512.Idx → Elt F .i32)
    (hw : w = (av.slice (Rect.unit (s := S16384) (k0_off1 L) S512.size (k0_off1_inb L))).read (Elt F) A)
    (off : Fin 1 → Nat) (inb : ∀ a, off a + S256.size a ≤ S512.size a) (h : Fin 2) (hoff : off 0 = 256 * h.val) (z : S256.Idx) :
    (wv.slice (Rect.unit (s := S512) off S256.size inb)).read (Elt F) (wv.write (Elt F) g0 w Finset.univ) z
      = a (ix1 (edgeOf L h (z 0))) := by
  rw [read_slice_write_univ, hw]
  show av.read (Elt F) A ((Rect.unit (s := S16384) (k0_off1 L) S512.size (k0_off1_inb L)).emb
    ((Rect.unit (s := S512) off S256.size inb).emb z)) = _
  rw [hA]
  congr 1
  funext b; apply Fin.ext
  match b with
  | ⟨0, _⟩ =>
    show k0_off1 L 0 + 1 * (off 0 + 1 * (z 0).val) = 1024 * (L 1).val + 512 * (L 0).val + 256 * h.val + (z 0).val
    rw [k0_off1_eq, hoff]
    show 1024 * (L 1).val + 512 * (L 0).val + 1 * (256 * h.val + 1 * (z 0).val) = _
    omega

/-- Under the precondition on an index array, every word of either half of the tile's list names a table row. -/
theorem list_inRange {κ : Kind} (L : grid0.Coords) (wv : View sig κ .vmem S512 .i32) (g0 : wv.ty.Contents (Elt F))
    (av : View sig κ .hbm S16384 .i32) (A : av.ty.Contents (Elt F)) (a : Vec F S16384 .i32) (hA : av.read (Elt F) A = a)
    (ha : Cert.Spec.InRange a) (w : S512.Idx → Elt F .i32)
    (hw : w = (av.slice (Rect.unit (s := S16384) (k0_off1 L) S512.size (k0_off1_inb L))).read (Elt F) A)
    (off : Fin 1 → Nat) (inb : ∀ a, off a + S256.size a ≤ S512.size a) (h : Fin 2) (hoff : off 0 = 256 * h.val) :
    ∀ x, ((wv.slice (Rect.unit (s := S512) off S256.size inb)).read (Elt F) (wv.write (Elt F) g0 w Finset.univ) x).toNat < 100000 :=
  fun x => by rw [list_word L wv g0 av A a hA w hw off inb h hoff x]; exact inRange_all ha _

end Cert.Proof.KB

end
-- ==== Proof.KB.TileBody.lean ====
/-
  A tile's task, run once at a symbolic tile: the two word lists are copied in; then eight times a half list's 256 table
  rows are gathered into a row buffer and the buffer is copied out to the tile's chunk of the gathered array. On each
  semaphore at most one copy is outstanding, no buffer is touched while a copy on it is pending, and the word lists are
  never overwritten, so the task is a run of local copies, indexed gathers and their waits. Under the precondition every
  word names a table row, and each chunk ends at the gathered array G4 of the launch memory.
-/
import proofs.«216967_g84078279786708_cont_9to1_m_1153_28_alg».proof.Proof.KB.TileSetup
import proofs.«216967_g84078279786708_cont_9to1_m_1153_28_alg».proof.Proof.KB.TileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

-- the kernel's memrefs, spelt as the body table passes them
local notation "embW" => (Memref.whole Cert.Kernel.main_arg4_scv : Memref Cert.Kernel.sig Kind.scVector Space.hbm Cert.Kernel.S100000x128 EltTy.f32)
local notation "memW" => (Memref.whole Cert.Kernel.main_arg5_scv : Memref Cert.Kernel.sig Kind.scVector Space.hbm Cert.Kernel.S100000x128 EltTy.f32)
local notation "srcW" => (Memref.whole Cert.Kernel.main_arg0_scv : Memref Cert.Kernel.sig Kind.scVector Space.hbm Cert.Kernel.S16384 EltTy.i32)
local notation "dstW" => (Memref.whole Cert.Kernel.main_arg1_scv : Memref Cert.Kernel.sig Kind.scVector Space.hbm Cert.Kernel.S16384 EltTy.i32)
local notation "gW" => (Memref.whole Cert.Kernel.main_v2_scv : Memref Cert.Kernel.sig Kind.scVector Space.hbm Cert.Kernel.S4x16384x128 EltTy.f32)
local notation "w0W" => (Memref.whole Cert.Kernel.cc0_scratch0 : Memref Cert.Kernel.sig Kind.scVector Space.vmem Cert.Kernel.S512 EltTy.i32)
local notation "w1W" => (Memref.whole Cert.Kernel.cc0_scratch1 : Memref Cert.Kernel.sig Kind.scVector Space.vmem Cert.Kernel.S512 EltTy.i32)
local notation "r0W" => (Memref.whole Cert.Kernel.cc0_scratch2 : Memref Cert.Kernel.sig Kind.scVector Space.vmem Cert.Kernel.S256x128 EltTy.f32)
local notation "r1W" => (Memref.whole Cert.Kernel.cc0_scratch3 : Memref Cert.Kernel.sig Kind.scVector Space.vmem Cert.Kernel.S256x128 EltTy.f32)

variable (m : (ℓ : Loc nD τ sig) → Buf (Elt F) ℓ) (d : Dev nD) (L : grid0.Coords)

/-! ## The arrays as the tile's memrefs address them -/

theorem pts_emb (q : PosShare TreeShare) (f : Buf (Elt F) (embLoc d)) : ((embW).view.loc (thr d L) ↦{q} f : sProp 𝕄) = embLoc d ↦{q} f := rfl
theorem pts_mem (q : PosShare TreeShare) (f : Buf (Elt F) (memLoc d)) : ((memW).view.loc (thr d L) ↦{q} f : sProp 𝕄) = memLoc d ↦{q} f := rfl
theorem pts_src (q : PosShare TreeShare) (f : Buf (Elt F) (srcLoc d)) : ((srcW).view.loc (thr d L) ↦{q} f : sProp 𝕄) = srcLoc d ↦{q} f := rfl
theorem pts_dst (q : PosShare TreeShare) (f : Buf (Elt F) (dstLoc d)) : ((dstW).view.loc (thr d L) ↦{q} f : sProp 𝕄) = dstLoc d ↦{q} f := rfl
theorem pts_w0 (f : Buf (Elt F) ((thr d L).loc cc0_scratch0)) : ((w0W).view.loc (thr d L) ↦{fullShare} f : sProp 𝕄) = (thr d L).loc cc0_scratch0 ↦{fullShare} f := rfl
theorem pts_w1 (f : Buf (Elt F) ((thr d L).loc cc0_scratch1)) : ((w1W).view.loc (thr d L) ↦{fullShare} f : sProp 𝕄) = (thr d L).loc cc0_scratch1 ↦{fullShare} f := rfl
theorem pts_r0 (f : Buf (Elt F) ((thr d L).loc cc0_scratch2)) : ((r0W).view.loc (thr d L) ↦{fullShare} f : sProp 𝕄) = (thr d L).loc cc0_scratch2 ↦{fullShare} f := rfl
theorem pts_r1 (f : Buf (Elt F) ((thr d L).loc cc0_scratch3)) : ((r1W).view.loc (thr d L) ↦{fullShare} f : sProp 𝕄) = (thr d L).loc cc0_scratch3 ↦{fullShare} f := rfl
theorem pts_g0 (f : Buf (Elt F) (gLoc d)) : ((chunk0 L).view.loc (thr d L) ↦[(chunk0 L).view.set]{fullShare} f : sProp 𝕄) = gLoc d ↦[chunkSet L 0]{fullShare} f := rfl
theorem pts_g1 (f : Buf (Elt F) (gLoc d)) : ((chunk1 L).view.loc (thr d L) ↦[(chunk1 L).view.set]{fullShare} f : sProp 𝕄) = gLoc d ↦[chunkSet L 1]{fullShare} f := rfl
theorem pts_g2 (f : Buf (Elt F) (gLoc d)) : ((chunk2 L).view.loc (thr d L) ↦[(chunk2 L).view.set]{fullShare} f : sProp 𝕄) = gLoc d ↦[chunkSet L 2]{fullShare} f := rfl
theorem pts_g3 (f : Buf (Elt F) (gLoc d)) : ((chunk3 L).view.loc (thr d L) ↦[(chunk3 L).view.set]{fullShare} f : sProp 𝕄) = gLoc d ↦[chunkSet L 3]{fullShare} f := rfl
theorem pts_g4 (f : Buf (Elt F) (gLoc d)) : ((chunk4 L).view.loc (thr d L) ↦[(chunk4 L).view.set]{fullShare} f : sProp 𝕄) = gLoc d ↦[chunkSet L 4]{fullShare} f := rfl
theorem pts_g5 (f : Buf (Elt F) (gLoc d)) : ((chunk5 L).view.loc (thr d L) ↦[(chunk5 L).view.set]{fullShare} f : sProp 𝕄) = gLoc d ↦[chunkSet L 5]{fullShare} f := rfl
theorem pts_g6 (f : Buf (Elt F) (gLoc d)) : ((chunk6 L).view.loc (thr d L) ↦[(chunk6 L).view.set]{fullShare} f : sProp 𝕄) = gLoc d ↦[chunkSet L 6]{fullShare} f := rfl
theorem pts_g7 (f : Buf (Elt F) (gLoc d)) : ((chunk7 L).view.loc (thr d L) ↦[(chunk7 L).view.set]{fullShare} f : sProp 𝕄) = gLoc d ↦[chunkSet L 7]{fullShare} f := rfl

/-! ## The words in range, at what the word lists hold after the two copies -/

theorem hin_w0 (hpre : PreOK m) (g0 : Buf (Elt F) ((thr d L).loc cc0_scratch0)) (w : S512.Idx → Elt F .i32)
    (hw : w = ((srcW).view.slice (Rect.unit (s := S16384) (k0_off1 L) S512.size (k0_off1_inb L))).read (Elt F) (m (srcLoc d)))
    (off : Fin 1 → Nat) (inb : ∀ a, off a + S256.size a ≤ S512.size a) (h : Fin 2) (hoff : off 0 = 256 * h.val) :
    ∀ x, (((w0W).slice (Rect.unit (s := S512) off S256.size inb) (fun _ => rfl)).view.read (Elt F)
      (View.write (Elt F) (w0W).view g0 w Finset.univ) x).toNat < 100000 :=
  list_inRange L (w0W).view g0 (srcW).view (m (srcLoc d)) (m (srcLoc d)) rfl (hpre d).1 w hw off inb h hoff
theorem hin_w1 (hpre : PreOK m) (g0 : Buf (Elt F) ((thr d L).loc cc0_scratch1)) (w : S512.Idx → Elt F .i32)
    (hw : w = ((dstW).view.slice (Rect.unit (s := S16384) (k0_off1 L) S512.size (k0_off1_inb L))).read (Elt F) (m (dstLoc d)))
    (off : Fin 1 → Nat) (inb : ∀ a, off a + S256.size a ≤ S512.size a) (h : Fin 2) (hoff : off 0 = 256 * h.val) :
    ∀ x, (((w1W).slice (Rect.unit (s := S512) off S256.size inb) (fun _ => rfl)).view.read (Elt F)
      (View.write (Elt F) (w1W).view g0 w Finset.univ) x).toNat < 100000 :=
  list_inRange L (w1W).view g0 (dstW).view (m (dstLoc d)) (m (dstLoc d)) rfl (hpre d).2 w hw off inb h hoff

theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

variable [FloatOps F]

/-! ## The task -/

/-- The task of tile L on device d: from a read share of the tables and the index arrays and the tile's eight chunks, to
    the same with the chunks at the gathered array of the launch memory; the tile's scoped storage in and out. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ (roPts m d q ∗ chunksPts d L (m (gLoc d)))
        ∗ scopedBufs (thr d L) ∗ scopedSems0 (thr d L) ∗ owes (thr d L) O W)
      ⊢ wp frame (wpE (defs₀ (F := F)) 𝒱₀ (thr d L) none) Set.univ
          (cc0_gather_kernel L embW (Memref.isWhole_whole _) memW (Memref.isWhole_whole _) srcW (Memref.isWhole_whole _) dstW (Memref.isWhole_whole _)
            gW (Memref.isWhole_whole _) w0W (Memref.isWhole_whole _) w1W (Memref.isWhole_whole _) r0W (Memref.isWhole_whole _) r1W (Memref.isWhole_whole _)
            cc0_scratch4 cc0_scratch5 cc0_scratch6 cc0_scratch7 cc0_scoped0 cc0_scoped1)
          fun _ => iprop((roPts m d q ∗ chunksPts d L (G4m m d)) ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V,
    chunksPts_eq, chunksPts_eq]
  iintro ⟨#Hlv, -, ⟨⟨He, Hm, Hs, Hd⟩, ⟨Hg0, Hg1, Hg2, Hg3, Hg4, Hg5, Hg6, Hg7⟩⟩, ⟨⟨%f0, Hw0⟩, ⟨%f1, Hw1⟩, ⟨%f2, Hr0⟩, ⟨%f3, Hr1⟩, Hbufs⟩,
    ⟨Hs4, Hs5, Hs6, Hs7, Hc0, Hc1, Hsems⟩, HO⟩
  ihave Hmw := ((K (F := F)).mayWaits_none (thr := thr d L) hO) $$ Hlv
  ihave He := (Entails.of_eq (pts_emb (F := F) d L _ _).symm) $$ He
  ihave Hm := (Entails.of_eq (pts_mem (F := F) d L _ _).symm) $$ Hm
  ihave Hs := (Entails.of_eq (pts_src (F := F) d L _ _).symm) $$ Hs
  ihave Hd := (Entails.of_eq (pts_dst (F := F) d L _ _).symm) $$ Hd
  ihave Hw0 := (Entails.of_eq (pts_w0 (F := F) d L _).symm) $$ Hw0
  ihave Hw1 := (Entails.of_eq (pts_w1 (F := F) d L _).symm) $$ Hw1
  ihave Hr0 := (Entails.of_eq (pts_r0 (F := F) d L _).symm) $$ Hr0
  ihave Hr1 := (Entails.of_eq (pts_r1 (F := F) d L _).symm) $$ Hr1
  ihave Hg0 := (Entails.of_eq (pts_g0 (F := F) d L _).symm) $$ Hg0
  ihave Hg1 := (Entails.of_eq (pts_g1 (F := F) d L _).symm) $$ Hg1
  ihave Hg2 := (Entails.of_eq (pts_g2 (F := F) d L _).symm) $$ Hg2
  ihave Hg3 := (Entails.of_eq (pts_g3 (F := F) d L _).symm) $$ Hg3
  ihave Hg4 := (Entails.of_eq (pts_g4 (F := F) d L _).symm) $$ Hg4
  ihave Hg5 := (Entails.of_eq (pts_g5 (F := F) d L _).symm) $$ Hg5
  ihave Hg6 := (Entails.of_eq (pts_g6 (F := F) d L _).symm) $$ Hg6
  ihave Hg7 := (Entails.of_eq (pts_g7 (F := F) d L _).symm) $$ Hg7
  -- the two word lists copied in and waited for
  sl_exec
  -- every word of either half of either list names a table row
  have hin00 := hin_w0 m d L hpre f0 (tile_body.sl.dma0 m d L) rfl ![0] inb_S512_S256_0 0 rfl
  have hin01 := hin_w0 m d L hpre f0 (tile_body.sl.dma0 m d L) rfl ![256] inb_S512_S256_256 1 rfl
  have hin10 := hin_w1 m d L hpre f1 (tile_body.sl.dma0_1 m d L) rfl ![0] inb_S512_S256_0 0 rfl
  have hin11 := hin_w1 m d L hpre f1 (tile_body.sl.dma0_1 m d L) rfl ![256] inb_S512_S256_256 1 rfl
  -- the eight gathers and copies out
  sl_exec
  sl_step
  -- each chunk reads as the gathered array does there
  have hv0 : (chunk0 L).view.read (Elt F) (G4m m d) = tile_body.sl.dma0_2 m d L f0 f2 hin00 :=
    (chunk_read L _ _ 0 0 (k0_off2_eq L 0) _ _ _ _ _ _
      (if_pos (by decide) |>.trans (full_slice_read (embW).view inb_S100000x128_S100000x128_0_0 (m (embLoc d))).symm)
      (if_pos (by decide))
      _ (list_word L (w0W).view f0 (srcW).view (m (srcLoc d)) (m (srcLoc d)) rfl (tile_body.sl.dma0 m d L) rfl ![0] inb_S512_S256_0 0 rfl)
      gathers_S100000x128_S256x128 rfl hin00).trans (read_writes_whole_cons _ _ _ _).symm
  have hv1 : (chunk1 L).view.read (Elt F) (G4m m d) = tile_body.sl.dma0_3 m d L f0 f3 hin01 :=
    (chunk_read L _ _ 0 1 (k0_off2_eq L 1) _ _ _ _ _ _
      (if_pos (by decide) |>.trans (full_slice_read (embW).view inb_S100000x128_S100000x128_0_0 (m (embLoc d))).symm)
      (if_pos (by decide))
      _ (list_word L (w0W).view f0 (srcW).view (m (srcLoc d)) (m (srcLoc d)) rfl (tile_body.sl.dma0 m d L) rfl ![256] inb_S512_S256_256 1 rfl)
      gathers_S100000x128_S256x128 rfl hin01).trans (read_writes_whole_cons _ _ _ _).symm
  have hv2 : (chunk2 L).view.read (Elt F) (G4m m d) = tile_body.sl.dma0_4 m d L f0 f1 f2 hin00 hin10 :=
    (chunk_read L _ _ 1 0 (k0_off3_eq L 0) _ _ _ _ _ _
      (if_pos (by decide) |>.trans (full_slice_read (embW).view inb_S100000x128_S100000x128_0_0 (m (embLoc d))).symm)
      (if_neg (by decide))
      _ (list_word L (w1W).view f1 (dstW).view (m (dstLoc d)) (m (dstLoc d)) rfl (tile_body.sl.dma0_1 m d L) rfl ![0] inb_S512_S256_0 0 rfl)
      gathers_S100000x128_S256x128 rfl hin10).trans (read_writes_whole_cons _ _ _ _).symm
  have hv3 : (chunk3 L).view.read (Elt F) (G4m m d) = tile_body.sl.dma0_5 m d L f0 f1 f3 hin01 hin11 :=
    (chunk_read L _ _ 1 1 (k0_off3_eq L 1) _ _ _ _ _ _
      (if_pos (by decide) |>.trans (full_slice_read (embW).view inb_S100000x128_S100000x128_0_0 (m (embLoc d))).symm)
      (if_neg (by decide))
      _ (list_word L (w1W).view f1 (dstW).view (m (dstLoc d)) (m (dstLoc d)) rfl (tile_body.sl.dma0_1 m d L) rfl ![256] inb_S512_S256_256 1 rfl)
      gathers_S100000x128_S256x128 rfl hin11).trans (read_writes_whole_cons _ _ _ _).symm
  have hv4 : (chunk4 L).view.read (Elt F) (G4m m d) = tile_body.sl.dma0_6 m d L f0 f1 f2 hin00 hin10 :=
    (chunk_read L _ _ 2 0 (k0_off4_eq L 0) _ _ _ _ _ _
      (if_neg (by decide) |>.trans (full_slice_read (memW).view inb_S100000x128_S100000x128_0_0 (m (memLoc d))).symm)
      (if_pos (by decide))
      _ (list_word L (w0W).view f0 (srcW).view (m (srcLoc d)) (m (srcLoc d)) rfl (tile_body.sl.dma0 m d L) rfl ![0] inb_S512_S256_0 0 rfl)
      gathers_S100000x128_S256x128 rfl hin00).trans (read_writes_whole_cons _ _ _ _).symm
  have hv5 : (chunk5 L).view.read (Elt F) (G4m m d) = tile_body.sl.dma0_7 m d L f0 f1 f3 hin01 hin11 :=
    (chunk_read L _ _ 2 1 (k0_off4_eq L 1) _ _ _ _ _ _
      (if_neg (by decide) |>.trans (full_slice_read (memW).view inb_S100000x128_S100000x128_0_0 (m (memLoc d))).symm)
      (if_pos (by decide))
      _ (list_word L (w0W).view f0 (srcW).view (m (srcLoc d)) (m (srcLoc d)) rfl (tile_body.sl.dma0 m d L) rfl ![256] inb_S512_S256_256 1 rfl)
      gathers_S100000x128_S256x128 rfl hin01).trans (read_writes_whole_cons _ _ _ _).symm
  have hv6 : (chunk6 L).view.read (Elt F) (G4m m d) = tile_body.sl.dma0_8 m d L f0 f1 f2 hin00 hin10 :=
    (chunk_read L _ _ 3 0 (k0_off5_eq L 0) _ _ _ _ _ _
      (if_neg (by decide) |>.trans (full_slice_read (memW).view inb_S100000x128_S100000x128_0_0 (m (memLoc d))).symm)
      (if_neg (by decide))
      _ (list_word L (w1W).view f1 (dstW).view (m (dstLoc d)) (m (dstLoc d)) rfl (tile_body.sl.dma0_1 m d L) rfl ![0] inb_S512_S256_0 0 rfl)
      gathers_S100000x128_S256x128 rfl hin10).trans (read_writes_whole_cons _ _ _ _).symm
  have hv7 : (chunk7 L).view.read (Elt F) (G4m m d) = tile_body.sl.dma0_9 m d L f0 f1 f3 hin01 hin11 :=
    (chunk_read L _ _ 3 1 (k0_off5_eq L 1) _ _ _ _ _ _
      (if_neg (by decide) |>.trans (full_slice_read (memW).view inb_S100000x128_S100000x128_0_0 (m (memLoc d))).symm)
      (if_neg (by decide))
      _ (list_word L (w1W).view f1 (dstW).view (m (dstLoc d)) (m (dstLoc d)) rfl (tile_body.sl.dma0_1 m d L) rfl ![256] inb_S512_S256_256 1 rfl)
      gathers_S100000x128_S256x128 rfl hin11).trans (read_writes_whole_cons _ _ _ _).symm
  ihave Hg0 := (Entails.of_eq ((pointsTo_congr (writes_whole_eq_on (Val := Elt F) (chunk0 L).view (m (gLoc d)) (G4m m d) _ hv0)).trans (pts_g0 (F := F) d L _))) $$ Hg0
  ihave Hg1 := (Entails.of_eq ((pointsTo_congr (writes_whole_eq_on (Val := Elt F) (chunk1 L).view (m (gLoc d)) (G4m m d) _ hv1)).trans (pts_g1 (F := F) d L _))) $$ Hg1
  ihave Hg2 := (Entails.of_eq ((pointsTo_congr (writes_whole_eq_on (Val := Elt F) (chunk2 L).view (m (gLoc d)) (G4m m d) _ hv2)).trans (pts_g2 (F := F) d L _))) $$ Hg2
  ihave Hg3 := (Entails.of_eq ((pointsTo_congr (writes_whole_eq_on (Val := Elt F) (chunk3 L).view (m (gLoc d)) (G4m m d) _ hv3)).trans (pts_g3 (F := F) d L _))) $$ Hg3
  ihave Hg4 := (Entails.of_eq ((pointsTo_congr (writes_whole_eq_on (Val := Elt F) (chunk4 L).view (m (gLoc d)) (G4m m d) _ hv4)).trans (pts_g4 (F := F) d L _))) $$ Hg4
  ihave Hg5 := (Entails.of_eq ((pointsTo_congr (writes_whole_eq_on (Val := Elt F) (chunk5 L).view (m (gLoc d)) (G4m m d) _ hv5)).trans (pts_g5 (F := F) d L _))) $$ Hg5
  ihave Hg6 := (Entails.of_eq ((pointsTo_congr (writes_whole_eq_on (Val := Elt F) (chunk6 L).view (m (gLoc d)) (G4m m d) _ hv6)).trans (pts_g6 (F := F) d L _))) $$ Hg6
  ihave Hg7 := (Entails.of_eq ((pointsTo_congr (writes_whole_eq_on (Val := Elt F) (chunk7 L).view (m (gLoc d)) (G4m m d) _ hv7)).trans (pts_g7 (F := F) d L _))) $$ Hg7
  isplitl [He Hm Hs Hd Hg0 Hg1 Hg2 Hg3 Hg4 Hg5 Hg6 Hg7]
  · isplitl [He Hm Hs Hd]
    · isplitl [He]; · iapply (Entails.of_eq (pts_emb (F := F) d L _ _)); iexact He
      isplitl [Hm]; · iapply (Entails.of_eq (pts_mem (F := F) d L _ _)); iexact Hm
      isplitl [Hs]; · iapply (Entails.of_eq (pts_src (F := F) d L _ _)); iexact Hs
      iapply (Entails.of_eq (pts_dst (F := F) d L _ _)); iexact Hd
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hw0 Hw1 Hr0 Hr1 Hbufs]
  · isplitl [Hw0]; · iexists _; iapply (Entails.of_eq (pts_w0 (F := F) d L _)); iexact Hw0
    isplitl [Hw1]; · iexists _; iapply (Entails.of_eq (pts_w1 (F := F) d L _)); iexact Hw1
    isplitl [Hr0]; · iexists _; iapply (Entails.of_eq (pts_r0 (F := F) d L _)); iexact Hr0
    isplitl [Hr1]; · iexists _; iapply (Entails.of_eq (pts_r1 (F := F) d L _)); iexact Hr1
    iexact Hbufs
  isplitl [Hs4 Hs5 Hs6 Hs7 Hc0 Hc1 Hsems]
  · isplitl [Hs4]; · iexact Hs4
    isplitl [Hs5]; · iexact Hs5
    isplitl [Hs6]; · iexact Hs6
    isplitl [Hs7]; · iexact Hs7
    isplitl [Hc0]; · iexact Hc0
    isplitl [Hc1]; · iexact Hc1
    iexact Hsems
  iexists _; isplitr
  rotate_left
  · iexact HO
  · ipureintro
    repeat refine waits_insert _ ?_
    exact fun p hp => .inl hp

end Cert.Proof.KB

end
-- ==== Proof.KB.TileObl.lean ====
/-
  The launch theorem's obligation for the tiles of the one SparseCore call: the body table at a vector subcore is the
  task at that subcore's coordinates, and the task's run is the obligation.
-/
import proofs.«216967_g84078279786708_cont_9to1_m_1153_28_alg».proof.Proof.KB.TileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

-- the kernel's memrefs, spelt as the body table passes them
local notation "embW" => (Memref.whole Cert.Kernel.main_arg4_scv : Memref Cert.Kernel.sig Kind.scVector Space.hbm Cert.Kernel.S100000x128 EltTy.f32)
local notation "memW" => (Memref.whole Cert.Kernel.main_arg5_scv : Memref Cert.Kernel.sig Kind.scVector Space.hbm Cert.Kernel.S100000x128 EltTy.f32)
local notation "srcW" => (Memref.whole Cert.Kernel.main_arg0_scv : Memref Cert.Kernel.sig Kind.scVector Space.hbm Cert.Kernel.S16384 EltTy.i32)
local notation "dstW" => (Memref.whole Cert.Kernel.main_arg1_scv : Memref Cert.Kernel.sig Kind.scVector Space.hbm Cert.Kernel.S16384 EltTy.i32)
local notation "gW" => (Memref.whole Cert.Kernel.main_v2_scv : Memref Cert.Kernel.sig Kind.scVector Space.hbm Cert.Kernel.S4x16384x128 EltTy.f32)
local notation "w0W" => (Memref.whole Cert.Kernel.cc0_scratch0 : Memref Cert.Kernel.sig Kind.scVector Space.vmem Cert.Kernel.S512 EltTy.i32)
local notation "w1W" => (Memref.whole Cert.Kernel.cc0_scratch1 : Memref Cert.Kernel.sig Kind.scVector Space.vmem Cert.Kernel.S512 EltTy.i32)
local notation "r0W" => (Memref.whole Cert.Kernel.cc0_scratch2 : Memref Cert.Kernel.sig Kind.scVector Space.vmem Cert.Kernel.S256x128 EltTy.f32)
local notation "r1W" => (Memref.whole Cert.Kernel.cc0_scratch3 : Memref Cert.Kernel.sig Kind.scVector Space.vmem Cert.Kernel.S256x128 EltTy.f32)

variable (m : (ℓ : Loc nD τ sig) → Buf (Elt F) ℓ) [FloatOps F]

/-! ## The launch theorem's obligation for a tile -/

/-- The kernels' body table at a vector subcore and the one SparseCore call: the task at the subcore's coordinates. -/
theorem defs₀_vector (c : Fin τ.nSC) (s : Fin τ.nSub) :
    defs₀ (F := F) (.scVector c s) 0 ()
      = SparseCore.onTile hcore0 hsub0 (fun c s => cc0_gather_kernel (coordsV c s)
          embW (Memref.isWhole_whole _) memW (Memref.isWhole_whole _) srcW (Memref.isWhole_whole _) dstW (Memref.isWhole_whole _)
          gW (Memref.isWhole_whole _) w0W (Memref.isWhole_whole _) w1W (Memref.isWhole_whole _) r0W (Memref.isWhole_whole _) r1W (Memref.isWhole_whole _)
          cc0_scratch4 cc0_scratch5 cc0_scratch6 cc0_scratch7 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- (C) Every tile's task meets the launch theorem's obligation: from its read share and its chunks to the chunks at the
    gathered array of the launch memory. -/
theorem tileObl (hF : (K (F := F)).Facts) (hpre : PreOK m) : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre _ O W hO).trans (wp_mono frame _ _ fun _ => obl_post)

end Cert.Proof.KB

end
-- ==== Proof.KB.VecSplit.lean ====
/-
  How one SparseCore's operands split among its sixteen tiles, and how its results gather from theirs.

  The call hands SparseCore c a read share of the two tables and of the two index arrays, and its sixteen tiles' chunks
  of the gathered array. Each of the four read-only arrays, held at the SparseCore's share, is the same array held at
  sixteen pairwise disjoint tokens of that share, one a tile, and at the remainder of the share; tile s takes its token
  of each array and its own chunks. The remainders stay with the SparseCore; when the tiles hand their tokens and their
  chunks back, each array's sixteen tokens and its remainder are the SparseCore's share again, and the chunks — now at
  the gathered contents — are the SparseCore's sixteen tiles' chunks.
-/
import proofs.«216967_g84078279786708_cont_9to1_m_1153_28_alg».proof.Proof.KB.Common
import proofs.«216967_g84078279786708_cont_9to1_m_1153_28_alg».proof.Proof.Gen.Kernel
import proofs.«216967_g84078279786708_cont_9to1_m_1153_28_alg».proof.Proof.Gen.Kernel.Skeleton
import proofs.«216967_g84078279786708_cont_9to1_m_1153_28_alg».proof.Proof.Gen.Kernel.Launch
import proofs.«216967_g84078279786708_cont_9to1_m_1153_28_alg».proof.Proof.Gen.Kernel.Points
import proofs.«216967_g84078279786708_cont_9to1_m_1153_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) [FloatOps F]

/-- A family over the sixteen tiles indexed by the launch's own count of them is the family over `Fin 16`. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The four read-only arrays at a SparseCore's share are the four at the share's remainder and, for each tile, the four
    at the tile's token. -/
theorem ro_split (d : Dev nD) (c : Fin 2) :
    roPts m d (tok2 c) ⊢ (iprop(roPts m d (Transfers.shareDrop (tok2 c) 16) ∗ bigSep Finset.univ fun s : Fin 16 => roPts m d (tok c s)) : sProp 𝕄) := by
  rw [bigSep_sep', bigSep_sep', bigSep_sep']
  iintro ⟨He, Hm, Hs, Hd⟩
  ihave He := (Transfers.pointsTo_toks_split (tok2 c) 16) $$ He
  ihave Hm := (Transfers.pointsTo_toks_split (tok2 c) 16) $$ Hm
  ihave Hs := (Transfers.pointsTo_toks_split (tok2 c) 16) $$ Hs
  ihave Hd := (Transfers.pointsTo_toks_split (tok2 c) 16) $$ Hd
  icases He with ⟨He0, Het⟩
  icases Hm with ⟨Hm0, Hmt⟩
  icases Hs with ⟨Hs0, Hst⟩
  icases Hd with ⟨Hd0, Hdt⟩
  isplitl [He0 Hm0 Hs0 Hd0]
  · isplitl [He0]; · iexact He0
    isplitl [Hm0]; · iexact Hm0
    isplitl [Hs0]; · iexact Hs0
    iexact Hd0
  isplitl [Het]; · iexact Het
  isplitl [Hmt]; · iexact Hmt
  isplitl [Hst]; · iexact Hst
  iexact Hdt

/-- The remainder and the sixteen tokens of each of the four arrays are the four at the SparseCore's share again. -/
theorem ro_join (d : Dev nD) (c : Fin 2) :
    (iprop(roPts m d (Transfers.shareDrop (tok2 c) 16) ∗ bigSep Finset.univ fun s : Fin 16 => roPts m d (tok c s)) : sProp 𝕄) ⊢ roPts m d (tok2 c) := by
  rw [bigSep_sep', bigSep_sep', bigSep_sep']
  iintro ⟨⟨He0, Hm0, Hs0, Hd0⟩, Het, Hmt, Hst, Hdt⟩
  isplitl [He0 Het]
  · iapply (Transfers.pointsTo_toks_join (tok2 c) 16); isplitl [He0]; · iexact He0
    iexact Het
  isplitl [Hm0 Hmt]
  · iapply (Transfers.pointsTo_toks_join (tok2 c) 16); isplitl [Hm0]; · iexact Hm0
    iexact Hmt
  isplitl [Hs0 Hst]
  · iapply (Transfers.pointsTo_toks_join (tok2 c) 16); isplitl [Hs0]; · iexact Hs0
    iexact Hst
  iapply (Transfers.pointsTo_toks_join (tok2 c) 16); isplitl [Hd0]; · iexact Hd0
  iexact Hdt

/-- THE SPLIT: SparseCore c's operands to its tiles' shares, its results from theirs. -/
theorem vecSplit : (K (F := F)).VecSplit' (P m) 0 := by
  intro d c
  show iprop(roPts m d (tok2 (Fin.cast nCore_zero c)) ∗ bigSep Finset.univ fun s : Fin 16 => chunksPts d (tileL (Fin.cast nCore_zero c) s) (m (gLoc d)))
    ⊢ |={Set.univ}=> iprop(
      (bigSep Finset.univ fun i : Fin ((K (F := F)).nSub 0) =>
        iprop(roPts m d (tok (Fin.cast nCore_zero c) (Fin.cast nSub_zero i)) ∗ chunksPts d (tileL (Fin.cast nCore_zero c) (Fin.cast nSub_zero i)) (m (gLoc d))))
      ∗ ((bigSep Finset.univ fun i : Fin ((K (F := F)).nSub 0) =>
          iprop(roPts m d (tok (Fin.cast nCore_zero c) (Fin.cast nSub_zero i)) ∗ chunksPts d (tileL (Fin.cast nCore_zero c) (Fin.cast nSub_zero i)) (G4m m d)))
          -∗ iprop(roPts m d (tok2 (Fin.cast nCore_zero c)) ∗ bigSep Finset.univ fun s : Fin 16 => chunksPts d (tileL (Fin.cast nCore_zero c) s) (G4m m d))))
  rw [bigSep_tiles (F := F) (fun s => iprop(roPts m d (tok (Fin.cast nCore_zero c) s) ∗ chunksPts d (tileL (Fin.cast nCore_zero c) s) (m (gLoc d)))),
    bigSep_tiles (F := F) (fun s => iprop(roPts m d (tok (Fin.cast nCore_zero c) s) ∗ chunksPts d (tileL (Fin.cast nCore_zero c) s) (G4m m d))),
    bigSep_sep' Finset.univ (fun s : Fin 16 => roPts m d (tok (Fin.cast nCore_zero c) s)) (fun s => chunksPts d (tileL (Fin.cast nCore_zero c) s) (m (gLoc d))),
    bigSep_sep' Finset.univ (fun s : Fin 16 => roPts m d (tok (Fin.cast nCore_zero c) s)) (fun s => chunksPts d (tileL (Fin.cast nCore_zero c) s) (G4m m d))]
  iintro ⟨Hro, Hch⟩
  ihave Hro := (ro_split m d (Fin.cast nCore_zero c)) $$ Hro
  icases Hro with ⟨Hrem, Htoks⟩
  imodintro
  isplitl [Htoks Hch]
  · isplitl [Htoks]; · iexact Htoks
    iexact Hch
  iintro ⟨Htoks, Hch⟩
  isplitl [Hrem Htoks]
  · iapply (ro_join m d (Fin.cast nCore_zero c)); isplitl [Hrem]; · iexact Hrem
    iexact Htoks
  iexact Hch

end Cert.Proof.KB

end
-- ==== Proof.RefOps.lean ====
/-
  The reference program as a straight line of host operations.

  Its @main calls the row lookup four times (embedding table and memory table, each at the source words and at the
  destination words), then computes the unused time and edge encodings, lays the four looked-up blocks side by side,
  applies the first layer, clamps below at zero, applies the second layer and flattens the column it gets. Each call
  is the callee's operations over the call's own buffers; the whole is one list, stated in seven stretches, and every
  execution of it ends with each buffer at the fold of the operations over the launch contents.
-/
import proofs.«216967_g84078279786708_cont_9to1_m_1153_28_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The operations of the stretch `take0`, in order. -/
abbrev ops_take0 : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg4) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- The operations of the stretch `take1`, in order. -/
abbrev ops_take1 : List (HloOp τ sig (Elt F)) :=
  [ TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg4) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

/-- The operations of the stretch `take2`, in order. -/
abbrev ops_take2 : List (HloOp τ sig (Elt F)) :=
  [ TRef.nullary main_call2.c (constantI S_ 32 0#32),
    TRef.unary main_call2.c main_call2.v0 (broadcastInDim S16384 ![] bcast_S_S16384),
    TRef.binary (.of main_arg0) main_call2.v0 main_call2.v1 (cmpi .slt),
    TRef.nullary main_call2.c_0 (constantI S_ 32 100000#32),
    TRef.unary main_call2.c_0 main_call2.v2 (broadcastInDim S16384 ![] bcast_S_S16384),
    TRef.binary (.of main_arg0) main_call2.v2 main_call2.v3 addi,
    TRef.ternary main_call2.v1 main_call2.v3 (.of main_arg0) main_call2.call0.v0 select,
    TRef.unary main_call2.call0.v0 main_call2.v5 (broadcastInDim S16384x1 ![0] bcast_S16384_S16384x1_0),
    TRef.nullary main_call2.c_1 (constantI S1 32 99999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg5) main_call2.v5 main_call2.v13 (fun x i => Host.gather gather_S100000x128_S16384x1_S16384x128_1_0_n_n_0_1_1128 x i),
    TRef.unary main_call2.v12 main_call2.v14 (broadcastInDim S16384x128 ![0] bcast_S16384_S16384x128_0),
    TRef.nullary main_call2.cst (constant S_ .f32 0x7FC00000#32),
    TRef.unary main_call2.cst main_call2.v15 (broadcastInDim S16384x128 ![] bcast_S_S16384x128),
    TRef.ternary main_call2.v14 main_call2.v13 main_call2.v15 main_call2.v16 select ]

/-- The operations of the stretch `take3`, in order. -/
abbrev ops_take3 : List (HloOp τ sig (Elt F)) :=
  [ TRef.nullary main_call3.c (constantI S_ 32 0#32),
    TRef.unary main_call3.c main_call3.v0 (broadcastInDim S16384 ![] bcast_S_S16384),
    TRef.binary (.of main_arg1) main_call3.v0 main_call3.v1 (cmpi .slt),
    TRef.nullary main_call3.c_0 (constantI S_ 32 100000#32),
    TRef.unary main_call3.c_0 main_call3.v2 (broadcastInDim S16384 ![] bcast_S_S16384),
    TRef.binary (.of main_arg1) main_call3.v2 main_call3.v3 addi,
    TRef.ternary main_call3.v1 main_call3.v3 (.of main_arg1) main_call3.call0.v0 select,
    TRef.unary main_call3.call0.v0 main_call3.v5 (broadcastInDim S16384x1 ![0] bcast_S16384_S16384x1_0),
    TRef.nullary main_call3.c_1 (constantI S1 32 99999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg5) main_call3.v5 main_call3.v13 (fun x i => Host.gather gather_S100000x128_S16384x1_S16384x128_1_0_n_n_0_1_1128 x i),
    TRef.unary main_call3.v12 main_call3.v14 (broadcastInDim S16384x128 ![0] bcast_S16384_S16384x128_0),
    TRef.nullary main_call3.cst (constant S_ .f32 0x7FC00000#32),
    TRef.unary main_call3.cst main_call3.v15 (broadcastInDim S16384x128 ![] bcast_S_S16384x128),
    TRef.ternary main_call3.v14 main_call3.v13 main_call3.v15 main_call3.v16 select ]

/-- The operations of the stretch `host0`, in order. -/
abbrev ops_host0 : List (HloOp τ sig (Elt F)) :=
  [ unary main_arg2 main_v4 (broadcastInDim S16384x1 ![0] bcast_S16384_S16384x1_0 : (⟨S16384, .f32⟩ : BufTy).Contents (Elt F) → (⟨S16384x1, .f32⟩ : BufTy).Contents (Elt F)),
    unary main_arg6 main_v5 ((transpose S1x16 [1, 0] · transposes_S16x1_S1x16_1_0) : (⟨S16x1, .f32⟩ : BufTy).Contents (Elt F) → (⟨S1x16, .f32⟩ : BufTy).Contents (Elt F)),
    binary main_v4 main_v5 main_v6 ((fun l r => Host.dotGeneral dot_S16384x1_S1x16_S16384x16_1_0_0_1_n_n none l r) : (⟨S16384x1, .f32⟩ : BufTy).Contents (Elt F) → (⟨S1x16, .f32⟩ : BufTy).Contents (Elt F) → (⟨S16384x16, .f32⟩ : BufTy).Contents (Elt F)),
    unary main_arg7 main_v7 (broadcastInDim S1x16 ![1] bcast_S16_S1x16_1 : (⟨S16, .f32⟩ : BufTy).Contents (Elt F) → (⟨S1x16, .f32⟩ : BufTy).Contents (Elt F)),
    unary main_v7 main_v8 (broadcastInDim S16384x16 ![0, 1] bcast_S1x16_S16384x16_0_1 : (⟨S1x16, .f32⟩ : BufTy).Contents (Elt F) → (⟨S16384x16, .f32⟩ : BufTy).Contents (Elt F)),
    binary main_v6 main_v8 main_v9 (addf : (⟨S16384x16, .f32⟩ : BufTy).Contents (Elt F) → (⟨S16384x16, .f32⟩ : BufTy).Contents (Elt F) → (⟨S16384x16, .f32⟩ : BufTy).Contents (Elt F)),
    unary main_v9 main_v10 (Host.cos : (⟨S16384x16, .f32⟩ : BufTy).Contents (Elt F) → (⟨S16384x16, .f32⟩ : BufTy).Contents (Elt F)),
    unary main_arg8 main_v11 ((transpose S16x128 [1, 0] · transposes_S128x16_S16x128_1_0) : (⟨S128x16, .f32⟩ : BufTy).Contents (Elt F) → (⟨S16x128, .f32⟩ : BufTy).Contents (Elt F)),
    binary main_arg3 main_v11 main_v12 ((fun l r => Host.dotGeneral dot_S16384x16_S16x128_S16384x128_1_0_0_1_n_n none l r) : (⟨S16384x16, .f32⟩ : BufTy).Contents (Elt F) → (⟨S16x128, .f32⟩ : BufTy).Contents (Elt F) → (⟨S16384x128, .f32⟩ : BufTy).Contents (Elt F)),
    unary main_arg9 main_v13 (broadcastInDim S1x128 ![1] bcast_S128_S1x128_1 : (⟨S128, .f32⟩ : BufTy).Contents (Elt F) → (⟨S1x128, .f32⟩ : BufTy).Contents (Elt F)),
    unary main_v13 main_v14 (broadcastInDim S16384x128 ![0, 1] bcast_S1x128_S16384x128_0_1 : (⟨S1x128, .f32⟩ : BufTy).Contents (Elt F) → (⟨S16384x128, .f32⟩ : BufTy).Contents (Elt F)),
    binary main_v12 main_v14 main_v15 (addf : (⟨S16384x128, .f32⟩ : BufTy).Contents (Elt F) → (⟨S16384x128, .f32⟩ : BufTy).Contents (Elt F) → (⟨S16384x128, .f32⟩ : BufTy).Contents (Elt F)),
    nary ![main_v0, main_v1, main_v2, main_v3] main_v16 (fun u => concatenate S16384x512 1 [⟨S16384x128, u 0⟩, ⟨S16384x128, u 1⟩, ⟨S16384x128, u 2⟩, ⟨S16384x128, u 3⟩] concatenates_S16384x128_S16384x128_S16384x128_S16384x128_S16384x512_d1),
    unary main_arg10 main_v17 ((transpose S512x128 [1, 0] · transposes_S128x512_S512x128_1_0) : (⟨S128x512, .f32⟩ : BufTy).Contents (Elt F) → (⟨S512x128, .f32⟩ : BufTy).Contents (Elt F)),
    binary main_v16 main_v17 main_v18 ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)),
    unary main_arg11 main_v19 (broadcastInDim S1x128 ![1] bcast_S128_S1x128_1 : (⟨S128, .f32⟩ : BufTy).Contents (Elt F) → (⟨S1x128, .f32⟩ : BufTy).Contents (Elt F)),
    unary main_v19 main_v20 (broadcastInDim S16384x128 ![0, 1] bcast_S1x128_S16384x128_0_1 : (⟨S1x128, .f32⟩ : BufTy).Contents (Elt F) → (⟨S16384x128, .f32⟩ : BufTy).Contents (Elt F)),
    binary main_v18 main_v20 main_v21 (addf : (⟨S16384x128, .f32⟩ : BufTy).Contents (Elt F) → (⟨S16384x128, .f32⟩ : BufTy).Contents (Elt F) → (⟨S16384x128, .f32⟩ : BufTy).Contents (Elt F)) ]

/-- The operations of the stretch `relu`, in order. -/
abbrev ops_relu : List (HloOp τ sig (Elt F)) :=
  [ TRef.nullary main_call4.cst (constant S_ .f32 0x00000000#32),
    TRef.unary main_call4.cst main_call4.v0 (broadcastInDim S16384x128 ![] bcast_S_S16384x128),
    TRef.binary (.of main_v21) main_call4.v0 main_call4.v1 maximumf ]

/-- The operations of the stretch `host1`, in order. -/
abbrev ops_host1 : List (HloOp τ sig (Elt F)) :=
  [ unary main_arg12 main_v23 ((transpose S128x1 [1, 0] · transposes_S1x128_S128x1_1_0) : (⟨S1x128, .f32⟩ : BufTy).Contents (Elt F) → (⟨S128x1, .f32⟩ : BufTy).Contents (Elt F)),
    binary main_v22 main_v23 main_v24 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    unary main_arg13 main_v25 (broadcastInDim S1x1 ![1] bcast_S1_S1x1_1 : (⟨S1, .f32⟩ : BufTy).Contents (Elt F) → (⟨S1x1, .f32⟩ : BufTy).Contents (Elt F)),
    unary main_v25 main_v26 (broadcastInDim S16384x1 ![0, 1] bcast_S1x1_S16384x1_0_1 : (⟨S1x1, .f32⟩ : BufTy).Contents (Elt F) → (⟨S16384x1, .f32⟩ : BufTy).Contents (Elt F)),
    binary main_v24 main_v26 main_v27 (addf : (⟨S16384x1, .f32⟩ : BufTy).Contents (Elt F) → (⟨S16384x1, .f32⟩ : BufTy).Contents (Elt F) → (⟨S16384x1, .f32⟩ : BufTy).Contents (Elt F)),
    reshape main_v27 main_v28 rfl shapeCasts_S16384x1_S16384 ]

/-- @main's operations in order, the calls unfolded. -/
abbrev ops : List (HloOp τ sig (Elt F)) :=
  ops_take0 ++ ops_take1 ++ ops_take2 ++ ops_take3 ++ ops_host0 ++ ops_relu ++ ops_host1

set_option maxRecDepth 8192 in
/-- @main is that straight line: the callees' definitions unfolded at their calls, both sides are one chain of
    steps once sequencing is reassociated. -/
theorem main_eq (c : Dev nD) : main (F := F) c = seq ops := by
  simp only [main, fn_take.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_take0_sub : (ops_take0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops_take1_sub : (ops_take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops_take2_sub : (ops_take2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops_take3_sub : (ops_take3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops_host0_sub : (ops_host0 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nary_bufs_sub .., unary_bufs_sub .., binary_bufs_sub .., unary_bufs_sub .., unary_bufs_sub .., binary_bufs_sub ..⟩
theorem ops_relu_sub : (ops_relu : List (HloOp τ sig (Elt F))).Forall fun op => op.bufs ⊆ tcRefs τ sig :=
  ⟨nullary_bufs_sub .., unary_bufs_sub .., binary_bufs_sub ..⟩
theorem ops_host1_sub : (ops_host1 : List (HloOp τ sig (Elt F))).Forall fun op => op.bufs ⊆ tcRefs τ sig :=
  ⟨unary_bufs_sub .., binary_bufs_sub .., unary_bufs_sub .., unary_bufs_sub .., binary_bufs_sub .., reshape_bufs_sub ..⟩

/-- Membership in the whole line is membership in one of its stretches. -/
theorem mem_ops {op : HloOp τ sig (Elt F)} (h : op ∈ (ops : List (HloOp τ sig (Elt F)))) :
    op ∈ (ops_take0 : List (HloOp τ sig (Elt F))) ∨ op ∈ (ops_take1 : List (HloOp τ sig (Elt F))) ∨ op ∈ (ops_take2 : List (HloOp τ sig (Elt F))) ∨ op ∈ (ops_take3 : List (HloOp τ sig (Elt F))) ∨ op ∈ (ops_host0 : List (HloOp τ sig (Elt F))) ∨ op ∈ (ops_relu : List (HloOp τ sig (Elt F))) ∨ op ∈ (ops_host1 : List (HloOp τ sig (Elt F))) := by
  simp only [ops, List.mem_append] at h
  rcases h with ((((((h | h) | h) | h) | h) | h) | h)
  · exact Or.inl h
  · exact Or.inr (Or.inl h)
  · exact Or.inr (Or.inr (Or.inl h))
  · exact Or.inr (Or.inr (Or.inr (Or.inl h)))
  · exact Or.inr (Or.inr (Or.inr (Or.inr (Or.inl h))))
  · exact Or.inr (Or.inr (Or.inr (Or.inr (Or.inr (Or.inl h)))))
  · exact Or.inr (Or.inr (Or.inr (Or.inr (Or.inr (Or.inr h)))))

theorem ops_sub : (ops : List (HloOp τ sig (Elt F))).Forall fun op => op.bufs ⊆ tcRefs τ sig :=
  List.forall_iff_forall_mem.2 fun op h => by
    rcases mem_ops h with h | h | h | h | h | h | h
    · exact List.forall_iff_forall_mem.1 ops_take0_sub op h
    · exact List.forall_iff_forall_mem.1 ops_take1_sub op h
    · exact List.forall_iff_forall_mem.1 ops_take2_sub op h
    · exact List.forall_iff_forall_mem.1 ops_take3_sub op h
    · exact List.forall_iff_forall_mem.1 ops_host0_sub op h
    · exact List.forall_iff_forall_mem.1 ops_relu_sub op h
    · exact List.forall_iff_forall_mem.1 ops_host1_sub op h

theorem ops_take0_fresh : ∀ op ∈ (ops_take0 : List (HloOp τ sig (Elt F))), op.fresh = ∅ := by
  intro _ h; (repeat (cases h with | head => rfl | tail _ h => ?_)); exact nomatch h
theorem ops_take1_fresh : ∀ op ∈ (ops_take1 : List (HloOp τ sig (Elt F))), op.fresh = ∅ := by
  intro _ h; (repeat (cases h with | head => rfl | tail _ h => ?_)); exact nomatch h
theorem ops_take2_fresh : ∀ op ∈ (ops_take2 : List (HloOp τ sig (Elt F))), op.fresh = ∅ := by
  intro _ h; (repeat (cases h with | head => rfl | tail _ h => ?_)); exact nomatch h
theorem ops_take3_fresh : ∀ op ∈ (ops_take3 : List (HloOp τ sig (Elt F))), op.fresh = ∅ := by
  intro _ h; (repeat (cases h with | head => rfl | tail _ h => ?_)); exact nomatch h
theorem ops_host0_fresh : ∀ op ∈ (ops_host0 : List (HloOp τ sig (Elt F))), op.fresh = ∅ := by
  intro _ h; (repeat (cases h with | head => rfl | tail _ h => ?_)); exact nomatch h
theorem ops_relu_fresh : ∀ op ∈ (ops_relu : List (HloOp τ sig (Elt F))), op.fresh = ∅ := by
  intro _ h; (repeat (cases h with | head => rfl | tail _ h => ?_)); exact nomatch h
theorem ops_host1_fresh : ∀ op ∈ (ops_host1 : List (HloOp τ sig (Elt F))), op.fresh = ∅ := by
  intro _ h; (repeat (cases h with | head => rfl | tail _ h => ?_)); exact nomatch h

/-- No operation of the line leaves a result undetermined. -/
theorem ops_fresh : ∀ op ∈ (ops : List (HloOp τ sig (Elt F))), op.fresh = ∅ := fun op h => by
  rcases mem_ops h with h | h | h | h | h | h | h
  · exact ops_take0_fresh op h
  · exact ops_take1_fresh op h
  · exact ops_take2_fresh op h
  · exact ops_take3_fresh op h
  · exact ops_host0_fresh op h
  · exact ops_relu_fresh op h
  · exact ops_host1_fresh op h

/-- Two lines folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons a l ih => simp only [List.cons_append, after_cons, ih]

/-- The fold of the whole line, stretch by stretch. -/
theorem after_ops (V : Valuation τ sig (Elt F)) :
    after ops V = after ops_host1 (after ops_relu (after ops_host0 (after ops_take3 (after ops_take2 (after ops_take1 (after ops_take0 V)))))) := by
  simp only [ops, after_append]

/-- On the compiled mesh, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefOps

end
-- ==== Proof.RefFn.lean ====
/-
  The reference's composed functions, stated once for any float values.

  `takeFn` is one row lookup as the reference computes it: a negative index is wrapped by the table's height, the
  wrapped index is clamped by the gather, and an entry whose wrapped index is out of range is replaced by a fill
  value. `hiddenFn` lays four looked-up blocks side by side, multiplies by the first layer's weights (transposed) and
  adds its bias; `reluFn` clamps below at zero; `outFn` multiplies by the second layer's weights (transposed), adds its
  bias and flattens the column.
-/
import proofs.«216967_g84078279786708_cont_9to1_m_1153_28_alg».proof.Proof.Gen.ReferenceIdeal

noncomputable section

namespace Cert.ReferenceIdeal.RefFn

open Cert.ReferenceIdeal Cert.ReferenceIdeal.Gen Idealize.ShloMosaic Idealize.ShloMosaic.TcCoe Idealize.SL.Sem Idealize.ShloMosaic.StableHlo

variable {F : FTy → Type} [FloatOps F]

/-- One row lookup `x[idx]`: the operations of the outlined lookup over its two arguments. -/
def takeFn (x : FVec F S100000x128 .f32) (idx : IVec S16384 32) : FVec F S16384x128 .f32 :=
  let c : IVec S_ 32 := constantI S_ 32 0#32
  let v0 : IVec S16384 32 := broadcastInDim S16384 ![] bcast_S_S16384 c
  let v1 : IVec S16384 1 := cmpi .slt idx v0
  let c_0 : IVec S_ 32 := constantI S_ 32 100000#32
  let v2 : IVec S16384 32 := broadcastInDim S16384 ![] bcast_S_S16384 c_0
  let v3 : IVec S16384 32 := addi idx v2
  let v4 : IVec S16384 32 := select v1 v3 idx
  let v5 : IVec S16384x1 32 := broadcastInDim S16384x1 ![0] bcast_S16384_S16384x1_0 v4
  let c_1 : IVec S1 32 := constantI S1 32 99999#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := Host.reduce IntOp.andi v11 c_3 reducesTo_S16384x1_S16384_d1 h_S_
  let v13 : FVec F S16384x128 .f32 := Host.gather gather_S100000x128_S16384x1_S16384x128_1_0_n_n_0_1_1128 x v5
  let v14 : IVec S16384x128 1 := broadcastInDim S16384x128 ![0] bcast_S16384_S16384x128_0 v12
  let cst : FVec F S_ .f32 := constant S_ .f32 0x7FC00000#32
  let v15 : FVec F S16384x128 .f32 := broadcastInDim S16384x128 ![] bcast_S_S16384x128 cst
  select v14 v13 v15

/-- The hidden layer before the clamp: the four blocks side by side, times the transposed weights, plus the bias. -/
def hiddenFn (g0 g1 g2 g3 : FVec F S16384x128 .f32) (W1 : FVec F S128x512 .f32) (b1 : FVec F S128 .f32) : FVec F S16384x128 .f32 :=
  addf
    (Host.dotGeneral dot_S16384x512_S512x128_S16384x128_1_0_0_1_n_n none
      (concatenate S16384x512 1 [⟨S16384x128, g0⟩, ⟨S16384x128, g1⟩, ⟨S16384x128, g2⟩, ⟨S16384x128, g3⟩]
        concatenates_S16384x128_S16384x128_S16384x128_S16384x128_S16384x512_d1)
      (transpose S512x128 [1, 0] W1 transposes_S128x512_S512x128_1_0))
    (broadcastInDim S16384x128 ![0, 1] bcast_S1x128_S16384x128_0_1 (broadcastInDim S1x128 ![1] bcast_S128_S1x128_1 b1))

/-- The clamp below at zero. -/
def reluFn (h : FVec F S16384x128 .f32) : FVec F S16384x128 .f32 :=
  maximumf h (broadcastInDim S16384x128 ![] bcast_S_S16384x128 (constant S_ .f32 0x00000000#32))

/-- The second layer: times the transposed weights, plus the bias, the column flattened. -/
def outFn (r : FVec F S16384x128 .f32) (W2 : FVec F S1x128 .f32) (b2 : FVec F S1 .f32) : FVec F S16384 .f32 :=
  shapeCast S16384
    (addf
      (Host.dotGeneral dot_S16384x128_S128x1_S16384x1_1_0_0_1_n_n none r (transpose S128x1 [1, 0] W2 transposes_S1x128_S128x1_1_0))
      (broadcastInDim S16384x1 ![0, 1] bcast_S1x1_S16384x1_0_1 (broadcastInDim S1x1 ![1] bcast_S1_S1x1_1 b2)))
    shapeCasts_S16384x1_S16384

/-- The reference's result as a function of the eight arguments that reach it. -/
def refFn (src dst : IVec S16384 32) (emb mem : FVec F S100000x128 .f32) (W1 : FVec F S128x512 .f32) (b1 : FVec F S128 .f32)
    (W2 : FVec F S1x128 .f32) (b2 : FVec F S1 .f32) : FVec F S16384 .f32 :=
  outFn (reluFn (hiddenFn (takeFn emb src) (takeFn emb dst) (takeFn mem src) (takeFn mem dst) W1 b1)) W2 b2

end Cert.ReferenceIdeal.RefFn

end
-- ==== Proof.RefKeep.lean ====
/-
  What each stretch of the reference's line writes, and what the three short stretches leave.

  A buffer a stretch does not write keeps its contents through it. The stretch of host operations before the clamp
  leaves the hidden layer's function of the four looked-up blocks, the weights and the bias; the clamp's stretch leaves
  the clamp of what it reads; the last stretch leaves the second layer's function of the clamped values, its weights and
  its bias.
-/
import proofs.«216967_g84078279786708_cont_9to1_m_1153_28_alg».proof.Proof.RefOps
import proofs.«216967_g84078279786708_cont_9to1_m_1153_28_alg».proof.Proof.RefFn

noncomputable section

namespace Cert.ReferenceIdeal.RefKeep

open Cert.ReferenceIdeal Cert.ReferenceIdeal.Gen Idealize.ShloMosaic Idealize.ShloMosaic.TcCoe Idealize.SL.Sem Idealize.ShloMosaic.StableHlo Cert.ReferenceIdeal.RefOps Cert.ReferenceIdeal.RefFn

variable {F : FTy → Type} [FloatOps F]

/-- The buffers the stretch `take0` writes. -/
abbrev W_take0 : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
theorem ops_take0_writes : (ops_take0 : List (HloOp τ sig (Elt F))).Forall fun op => op.writes ⊆ (W_take0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `take0` does not write keeps its contents through it. -/
theorem keep_take0 (V : Valuation τ sig (Elt F)) (r : Ref sig .tc) (h : r ∉ W_take0) :
    after ops_take0 V (Proc.devRef .tc r) = V (Proc.devRef .tc r) :=
  after_of_writes_sub ops_take0 V ops_take0_writes h

/-- The buffers the stretch `take1` writes. -/
abbrev W_take1 : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]
theorem ops_take1_writes : (ops_take1 : List (HloOp τ sig (Elt F))).Forall fun op => op.writes ⊆ (W_take1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `take1` does not write keeps its contents through it. -/
theorem keep_take1 (V : Valuation τ sig (Elt F)) (r : Ref sig .tc) (h : r ∉ W_take1) :
    after ops_take1 V (Proc.devRef .tc r) = V (Proc.devRef .tc r) :=
  after_of_writes_sub ops_take1 V ops_take1_writes h

/-- The buffers the stretch `take2` writes. -/
abbrev W_take2 : List (Ref sig .tc) := [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref]
theorem ops_take2_writes : (ops_take2 : List (HloOp τ sig (Elt F))).Forall fun op => op.writes ⊆ (W_take2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `take2` does not write keeps its contents through it. -/
theorem keep_take2 (V : Valuation τ sig (Elt F)) (r : Ref sig .tc) (h : r ∉ W_take2) :
    after ops_take2 V (Proc.devRef .tc r) = V (Proc.devRef .tc r) :=
  after_of_writes_sub ops_take2 V ops_take2_writes h

/-- The buffers the stretch `take3` writes. -/
abbrev W_take3 : List (Ref sig .tc) := [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref]
theorem ops_take3_writes : (ops_take3 : List (HloOp τ sig (Elt F))).Forall fun op => op.writes ⊆ (W_take3.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `take3` does not write keeps its contents through it. -/
theorem keep_take3 (V : Valuation τ sig (Elt F)) (r : Ref sig .tc) (h : r ∉ W_take3) :
    after ops_take3 V (Proc.devRef .tc r) = V (Proc.devRef .tc r) :=
  after_of_writes_sub ops_take3 V ops_take3_writes h

/-- The buffers the stretch `host0` writes. -/
abbrev W_host0 : List (Ref sig .tc) := [main_v4, main_v5, main_v6, main_v7, main_v8, main_v9, main_v10, main_v11, main_v12, main_v13, main_v14, main_v15, main_v16, main_v17, main_v18, main_v19, main_v20, main_v21]
theorem ops_host0_writes : (ops_host0 : List (HloOp τ sig (Elt F))).Forall fun op => op.writes ⊆ (W_host0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `host0` does not write keeps its contents through it. -/
theorem keep_host0 (V : Valuation τ sig (Elt F)) (r : Ref sig .tc) (h : r ∉ W_host0) :
    after ops_host0 V (Proc.devRef .tc r) = V (Proc.devRef .tc r) :=
  after_of_writes_sub ops_host0 V ops_host0_writes h

/-- The buffers the stretch `relu` writes. -/
abbrev W_relu : List (Ref sig .tc) := [main_call4.cst.ref, main_call4.v0.ref, main_call4.v1.ref]
theorem ops_relu_writes : (ops_relu : List (HloOp τ sig (Elt F))).Forall fun op => op.writes ⊆ (W_relu.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `relu` does not write keeps its contents through it. -/
theorem keep_relu (V : Valuation τ sig (Elt F)) (r : Ref sig .tc) (h : r ∉ W_relu) :
    after ops_relu V (Proc.devRef .tc r) = V (Proc.devRef .tc r) :=
  after_of_writes_sub ops_relu V ops_relu_writes h

/-- The buffers the stretch `host1` writes. -/
abbrev W_host1 : List (Ref sig .tc) := [main_v23, main_v24, main_v25, main_v26, main_v27, main_v28]
theorem ops_host1_writes : (ops_host1 : List (HloOp τ sig (Elt F))).Forall fun op => op.writes ⊆ (W_host1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch `host1` does not write keeps its contents through it. -/
theorem keep_host1 (V : Valuation τ sig (Elt F)) (r : Ref sig .tc) (h : r ∉ W_host1) :
    after ops_host1 V (Proc.devRef .tc r) = V (Proc.devRef .tc r) :=
  after_of_writes_sub ops_host1 V ops_host1_writes h

/-- The host operations before the clamp leave the hidden layer before the clamp. -/
theorem result_host0 (V : Valuation τ sig (Elt F)) :
    after ops_host0 V (Proc.devRef .tc main_v21) = hiddenFn (V (Proc.devRef .tc main_v0)) (V (Proc.devRef .tc main_v1)) (V (Proc.devRef .tc main_v2)) (V (Proc.devRef .tc main_v3)) (V (Proc.devRef .tc main_arg10)) (V (Proc.devRef .tc main_arg11)) := by
  after_results_simp
  rfl

/-- The clamp's operations leave the clamp of the buffer they read. -/
theorem result_relu (V : Valuation τ sig (Elt F)) :
    after ops_relu V (Proc.devRef .tc main_v22) = reluFn (V (Proc.devRef .tc main_v21)) := by
  after_results_simp
  rfl

/-- The last operations leave the second layer of the clamped values, flattened. -/
theorem result_host1 (V : Valuation τ sig (Elt F)) :
    after ops_host1 V (Proc.devRef .tc main_v28) = outFn (V (Proc.devRef .tc main_v22)) (V (Proc.devRef .tc main_arg12)) (V (Proc.devRef .tc main_arg13)) := by
  after_results_simp
  rfl

end Cert.ReferenceIdeal.RefKeep

end
-- ==== Proof.RefTakeRunA.lean ====
/-
  The row lookups' stretches of the reference's line: each leaves, at its result buffer, the lookup's function of the
  table and the index array it was called with.
-/
import proofs.«216967_g84078279786708_cont_9to1_m_1153_28_alg».proof.Proof.RefOps
import proofs.«216967_g84078279786708_cont_9to1_m_1153_28_alg».proof.Proof.RefFn

noncomputable section

namespace Cert.ReferenceIdeal.RefTakeRunA

open Cert.ReferenceIdeal Cert.ReferenceIdeal.Gen Idealize.ShloMosaic Idealize.ShloMosaic.TcCoe Idealize.SL.Sem Idealize.ShloMosaic.StableHlo Cert.ReferenceIdeal.RefOps Cert.ReferenceIdeal.RefFn

variable {F : FTy → Type} [FloatOps F]

-- the composed term is deep: the lookup's wrapped index is read three times
set_option maxRecDepth 65536 in
/-- The lookup `take0` leaves its result at the lookup's function of its two arguments. -/
theorem result_take0 (V : Valuation τ sig (Elt F)) :
    after ops_take0 V (Proc.devRef .tc main_v0) = takeFn (V (Proc.devRef .tc main_arg4)) (V (Proc.devRef .tc main_arg0)) := by
  after_results_simp
  rfl

-- the composed term is deep: the lookup's wrapped index is read three times
set_option maxRecDepth 65536 in
/-- The lookup `take1` leaves its result at the lookup's function of its two arguments. -/
theorem result_take1 (V : Valuation τ sig (Elt F)) :
    after ops_take1 V (Proc.devRef .tc main_v1) = takeFn (V (Proc.devRef .tc main_arg4)) (V (Proc.devRef .tc main_arg1)) := by
  after_results_simp
  rfl

end Cert.ReferenceIdeal.RefTakeRunA

end
-- ==== Proof.RefTakeRunB.lean ====
/-
  The row lookups' stretches of the reference's line: each leaves, at its result buffer, the lookup's function of the
  table and the index array it was called with.
-/
import proofs.«216967_g84078279786708_cont_9to1_m_1153_28_alg».proof.Proof.RefOps
import proofs.«216967_g84078279786708_cont_9to1_m_1153_28_alg».proof.Proof.RefFn

noncomputable section

namespace Cert.ReferenceIdeal.RefTakeRunB

open Cert.ReferenceIdeal Cert.ReferenceIdeal.Gen Idealize.ShloMosaic Idealize.ShloMosaic.TcCoe Idealize.SL.Sem Idealize.ShloMosaic.StableHlo Cert.ReferenceIdeal.RefOps Cert.ReferenceIdeal.RefFn

variable {F : FTy → Type} [FloatOps F]

-- the composed term is deep: the lookup's wrapped index is read three times
set_option maxRecDepth 65536 in
/-- The lookup `take2` leaves its result at the lookup's function of its two arguments. -/
theorem result_take2 (V : Valuation τ sig (Elt F)) :
    after ops_take2 V (Proc.devRef .tc main_v2) = takeFn (V (Proc.devRef .tc main_arg5)) (V (Proc.devRef .tc main_arg0)) := by
  after_results_simp
  rfl

-- the composed term is deep: the lookup's wrapped index is read three times
set_option maxRecDepth 65536 in
/-- The lookup `take3` leaves its result at the lookup's function of its two arguments. -/
theorem result_take3 (V : Valuation τ sig (Elt F)) :
    after ops_take3 V (Proc.devRef .tc main_v3) = takeFn (V (Proc.devRef .tc main_arg5)) (V (Proc.devRef .tc main_arg1)) := by
  after_results_simp
  rfl

end Cert.ReferenceIdeal.RefTakeRunB

end
-- ==== Proof.RefTerm.lean ====
/-
  The fold of the reference's whole line, read at its result and at its arguments.

  Composing the seven stretches: the result buffer ends at `refFn` of the launch contents of the eight arguments that
  reach it (the time and edge encodings are computed and never read), and a buffer no stretch writes ends unchanged.
-/
import proofs.«216967_g84078279786708_cont_9to1_m_1153_28_alg».proof.Proof.RefKeep
import proofs.«216967_g84078279786708_cont_9to1_m_1153_28_alg».proof.Proof.RefTakeRunA
import proofs.«216967_g84078279786708_cont_9to1_m_1153_28_alg».proof.Proof.RefTakeRunB

noncomputable section

namespace Cert.ReferenceIdeal.RefTerm

open Cert.ReferenceIdeal Cert.ReferenceIdeal.Gen Idealize.ShloMosaic Idealize.ShloMosaic.TcCoe Idealize.SL.Sem Idealize.ShloMosaic.StableHlo Cert.ReferenceIdeal.RefOps Cert.ReferenceIdeal.RefFn Cert.ReferenceIdeal.RefKeep Cert.ReferenceIdeal.RefTakeRunA Cert.ReferenceIdeal.RefTakeRunB

variable {F : FTy → Type} [FloatOps F]

/-- The result buffer after the whole line: the reference's function of the arguments' contents. -/
theorem after_result (V : Valuation τ sig (Elt F)) :
    after ops V (Proc.devRef .tc main_v28)
      = refFn (V (Proc.devRef .tc main_arg0)) (V (Proc.devRef .tc main_arg1)) (V (Proc.devRef .tc main_arg4)) (V (Proc.devRef .tc main_arg5))
          (V (Proc.devRef .tc main_arg10)) (V (Proc.devRef .tc main_arg11)) (V (Proc.devRef .tc main_arg12)) (V (Proc.devRef .tc main_arg13)) := by
  rw [after_ops, result_host1]
  rw [result_relu, keep_relu _ main_arg12 (by decide), keep_relu _ main_arg13 (by decide)]
  rw [result_host0, keep_host0 _ main_arg12 (by decide), keep_host0 _ main_arg13 (by decide)]
  rw [result_take3, keep_take3 _ main_v0 (by decide),
    keep_take3 _ main_v1 (by decide),
    keep_take3 _ main_v2 (by decide),
    keep_take3 _ main_arg10 (by decide),
    keep_take3 _ main_arg11 (by decide),
    keep_take3 _ main_arg12 (by decide),
    keep_take3 _ main_arg13 (by decide)]
  rw [result_take2, keep_take2 _ main_v0 (by decide),
    keep_take2 _ main_v1 (by decide),
    keep_take2 _ main_arg5 (by decide),
    keep_take2 _ main_arg1 (by decide),
    keep_take2 _ main_arg10 (by decide),
    keep_take2 _ main_arg11 (by decide),
    keep_take2 _ main_arg12 (by decide),
    keep_take2 _ main_arg13 (by decide)]
  rw [result_take1, keep_take1 _ main_v0 (by decide),
    keep_take1 _ main_arg5 (by decide),
    keep_take1 _ main_arg0 (by decide),
    keep_take1 _ main_arg1 (by decide),
    keep_take1 _ main_arg10 (by decide),
    keep_take1 _ main_arg11 (by decide),
    keep_take1 _ main_arg12 (by decide),
    keep_take1 _ main_arg13 (by decide)]
  rw [result_take0, keep_take0 _ main_arg4 (by decide),
    keep_take0 _ main_arg1 (by decide),
    keep_take0 _ main_arg5 (by decide),
    keep_take0 _ main_arg0 (by decide),
    keep_take0 _ main_arg10 (by decide),
    keep_take0 _ main_arg11 (by decide),
    keep_take0 _ main_arg12 (by decide),
    keep_take0 _ main_arg13 (by decide)]
  rfl

/-- A buffer no stretch writes keeps its contents through the whole line. -/
theorem after_kept (V : Valuation τ sig (Elt F)) (r : Ref sig .tc)
    (h0 : r ∉ W_take0) (h1 : r ∉ W_take1) (h2 : r ∉ W_take2) (h3 : r ∉ W_take3) (h4 : r ∉ W_host0) (h5 : r ∉ W_relu) (h6 : r ∉ W_host1) :
    after ops V (Proc.devRef .tc r) = V (Proc.devRef .tc r) := by
  rw [after_ops, keep_host1 _ r h6, keep_relu _ r h5, keep_host0 _ r h4, keep_take3 _ r h3, keep_take2 _ r h2, keep_take1 _ r h1, keep_take0 _ r h0]

end Cert.ReferenceIdeal.RefTerm

end
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.LibWrapIndex.lean ====
import proofs.«216967_g84078279786708_cont_9to1_m_1153_28_alg».proof.Proof.LibGatherRows
import proofs.«216967_g84078279786708_cont_9to1_m_1153_28_alg».proof.Proof.LibScatterRows
import Idealize.ShloMosaic.Lib.ValueIdx
import Idealize.ShloMosaic.Lib.ValueLayout
import Idealize.ShloMosaic.Lib.Pipeline.Value

/-!
# Indexing with wrap-around of negative indices, at an index that is in range

Indexing an array of `N` rows at an integer column `cl : [T]` first wraps a negative index,
`w = select (cl < 0) (cl + N) cl`, reshapes `w` to a column `[T, 1]`, and then gathers with the
start index read signed and clamped into `[0, N - 1]`.  A scatter reads the raw column, reshaped
the same way, unclamped.

* `col_apply`: the column `[T, 1]` made from a vector `[T]` (a broadcast along axis 0) reads, at
  `(e, 0)`, the vector at `e`.
* `wrap_word`: a word whose signed value is a natural number is not below zero, so the wrapping
  select leaves it unchanged.
* `rowAt_wrap_of` / `rowAt_wrap`: an edge whose raw index, read signed, is the in-range row `v`
  reads through the wrapped, clamped index exactly row `v`: `min v (N - 1) = v`.
* `landing_col`: edge `e` lands on row `v` of a scatter by the column made from `cl` exactly when
  `cl` at `e`, read signed, is `v`.
-/

noncomputable section

namespace Cert.WrapIndex

open Idealize.ShloMosaic Idealize.ShloMosaic.ValueIdx

/-- The column `[T, 1]` made from a vector `[T]` reads at `(e, 0)` the vector at `e`. -/
theorem col_apply {α : Type} {T : ℕ}
    (hb1 : (⟨1, ![T]⟩ : Shape).BroadcastsInDim ⟨2, ![T, 1]⟩ ![0])
    (x : (⟨1, ![T]⟩ : Shape).Idx → α) (e : Fin T) :
    broadcastInDim ⟨2, ![T, 1]⟩ ![0] hb1 x (ix2 e (0 : Fin 1)) = x (ix1 e) := by
  refine broadcastInDim_apply _ hb1 x _ (ix1 e) fun a => ?_
  match a with
  | ⟨0, _⟩ =>
    show e.val = if T = 1 then 0 else e.val
    split
    · omega
    · rfl

/-- A word whose signed value is a natural number is not below zero: the wrapping select keeps it. -/
theorem wrap_word (c y : BitVec 32) (n : ℕ) (h : c.toInt = (n : ℤ)) :
    Scalar.select (IntOp.cmpi .slt c 0#32) y c = c := by
  have h0 : IntOp.cmpi .slt c 0#32 = 0#1 := by
    have : ¬ c.toInt < 0 := by omega
    simp [IntOp.cmpi, BitVec.slt, this]
  rw [h0, select_zero]

/-- The wrapped index at an edge whose raw index is a natural number, whatever is added when wrapping. -/
theorem wrapped_apply {T : ℕ} (hb0 : (⟨0, ![]⟩ : Shape).BroadcastsInDim ⟨1, ![T]⟩ ![])
    (cl y : IVec ⟨1, ![T]⟩ 32) (n : ℕ) (e : Fin T) (h : (cl (ix1 e)).toInt = (n : ℤ)) :
    select (cmpi .slt cl (broadcastInDim ⟨1, ![T]⟩ ![] hb0 (constantI ⟨0, ![]⟩ 32 0#32))) y cl (ix1 e)
      = cl (ix1 e) :=
  wrap_word (cl (ix1 e)) (y (ix1 e)) n h

/-- An edge whose raw index is the in-range row `v` reads, through the wrapped and clamped index,
row `v`; for any number of rows `N` and any addend in the wrapping. -/
theorem rowAt_wrap_of {T N : ℕ} (hN : 0 < N)
    (hb0 : (⟨0, ![]⟩ : Shape).BroadcastsInDim ⟨1, ![T]⟩ ![])
    (hb1 : (⟨1, ![T]⟩ : Shape).BroadcastsInDim ⟨2, ![T, 1]⟩ ![0])
    (cl y : IVec ⟨1, ![T]⟩ 32) (v : Fin N) (e : Fin T) (h : (cl (ix1 e)).toInt = (v.val : ℤ)) :
    Cert.GatherRows.rowAt N hN (broadcastInDim ⟨2, ![T, 1]⟩ ![0] hb1
      (select (cmpi .slt cl (broadcastInDim ⟨1, ![T]⟩ ![] hb0 (constantI ⟨0, ![]⟩ 32 0#32))) y cl)) e
      = v := by
  refine Fin.ext ?_
  show min ((broadcastInDim ⟨2, ![T, 1]⟩ ![0] hb1
      (select (cmpi .slt cl (broadcastInDim ⟨1, ![T]⟩ ![] hb0 (constantI ⟨0, ![]⟩ 32 0#32))) y cl))
      (ix2 e (0 : Fin 1))).toInt.toNat (N - 1) = v.val
  rw [col_apply hb1, wrapped_apply hb0 cl y v.val e h, h]
  have := v.isLt
  omega

/-- `rowAt_wrap_of` at 100000 rows with the addend 100000. -/
theorem rowAt_wrap {T : ℕ} (hb0 : (⟨0, ![]⟩ : Shape).BroadcastsInDim ⟨1, ![T]⟩ ![])
    (hb1 : (⟨1, ![T]⟩ : Shape).BroadcastsInDim ⟨2, ![T, 1]⟩ ![0])
    (cl : IVec ⟨1, ![T]⟩ 32) (v : Fin 100000) (e : Fin T) (h : (cl (ix1 e)).toInt = (v.val : ℤ)) :
    Cert.GatherRows.rowAt 100000 (by decide) (broadcastInDim ⟨2, ![T, 1]⟩ ![0] hb1
      (select (cmpi .slt cl (broadcastInDim ⟨1, ![T]⟩ ![] hb0 (constantI ⟨0, ![]⟩ 32 0#32)))
        (addi cl (broadcastInDim ⟨1, ![T]⟩ ![] hb0 (constantI ⟨0, ![]⟩ 32 100000#32))) cl)) e = v :=
  rowAt_wrap_of (by decide) hb0 hb1 cl _ v e h

/-- Edge `e` is among the edges whose index in the column made from `cl`, read signed, is `v`
exactly when `cl` at `e`, read signed, is `v`. -/
theorem landing_col {T : ℕ} (hb1 : (⟨1, ![T]⟩ : Shape).BroadcastsInDim ⟨2, ![T, 1]⟩ ![0])
    (cl : IVec ⟨1, ![T]⟩ 32) (v : ℕ) (e : Fin T) :
    e ∈ Cert.ScatterRows.landing (broadcastInDim ⟨2, ![T, 1]⟩ ![0] hb1 cl) v
      ↔ (cl (ix1 e)).toInt = (v : ℤ) := by
  unfold Cert.ScatterRows.landing
  rw [Finset.mem_filter, col_apply hb1]
  exact ⟨fun h => h.2, fun h => ⟨Finset.mem_univ e, h⟩⟩

end Cert.WrapIndex
-- ==== Proof.RefTake.lean ====
/-
  One row lookup of the reference, read at an entry, for index words in range.

  The lookup wraps a negative index by the table's height, hands the wrapped index to a gather that clamps it into the
  table, and afterwards replaces by a fill value every row whose wrapped index was outside the table. For a word that,
  read signed, lies in [0, 99999] the wrap leaves it alone, the clamp leaves it alone, the range test passes, and the
  entry read is the table's entry at the row the word names.
-/
import proofs.«216967_g84078279786708_cont_9to1_m_1153_28_alg».proof.Proof.RefFn
import proofs.«216967_g84078279786708_cont_9to1_m_1153_28_alg».proof.Proof.Spec
import proofs.«216967_g84078279786708_cont_9to1_m_1153_28_alg».proof.Proof.LibGatherRows
import proofs.«216967_g84078279786708_cont_9to1_m_1153_28_alg».proof.Proof.LibWrapIndex
import Idealize.ShloMosaic.PureOps.Reduce
import Idealize.ShloMosaic.Lib.Affine

noncomputable section

namespace Cert.ReferenceIdeal.RefTake

open Cert.ReferenceIdeal Cert.ReferenceIdeal.Gen Idealize.ShloMosaic Idealize.ShloMosaic.TcCoe Idealize.SL.Sem Idealize.ShloMosaic.StableHlo Idealize.ShloMosaic.ValueIdx Cert.ReferenceIdeal.RefFn

variable {F : FTy → Type} [FloatOps F]

/-- A left fold by `and` over one-bit words that are all 1, started at 1, is 1. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

/-- A reduction by `and` from 1 of an array of ones is 1 everywhere. -/
theorem reduce_andi_ones {s t : Shape} {axes : List (Fin s.rank)} (x : s.Idx → BitVec 1) (hx : ∀ i, x i = 1#1)
    (h : s.ReducesTo axes t) (hu : 0 < S_.numel) (j : t.Idx) :
    Host.reduce IntOp.andi x (constantI S_ 1 1#1) h hu j = 1#1 := by
  rw [Host.reduce_eq_foldl]
  exact foldl_andi_ones x hx _

/-- The index column the gather reads: each word wrapped by the table's height when negative. -/
def wrapped (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- Whether each row's wrapped index is inside the table. -/
def maskOf (idx : IVec S16384 32) : IVec S16384 1 :=
  Host.reduce IntOp.andi
    (andi (cmpi .sge (wrapped idx) (broadcastInDim S16384x1 ![] bcast_S_S16384x1 (constantI S_ 32 0#32)))
      (cmpi .sle (wrapped idx) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The lookup as the select, by the range mask, between the gathered rows and the fill value. -/
theorem takeFn_eq (x : FVec F S100000x128 .f32) (idx : IVec S16384 32) :
    takeFn x idx = select (broadcastInDim S16384x128 ![0] bcast_S16384_S16384x128_0 (maskOf idx))
      (Host.gather gather_S100000x128_S16384x1_S16384x128_1_0_n_n_0_1_1128 x (wrapped idx))
      (broadcastInDim S16384x128 ![] bcast_S_S16384x128 (constant S_ .f32 0x7FC00000#32)) := rfl

/-- A word in range, read signed, is the row it names. -/
theorem toInt_eq_row {idx : IVec S16384 32} (hidx : Cert.Spec.InRange idx) (e : Fin 16384) :
    (idx (ix1 e)).toInt = ((Cert.Spec.rowAt (idx (ix1 e))).val : ℤ) := by
  obtain ⟨h0, h1⟩ := hidx e
  rw [Cert.Spec.rowAt_val_of_lt h1]
  have hc := BitVec.toInt_eq_toNat_cond (idx (ix1 e))
  split at hc <;> omega

/-- The wrapped column at a row is the raw word, for words in range. -/
theorem wrapped_apply {idx : IVec S16384 32} (hidx : Cert.Spec.InRange idx) (e : Fin 16384) :
    wrapped idx (ix2 e (0 : Fin 1)) = idx (ix1 e) := by
  unfold wrapped
  rw [Cert.WrapIndex.col_apply]
  exact Cert.WrapIndex.wrapped_apply bcast_S_S16384 idx _ _ e (toInt_eq_row hidx e)

/-- Every row's range test passes, for words in range. -/
theorem maskOf_eq_one {idx : IVec S16384 32} (hidx : Cert.Spec.InRange idx) (j : S16384.Idx) : maskOf idx j = 1#1 := by
  have key : ∀ e : Fin 16384,
      IntOp.andi (IntOp.cmpi .sge (wrapped idx (ix2 e (0 : Fin 1))) 0#32) (IntOp.cmpi .sle (wrapped idx (ix2 e (0 : Fin 1))) 99999#32) = 1#1 := by
    intro e
    obtain ⟨h0, h1⟩ := hidx e
    have hr := toInt_eq_row hidx e
    rw [Cert.Spec.rowAt_val_of_lt h1] at hr
    rw [wrapped_apply hidx e]
    refine IntOp.andi_eq_one.2 ⟨IntOp.cmpi_sge.2 ?_, IntOp.cmpi_sle.2 ?_⟩
    · rw [show (0#32 : BitVec 32).toInt = 0 from by decide]; exact h0
    · rw [show (99999#32 : BitVec 32).toInt = 99999 from by decide]; omega
  refine reduce_andi_ones _ (fun i => ?_) _ _ _
  have hi : i = ix2 (i 0) (0 : Fin 1) :=
    (eq_ix2 i).trans (congrArg (ix2 (i 0)) (Fin.ext (by have := idx2_lt1 i; show (i 1).val = 0; omega)))
  rw [hi]
  exact key (i 0)

/-- THE LOOKUP READ AT (b, d): the table's entry at the row word b names, column d. -/
theorem take_apply (x : FVec F S100000x128 .f32) {idx : IVec S16384 32} (hidx : Cert.Spec.InRange idx) (b : Fin 16384) (d : Fin 128) :
    takeFn x idx (ix2 b d) = x (ix2 (Cert.Spec.rowAt (idx (ix1 b))) d) := by
  rw [takeFn_eq, select_apply,
    show broadcastInDim S16384x128 ![0] bcast_S16384_S16384x128_0 (maskOf idx) (ix2 b d) = 1#1 from maskOf_eq_one hidx _, select_one]
  rw [Cert.GatherRows.gather_rows_apply (by decide : 0 < 100000) _ rfl rfl rfl rfl rfl rfl rfl]
  rw [show Cert.GatherRows.rowAt 100000 (by decide) (wrapped idx) b = Cert.Spec.rowAt (idx (ix1 b)) from
    Cert.WrapIndex.rowAt_wrap bcast_S_S16384 bcast_S16384_S16384x1_0 idx _ b (toInt_eq_row hidx b)]

end Cert.ReferenceIdeal.RefTake

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«216967_g84078279786708_cont_9to1_m_1153_28_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.RefMlp.lean ====
/-
  The reference's dense layers read at an entry, over the extended reals, and the result named by the specification.

  The four looked-up blocks laid side by side have, at column p * 128 + d, entry d of block p. The first layer's
  product at (b, o) is the sum over the 512 columns of the row's entry times the weight W1[o, j] (the weights enter
  transposed), to which the bias b1[o] is added; the clamp is the maximum with 0; the second layer's product at (b, 0)
  is the sum over the 128 units of the clamped value times W2[0, o], plus b2[0]; flattening the column reads it at
  (b, 0). The sum over 512 columns is regrouped as a sum over the four blocks of a sum over their 128 entries: addition
  of extended reals is commutative and associative, so no finiteness is asked.
-/
import proofs.«216967_g84078279786708_cont_9to1_m_1153_28_alg».proof.Proof.RefTake
import proofs.«216967_g84078279786708_cont_9to1_m_1153_28_alg».proof.Proof.LibDotNN
import proofs.«216967_g84078279786708_cont_9to1_m_1153_28_alg».proof.Proof.LibBroadcastRows
import Idealize.ShloMosaic.Lib.ValueLayout
import Idealize.ShloMosaic.Lib.Pipeline.Value
import Idealize.ShloMosaic.PureOps.Ideal.Laws

noncomputable section

namespace Cert.ReferenceIdeal.RefMlp

open Cert.ReferenceIdeal Cert.ReferenceIdeal.Gen Idealize.ShloMosaic Idealize.ShloMosaic.TcCoe Idealize.SL.Sem Idealize.ShloMosaic.StableHlo Idealize.ShloMosaic.ValueIdx Cert.ReferenceIdeal.RefFn

variable {F : FTy → Type} [FloatOps F]

/-! ## The 512 columns as four blocks of 128 -/

/-- Block and entry of a column, and back. -/
def colEquiv : Fin 4 × Fin 128 ≃ Fin 512 where
  toFun x := Cert.Spec.col x.1 x.2
  invFun j := (⟨j.val / 128, by have := j.isLt; omega⟩, ⟨j.val % 128, Nat.mod_lt _ (by decide)⟩)
  left_inv x := by
    obtain ⟨p, d⟩ := x
    have hp := p.isLt; have hd := d.isLt
    refine Prod.ext (Fin.ext ?_) (Fin.ext ?_)
    · show (p.val * 128 + d.val) / 128 = p.val; omega
    · show (p.val * 128 + d.val) % 128 = d.val; omega
  right_inv j := Fin.ext (by show j.val / 128 * 128 + j.val % 128 = j.val; omega)

/-- A sum over the 512 columns is the sum over the blocks of the sums over their entries. -/
theorem sum_cols (f : Fin 512 → EReal) : ∑ j : Fin 512, f j = ∑ p : Fin 4, ∑ d : Fin 128, f (Cert.Spec.col p d) := by
  rw [← Equiv.sum_comp colEquiv f, Fintype.sum_prod_type]
  rfl

/-! ## The blocks side by side -/

/-- The four blocks laid side by side read, at column `col p d`, block `p` at column `d`. -/
theorem cat_apply {α : Type} (g : Fin 4 → S16384x128.Idx → α) (b : Fin 16384) (p : Fin 4) (d : Fin 128) :
    concatenate S16384x512 1 [⟨S16384x128, g 0⟩, ⟨S16384x128, g 1⟩, ⟨S16384x128, g 2⟩, ⟨S16384x128, g 3⟩]
        concatenates_S16384x128_S16384x128_S16384x128_S16384x128_S16384x512_d1 (ix2 b (Cert.Spec.col p d))
      = g p (ix2 b d) := by
  have hi : ∀ c : Fin S16384x128.rank, c.cast (rfl : S16384x128.rank = S16384x512.rank) ≠ (1 : Fin S16384x512.rank) →
      ∀ q : Fin 4, ((ix2 b d : S16384x128.Idx) c).val = ((ix2 b (Cert.Spec.col q d) : S16384x512.Idx) (c.cast rfl)).val := by
    intro c hc q
    match c, hc with
    | ⟨0, _⟩, _ => rfl
    | ⟨1, _⟩, hc => exact absurd rfl hc
  match p with
  | ⟨0, hp⟩ =>
    exact concatenate_apply_piece (1 : Fin S16384x512.rank) [⟨S16384x128, g 0⟩, ⟨S16384x128, g 1⟩, ⟨S16384x128, g 2⟩, ⟨S16384x128, g 3⟩]
      concatenates_S16384x128_S16384x128_S16384x128_S16384x128_S16384x512_d1 (ix2 b (Cert.Spec.col ⟨0, hp⟩ d)) 0 (by show 0 < 4; omega) S16384x128 (g 0) rfl rfl 0 rfl
      (ix2 b d) (fun c hc => hi c hc _) (by show 0 + d.val = 0 * 128 + d.val; omega)
  | ⟨1, hp⟩ =>
    exact concatenate_apply_piece (1 : Fin S16384x512.rank) [⟨S16384x128, g 0⟩, ⟨S16384x128, g 1⟩, ⟨S16384x128, g 2⟩, ⟨S16384x128, g 3⟩]
      concatenates_S16384x128_S16384x128_S16384x128_S16384x128_S16384x512_d1 (ix2 b (Cert.Spec.col ⟨1, hp⟩ d)) 1 (by show 1 < 4; omega) S16384x128 (g 1) rfl rfl 128 rfl
      (ix2 b d) (fun c hc => hi c hc _) (by show 128 + d.val = 1 * 128 + d.val; omega)
  | ⟨2, hp⟩ =>
    exact concatenate_apply_piece (1 : Fin S16384x512.rank) [⟨S16384x128, g 0⟩, ⟨S16384x128, g 1⟩, ⟨S16384x128, g 2⟩, ⟨S16384x128, g 3⟩]
      concatenates_S16384x128_S16384x128_S16384x128_S16384x128_S16384x512_d1 (ix2 b (Cert.Spec.col ⟨2, hp⟩ d)) 2 (by show 2 < 4; omega) S16384x128 (g 2) rfl rfl 256 rfl
      (ix2 b d) (fun c hc => hi c hc _) (by show 256 + d.val = 2 * 128 + d.val; omega)
  | ⟨3, hp⟩ =>
    exact concatenate_apply_piece (1 : Fin S16384x512.rank) [⟨S16384x128, g 0⟩, ⟨S16384x128, g 1⟩, ⟨S16384x128, g 2⟩, ⟨S16384x128, g 3⟩]
      concatenates_S16384x128_S16384x128_S16384x128_S16384x128_S16384x512_d1 (ix2 b (Cert.Spec.col ⟨3, hp⟩ d)) 3 (by show 3 < 4; omega) S16384x128 (g 3) rfl rfl 384 rfl
      (ix2 b d) (fun c hc => hi c hc _) (by show 384 + d.val = 3 * 128 + d.val; omega)

/-! ## The layers at an entry -/

/-- The hidden layer before the clamp, at row `b` and unit `o`. -/
theorem hidden_apply (g0 g1 g2 g3 : FVec Ideal S16384x128 .f32) (W1 : FVec Ideal S128x512 .f32) (b1 : FVec Ideal S128 .f32)
    (b : Fin 16384) (o : Fin 128) :
    hiddenFn g0 g1 g2 g3 W1 b1 (ix2 b o)
      = (∑ j : Fin 512, concatenate S16384x512 1 [⟨S16384x128, g0⟩, ⟨S16384x128, g1⟩, ⟨S16384x128, g2⟩, ⟨S16384x128, g3⟩]
            concatenates_S16384x128_S16384x128_S16384x128_S16384x128_S16384x512_d1 (ix2 b j) * W1 (ix2 o j)) + b1 (ix1 o) := by
  unfold hiddenFn
  rw [addf_apply, Cert.DotNN.dotGeneral_apply dot_S16384x512_S512x128_S16384x128_1_0_0_1_n_n rfl, Cert.BroadcastRows.row_apply, Cert.BroadcastRows.unit_apply]
  congr 1
  refine Finset.sum_congr rfl fun j _ => ?_
  rw [transpose_ix2_apply]

/-- The clamp at an entry: the maximum with zero. -/
theorem relu_apply (h : FVec Ideal S16384x128 .f32) (i : S16384x128.Idx) : reluFn h i = max (h i) 0 := by
  unfold reluFn
  rw [maximumf_apply]
  congr 1
  exact Ideal.ofBits_zero_f32

/-- The second layer, flattened, at row `b`. -/
theorem out_apply (r : FVec Ideal S16384x128 .f32) (W2 : FVec Ideal S1x128 .f32) (b2 : FVec Ideal S1 .f32) (b : Fin 16384) :
    outFn r W2 b2 (ix1 b) = (∑ o : Fin 128, r (ix2 b o) * W2 (ix2 (0 : Fin 1) o)) + b2 (ix1 (0 : Fin 1)) := by
  unfold outFn
  rw [shapeCast_apply _ shapeCasts_S16384x1_S16384 (ix1 b) (ix2 b (0 : Fin 1)) (by
    rw [Shape.rowMajor_val_two, Shape.rowMajor_val_one]
    show b.val * 1 + 0 = b.val
    omega)]
  rw [addf_apply, Cert.DotNN.dotGeneral_apply dot_S16384x128_S128x1_S16384x1_1_0_0_1_n_n rfl, Cert.BroadcastRows.row_apply, Cert.BroadcastRows.unit_apply]
  congr 1
  refine Finset.sum_congr rfl fun o _ => ?_
  rw [transpose_ix2_apply]

/-! ## The result, named by the specification -/

/-- The dense layers over four blocks that are row reads of two tables are the specification's result at a row. -/
theorem mlp_eq (t0 t1 t2 t3 : FVec Ideal S16384x128 .f32) (src dst : Fin 16384 → BitVec 32) (emb mem : Fin 100000 → Fin 128 → EReal)
    (h0 : ∀ b d, t0 (ix2 b d) = emb (Cert.Spec.rowAt (src b)) d) (h1 : ∀ b d, t1 (ix2 b d) = emb (Cert.Spec.rowAt (dst b)) d)
    (h2 : ∀ b d, t2 (ix2 b d) = mem (Cert.Spec.rowAt (src b)) d) (h3 : ∀ b d, t3 (ix2 b d) = mem (Cert.Spec.rowAt (dst b)) d)
    (W1 : FVec Ideal S128x512 .f32) (b1 : FVec Ideal S128 .f32) (W2 : FVec Ideal S1x128 .f32) (b2 : FVec Ideal S1 .f32) (b : Fin 16384) :
    outFn (reluFn (hiddenFn t0 t1 t2 t3 W1 b1)) W2 b2 (ix1 b)
      = Cert.Spec.out src dst emb mem (Cert.Spec.weightsOf W1) (Cert.Spec.biasOf b1) (Cert.Spec.rowOf W2) (Cert.Spec.scalarOf b2) b := by
  rw [out_apply]
  unfold Cert.Spec.out
  refine congrArg₂ (· + ·) ?_ rfl
  refine Finset.sum_congr rfl fun o _ => ?_
  rw [relu_apply, hidden_apply, sum_cols]
  unfold Cert.Spec.hid
  refine congrArg₂ (· * ·) (congrArg (fun x => max x 0) (congrArg₂ (· + ·) ?_ rfl)) rfl
  refine Finset.sum_congr rfl fun p _ => Finset.sum_congr rfl fun d _ => ?_
  refine congrArg₂ (· * ·) ?_ rfl
  refine (cat_apply ![t0, t1, t2, t3] b p d).trans ?_
  match p with
  | ⟨0, _⟩ => exact h0 b d
  | ⟨1, _⟩ => exact h1 b d
  | ⟨2, hp⟩ =>
    have e1 : (![t0, t1, t2, t3] : Fin 4 → FVec Ideal S16384x128 .f32) ⟨2, hp⟩ = t2 := rfl
    have e2 : Cert.Spec.feat src dst emb mem b ⟨2, hp⟩ d = mem (Cert.Spec.rowAt (src b)) d := by
      unfold Cert.Spec.feat
      rw [if_neg (by show ¬ (2 < 2); decide), if_pos (by show 2 % 2 = 0; decide)]
    rw [e1, e2]; exact h2 b d
  | ⟨3, hp⟩ =>
    have e1 : (![t0, t1, t2, t3] : Fin 4 → FVec Ideal S16384x128 .f32) ⟨3, hp⟩ = t3 := rfl
    have e2 : Cert.Spec.feat src dst emb mem b ⟨3, hp⟩ d = mem (Cert.Spec.rowAt (dst b)) d := by
      unfold Cert.Spec.feat
      rw [if_neg (by show ¬ (3 < 2); decide), if_neg (by show ¬ (3 % 2 = 0); decide)]
    rw [e1, e2]; exact h3 b d

/-- THE REFERENCE'S FUNCTION IS THE SPECIFICATION'S, for index words in range. -/
theorem refFn_eq_result (src dst : IVec S16384 32) (emb mem : FVec Ideal S100000x128 .f32) (W1 : FVec Ideal S128x512 .f32)
    (b1 : FVec Ideal S128 .f32) (W2 : FVec Ideal S1x128 .f32) (b2 : FVec Ideal S1 .f32)
    (hs : Cert.Spec.InRange src) (hd : Cert.Spec.InRange dst) :
    refFn src dst emb mem W1 b1 W2 b2 = Cert.Spec.result src dst emb mem W1 b1 W2 b2 := by
  funext i
  obtain ⟨b, rfl⟩ : ∃ b : Fin 16384, i = ix1 b := ⟨i 0, eq_ix1 i⟩
  exact mlp_eq (takeFn emb src) (takeFn emb dst) (takeFn mem src) (takeFn mem dst) (Cert.Spec.wordsOf src) (Cert.Spec.wordsOf dst)
    (Cert.Spec.tableOf emb) (Cert.Spec.tableOf mem) (fun b d => RefTake.take_apply emb hs b d) (fun b d => RefTake.take_apply emb hd b d)
    (fun b d => RefTake.take_apply mem hs b d) (fun b d => RefTake.take_apply mem hd b d) W1 b1 W2 b2 b

end Cert.ReferenceIdeal.RefMlp

end
-- ==== Proof.RefValue.lean ====
/-
  The reference's run, with its result named by the specification.

  Under the precondition both index arrays hold words in range, so each of the reference's four row lookups is a plain
  row read; its result is then the specification's function of the eight arguments that reach it, and every argument
  is left as it was.
-/
import proofs.«216967_g84078279786708_cont_9to1_m_1153_28_alg».proof.Defs
import proofs.«216967_g84078279786708_cont_9to1_m_1153_28_alg».proof.Proof.Gen.Pre_input_domain
import proofs.«216967_g84078279786708_cont_9to1_m_1153_28_alg».proof.Proof.PreDecode
import proofs.«216967_g84078279786708_cont_9to1_m_1153_28_alg».proof.Proof.RefTerm
import proofs.«216967_g84078279786708_cont_9to1_m_1153_28_alg».proof.Proof.RefMlp

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Under the precondition, every weakly fair execution of the reference terminates with its result at the
    specification's function of the arguments and with the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v28)
        = Cert.Spec.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run (Cert.ReferenceIdeal.defs (F := Ideal)) _ _).mono (fun _ h c =>
    have hr := Cert.Proof.PreDecode.in_range (F := Ideal) _ _ _ _ _ _ _ _ _ _ _ _ _ _ (hpre c)
    ⟨(h c main_v28).trans ((RefTerm.after_result _).trans (RefMlp.refFn_eq_result _ _ _ _ _ _ _ _ hr.1 hr.2)),
      (h c main_arg0).trans (RefTerm.after_kept _ main_arg0 (by decide) (by decide) (by decide) (by decide) (by decide) (by decide) (by decide)),
      (h c main_arg1).trans (RefTerm.after_kept _ main_arg1 (by decide) (by decide) (by decide) (by decide) (by decide) (by decide) (by decide)),
      (h c main_arg2).trans (RefTerm.after_kept _ main_arg2 (by decide) (by decide) (by decide) (by decide) (by decide) (by decide) (by decide)),
      (h c main_arg3).trans (RefTerm.after_kept _ main_arg3 (by decide) (by decide) (by decide) (by decide) (by decide) (by decide) (by decide)),
      (h c main_arg4).trans (RefTerm.after_kept _ main_arg4 (by decide) (by decide) (by decide) (by decide) (by decide) (by decide) (by decide)),
      (h c main_arg5).trans (RefTerm.after_kept _ main_arg5 (by decide) (by decide) (by decide) (by decide) (by decide) (by decide) (by decide)),
      (h c main_arg6).trans (RefTerm.after_kept _ main_arg6 (by decide) (by decide) (by decide) (by decide) (by decide) (by decide) (by decide)),
      (h c main_arg7).trans (RefTerm.after_kept _ main_arg7 (by decide) (by decide) (by decide) (by decide) (by decide) (by decide) (by decide)),
      (h c main_arg8).trans (RefTerm.after_kept _ main_arg8 (by decide) (by decide) (by decide) (by decide) (by decide) (by decide) (by decide)),
      (h c main_arg9).trans (RefTerm.after_kept _ main_arg9 (by decide) (by decide) (by decide) (by decide) (by decide) (by decide) (by decide)),
      (h c main_arg10).trans (RefTerm.after_kept _ main_arg10 (by decide) (by decide) (by decide) (by decide) (by decide) (by decide) (by decide)),
      (h c main_arg11).trans (RefTerm.after_kept _ main_arg11 (by decide) (by decide) (by decide) (by decide) (by decide) (by decide) (by decide)),
      (h c main_arg12).trans (RefTerm.after_kept _ main_arg12 (by decide) (by decide) (by decide) (by decide) (by decide) (by decide) (by decide)),
      (h c main_arg13).trans (RefTerm.after_kept _ main_arg13 (by decide) (by decide) (by decide) (by decide) (by decide) (by decide) (by decide))⟩)
    (RefOps.run_main (F := Ideal) m g)

end Cert.ReferenceIdeal.RefValue

end
-- ==== Proof.KV.Payload.lean ====
/-
  The second kernel's arithmetic read at one entry.

  The body takes the four planes of a block of the gathered array, each [1, 2048, 128], and the four planes of the
  re-laid weights, each [1, 128, 128]; it drops the unit axes, multiplies plane by plane on the matrix unit into zero
  accumulators and adds the four products; then it adds the bias row, clamps below at zero, multiplies by the second
  layer's row, sums over the 128 lanes and adds the second bias. Read at the extended reals, at row y:

      pre[y, o]  = ((Σ_k g0[0,y,k]·w0[0,k,o] + Σ_k g1[0,y,k]·w1[0,k,o]) + Σ_k g2[0,y,k]·w2[0,k,o]) + Σ_k g3[0,y,k]·w3[0,k,o]
      out[y]     = Σ_o max(pre[y, o] + b1[0,o], 0) · w2[0,o]  +  b2[0].

  The narrowing to bf16 on the way into the matrix unit is the identity on extended reals.
-/
import proofs.«216967_g84078279786708_cont_9to1_m_1153_28_alg».proof.Proof.Gen.KernelIdeal.Skeleton
import proofs.«216967_g84078279786708_cont_9to1_m_1153_28_alg».proof.Proof.LibMatmulNN
import Idealize.ShloMosaic.PureOps.Ideal.Laws
import Idealize.ShloMosaic.Lib.ValueLayout
import Idealize.ShloMosaic.Lib.ValueIdx

noncomputable section

namespace Cert.Proof.KV

open Cert.KernelIdeal Cert.KernelIdeal.Gen
open Idealize.ShloMosaic Idealize.ShloMosaic.ValueIdx

/-- One plane's product at (y, o): row y of the plane of the gathered block against column o of the plane of the
    weights. -/
theorem planeProduct_apply (g : Vec Ideal S1x2048x128 .f32) (w : Vec Ideal S1x128x128 .f32) (y : Fin 2048) (o : Fin 128) :
    matmul (F := Ideal) dot_S2048x128_S128x128_S2048x128_1_0_0_1_n_n none
        (truncf .bf16 (shapeCast S2048x128 g shapeCasts_S1x2048x128_S2048x128) bitsLt_bf16_f32)
        (truncf .bf16 (shapeCast S128x128 w shapeCasts_S1x128x128_S128x128) bitsLt_bf16_f32)
        (constant (F := Ideal) S2048x128 .f32 0x00000000#32) (ix2 y o)
      = ∑ k : Fin 128, g (ix3 (0 : Fin 1) y k) * w (ix3 (0 : Fin 1) k o) := by
  refine (Cert.MatmulNN.matmul_zero_apply dot_S2048x128_S128x128_S2048x128_1_0_0_1_n_n rfl none _ _ y o).trans ?_
  refine Finset.sum_congr rfl fun k _ => ?_
  rw [truncf_apply, truncf_apply, shapeCast_1ab_ab_apply, shapeCast_1ab_ab_apply]

/-- The four planes' products added up, at (y, o). -/
theorem pay2_apply (g0 g1 g2 g3 : Vec Ideal S1x2048x128 .f32) (w0 w1 w2 w3 : Vec Ideal S1x128x128 .f32) (y : Fin 2048) (o : Fin 128) :
    k1_pay2 (F := Ideal) g0 w0 g1 w1 g2 w2 g3 w3 (ix2 y o)
      = (((∑ k : Fin 128, g0 (ix3 (0 : Fin 1) y k) * w0 (ix3 (0 : Fin 1) k o))
          + ∑ k : Fin 128, g1 (ix3 (0 : Fin 1) y k) * w1 (ix3 (0 : Fin 1) k o))
          + ∑ k : Fin 128, g2 (ix3 (0 : Fin 1) y k) * w2 (ix3 (0 : Fin 1) k o))
          + ∑ k : Fin 128, g3 (ix3 (0 : Fin 1) y k) * w3 (ix3 (0 : Fin 1) k o) := by
  unfold k1_pay2
  simp only [addf_apply]
  rw [planeProduct_apply g0 w0 y o, planeProduct_apply g1 w1 y o, planeProduct_apply g2 w2 y o, planeProduct_apply g3 w3 y o]

/-- The sum over the 128 lanes of a [2048, 128] array, at row y. -/
theorem laneSum_apply (src : FVec Ideal S2048x128 .f32) (hφ : FKind.Formats .f32)
    (hacc : (0x00000000#32 : BitVec 32) = FKind.add.neutral .f32 hφ) (y : Fin 2048) :
    multiReduction (F := Ideal) .add [1] S2048 src 0x00000000#32 reduces_S2048x128_S2048 hφ hacc (ix1 y)
      = ∑ o : Fin 128, src (ix2 y o) :=
  (Ideal.multiReduction_add_single src _ reduces_S2048x128_S2048 hφ hacc (ix1 y)).trans
    (Finset.sum_congr rfl fun o _ => congrArg src (funext fun a => Fin.ext (by
      match a with
      | ⟨0, _⟩ => rfl
      | ⟨1, _⟩ => rfl)))

/-- The body's result at row y, from the summed products. -/
theorem pay1_apply (pre : FVec Ideal S2048x128 .f32) (b1r w2 : Vec Ideal S1x128 .f32) (b2 : Vec Ideal S1 .f32) (y : Fin 2048) :
    k1_pay1 (F := Ideal) pre b1r w2 b2 (ix1 y)
      = (∑ o : Fin 128, max (pre (ix2 y o) + b1r (ix2 (0 : Fin 1) o)) 0 * w2 (ix2 (0 : Fin 1) o)) + b2 (ix1 (0 : Fin 1)) := by
  unfold k1_pay1
  simp only [addf_apply, broadcast_apply]
  refine congrArg₂ (· + ·) ((laneSum_apply _ _ _ y).trans (Finset.sum_congr rfl fun o _ => ?_))
    (congrArg b2 (funext fun a => Fin.ext (by match a with | ⟨0, _⟩ => rfl)))
  rw [mulf_apply, maximumf_apply, addf_apply, broadcast_apply, shapeCast_shapeCast, shapeCast_shapeCast,
    broadcastTo_1b_ab_apply, broadcastTo_1b_ab_apply]
  exact congrArg (fun z => max (pre (ix2 y o) + b1r (ix2 (0 : Fin 1) o)) z * w2 (ix2 (0 : Fin 1) o)) Ideal.ofBits_zero_f32

end Cert.Proof.KV

end
-- ==== Proof.KV.Block.lean ====
/-
  The second kernel's result read at one edge.

  Edge b lies in block b / 2048 at row b % 2048. The body's arithmetic on that block reads row b % 2048 of each of the
  block's four planes, which is row b of the plane of the whole gathered array, since 2048 * (b / 2048) + b % 2048 = b.
  So the result at b is

      Σ_o max(((Σ_k g[0,b,k]·w[0,k,o] + Σ_k g[1,b,k]·w[1,k,o]) + Σ_k g[2,b,k]·w[2,k,o]) + Σ_k g[3,b,k]·w[3,k,o] + b1[0,o], 0) · w2[0,o] + b2[0].
-/
import proofs.«216967_g84078279786708_cont_9to1_m_1153_28_alg».proof.Proof.KI.Common
import proofs.«216967_g84078279786708_cont_9to1_m_1153_28_alg».proof.Proof.KV.Payload

noncomputable section

namespace Cert.Proof.KV

open Cert.KernelIdeal Cert.KernelIdeal.Gen
open Idealize.ShloMosaic Idealize.ShloMosaic.ValueIdx

/-- Row y of plane p of block t of the gathered array is row t * 2048 + y of plane p. -/
theorem gPlane_apply (g : Vec Ideal S4x16384x128 .f32) (t : Fin 8) (p : Fin 4) (y : Fin 2048) (k : Fin 128) (b : Fin 16384)
    (hb : b.val = t.val * 2048 + y.val) :
    Cert.Proof.KI.gPlane (F := Ideal) g t p (ix3 (0 : Fin 1) y k) = g (ix3 p b k) := by
  unfold Cert.Proof.KI.gPlane
  exact congrArg (fun r : Fin 16384 => g (ix3 p r k)) (Fin.ext hb.symm)

/-- Plane p of the re-laid weights at (k, o). -/
theorem wPlane_apply (w : Vec Ideal S4x128x128 .f32) (p : Fin 4) (k o : Fin 128) :
    Cert.Proof.KI.wPlane (F := Ideal) w p (ix3 (0 : Fin 1) k o) = w (ix3 p k o) := rfl

/-- The second kernel's result at edge b. -/
theorem Mlp_apply (g : Vec Ideal S4x16384x128 .f32) (w : Vec Ideal S4x128x128 .f32) (b1r w2 : Vec Ideal S1x128 .f32)
    (b2 : Vec Ideal S1 .f32) (b : Fin 16384) :
    Cert.Proof.KI.Mlp (F := Ideal) g w b1r w2 b2 (ix1 b)
      = (∑ o : Fin 128,
          max (((((∑ k : Fin 128, g (ix3 (0 : Fin 4) b k) * w (ix3 (0 : Fin 4) k o))
                + ∑ k : Fin 128, g (ix3 (1 : Fin 4) b k) * w (ix3 (1 : Fin 4) k o))
                + ∑ k : Fin 128, g (ix3 (2 : Fin 4) b k) * w (ix3 (2 : Fin 4) k o))
                + ∑ k : Fin 128, g (ix3 (3 : Fin 4) b k) * w (ix3 (3 : Fin 4) k o))
              + b1r (ix2 (0 : Fin 1) o)) 0 * w2 (ix2 (0 : Fin 1) o))
        + b2 (ix1 (0 : Fin 1)) := by
  have hb : b.val = (b.val / 2048) * 2048 + b.val % 2048 := by omega
  unfold Cert.Proof.KI.Mlp
  refine (pay1_apply _ b1r w2 b2 _).trans ?_
  refine congrArg (· + b2 (ix1 (0 : Fin 1))) (Finset.sum_congr rfl fun o _ => ?_)
  rw [pay2_apply]
  simp only [wPlane_apply]
  refine congrArg (fun z => max (z + b1r (ix2 (0 : Fin 1) o)) 0 * w2 (ix2 (0 : Fin 1) o)) ?_
  refine congrArg₂ (· + ·) (congrArg₂ (· + ·) (congrArg₂ (· + ·) ?_ ?_) ?_) ?_ <;>
    exact Finset.sum_congr rfl fun k _ => congrArg (· * _) (gPlane_apply g _ _ _ k b hb)

end Cert.Proof.KV

end
-- ==== Proof.KV.Weights.lean ====
/-
  The arrays the second kernel's region finds, read at one entry.

  The first layer's weights W1 : [128, 512] reach the region re-laid as [4, 128, 128]: reshaped to [128, 4, 128]
  (column p * 128 + d of unit o becomes (o, p, d)) and then the axes permuted (1, 2, 0), so that entry (p, d, o) of the
  re-laid array is W1[o, p * 128 + d]. The bias b1 : [128] reaches it as the one row [1, 128]. The gathered array is the
  gather of the launch memory, and the second layer's row and bias are the launch contents.
-/
import proofs.«216967_g84078279786708_cont_9to1_m_1153_28_alg».proof.Proof.KI.Entry
import proofs.«216967_g84078279786708_cont_9to1_m_1153_28_alg».proof.Proof.Spec
import Idealize.ShloMosaic.Lib.ValueLayout
import Idealize.ShloMosaic.Lib.ValueIdx

noncomputable section

namespace Cert.Proof.KV

open Cert.KernelIdeal Cert.KernelIdeal.Gen
open Idealize.ShloMosaic Idealize.ShloMosaic.ValueIdx
open Idealize.SL.Sem

/-- The weights re-laid: a reshape [128, 512] → [128, 4, 128] then the transpose (1, 2, 0), read at (p, d, o). -/
theorem relaid_apply (W1 : FVec Ideal S128x512 .f32) (p : Fin 4) (d o : Fin 128) :
    transpose S4x128x128 [1, 2, 0] (shapeCast S128x4x128 W1 shapeCasts_S128x512_S128x4x128)
        transposes_S128x4x128_S4x128x128_1_2_0 (ix3 p d o)
      = W1 (ix2 o (Cert.Spec.col p d)) := by
  refine (transpose_apply [1, 2, 0] _ transposes_S128x4x128_S4x128x128_1_2_0 (ix3 p d o) (ix3 o p d) fun b => ?_).trans ?_
  · match b with
    | ⟨0, _⟩ => rfl
    | ⟨1, _⟩ => rfl
    | ⟨2, _⟩ => rfl
  · refine shapeCast_apply W1 shapeCasts_S128x512_S128x4x128 (ix3 o p d) (ix2 o (Cert.Spec.col p d)) ?_
    rw [Shape.rowMajor_val_two, Shape.rowMajor_val_three]
    show o.val * 512 + (p.val * 128 + d.val) = (o.val * 4 + p.val) * 128 + d.val
    omega

variable (m : (ℓ : Loc nD τ sig) → Buf (Elt Ideal) ℓ) (c : Dev nD)

/-- The re-laid weights the region finds, at (p, d, o): W1[o, p * 128 + d]. -/
theorem entry_v1_apply (p : Fin 4) (d o : Fin 128) :
    Cert.Proof.KI.entryV (F := Ideal) m c main_v1 (ix3 p d o)
      = (m ((c.tc : Thread nD τ).loc main_arg10) : FVec Ideal S128x512 .f32) (ix2 o (Cert.Spec.col p d)) := by
  rw [Cert.Proof.KI.V4_v1]
  unfold Cert.Proof.KI.V2
  rw [StableHlo.unary_result, StableHlo.reshape_result]
  exact relaid_apply _ p d o

/-- The bias row the region finds, at (u, o): b1[o]. -/
theorem entry_v3_apply (u : Fin 1) (o : Fin 128) :
    Cert.Proof.KI.entryV (F := Ideal) m c main_v3 (ix2 u o)
      = (m ((c.tc : Thread nD τ).loc main_arg11) : FVec Ideal S128 .f32) (ix1 o) := by
  unfold Cert.Proof.KI.entryV Cert.Proof.KI.V4
  rw [StableHlo.reshape_result, Cert.Proof.KI.V3_a11]
  exact shapeCast_a_1a_apply _ shapeCasts_S128_S1x128 u o

/-- The second layer's row is the launch contents. -/
theorem entry_a12 : Cert.Proof.KI.entryV (F := Ideal) m c main_arg12 = m ((c.tc : Thread nD τ).loc main_arg12) :=
  Cert.Proof.KI.V4_ne m c (by decide) (by decide) (by decide) (by decide)

/-- The second bias is the launch contents. -/
theorem entry_a13 : Cert.Proof.KI.entryV (F := Ideal) m c main_arg13 = m ((c.tc : Thread nD τ).loc main_arg13) :=
  Cert.Proof.KI.V4_ne m c (by decide) (by decide) (by decide) (by decide)

end Cert.Proof.KV

end
-- ==== Proof.KV.Gathered.lean ====
/-
  The gathered array read at one entry.

  Entry (p, b, k) of the gathered array is entry k of the table row the word of edge b names: the embedding table for
  the planes p < 2 and the memory table for the others, the source word for the even planes and the destination word
  for the odd ones. That is the specification's feature piece p of edge b, at k.
-/
import proofs.«216967_g84078279786708_cont_9to1_m_1153_28_alg».proof.Proof.KI.Common
import proofs.«216967_g84078279786708_cont_9to1_m_1153_28_alg».proof.Proof.Spec
import Idealize.ShloMosaic.Lib.ValueIdx

noncomputable section

namespace Cert.Proof.KV

open Cert.KernelIdeal Cert.KernelIdeal.Gen
open Idealize.ShloMosaic Idealize.ShloMosaic.ValueIdx

/-- The gathered array at (p, b, k) is piece p of edge b's feature row, at k. -/
theorem gathered_apply (emb mem : Vec Ideal S100000x128 .f32) (src dst : Vec Ideal S16384 .i32)
    (p : Fin 4) (b : Fin 16384) (k : Fin 128) :
    Cert.Proof.KI.G4 (F := Ideal) emb mem src dst (ix3 p b k)
      = Cert.Spec.feat (Cert.Spec.wordsOf src) (Cert.Spec.wordsOf dst) (Cert.Spec.tableOf emb) (Cert.Spec.tableOf mem) b p k := by
  unfold Cert.Proof.KI.G4 Cert.Spec.feat
  show (if p.val < 2 then emb else mem) (ix2 (Cert.Spec.rowAt ((if p.val % 2 = 0 then src else dst) (ix1 b))) k) = _
  by_cases h1 : p.val < 2 <;> by_cases h2 : p.val % 2 = 0
  · rw [if_pos h1, if_pos h2, if_pos h1, if_pos h2]; rfl
  · rw [if_pos h1, if_neg h2, if_pos h1, if_neg h2]; rfl
  · rw [if_neg h1, if_pos h2, if_neg h1, if_pos h2]; rfl
  · rw [if_neg h1, if_neg h2, if_neg h1, if_neg h2]; rfl

end Cert.Proof.KV

end
-- ==== Proof.KV.Value.lean ====
/-
  The idealized kernel's result array is the specification's.

  At edge b the second kernel's result is (Block)

      Σ_o max(((Σ_k g[0,b,k]·w[0,k,o] + Σ_k g[1,b,k]·w[1,k,o]) + Σ_k g[2,b,k]·w[2,k,o]) + Σ_k g[3,b,k]·w[3,k,o] + b1r[0,o], 0) · W2[0,o] + b2[0]

  where g is the gathered array, g[p,b,k] = piece p of edge b's feature row at k (Gathered), w the re-laid weights,
  w[p,k,o] = W1[o, p * 128 + k], and b1r the bias as a row, b1r[0,o] = b1[o] (Weights). The four sums added left to right
  are the sum over the four pieces p of Σ_k feat b p k · W1 o (col p k): the specification's hidden unit o before the
  bias. No finiteness enters: only the spelling of a sum over four terms.
-/
import proofs.«216967_g84078279786708_cont_9to1_m_1153_28_alg».proof.Proof.KV.Block
import proofs.«216967_g84078279786708_cont_9to1_m_1153_28_alg».proof.Proof.KV.Weights
import proofs.«216967_g84078279786708_cont_9to1_m_1153_28_alg».proof.Proof.KV.Gathered
import proofs.«216967_g84078279786708_cont_9to1_m_1153_28_alg».proof.Proof.KI.Entry
import proofs.«216967_g84078279786708_cont_9to1_m_1153_28_alg».proof.Proof.Spec

noncomputable section

namespace Cert.Proof.KV

open Cert.KernelIdeal Cert.KernelIdeal.Gen
open Idealize.ShloMosaic Idealize.ShloMosaic.ValueIdx
open Idealize.SL.Sem

/-- The second kernel's result on the gathered array of the tables and any weights and bias row that read as the
    re-laid W1 and the row of b1, at edge b: the specification's result there. -/
theorem Mlp_gathered_apply (src dst : Vec Ideal S16384 .i32) (emb mem : Vec Ideal S100000x128 .f32)
    (W1 : FVec Ideal S128x512 .f32) (b1 : FVec Ideal S128 .f32) (W2 : Vec Ideal S1x128 .f32) (b2 : Vec Ideal S1 .f32)
    (w : Vec Ideal S4x128x128 .f32) (b1r : Vec Ideal S1x128 .f32)
    (hw : ∀ (p : Fin 4) (d o : Fin 128), w (ix3 p d o) = W1 (ix2 o (Cert.Spec.col p d)))
    (hb1 : ∀ (u : Fin 1) (o : Fin 128), b1r (ix2 u o) = b1 (ix1 o)) (b : Fin 16384) :
    Cert.Proof.KI.Mlp (F := Ideal) (Cert.Proof.KI.G4 emb mem src dst) w b1r W2 b2 (ix1 b)
      = Cert.Spec.result src dst emb mem W1 b1 W2 b2 (ix1 b) := by
  rw [Mlp_apply]
  simp only [hw, hb1, gathered_apply]
  show _ = Cert.Spec.out _ _ _ _ _ _ _ _ b
  unfold Cert.Spec.out Cert.Spec.hid
  refine congrArg₂ (· + ·) (Finset.sum_congr rfl fun o _ => ?_) rfl
  rw [Fin.sum_univ_four]
  rfl

open Cert.KernelIdeal in
/-- The result array the idealized kernel's run ends with is the specification's function of the eight argument
    arrays that reach it. -/
theorem resultK_eq (m : (ℓ : Loc nD τ sig) → Buf (Elt Ideal) ℓ) (hpre : Cert.Proof.KI.PreOK m) (c : Dev nD) :
    Cert.Proof.KI.resultK (F := Ideal) m c
      = Cert.Spec.result (m ((c.tc : Thread nD τ).loc main_arg0)) (m ((c.tc : Thread nD τ).loc main_arg1)) (m ((c.tc : Thread nD τ).loc main_arg4)) (m ((c.tc : Thread nD τ).loc main_arg5))
          (m ((c.tc : Thread nD τ).loc main_arg10)) (m ((c.tc : Thread nD τ).loc main_arg11)) (m ((c.tc : Thread nD τ).loc main_arg12)) (m ((c.tc : Thread nD τ).loc main_arg13)) := by
  funext i
  obtain ⟨b, rfl⟩ : ∃ b : Fin 16384, i = ix1 b := ⟨i 0, eq_ix1 i⟩
  unfold Cert.Proof.KI.resultK Cert.Proof.KI.outR
  rw [Cert.Proof.KI.V4_v2, entry_a12, entry_a13]
  exact Mlp_gathered_apply _ _ _ _ _ _ _ _ _ _ (entry_v1_apply m c) (entry_v3_apply m c) b

end Cert.Proof.KV

end
-- ==== Proof.lean ====
/-
  The proof of `Cert.Claim`: three frames, the idealization's ledger (empty) and the algebraic equivalence.

  The kernel is two kernels in one program: a gather on the 32 vector subcores, each tile copying its 512 source and
  512 destination index words and gathering 8 × 256 table rows into its chunks of g4 : [4, 16384, 128], and a
  TensorCore kernel over 8 blocks of 2048 edges computing, per edge, the four 128 × 128 products of the planes of g4
  with the re-laid first-layer weights, the bias, the clamp at zero and the combination with the second layer's row.
  Each kernel program's run is proved once, generic in the float instance: every weakly fair execution of the 35
  threads terminates without fault, the argument arrays unchanged and the result array at one pure term of the
  arguments (`resultK`). The frames of the printed and the idealized kernel are that run with the value dropped.
  The reference's run names its result by the specification `Cert.Spec.result`; its frame is that run with the value
  dropped. At the ideal instance `resultK` IS `Cert.Spec.result`: g4 holds table rows because every index word names
  one (the precondition), the kernel's four partial products are the reference's one product over 512 columns
  regrouped (sums of extended reals are commutative and associative, so no finiteness is used), and the rest is
  the same arithmetic entry by entry.
-/
import proofs.«216967_g84078279786708_cont_9to1_m_1153_28_alg».proof.Defs
import proofs.«216967_g84078279786708_cont_9to1_m_1153_28_alg».proof.Proof.Gen.Kernel
import proofs.«216967_g84078279786708_cont_9to1_m_1153_28_alg».proof.Proof.Gen.KernelIdeal
import proofs.«216967_g84078279786708_cont_9to1_m_1153_28_alg».proof.Proof.Gen.ReferenceIdeal
import proofs.«216967_g84078279786708_cont_9to1_m_1153_28_alg».proof.Proof.Gen.Pre_input_domain
import proofs.«216967_g84078279786708_cont_9to1_m_1153_28_alg».proof.Proof.KI.Main
import proofs.«216967_g84078279786708_cont_9to1_m_1153_28_alg».proof.Proof.KI.Pre
import proofs.«216967_g84078279786708_cont_9to1_m_1153_28_alg».proof.Proof.KI.TileCover
import proofs.«216967_g84078279786708_cont_9to1_m_1153_28_alg».proof.Proof.KI.Region
import proofs.«216967_g84078279786708_cont_9to1_m_1153_28_alg».proof.Proof.KI.TileObl
import proofs.«216967_g84078279786708_cont_9to1_m_1153_28_alg».proof.Proof.KI.VecSplit
import proofs.«216967_g84078279786708_cont_9to1_m_1153_28_alg».proof.Proof.KB.Main
import proofs.«216967_g84078279786708_cont_9to1_m_1153_28_alg».proof.Proof.KB.Pre
import proofs.«216967_g84078279786708_cont_9to1_m_1153_28_alg».proof.Proof.KB.TileCover
import proofs.«216967_g84078279786708_cont_9to1_m_1153_28_alg».proof.Proof.KB.Region
import proofs.«216967_g84078279786708_cont_9to1_m_1153_28_alg».proof.Proof.KB.TileObl
import proofs.«216967_g84078279786708_cont_9to1_m_1153_28_alg».proof.Proof.KB.VecSplit
import proofs.«216967_g84078279786708_cont_9to1_m_1153_28_alg».proof.Proof.RefValue
import proofs.«216967_g84078279786708_cont_9to1_m_1153_28_alg».proof.Proof.KV.Value
import Idealize.ShloMosaic.Adequacy
import Idealize.ShloMosaic.Init

noncomputable section

namespace Cert.Proof

open Idealize.ShloMosaic Idealize.SL.Sem

/-- The printed kernel: its run at the word-level instance, the value dropped. -/
theorem frame_Kernel : Cert.frame_Kernel (hKernel := Cert.Kernel.Gen.facts) (hPre_input_domain := Cert.Pre_input_domain.Gen.facts) :=
  fun m ρ hpre => (θ_run (Cert.Kernel.defs (F := Bits)) _ _).mono (fun _ h c => (h c).2)
    (KB.run_main (F := Bits) m ρ KB.g_cover (KB.region_wp (KB.entryV m)) (KB.tileObl m KB.facts (KB.preOK_of_pre m hpre)) (KB.vecSplit m))

/-- The idealized kernel: the same run at the ideal instance, the value dropped. -/
theorem frame_KernelIdeal : Cert.frame_KernelIdeal (hKernelIdeal := Cert.KernelIdeal.Gen.facts) (hPre_input_domain := Cert.Pre_input_domain.Gen.facts) :=
  fun m ρ hpre => (θ_run (Cert.KernelIdeal.defs (F := Ideal)) _ _).mono (fun _ h c => (h c).2)
    (KI.run_main (F := Ideal) m ρ KI.g_cover (KI.region_wp (KI.entryV m)) (KI.tileObl m KI.facts (KI.preOK_of_pre m hpre)) (KI.vecSplit m))

/-- The reference: its run with the result dropped. -/
theorem frame_ReferenceIdeal : Cert.frame_ReferenceIdeal (hReferenceIdeal := Cert.ReferenceIdeal.Gen.facts) (hPre_input_domain := Cert.Pre_input_domain.Gen.facts) :=
  fun m ρ hpre => (θ_run (Cert.ReferenceIdeal.defs (F := Ideal)) _ _).mono (fun _ h c => (h c).2) (Cert.ReferenceIdeal.RefValue.run m ρ hpre)

/-- Both idealized programs end with the specification's result of arguments that agree. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hok := KI.preOK_of_pre m hpre
  have hpre' : Cert.Pre_ReferenceIdeal (hPre_input_domain := Cert.Pre_input_domain.Gen.facts) m' := fun c => by
    obtain ⟨h0, h1, h2, h3, h4, h5, h6, h7, h8, h9, h10, h11, h12, h13⟩ := hagree c
    show Cert.Pre_input_domain.fn (F := Ideal) _ _ _ _ _ _ _ _ _ _ _ _ _ _ = _
    rw [h0, h1, h2, h3, h4, h5, h6, h7, h8, h9, h10, h11, h12, h13]
    exact hpre c
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run (Cert.KernelIdeal.defs (F := Ideal)) _ _).mono (fun _ h c => ⟨(h c).1.trans (KV.resultK_eq m hok c), (h c).2⟩)
      (KI.run_main (F := Ideal) m ρ KI.g_cover (KI.region_wp (KI.entryV m)) (KI.tileObl m KI.facts hok) (KI.vecSplit m))
  · refine (θ_run (Cert.ReferenceIdeal.defs (F := Ideal)) _ _).mono (fun _ h c => ⟨?_, (h c).2⟩) (Cert.ReferenceIdeal.RefValue.run m' ρ' hpre')
    obtain ⟨h0, h1, h2, h3, h4, h5, h6, h7, h8, h9, h10, h11, h12, h13⟩ := hagree c
    rw [(h c).1, h0, h1, h4, h5, h10, h11, h12, h13]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
